-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x6144x512 : Shape := ⟨3, ![3, 6144, 512]⟩
abbrev S3x6144x6144 : Shape := ⟨3, ![3, 6144, 6144]⟩
abbrev S6144x10 : Shape := ⟨2, ![6144, 10]⟩
abbrev S3x512x10 : Shape := ⟨3, ![3, 512, 10]⟩
abbrev S1 : Shape := ⟨1, ![1]⟩
abbrev S10 : Shape := ⟨1, ![10]⟩
abbrev S_ : Shape := ⟨0, ![]⟩

class Facts : Prop where
  bcast_S_S3x6144x512 : S_.BroadcastsInDim S3x6144x512 (![] : Fin 0 → Fin S3x6144x512.rank)
  reducesTo_S3x6144x512_S_d0_1_2 : S3x6144x512.ReducesTo [0, 1, 2] S_
  h_S_ : 0 < S_.numel
  bcast_S_S3x6144x6144 : S_.BroadcastsInDim S3x6144x6144 (![] : Fin 0 → Fin S3x6144x6144.rank)
  reducesTo_S3x6144x6144_S_d0_1_2 : S3x6144x6144.ReducesTo [0, 1, 2] S_
  bcast_S_S6144x10 : S_.BroadcastsInDim S6144x10 (![] : Fin 0 → Fin S6144x10.rank)
  reducesTo_S6144x10_S_d0_1 : S6144x10.ReducesTo [0, 1] S_
  bcast_S_S3x512x10 : S_.BroadcastsInDim S3x512x10 (![] : Fin 0 → Fin S3x512x10.rank)
  reducesTo_S3x512x10_S_d0_1_2 : S3x512x10.ReducesTo [0, 1, 2] S_
  bcast_S_S1 : S_.BroadcastsInDim S1 (![] : Fin 0 → Fin S1.rank)
  reducesTo_S1_S_d0 : S1.ReducesTo [0] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S1 .f32) (main_arg5 : FVec F S10 .f32) (main_arg6 : FVec F S10 .f32) (main_v13 : IVec S_ 1) (main_v16 : IVec S3x512x10 1) : IVec S_ 1 :=
  let main_c_5 : IVec S_ 1 := constantI S_ 1 1#1
  let main_v17 : IVec S_ 1 := (fun x v => Host.reduce IntOp.andi x v reducesTo_S3x512x10_S_d0_1_2 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S3x6144x512 .f32) (main_arg1 : FVec F S3x6144x6144 .f32) (main_arg2 : FVec F S6144x10 .f32) (main_arg3 : FVec F S3x512x10 .f32) (main_arg4 : FVec F S1 .f32) (main_arg5 : FVec F S10 .f32) (main_arg6 : FVec F S10 .f32) : IVec S_ 1 :=
  let main_v0 : FVec F S3x6144x512 .f32 := Host.absf main_arg0
  let main_cst : FVec F S_ .f32 := constant S_ .f32 0x7F800000#32
  let main_v1 : FVec F S3x6144x512 .f32 := broadcastInDim S3x6144x512 ![] bcast_S_S3x6144x512 main_cst
  let main_v2 : IVec S3x6144x512 1 := cmpf .olt main_v0 main_v1
  let main_c : IVec S_ 1 := constantI S_ 1 1#1
  let main_v3 : IVec S_ 1 := (fun x v => Host.reduce IntOp.andi x v reducesTo_S3x6144x512_S_d0_1_2 h_S_) main_v2 main_c
  let main_v4 : FVec F S3x6144x6144 .f32 := Host.absf main_arg1
  let main_cst_0 : FVec F S_ .f32 := constant S_ .f32 0x7F800000#32
  let main_v5 : FVec F S3x6144x6144 .f32 := broadcastInDim S3x6144x6144 ![] bcast_S_S3x6144x6144 main_cst_0
  let main_v6 : IVec S3x6144x6144 1 := cmpf .olt main_v4 main_v5
  let main_c_1 : IVec S_ 1 := constantI S_ 1 1#1
  let main_v7 : IVec S_ 1 := (fun x v => Host.reduce IntOp.andi x v reducesTo_S3x6144x6144_S_d0_1_2 h_S_) main_v6 main_c_1
  let main_v8 : IVec S_ 1 := andi main_v3 main_v7
  let main_v9 : FVec F S6144x10 .f32 := Host.absf main_arg2
  let main_cst_2 : FVec F S_ .f32 := constant S_ .f32 0x7F800000#32
  let main_v10 : FVec F S6144x10 .f32 := broadcastInDim S6144x10 ![] bcast_S_S6144x10 main_cst_2
  let main_v11 : IVec S6144x10 1 := cmpf .olt main_v9 main_v10
  let main_c_3 : IVec S_ 1 := constantI S_ 1 1#1
  let main_v12 : IVec S_ 1 := (fun x v => Host.reduce IntOp.andi x v reducesTo_S6144x10_S_d0_1 h_S_) main_v11 main_c_3
  let main_v13 : IVec S_ 1 := andi main_v8 main_v12
  let main_v14 : FVec F S3x512x10 .f32 := Host.absf main_arg3
  let main_cst_4 : FVec F S_ .f32 := constant S_ .f32 0x7F800000#32
  let main_v15 : FVec F S3x512x10 .f32 := broadcastInDim S3x512x10 ![] bcast_S_S3x512x10 main_cst_4
  let main_v16 : IVec S3x512x10 1 := cmpf .olt main_v14 main_v15
  fn_part1 (F := F) main_arg4 main_arg5 main_arg6 main_v13 main_v16
-- ==== Kernel.lean ====
abbrev S3x6144x512 : Shape := ⟨3, ![3, 6144, 512]⟩
abbrev S3x6144x6144 : Shape := ⟨3, ![3, 6144, 6144]⟩
abbrev S6144x10 : Shape := ⟨2, ![6144, 10]⟩
abbrev S3x512x10 : Shape := ⟨3, ![3, 512, 10]⟩
abbrev S1 : Shape := ⟨1, ![1]⟩
abbrev S10 : Shape := ⟨1, ![10]⟩
abbrev S3x6144x10 : Shape := ⟨3, ![3, 6144, 10]⟩
abbrev S3x128x6144 : Shape := ⟨3, ![3, 128, 6144]⟩
abbrev S3x128x10 : Shape := ⟨3, ![3, 128, 10]⟩
abbrev S128x10 : Shape := ⟨2, ![128, 10]⟩
abbrev S1x128x6144 : Shape := ⟨3, ![1, 128, 6144]⟩
abbrev S128x6144 : Shape := ⟨2, ![128, 6144]⟩
abbrev S1x128x10 : Shape := ⟨3, ![1, 128, 10]⟩
abbrev S128 : Shape := ⟨1, ![128]⟩
abbrev S128x1 : Shape := ⟨2, ![128, 1]⟩
abbrev S_ : Shape := ⟨0, ![]⟩
abbrev S1x10 : Shape := ⟨2, ![1, 10]⟩
abbrev S1x1 : Shape := ⟨2, ![1, 1]⟩
abbrev S1x6144x10 : Shape := ⟨3, ![1, 6144, 10]⟩
abbrev S2x6144x10 : Shape := ⟨3, ![2, 6144, 10]⟩

abbrev nBuf : Space → Nat
  | .hbm => 193
  | .vmem => 14
  | .smem => 0
  | _ => 0

abbrev hbmTy0_0 (i : Nat) : BufTy := match i % 128 with
  | 0 => ⟨S3x6144x512, .f32⟩
  | 1 => ⟨S3x6144x6144, .f32⟩
  | 2 => ⟨S6144x10, .f32⟩
  | 3 => ⟨S3x512x10, .f32⟩
  | 4 => ⟨S1, .f32⟩
  | 5 => ⟨S10, .f32⟩
  | 6 => ⟨S10, .f32⟩
  | 7 => ⟨S3x6144x10, .f32⟩
  | 8 => ⟨S6144x10, .f32⟩
  | 9 => ⟨S_, .f32⟩
  | 10 => ⟨S10, .f32⟩
  | 11 => ⟨S_, .f32⟩
  | 12 => ⟨S10, .f32⟩
  | 13 => ⟨S10, .f32⟩
  | 14 => ⟨S_, .i32⟩
  | 15 => ⟨S_, .f32⟩
  | 16 => ⟨S10, .f32⟩
  | 17 => ⟨S1x10, .f32⟩
  | 18 => ⟨S_, .f32⟩
  | 19 => ⟨S1x10, .f32⟩
  | 20 => ⟨S1x10, .f32⟩
  | 21 => ⟨S6144x10, .f32⟩
  | 22 => ⟨S6144x10, .f32⟩
  | 23 => ⟨S6144x10, .f32⟩
  | 24 => ⟨S_, .f32⟩
  | 25 => ⟨S_, .f32⟩
  | 26 => ⟨S_, .f32⟩
  | 27 => ⟨S_, .f32⟩
  | 28 => ⟨S10, .f32⟩
  | 29 => ⟨S10, .f32⟩
  | 30 => ⟨S10, .f32⟩
  | 31 => ⟨S_, .f32⟩
  | 32 => ⟨S_, .i1⟩
  | 33 => ⟨S_, .f32⟩
  | 34 => ⟨S_, .f32⟩
  | 35 => ⟨S10, .f32⟩
  | 36 => ⟨S10, .f32⟩
  | 37 => ⟨S1x10, .f32⟩
  | 38 => ⟨S6144x10, .f32⟩
  | 39 => ⟨S6144x10, .f32⟩
  | 40 => ⟨S_, .f32⟩
  | 41 => ⟨S10, .f32⟩
  | 42 => ⟨S10, .f32⟩
  | 43 => ⟨S10, .f32⟩
  | 44 => ⟨S1x10, .f32⟩
  | 45 => ⟨S6144x10, .f32⟩
  | 46 => ⟨S6144x10, .f32⟩
  | 47 => ⟨S1x10, .f32⟩
  | 48 => ⟨S6144x10, .f32⟩
  | 49 => ⟨S6144x10, .f32⟩
  | 50 => ⟨S1x10, .f32⟩
  | 51 => ⟨S6144x10, .f32⟩
  | 52 => ⟨S6144x10, .f32⟩
  | 53 => ⟨S1x1, .f32⟩
  | 54 => ⟨S6144x10, .f32⟩
  | 55 => ⟨S6144x10, .f32⟩
  | 56 => ⟨S_, .f32⟩
  | 57 => ⟨S_, .f32⟩
  | 58 => ⟨S6144x10, .f32⟩
  | 59 => ⟨S6144x10, .i1⟩
  | 60 => ⟨S_, .f32⟩
  | 61 => ⟨S6144x10, .f32⟩
  | 62 => ⟨S6144x10, .i1⟩
  | 63 => ⟨S_, .f32⟩
  | 64 => ⟨S_, .f32⟩
  | 65 => ⟨S6144x10, .f32⟩
  | 66 => ⟨S6144x10, .f32⟩
  | 67 => ⟨S6144x10, .f32⟩
  | 68 => ⟨S_, .f32⟩
  | 69 => ⟨S6144x10, .f32⟩
  | 70 => ⟨S6144x10, .f32⟩
  | 71 => ⟨S6144x10, .f32⟩
  | 72 => ⟨S_, .f32⟩
  | 73 => ⟨S6144x10, .f32⟩
  | 74 => ⟨S6144x10, .f32⟩
  | 75 => ⟨S6144x10, .f32⟩
  | 76 => ⟨S1x1, .f32⟩
  | 77 => ⟨S6144x10, .f32⟩
  | 78 => ⟨S6144x10, .f32⟩
  | 79 => ⟨S_, .f32⟩
  | 80 => ⟨S_, .f32⟩
  | 81 => ⟨S6144x10, .f32⟩
  | 82 => ⟨S6144x10, .i1⟩
  | 83 => ⟨S_, .f32⟩
  | 84 => ⟨S6144x10, .f32⟩
  | 85 => ⟨S6144x10, .i1⟩
  | 86 => ⟨S_, .f32⟩
  | 87 => ⟨S_, .f32⟩
  | 88 => ⟨S6144x10, .f32⟩
  | 89 => ⟨S6144x10, .f32⟩
  | 90 => ⟨S6144x10, .f32⟩
  | 91 => ⟨S_, .f32⟩
  | 92 => ⟨S6144x10, .f32⟩
  | 93 => ⟨S6144x10, .f32⟩
  | 94 => ⟨S6144x10, .f32⟩
  | 95 => ⟨S_, .f32⟩
  | 96 => ⟨S6144x10, .f32⟩
  | 97 => ⟨S6144x10, .f32⟩
  | 98 => ⟨S6144x10, .f32⟩
  | 99 => ⟨S6144x10, .f32⟩
  | 100 => ⟨S_, .f32⟩
  | 101 => ⟨S10, .f32⟩
  | 102 => ⟨S_, .f32⟩
  | 103 => ⟨S10, .f32⟩
  | 104 => ⟨S10, .f32⟩
  | 105 => ⟨S_, .i32⟩
  | 106 => ⟨S_, .f32⟩
  | 107 => ⟨S10, .f32⟩
  | 108 => ⟨S1x10, .f32⟩
  | 109 => ⟨S_, .f32⟩
  | 110 => ⟨S1x10, .f32⟩
  | 111 => ⟨S1x10, .f32⟩
  | 112 => ⟨S6144x10, .f32⟩
  | 113 => ⟨S6144x10, .f32⟩
  | 114 => ⟨S6144x10, .f32⟩
  | 115 => ⟨S_, .f32⟩
  | 116 => ⟨S_, .f32⟩
  | 117 => ⟨S_, .f32⟩
  | 118 => ⟨S_, .f32⟩
  | 119 => ⟨S10, .f32⟩
  | 120 => ⟨S10, .f32⟩
  | 121 => ⟨S10, .f32⟩
  | 122 => ⟨S_, .f32⟩
  | 123 => ⟨S_, .i1⟩
  | 124 => ⟨S_, .f32⟩
  | 125 => ⟨S_, .f32⟩
  | 126 => ⟨S10, .f32⟩
  | 127 => ⟨S10, .f32⟩
  | _ => ⟨S3x6144x512, .f32⟩

abbrev hbmTy0_1 (i : Nat) : BufTy := match i % 128 with
  | 0 => ⟨S1x10, .f32⟩
  | 1 => ⟨S6144x10, .f32⟩
  | 2 => ⟨S6144x10, .f32⟩
  | 3 => ⟨S_, .f32⟩
  | 4 => ⟨S10, .f32⟩
  | 5 => ⟨S10, .f32⟩
  | 6 => ⟨S10, .f32⟩
  | 7 => ⟨S1x10, .f32⟩
  | 8 => ⟨S6144x10, .f32⟩
  | 9 => ⟨S6144x10, .f32⟩
  | 10 => ⟨S1x10, .f32⟩
  | 11 => ⟨S6144x10, .f32⟩
  | 12 => ⟨S6144x10, .f32⟩
  | 13 => ⟨S1x10, .f32⟩
  | 14 => ⟨S6144x10, .f32⟩
  | 15 => ⟨S6144x10, .f32⟩
  | 16 => ⟨S1x1, .f32⟩
  | 17 => ⟨S6144x10, .f32⟩
  | 18 => ⟨S6144x10, .f32⟩
  | 19 => ⟨S_, .f32⟩
  | 20 => ⟨S_, .f32⟩
  | 21 => ⟨S6144x10, .f32⟩
  | 22 => ⟨S6144x10, .i1⟩
  | 23 => ⟨S_, .f32⟩
  | 24 => ⟨S6144x10, .f32⟩
  | 25 => ⟨S6144x10, .i1⟩
  | 26 => ⟨S_, .f32⟩
  | 27 => ⟨S_, .f32⟩
  | 28 => ⟨S6144x10, .f32⟩
  | 29 => ⟨S6144x10, .f32⟩
  | 30 => ⟨S6144x10, .f32⟩
  | 31 => ⟨S_, .f32⟩
  | 32 => ⟨S6144x10, .f32⟩
  | 33 => ⟨S6144x10, .f32⟩
  | 34 => ⟨S6144x10, .f32⟩
  | 35 => ⟨S_, .f32⟩
  | 36 => ⟨S6144x10, .f32⟩
  | 37 => ⟨S6144x10, .f32⟩
  | 38 => ⟨S6144x10, .f32⟩
  | 39 => ⟨S1x1, .f32⟩
  | 40 => ⟨S6144x10, .f32⟩
  | 41 => ⟨S6144x10, .f32⟩
  | 42 => ⟨S_, .f32⟩
  | 43 => ⟨S_, .f32⟩
  | 44 => ⟨S6144x10, .f32⟩
  | 45 => ⟨S6144x10, .i1⟩
  | 46 => ⟨S_, .f32⟩
  | 47 => ⟨S6144x10, .f32⟩
  | 48 => ⟨S6144x10, .i1⟩
  | 49 => ⟨S_, .f32⟩
  | 50 => ⟨S_, .f32⟩
  | 51 => ⟨S6144x10, .f32⟩
  | 52 => ⟨S6144x10, .f32⟩
  | 53 => ⟨S6144x10, .f32⟩
  | 54 => ⟨S_, .f32⟩
  | 55 => ⟨S6144x10, .f32⟩
  | 56 => ⟨S6144x10, .f32⟩
  | 57 => ⟨S6144x10, .f32⟩
  | 58 => ⟨S_, .f32⟩
  | 59 => ⟨S6144x10, .f32⟩
  | 60 => ⟨S6144x10, .f32⟩
  | 61 => ⟨S6144x10, .f32⟩
  | 62 => ⟨S1x6144x10, .f32⟩
  | 63 => ⟨S1x6144x10, .f32⟩
  | 64 => ⟨S2x6144x10, .f32⟩
  | _ => ⟨S3x6144x512, .f32⟩

abbrev hbmTy (i : Nat) : BufTy := match i / 128 with
  | 0 => hbmTy0_0 i
  | 1 => hbmTy0_1 i
  | _ => ⟨S3x6144x512, .f32⟩

abbrev bufTy : (tb : Table) → Fin (tcTables nBuf tb) → BufTy
  | .hbm, ⟨i, _⟩ => hbmTy i
  | .local _ .vmem, ⟨0, _⟩ => ⟨S3x128x6144, .f32⟩
  | .local _ .vmem, ⟨1, _⟩ => ⟨S3x128x6144, .f32⟩
  | .local _ .vmem, ⟨2, _⟩ => ⟨S6144x10, .f32⟩
  | .local _ .vmem, ⟨3, _⟩ => ⟨S3x128x10, .f32⟩
  | .local _ .vmem, ⟨4, _⟩ => ⟨S3x128x10, .f32⟩
  | .local _ .vmem, ⟨5, _⟩ => ⟨S128x10, .f32⟩
  | .local _ .vmem, ⟨6, _⟩ => ⟨S128x10, .f32⟩
  | .local _ .vmem, ⟨7, _⟩ => ⟨S3x128x6144, .f32⟩
  | .local _ .vmem, ⟨8, _⟩ => ⟨S3x128x6144, .f32⟩
  | .local _ .vmem, ⟨9, _⟩ => ⟨S6144x10, .f32⟩
  | .local _ .vmem, ⟨10, _⟩ => ⟨S3x128x10, .f32⟩
  | .local _ .vmem, ⟨11, _⟩ => ⟨S3x128x10, .f32⟩
  | .local _ .vmem, ⟨12, _⟩ => ⟨S128x10, .f32⟩
  | .local _ .vmem, ⟨13, _⟩ => ⟨S128x10, .f32⟩
  | _, _ => ⟨S3x6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call1_cst : Ref sig .tc := ⟨.hbm, 56, rfl⟩
abbrev main_call1_call0_cst : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_call0_cst_0 : Ref sig .tc := ⟨.hbm, 60, rfl⟩
abbrev main_call1_call0_v2 : Ref sig .tc := ⟨.hbm, 61, rfl⟩
abbrev main_call1_call0_v3 : Ref sig .tc := ⟨.hbm, 62, rfl⟩
abbrev main_call1_call0_cst_1 : Ref sig .tc := ⟨.hbm, 63, rfl⟩
abbrev main_call1_call0_call0_v0 : Ref sig .tc := ⟨.hbm, 64, rfl⟩
abbrev main_call1_call0_call0_v1 : Ref sig .tc := ⟨.hbm, 65, rfl⟩
abbrev main_call1_call0_v4 : Ref sig .tc := ⟨.hbm, 66, rfl⟩
abbrev main_call1_call0_v5 : Ref sig .tc := ⟨.hbm, 67, rfl⟩
abbrev main_call1_call0_v6 : Ref sig .tc := ⟨.hbm, 68, rfl⟩
abbrev main_call1_call0_v7 : Ref sig .tc := ⟨.hbm, 69, rfl⟩
abbrev main_call1_call0_v8 : Ref sig .tc := ⟨.hbm, 70, rfl⟩
abbrev main_call1_v0 : Ref sig .tc := ⟨.hbm, 71, rfl⟩
abbrev main_call1_cst_0 : Ref sig .tc := ⟨.hbm, 72, rfl⟩
abbrev main_call1_v1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_call2_cst : Ref sig .tc := ⟨.hbm, 79, rfl⟩
abbrev main_call2_call0_cst : Ref sig .tc := ⟨.hbm, 80, rfl⟩
abbrev main_call2_call0_v0 : Ref sig .tc := ⟨.hbm, 81, rfl⟩
abbrev main_call2_call0_v1 : Ref sig .tc := ⟨.hbm, 82, rfl⟩
abbrev main_call2_call0_cst_0 : Ref sig .tc := ⟨.hbm, 83, rfl⟩
abbrev main_call2_call0_v2 : Ref sig .tc := ⟨.hbm, 84, rfl⟩
abbrev main_call2_call0_v3 : Ref sig .tc := ⟨.hbm, 85, rfl⟩
abbrev main_call2_call0_cst_1 : Ref sig .tc := ⟨.hbm, 86, rfl⟩
abbrev main_call2_call0_call0_v0 : Ref sig .tc := ⟨.hbm, 87, rfl⟩
abbrev main_call2_call0_call0_v1 : Ref sig .tc := ⟨.hbm, 88, rfl⟩
abbrev main_call2_call0_v4 : Ref sig .tc := ⟨.hbm, 89, rfl⟩
abbrev main_call2_call0_v5 : Ref sig .tc := ⟨.hbm, 90, rfl⟩
abbrev main_call2_call0_v6 : Ref sig .tc := ⟨.hbm, 91, rfl⟩
abbrev main_call2_call0_v7 : Ref sig .tc := ⟨.hbm, 92, rfl⟩
abbrev main_call2_call0_v8 : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_2 : Ref sig .tc := ⟨.hbm, 100, rfl⟩
abbrev main_v32 : Ref sig .tc := ⟨.hbm, 101, rfl⟩
abbrev main_cst_3 : Ref sig .tc := ⟨.hbm, 102, rfl⟩
abbrev main_v33 : Ref sig .tc := ⟨.hbm, 103, rfl⟩
abbrev main_v34 : Ref sig .tc := ⟨.hbm, 104, rfl⟩
abbrev main_c_4 : Ref sig .tc := ⟨.hbm, 105, rfl⟩
abbrev main_call3_cst : Ref sig .tc := ⟨.hbm, 106, rfl⟩
abbrev main_call3_v0 : Ref sig .tc := ⟨.hbm, 107, rfl⟩
abbrev main_call3_v1 : Ref sig .tc := ⟨.hbm, 108, rfl⟩
abbrev main_call3_cst_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_v7 : Ref sig .tc := ⟨.hbm, 115, rfl⟩
abbrev main_call3_cst_1 : Ref sig .tc := ⟨.hbm, 116, rfl⟩
abbrev main_call3_v8 : Ref sig .tc := ⟨.hbm, 117, rfl⟩
abbrev main_call3_cst_2 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_cst_3 : Ref sig .tc := ⟨.hbm, 122, rfl⟩
abbrev main_call3_v12 : Ref sig .tc := ⟨.hbm, 123, rfl⟩
abbrev main_call3_cst_4 : Ref sig .tc := ⟨.hbm, 124, rfl⟩
abbrev main_call3_call0_v0 : Ref sig .tc := ⟨.hbm, 125, rfl⟩
abbrev main_call3_call0_v1 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_cst_5 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_call4_cst : Ref sig .tc := ⟨.hbm, 147, rfl⟩
abbrev main_call4_call0_cst : Ref sig .tc := ⟨.hbm, 148, rfl⟩
abbrev main_call4_call0_v0 : Ref sig .tc := ⟨.hbm, 149, rfl⟩
abbrev main_call4_call0_v1 : Ref sig .tc := ⟨.hbm, 150, rfl⟩
abbrev main_call4_call0_cst_0 : Ref sig .tc := ⟨.hbm, 151, rfl⟩
abbrev main_call4_call0_v2 : Ref sig .tc := ⟨.hbm, 152, rfl⟩
abbrev main_call4_call0_v3 : Ref sig .tc := ⟨.hbm, 153, rfl⟩
abbrev main_call4_call0_cst_1 : Ref sig .tc := ⟨.hbm, 154, rfl⟩
abbrev main_call4_call0_call0_v0 : Ref sig .tc := ⟨.hbm, 155, rfl⟩
abbrev main_call4_call0_call0_v1 : Ref sig .tc := ⟨.hbm, 156, rfl⟩
abbrev main_call4_call0_v4 : Ref sig .tc := ⟨.hbm, 157, rfl⟩
abbrev main_call4_call0_v5 : Ref sig .tc := ⟨.hbm, 158, rfl⟩
abbrev main_call4_call0_v6 : Ref sig .tc := ⟨.hbm, 159, rfl⟩
abbrev main_call4_call0_v7 : Ref sig .tc := ⟨.hbm, 160, rfl⟩
abbrev main_call4_call0_v8 : Ref sig .tc := ⟨.hbm, 161, rfl⟩
abbrev main_call4_v0 : Ref sig .tc := ⟨.hbm, 162, rfl⟩
abbrev main_call4_cst_0 : Ref sig .tc := ⟨.hbm, 163, rfl⟩
abbrev main_call4_v1 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_call5_cst : Ref sig .tc := ⟨.hbm, 170, rfl⟩
abbrev main_call5_call0_cst : Ref sig .tc := ⟨.hbm, 171, rfl⟩
abbrev main_call5_call0_v0 : Ref sig .tc := ⟨.hbm, 172, rfl⟩
abbrev main_call5_call0_v1 : Ref sig .tc := ⟨.hbm, 173, rfl⟩
abbrev main_call5_call0_cst_0 : Ref sig .tc := ⟨.hbm, 174, rfl⟩
abbrev main_call5_call0_v2 : Ref sig .tc := ⟨.hbm, 175, rfl⟩
abbrev main_call5_call0_v3 : Ref sig .tc := ⟨.hbm, 176, rfl⟩
abbrev main_call5_call0_cst_1 : Ref sig .tc := ⟨.hbm, 177, rfl⟩
abbrev main_call5_call0_call0_v0 : Ref sig .tc := ⟨.hbm, 178, rfl⟩
abbrev main_call5_call0_call0_v1 : Ref sig .tc := ⟨.hbm, 179, rfl⟩
abbrev main_call5_call0_v4 : Ref sig .tc := ⟨.hbm, 180, rfl⟩
abbrev main_call5_call0_v5 : Ref sig .tc := ⟨.hbm, 181, rfl⟩
abbrev main_call5_call0_v6 : Ref sig .tc := ⟨.hbm, 182, rfl⟩
abbrev main_call5_call0_v7 : Ref sig .tc := ⟨.hbm, 183, rfl⟩
abbrev main_call5_call0_v8 : Ref sig .tc := ⟨.hbm, 184, rfl⟩
abbrev main_call5_v0 : Ref sig .tc := ⟨.hbm, 185, rfl⟩
abbrev main_call5_cst_0 : Ref sig .tc := ⟨.hbm, 186, rfl⟩
abbrev main_call5_v1 : Ref sig .tc := ⟨.hbm, 187, rfl⟩
abbrev main_v59 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_v63 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![48], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let c0_1 : Index := 0#32
  ![v4.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x128x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def k1_mult1 (i : grid1.Coords) : BitVec 32 :=
  let arg0 : BitVec 32 := BitVec.ofNat 32 (i 0).val
  let c128_i32 : BitVec 32 := 128#32
  let v0 : BitVec 32 := Scalar.muli arg0 c128_i32
  v0
def k1_off1 (i : grid1.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v5 : Index := Scalar.indexCast v1
  let c0_1 : Index := 0#32
  ![v5.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x128x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6144x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x128x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S6144x10_S6144x10_0_0 : ∀ a, (![0, 0] : Fin 2 → Nat) a + S6144x10.size a ≤ S6144x10.size a
  h_S6144x10 : 0 < S6144x10.numel
  bitsLt_bf16_f32 : FTy.bits .bf16 < FTy.bits .f32
  h_S128x10 : 0 < S128x10.numel
  inb_S3x128x6144_S1x128x6144_0_0_0 : ∀ a, (![0, 0, 0] : Fin 3 → Nat) a + S1x128x6144.size a ≤ S3x128x6144.size a
  h_S1x128x6144 : 0 < S1x128x6144.numel
  shapeCasts_S1x128x6144_S128x6144 : S1x128x6144.ShapeCasts S128x6144
  inb_S3x128x10_S1x128x10_0_0_0 : ∀ a, (![0, 0, 0] : Fin 3 → Nat) a + S1x128x10.size a ≤ S3x128x10.size a
  h_S1x128x10 : 0 < S1x128x10.numel
  shapeCasts_S1x128x10_S128x10 : S1x128x10.ShapeCasts S128x10
  inb_S3x128x6144_S1x128x6144_1_0_0 : ∀ a, (![1, 0, 0] : Fin 3 → Nat) a + S1x128x6144.size a ≤ S3x128x6144.size a
  inb_S3x128x10_S1x128x10_1_0_0 : ∀ a, (![1, 0, 0] : Fin 3 → Nat) a + S1x128x10.size a ≤ S3x128x10.size a
  inb_S3x128x6144_S1x128x6144_2_0_0 : ∀ a, (![2, 0, 0] : Fin 3 → Nat) a + S1x128x6144.size a ≤ S3x128x6144.size a
  inb_S3x128x10_S1x128x10_2_0_0 : ∀ a, (![2, 0, 0] : Fin 3 → Nat) a + S1x128x10.size a ≤ S3x128x10.size a
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  reducesTo_S6144x10_S10_d0 : S6144x10.ReducesTo [0] S10
  h_S_ : 0 < S_.numel
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S6144x10_0_1 : S1x10.BroadcastsInDim S6144x10 (![0, 1] : Fin 2 → Fin S6144x10.rank)
  bcast_S1_S1x1_1 : S1.BroadcastsInDim S1x1 (![1] : Fin 1 → Fin S1x1.rank)
  bcast_S1x1_S6144x10_0_1 : S1x1.BroadcastsInDim S6144x10 (![0, 1] : Fin 2 → Fin S6144x10.rank)
  bcast_S_S6144x10 : S_.BroadcastsInDim S6144x10 (![] : Fin 0 → Fin S6144x10.rank)
  shapeCasts_S6144x10_S6144x10 : S6144x10.ShapeCasts S6144x10
  shapeCasts_S128x10_S128x10 : S128x10.ShapeCasts S128x10
  bcast_S6144x10_S1x6144x10_1_2 : S6144x10.BroadcastsInDim S1x6144x10 (![1, 2] : Fin 2 → Fin S1x6144x10.rank)
  concatenates_S1x6144x10_S1x6144x10_S2x6144x10_d0 : Shape.Concatenates [S1x6144x10, S1x6144x10] S2x6144x10 0
  dot_S3x6144x512_S3x512x10_S3x6144x10_2_1_1_2_0_0_wf : DotDims.WF S3x6144x512 S3x512x10 S3x6144x10 [2] [1] [1] [2] [0] [0]
  dot_S128x6144_S6144x10_S128x10_1_0_0_1_n_n_wf : DotDims.WF S128x6144 S6144x10 S128x10 [1] [0] [0] [1] [] []
  hrank0 : 0 < grid0.rank
  k0_mult1_dvd : ∀ i : grid0.Coords, 8 ∣ (k0_mult1 i).toNat
  k0_off1_inb : ∀ i : grid0.Coords, ∀ a, (k0_off1 i) a + S128x10.size a ≤ S6144x10.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128x6144.size a ≤ S3x6144x6144.size a
  hwx0_0 : ∀ i : grid0.Coords, EltTy.bits .f32 = 32 ∨ (Rect.block (s := S3x6144x6144) S3x128x6144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6144x10.size a ≤ S6144x10.size a
  hwx0_1 : ∀ i : grid0.Coords, EltTy.bits .f32 = 32 ∨ (Rect.block (s := S6144x10) S6144x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x128x10.size a ≤ S3x6144x10.size a
  hwx0_2 : ∀ i : grid0.Coords, EltTy.bits .f32 = 32 ∨ (Rect.block (s := S3x6144x10) S3x128x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x10.size a ≤ S6144x10.size a
  hwx0_3 : ∀ i : grid0.Coords, EltTy.bits .f32 = 32 ∨ (Rect.block (s := S6144x10) S128x10.size (cc0_transform_3 i) (hinb0_3 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S128x10.size a ≤ S6144x10.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x128x6144.size a ≤ S3x6144x6144.size a
  hwx1_0 : ∀ i : grid1.Coords, EltTy.bits .f32 = 32 ∨ (Rect.block (s := S3x6144x6144) S3x128x6144.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x10.size a ≤ S6144x10.size a
  hwx1_1 : ∀ i : grid1.Coords, EltTy.bits .f32 = 32 ∨ (Rect.block (s := S6144x10) S6144x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x128x10.size a ≤ S3x6144x10.size a
  hwx1_2 : ∀ i : grid1.Coords, EltTy.bits .f32 = 32 ∨ (Rect.block (s := S3x6144x10) S3x128x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x10.size a ≤ S6144x10.size a
  hwx1_3 : ∀ i : grid1.Coords, EltTy.bits .f32 = 32 ∨ (Rect.block (s := S6144x10) S128x10.size (cc1_transform_3 i) (hinb1_3 i)).WholeWords (EltTy.packing .f32)

variable [Facts₀]

def dot_S3x6144x512_S3x512x10_S3x6144x10_2_1_1_2_0_0 : DotDims S3x6144x512 S3x512x10 S3x6144x10 where
  lhsContracting := [2]
  rhsContracting := [1]
  lhsNonContracting := [1]
  rhsNonContracting := [2]
  lhsBatch := [0]
  rhsBatch := [0]
  wf := dot_S3x6144x512_S3x512x10_S3x6144x10_2_1_1_2_0_0_wf
def dot_S128x6144_S6144x10_S128x10_1_0_0_1_n_n : DotDims S128x6144 S6144x10 S128x10 where
  lhsContracting := [1]
  rhsContracting := [0]
  lhsNonContracting := [0]
  rhsNonContracting := [1]
  lhsBatch := []
  rhsBatch := []
  wf := dot_S128x6144_S6144x10_S128x10_1_0_0_1_n_n_wf

abbrev win0_0 : Pipeline.Window sig grid0 :=
  Pipeline.Window.ofSpec (Memref.whole main_arg1) S3x128x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6144x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x128x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3x128x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S6144x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S3x128x10.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S3x6144x512 : Shape := ⟨3, ![3, 6144, 512]⟩
abbrev S3x6144x6144 : Shape := ⟨3, ![3, 6144, 6144]⟩
abbrev S6144x10 : Shape := ⟨2, ![6144, 10]⟩
abbrev S3x512x10 : Shape := ⟨3, ![3, 512, 10]⟩
abbrev S1 : Shape := ⟨1, ![1]⟩
abbrev S10 : Shape := ⟨1, ![10]⟩
abbrev S3x6144x10 : Shape := ⟨3, ![3, 6144, 10]⟩
abbrev S1x6144x10 : Shape := ⟨3, ![1, 6144, 10]⟩
abbrev S_ : Shape := ⟨0, ![]⟩
abbrev S6144 : Shape := ⟨1, ![6144]⟩
abbrev S6144x1 : Shape := ⟨2, ![6144, 1]⟩
abbrev S1x10 : Shape := ⟨2, ![1, 10]⟩
abbrev S1x1 : Shape := ⟨2, ![1, 1]⟩
abbrev S2x6144x10 : Shape := ⟨3, ![2, 6144, 10]⟩

abbrev nBuf : Space → Nat
  | .hbm => 483
  | .vmem => 0
  | .smem => 0
  | _ => 0

abbrev hbmTy0_0 (i : Nat) : BufTy := match i % 128 with
  | 0 => ⟨S3x6144x512, .f32⟩
  | 1 => ⟨S3x6144x6144, .f32⟩
  | 2 => ⟨S6144x10, .f32⟩
  | 3 => ⟨S3x512x10, .f32⟩
  | 4 => ⟨S1, .f32⟩
  | 5 => ⟨S10, .f32⟩
  | 6 => ⟨S10, .f32⟩
  | 7 => ⟨S3x6144x10, .f32⟩
  | 8 => ⟨S1x6144x10, .f32⟩
  | 9 => ⟨S3x6144x10, .f32⟩
  | 10 => ⟨S3x6144x10, .f32⟩
  | 11 => ⟨S3x6144x10, .f32⟩
  | 12 => ⟨S3x6144x10, .f32⟩
  | 13 => ⟨S_, .f32⟩
  | 14 => ⟨S3x6144x10, .f32⟩
  | 15 => ⟨S3x6144x10, .f32⟩
  | 16 => ⟨S3x6144x10, .f32⟩
  | 17 => ⟨S3x6144x10, .f32⟩
  | 18 => ⟨S3x6144x10, .i1⟩
  | 19 => ⟨S3x6144x10, .f32⟩
  | 20 => ⟨S3x6144x10, .f32⟩
  | 21 => ⟨S3x6144x10, .f32⟩
  | 22 => ⟨S3x6144x10, .f32⟩
  | 23 => ⟨S3x6144x10, .f32⟩
  | 24 => ⟨S3x6144x10, .f32⟩
  | 25 => ⟨S3x6144x10, .f32⟩
  | 26 => ⟨S3x6144x10, .f32⟩
  | 27 => ⟨S_, .f32⟩
  | 28 => ⟨S3x6144x10, .f32⟩
  | 29 => ⟨S3x6144x10, .f32⟩
  | 30 => ⟨S1x6144x10, .f32⟩
  | 31 => ⟨S6144x10, .f32⟩
  | 32 => ⟨S1x6144x10, .f32⟩
  | 33 => ⟨S6144x10, .f32⟩
  | 34 => ⟨S1x6144x10, .f32⟩
  | 35 => ⟨S6144x10, .f32⟩
  | 36 => ⟨S_, .f32⟩
  | 37 => ⟨S6144, .f32⟩
  | 38 => ⟨S6144x1, .f32⟩
  | 39 => ⟨S_, .f32⟩
  | 40 => ⟨S6144, .f32⟩
  | 41 => ⟨S6144x1, .f32⟩
  | 42 => ⟨S_, .f32⟩
  | 43 => ⟨S6144x10, .f32⟩
  | 44 => ⟨S6144x10, .f32⟩
  | 45 => ⟨S6144x10, .f32⟩
  | 46 => ⟨S6144x10, .f32⟩
  | 47 => ⟨S_, .f32⟩
  | 48 => ⟨S6144x10, .f32⟩
  | 49 => ⟨S6144x10, .f32⟩
  | 50 => ⟨S6144x10, .f32⟩
  | 51 => ⟨S6144x10, .f32⟩
  | 52 => ⟨S_, .f32⟩
  | 53 => ⟨S6144x1, .f32⟩
  | 54 => ⟨S6144x1, .f32⟩
  | 55 => ⟨S_, .f32⟩
  | 56 => ⟨S6144x1, .f32⟩
  | 57 => ⟨S6144x1, .f32⟩
  | 58 => ⟨S_, .f32⟩
  | 59 => ⟨S6144, .f32⟩
  | 60 => ⟨S6144x1, .f32⟩
  | 61 => ⟨S_, .f32⟩
  | 62 => ⟨S6144, .f32⟩
  | 63 => ⟨S6144x1, .f32⟩
  | 64 => ⟨S6144x1, .f32⟩
  | 65 => ⟨S6144x10, .f32⟩
  | 66 => ⟨S_, .f32⟩
  | 67 => ⟨S6144, .f32⟩
  | 68 => ⟨S6144x1, .f32⟩
  | 69 => ⟨S6144x1, .f32⟩
  | 70 => ⟨S6144x10, .f32⟩
  | 71 => ⟨S6144x10, .f32⟩
  | 72 => ⟨S6144x10, .f32⟩
  | 73 => ⟨S6144x10, .f32⟩
  | 74 => ⟨S6144x10, .f32⟩
  | 75 => ⟨S6144x10, .f32⟩
  | 76 => ⟨S6144x10, .f32⟩
  | 77 => ⟨S_, .f32⟩
  | 78 => ⟨S6144x1, .f32⟩
  | 79 => ⟨S6144x1, .f32⟩
  | 80 => ⟨S6144x10, .f32⟩
  | 81 => ⟨S6144x10, .f32⟩
  | 82 => ⟨S6144x1, .f32⟩
  | 83 => ⟨S_, .f32⟩
  | 84 => ⟨S6144x1, .f32⟩
  | 85 => ⟨S6144x1, .f32⟩
  | 86 => ⟨S6144x1, .f32⟩
  | 87 => ⟨S_, .f32⟩
  | 88 => ⟨S6144x1, .f32⟩
  | 89 => ⟨S6144x1, .f32⟩
  | 90 => ⟨S6144x10, .f32⟩
  | 91 => ⟨S6144x10, .f32⟩
  | 92 => ⟨S_, .f32⟩
  | 93 => ⟨S6144x10, .f32⟩
  | 94 => ⟨S6144x10, .f32⟩
  | 95 => ⟨S_, .f32⟩
  | 96 => ⟨S6144, .f32⟩
  | 97 => ⟨S6144x1, .f32⟩
  | 98 => ⟨S_, .f32⟩
  | 99 => ⟨S6144, .f32⟩
  | 100 => ⟨S6144x1, .f32⟩
  | 101 => ⟨S_, .f32⟩
  | 102 => ⟨S6144x10, .f32⟩
  | 103 => ⟨S6144x10, .f32⟩
  | 104 => ⟨S6144x10, .f32⟩
  | 105 => ⟨S6144x10, .f32⟩
  | 106 => ⟨S_, .f32⟩
  | 107 => ⟨S6144x10, .f32⟩
  | 108 => ⟨S6144x10, .f32⟩
  | 109 => ⟨S6144x10, .f32⟩
  | 110 => ⟨S6144x10, .f32⟩
  | 111 => ⟨S_, .f32⟩
  | 112 => ⟨S6144x1, .f32⟩
  | 113 => ⟨S6144x1, .f32⟩
  | 114 => ⟨S_, .f32⟩
  | 115 => ⟨S6144x1, .f32⟩
  | 116 => ⟨S6144x1, .f32⟩
  | 117 => ⟨S_, .f32⟩
  | 118 => ⟨S6144, .f32⟩
  | 119 => ⟨S6144x1, .f32⟩
  | 120 => ⟨S_, .f32⟩
  | 121 => ⟨S6144, .f32⟩
  | 122 => ⟨S6144x1, .f32⟩
  | 123 => ⟨S6144x1, .f32⟩
  | 124 => ⟨S6144x10, .f32⟩
  | 125 => ⟨S_, .f32⟩
  | 126 => ⟨S6144, .f32⟩
  | 127 => ⟨S6144x1, .f32⟩
  | _ => ⟨S3x6144x512, .f32⟩

abbrev hbmTy0_1 (i : Nat) : BufTy := match i % 128 with
  | 0 => ⟨S6144x1, .f32⟩
  | 1 => ⟨S6144x10, .f32⟩
  | 2 => ⟨S6144x10, .f32⟩
  | 3 => ⟨S6144x10, .f32⟩
  | 4 => ⟨S6144x10, .f32⟩
  | 5 => ⟨S6144x10, .f32⟩
  | 6 => ⟨S6144x10, .f32⟩
  | 7 => ⟨S6144x10, .f32⟩
  | 8 => ⟨S_, .f32⟩
  | 9 => ⟨S6144x1, .f32⟩
  | 10 => ⟨S6144x1, .f32⟩
  | 11 => ⟨S6144x10, .f32⟩
  | 12 => ⟨S6144x10, .f32⟩
  | 13 => ⟨S6144x1, .f32⟩
  | 14 => ⟨S_, .f32⟩
  | 15 => ⟨S6144x1, .f32⟩
  | 16 => ⟨S6144x1, .f32⟩
  | 17 => ⟨S6144x1, .f32⟩
  | 18 => ⟨S_, .f32⟩
  | 19 => ⟨S6144x1, .f32⟩
  | 20 => ⟨S6144x1, .f32⟩
  | 21 => ⟨S6144x10, .f32⟩
  | 22 => ⟨S6144x10, .f32⟩
  | 23 => ⟨S_, .f32⟩
  | 24 => ⟨S6144x10, .f32⟩
  | 25 => ⟨S6144x10, .f32⟩
  | 26 => ⟨S_, .f32⟩
  | 27 => ⟨S10, .f32⟩
  | 28 => ⟨S_, .f32⟩
  | 29 => ⟨S10, .f32⟩
  | 30 => ⟨S10, .f32⟩
  | 31 => ⟨S_, .i32⟩
  | 32 => ⟨S_, .f32⟩
  | 33 => ⟨S10, .f32⟩
  | 34 => ⟨S1x10, .f32⟩
  | 35 => ⟨S_, .f32⟩
  | 36 => ⟨S1x10, .f32⟩
  | 37 => ⟨S1x10, .f32⟩
  | 38 => ⟨S6144x10, .f32⟩
  | 39 => ⟨S6144x10, .f32⟩
  | 40 => ⟨S6144x10, .f32⟩
  | 41 => ⟨S_, .f32⟩
  | 42 => ⟨S_, .f32⟩
  | 43 => ⟨S_, .f32⟩
  | 44 => ⟨S_, .f32⟩
  | 45 => ⟨S10, .f32⟩
  | 46 => ⟨S10, .f32⟩
  | 47 => ⟨S10, .f32⟩
  | 48 => ⟨S_, .f32⟩
  | 49 => ⟨S_, .i1⟩
  | 50 => ⟨S_, .f32⟩
  | 51 => ⟨S_, .f32⟩
  | 52 => ⟨S10, .f32⟩
  | 53 => ⟨S10, .f32⟩
  | 54 => ⟨S1x10, .f32⟩
  | 55 => ⟨S6144x10, .f32⟩
  | 56 => ⟨S6144x10, .f32⟩
  | 57 => ⟨S_, .f32⟩
  | 58 => ⟨S10, .f32⟩
  | 59 => ⟨S10, .f32⟩
  | 60 => ⟨S10, .f32⟩
  | 61 => ⟨S1x10, .f32⟩
  | 62 => ⟨S6144x10, .f32⟩
  | 63 => ⟨S6144x10, .f32⟩
  | 64 => ⟨S1x10, .f32⟩
  | 65 => ⟨S6144x10, .f32⟩
  | 66 => ⟨S6144x10, .f32⟩
  | 67 => ⟨S1x10, .f32⟩
  | 68 => ⟨S6144x10, .f32⟩
  | 69 => ⟨S6144x10, .f32⟩
  | 70 => ⟨S1x1, .f32⟩
  | 71 => ⟨S6144x10, .f32⟩
  | 72 => ⟨S6144x10, .f32⟩
  | 73 => ⟨S_, .f32⟩
  | 74 => ⟨S_, .f32⟩
  | 75 => ⟨S6144x10, .f32⟩
  | 76 => ⟨S6144x10, .i1⟩
  | 77 => ⟨S_, .f32⟩
  | 78 => ⟨S6144x10, .f32⟩
  | 79 => ⟨S6144x10, .i1⟩
  | 80 => ⟨S_, .f32⟩
  | 81 => ⟨S_, .f32⟩
  | 82 => ⟨S6144x10, .f32⟩
  | 83 => ⟨S6144x10, .f32⟩
  | 84 => ⟨S6144x10, .f32⟩
  | 85 => ⟨S_, .f32⟩
  | 86 => ⟨S6144x10, .f32⟩
  | 87 => ⟨S6144x10, .f32⟩
  | 88 => ⟨S6144x10, .f32⟩
  | 89 => ⟨S_, .f32⟩
  | 90 => ⟨S6144x10, .f32⟩
  | 91 => ⟨S6144x10, .f32⟩
  | 92 => ⟨S6144x10, .f32⟩
  | 93 => ⟨S1x1, .f32⟩
  | 94 => ⟨S6144x10, .f32⟩
  | 95 => ⟨S6144x10, .f32⟩
  | 96 => ⟨S_, .f32⟩
  | 97 => ⟨S_, .f32⟩
  | 98 => ⟨S6144x10, .f32⟩
  | 99 => ⟨S6144x10, .i1⟩
  | 100 => ⟨S_, .f32⟩
  | 101 => ⟨S6144x10, .f32⟩
  | 102 => ⟨S6144x10, .i1⟩
  | 103 => ⟨S_, .f32⟩
  | 104 => ⟨S_, .f32⟩
  | 105 => ⟨S6144x10, .f32⟩
  | 106 => ⟨S6144x10, .f32⟩
  | 107 => ⟨S6144x10, .f32⟩
  | 108 => ⟨S_, .f32⟩
  | 109 => ⟨S6144x10, .f32⟩
  | 110 => ⟨S6144x10, .f32⟩
  | 111 => ⟨S6144x10, .f32⟩
  | 112 => ⟨S_, .f32⟩
  | 113 => ⟨S6144x10, .f32⟩
  | 114 => ⟨S6144x10, .f32⟩
  | 115 => ⟨S6144x10, .f32⟩
  | 116 => ⟨S1x6144x10, .f32⟩
  | 117 => ⟨S3x6144x10, .f32⟩
  | 118 => ⟨S3x6144x10, .f32⟩
  | 119 => ⟨S3x6144x10, .f32⟩
  | 120 => ⟨S3x6144x10, .f32⟩
  | 121 => ⟨S_, .f32⟩
  | 122 => ⟨S3x6144x10, .f32⟩
  | 123 => ⟨S3x6144x10, .f32⟩
  | 124 => ⟨S3x6144x10, .f32⟩
  | 125 => ⟨S3x6144x10, .f32⟩
  | 126 => ⟨S3x6144x10, .i1⟩
  | 127 => ⟨S3x6144x10, .f32⟩
  | _ => ⟨S3x6144x512, .f32⟩

abbrev hbmTy0_2 (i : Nat) : BufTy := match i % 128 with
  | 0 => ⟨S3x6144x10, .f32⟩
  | 1 => ⟨S3x6144x10, .f32⟩
  | 2 => ⟨S3x6144x10, .f32⟩
  | 3 => ⟨S3x6144x10, .f32⟩
  | 4 => ⟨S3x6144x10, .f32⟩
  | 5 => ⟨S3x6144x10, .f32⟩
  | 6 => ⟨S3x6144x10, .f32⟩
  | 7 => ⟨S_, .f32⟩
  | 8 => ⟨S3x6144x10, .f32⟩
  | 9 => ⟨S3x6144x10, .f32⟩
  | 10 => ⟨S1x6144x10, .f32⟩
  | 11 => ⟨S6144x10, .f32⟩
  | 12 => ⟨S1x6144x10, .f32⟩
  | 13 => ⟨S6144x10, .f32⟩
  | 14 => ⟨S1x6144x10, .f32⟩
  | 15 => ⟨S6144x10, .f32⟩
  | 16 => ⟨S_, .f32⟩
  | 17 => ⟨S6144, .f32⟩
  | 18 => ⟨S6144x1, .f32⟩
  | 19 => ⟨S_, .f32⟩
  | 20 => ⟨S6144, .f32⟩
  | 21 => ⟨S6144x1, .f32⟩
  | 22 => ⟨S_, .f32⟩
  | 23 => ⟨S6144x10, .f32⟩
  | 24 => ⟨S6144x10, .f32⟩
  | 25 => ⟨S6144x10, .f32⟩
  | 26 => ⟨S6144x10, .f32⟩
  | 27 => ⟨S_, .f32⟩
  | 28 => ⟨S6144x10, .f32⟩
  | 29 => ⟨S6144x10, .f32⟩
  | 30 => ⟨S6144x10, .f32⟩
  | 31 => ⟨S6144x10, .f32⟩
  | 32 => ⟨S_, .f32⟩
  | 33 => ⟨S6144x1, .f32⟩
  | 34 => ⟨S6144x1, .f32⟩
  | 35 => ⟨S_, .f32⟩
  | 36 => ⟨S6144x1, .f32⟩
  | 37 => ⟨S6144x1, .f32⟩
  | 38 => ⟨S_, .f32⟩
  | 39 => ⟨S6144, .f32⟩
  | 40 => ⟨S6144x1, .f32⟩
  | 41 => ⟨S_, .f32⟩
  | 42 => ⟨S6144, .f32⟩
  | 43 => ⟨S6144x1, .f32⟩
  | 44 => ⟨S6144x1, .f32⟩
  | 45 => ⟨S6144x10, .f32⟩
  | 46 => ⟨S_, .f32⟩
  | 47 => ⟨S6144, .f32⟩
  | 48 => ⟨S6144x1, .f32⟩
  | 49 => ⟨S6144x1, .f32⟩
  | 50 => ⟨S6144x10, .f32⟩
  | 51 => ⟨S6144x10, .f32⟩
  | 52 => ⟨S6144x10, .f32⟩
  | 53 => ⟨S6144x10, .f32⟩
  | 54 => ⟨S6144x10, .f32⟩
  | 55 => ⟨S6144x10, .f32⟩
  | 56 => ⟨S6144x10, .f32⟩
  | 57 => ⟨S_, .f32⟩
  | 58 => ⟨S6144x1, .f32⟩
  | 59 => ⟨S6144x1, .f32⟩
  | 60 => ⟨S6144x10, .f32⟩
  | 61 => ⟨S6144x10, .f32⟩
  | 62 => ⟨S6144x1, .f32⟩
  | 63 => ⟨S_, .f32⟩
  | 64 => ⟨S6144x1, .f32⟩
  | 65 => ⟨S6144x1, .f32⟩
  | 66 => ⟨S6144x1, .f32⟩
  | 67 => ⟨S_, .f32⟩
  | 68 => ⟨S6144x1, .f32⟩
  | 69 => ⟨S6144x1, .f32⟩
  | 70 => ⟨S6144x10, .f32⟩
  | 71 => ⟨S6144x10, .f32⟩
  | 72 => ⟨S_, .f32⟩
  | 73 => ⟨S6144x10, .f32⟩
  | 74 => ⟨S6144x10, .f32⟩
  | 75 => ⟨S_, .f32⟩
  | 76 => ⟨S6144, .f32⟩
  | 77 => ⟨S6144x1, .f32⟩
  | 78 => ⟨S_, .f32⟩
  | 79 => ⟨S6144, .f32⟩
  | 80 => ⟨S6144x1, .f32⟩
  | 81 => ⟨S_, .f32⟩
  | 82 => ⟨S6144x10, .f32⟩
  | 83 => ⟨S6144x10, .f32⟩
  | 84 => ⟨S6144x10, .f32⟩
  | 85 => ⟨S6144x10, .f32⟩
  | 86 => ⟨S_, .f32⟩
  | 87 => ⟨S6144x10, .f32⟩
  | 88 => ⟨S6144x10, .f32⟩
  | 89 => ⟨S6144x10, .f32⟩
  | 90 => ⟨S6144x10, .f32⟩
  | 91 => ⟨S_, .f32⟩
  | 92 => ⟨S6144x1, .f32⟩
  | 93 => ⟨S6144x1, .f32⟩
  | 94 => ⟨S_, .f32⟩
  | 95 => ⟨S6144x1, .f32⟩
  | 96 => ⟨S6144x1, .f32⟩
  | 97 => ⟨S_, .f32⟩
  | 98 => ⟨S6144, .f32⟩
  | 99 => ⟨S6144x1, .f32⟩
  | 100 => ⟨S_, .f32⟩
  | 101 => ⟨S6144, .f32⟩
  | 102 => ⟨S6144x1, .f32⟩
  | 103 => ⟨S6144x1, .f32⟩
  | 104 => ⟨S6144x10, .f32⟩
  | 105 => ⟨S_, .f32⟩
  | 106 => ⟨S6144, .f32⟩
  | 107 => ⟨S6144x1, .f32⟩
  | 108 => ⟨S6144x1, .f32⟩
  | 109 => ⟨S6144x10, .f32⟩
  | 110 => ⟨S6144x10, .f32⟩
  | 111 => ⟨S6144x10, .f32⟩
  | 112 => ⟨S6144x10, .f32⟩
  | 113 => ⟨S6144x10, .f32⟩
  | 114 => ⟨S6144x10, .f32⟩
  | 115 => ⟨S6144x10, .f32⟩
  | 116 => ⟨S_, .f32⟩
  | 117 => ⟨S6144x1, .f32⟩
  | 118 => ⟨S6144x1, .f32⟩
  | 119 => ⟨S6144x10, .f32⟩
  | 120 => ⟨S6144x10, .f32⟩
  | 121 => ⟨S6144x1, .f32⟩
  | 122 => ⟨S_, .f32⟩
  | 123 => ⟨S6144x1, .f32⟩
  | 124 => ⟨S6144x1, .f32⟩
  | 125 => ⟨S6144x1, .f32⟩
  | 126 => ⟨S_, .f32⟩
  | 127 => ⟨S6144x1, .f32⟩
  | _ => ⟨S3x6144x512, .f32⟩

abbrev hbmTy0_3 (i : Nat) : BufTy := match i % 128 with
  | 0 => ⟨S6144x1, .f32⟩
  | 1 => ⟨S6144x10, .f32⟩
  | 2 => ⟨S6144x10, .f32⟩
  | 3 => ⟨S_, .f32⟩
  | 4 => ⟨S6144x10, .f32⟩
  | 5 => ⟨S6144x10, .f32⟩
  | 6 => ⟨S_, .f32⟩
  | 7 => ⟨S10, .f32⟩
  | 8 => ⟨S_, .f32⟩
  | 9 => ⟨S10, .f32⟩
  | 10 => ⟨S10, .f32⟩
  | 11 => ⟨S_, .i32⟩
  | 12 => ⟨S_, .f32⟩
  | 13 => ⟨S10, .f32⟩
  | 14 => ⟨S1x10, .f32⟩
  | 15 => ⟨S_, .f32⟩
  | 16 => ⟨S1x10, .f32⟩
  | 17 => ⟨S1x10, .f32⟩
  | 18 => ⟨S6144x10, .f32⟩
  | 19 => ⟨S6144x10, .f32⟩
  | 20 => ⟨S6144x10, .f32⟩
  | 21 => ⟨S_, .f32⟩
  | 22 => ⟨S_, .f32⟩
  | 23 => ⟨S_, .f32⟩
  | 24 => ⟨S_, .f32⟩
  | 25 => ⟨S10, .f32⟩
  | 26 => ⟨S10, .f32⟩
  | 27 => ⟨S10, .f32⟩
  | 28 => ⟨S_, .f32⟩
  | 29 => ⟨S_, .i1⟩
  | 30 => ⟨S_, .f32⟩
  | 31 => ⟨S_, .f32⟩
  | 32 => ⟨S10, .f32⟩
  | 33 => ⟨S10, .f32⟩
  | 34 => ⟨S1x10, .f32⟩
  | 35 => ⟨S6144x10, .f32⟩
  | 36 => ⟨S6144x10, .f32⟩
  | 37 => ⟨S_, .f32⟩
  | 38 => ⟨S10, .f32⟩
  | 39 => ⟨S10, .f32⟩
  | 40 => ⟨S10, .f32⟩
  | 41 => ⟨S1x10, .f32⟩
  | 42 => ⟨S6144x10, .f32⟩
  | 43 => ⟨S6144x10, .f32⟩
  | 44 => ⟨S1x10, .f32⟩
  | 45 => ⟨S6144x10, .f32⟩
  | 46 => ⟨S6144x10, .f32⟩
  | 47 => ⟨S1x10, .f32⟩
  | 48 => ⟨S6144x10, .f32⟩
  | 49 => ⟨S6144x10, .f32⟩
  | 50 => ⟨S1x1, .f32⟩
  | 51 => ⟨S6144x10, .f32⟩
  | 52 => ⟨S6144x10, .f32⟩
  | 53 => ⟨S_, .f32⟩
  | 54 => ⟨S_, .f32⟩
  | 55 => ⟨S6144x10, .f32⟩
  | 56 => ⟨S6144x10, .i1⟩
  | 57 => ⟨S_, .f32⟩
  | 58 => ⟨S6144x10, .f32⟩
  | 59 => ⟨S6144x10, .i1⟩
  | 60 => ⟨S_, .f32⟩
  | 61 => ⟨S_, .f32⟩
  | 62 => ⟨S6144x10, .f32⟩
  | 63 => ⟨S6144x10, .f32⟩
  | 64 => ⟨S6144x10, .f32⟩
  | 65 => ⟨S_, .f32⟩
  | 66 => ⟨S6144x10, .f32⟩
  | 67 => ⟨S6144x10, .f32⟩
  | 68 => ⟨S6144x10, .f32⟩
  | 69 => ⟨S_, .f32⟩
  | 70 => ⟨S6144x10, .f32⟩
  | 71 => ⟨S6144x10, .f32⟩
  | 72 => ⟨S6144x10, .f32⟩
  | 73 => ⟨S1x1, .f32⟩
  | 74 => ⟨S6144x10, .f32⟩
  | 75 => ⟨S6144x10, .f32⟩
  | 76 => ⟨S_, .f32⟩
  | 77 => ⟨S_, .f32⟩
  | 78 => ⟨S6144x10, .f32⟩
  | 79 => ⟨S6144x10, .i1⟩
  | 80 => ⟨S_, .f32⟩
  | 81 => ⟨S6144x10, .f32⟩
  | 82 => ⟨S6144x10, .i1⟩
  | 83 => ⟨S_, .f32⟩
  | 84 => ⟨S_, .f32⟩
  | 85 => ⟨S6144x10, .f32⟩
  | 86 => ⟨S6144x10, .f32⟩
  | 87 => ⟨S6144x10, .f32⟩
  | 88 => ⟨S_, .f32⟩
  | 89 => ⟨S6144x10, .f32⟩
  | 90 => ⟨S6144x10, .f32⟩
  | 91 => ⟨S6144x10, .f32⟩
  | 92 => ⟨S_, .f32⟩
  | 93 => ⟨S6144x10, .f32⟩
  | 94 => ⟨S6144x10, .f32⟩
  | 95 => ⟨S6144x10, .f32⟩
  | 96 => ⟨S1x6144x10, .f32⟩
  | 97 => ⟨S1x6144x10, .f32⟩
  | 98 => ⟨S2x6144x10, .f32⟩
  | _ => ⟨S3x6144x512, .f32⟩

abbrev hbmTy (i : Nat) : BufTy := match i / 128 with
  | 0 => hbmTy0_0 i
  | 1 => hbmTy0_1 i
  | 2 => hbmTy0_2 i
  | 3 => hbmTy0_3 i
  | _ => ⟨S3x6144x512, .f32⟩

abbrev bufTy : (tb : Table) → Fin (tcTables nBuf tb) → BufTy
  | .hbm, ⟨i, _⟩ => hbmTy i
  | _, _ => ⟨S3x6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_cst_19 : Ref sig .tc := ⟨.hbm, 117, rfl⟩
abbrev main_v77 : Ref sig .tc := ⟨.hbm, 118, rfl⟩
abbrev main_v78 : Ref sig .tc := ⟨.hbm, 119, rfl⟩
abbrev main_cst_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_21 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_23 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_24 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_25 : Ref sig .tc := ⟨.hbm, 151, rfl⟩
abbrev main_v105 : Ref sig .tc := ⟨.hbm, 152, rfl⟩
abbrev main_v106 : Ref sig .tc := ⟨.hbm, 153, rfl⟩
abbrev main_cst_26 : Ref sig .tc := ⟨.hbm, 154, rfl⟩
abbrev main_v107 : Ref sig .tc := ⟨.hbm, 155, rfl⟩
abbrev main_cst_27 : Ref sig .tc := ⟨.hbm, 156, rfl⟩
abbrev main_v108 : Ref sig .tc := ⟨.hbm, 157, rfl⟩
abbrev main_v109 : Ref sig .tc := ⟨.hbm, 158, rfl⟩
abbrev main_c : Ref sig .tc := ⟨.hbm, 159, rfl⟩
abbrev main_call1_cst : Ref sig .tc := ⟨.hbm, 160, rfl⟩
abbrev main_call1_v0 : Ref sig .tc := ⟨.hbm, 161, rfl⟩
abbrev main_call1_v1 : Ref sig .tc := ⟨.hbm, 162, rfl⟩
abbrev main_call1_cst_0 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_call1_v5 : Ref sig .tc := ⟨.hbm, 167, rfl⟩
abbrev main_call1_v6 : Ref sig .tc := ⟨.hbm, 168, rfl⟩
abbrev main_call1_v7 : Ref sig .tc := ⟨.hbm, 169, rfl⟩
abbrev main_call1_cst_1 : Ref sig .tc := ⟨.hbm, 170, rfl⟩
abbrev main_call1_v8 : Ref sig .tc := ⟨.hbm, 171, rfl⟩
abbrev main_call1_cst_2 : Ref sig .tc := ⟨.hbm, 172, rfl⟩
abbrev main_call1_v9 : Ref sig .tc := ⟨.hbm, 173, rfl⟩
abbrev main_call1_v10 : Ref sig .tc := ⟨.hbm, 174, rfl⟩
abbrev main_call1_v11 : Ref sig .tc := ⟨.hbm, 175, rfl⟩
abbrev main_call1_cst_3 : Ref sig .tc := ⟨.hbm, 176, rfl⟩
abbrev main_call1_v12 : Ref sig .tc := ⟨.hbm, 177, rfl⟩
abbrev main_call1_cst_4 : Ref sig .tc := ⟨.hbm, 178, rfl⟩
abbrev main_call1_call0_v0 : Ref sig .tc := ⟨.hbm, 179, rfl⟩
abbrev main_call1_call0_v1 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_cst_28 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_call2_cst : Ref sig .tc := ⟨.hbm, 201, rfl⟩
abbrev main_call2_call0_cst : Ref sig .tc := ⟨.hbm, 202, rfl⟩
abbrev main_call2_call0_v0 : Ref sig .tc := ⟨.hbm, 203, rfl⟩
abbrev main_call2_call0_v1 : Ref sig .tc := ⟨.hbm, 204, rfl⟩
abbrev main_call2_call0_cst_0 : Ref sig .tc := ⟨.hbm, 205, rfl⟩
abbrev main_call2_call0_v2 : Ref sig .tc := ⟨.hbm, 206, rfl⟩
abbrev main_call2_call0_v3 : Ref sig .tc := ⟨.hbm, 207, rfl⟩
abbrev main_call2_call0_cst_1 : Ref sig .tc := ⟨.hbm, 208, rfl⟩
abbrev main_call2_call0_call0_v0 : Ref sig .tc := ⟨.hbm, 209, rfl⟩
abbrev main_call2_call0_call0_v1 : Ref sig .tc := ⟨.hbm, 210, rfl⟩
abbrev main_call2_call0_v4 : Ref sig .tc := ⟨.hbm, 211, rfl⟩
abbrev main_call2_call0_v5 : Ref sig .tc := ⟨.hbm, 212, rfl⟩
abbrev main_call2_call0_v6 : Ref sig .tc := ⟨.hbm, 213, rfl⟩
abbrev main_call2_call0_v7 : Ref sig .tc := ⟨.hbm, 214, rfl⟩
abbrev main_call2_call0_v8 : Ref sig .tc := ⟨.hbm, 215, rfl⟩
abbrev main_call2_v0 : Ref sig .tc := ⟨.hbm, 216, rfl⟩
abbrev main_call2_cst_0 : Ref sig .tc := ⟨.hbm, 217, rfl⟩
abbrev main_call2_v1 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_call3_cst : Ref sig .tc := ⟨.hbm, 224, rfl⟩
abbrev main_call3_call0_cst : Ref sig .tc := ⟨.hbm, 225, rfl⟩
abbrev main_call3_call0_v0 : Ref sig .tc := ⟨.hbm, 226, rfl⟩
abbrev main_call3_call0_v1 : Ref sig .tc := ⟨.hbm, 227, rfl⟩
abbrev main_call3_call0_cst_0 : Ref sig .tc := ⟨.hbm, 228, rfl⟩
abbrev main_call3_call0_v2 : Ref sig .tc := ⟨.hbm, 229, rfl⟩
abbrev main_call3_call0_v3 : Ref sig .tc := ⟨.hbm, 230, rfl⟩
abbrev main_call3_call0_cst_1 : Ref sig .tc := ⟨.hbm, 231, rfl⟩
abbrev main_call3_call0_call0_v0 : Ref sig .tc := ⟨.hbm, 232, rfl⟩
abbrev main_call3_call0_call0_v1 : Ref sig .tc := ⟨.hbm, 233, rfl⟩
abbrev main_call3_call0_v4 : Ref sig .tc := ⟨.hbm, 234, rfl⟩
abbrev main_call3_call0_v5 : Ref sig .tc := ⟨.hbm, 235, rfl⟩
abbrev main_call3_call0_v6 : Ref sig .tc := ⟨.hbm, 236, rfl⟩
abbrev main_call3_call0_v7 : Ref sig .tc := ⟨.hbm, 237, rfl⟩
abbrev main_call3_call0_v8 : Ref sig .tc := ⟨.hbm, 238, rfl⟩
abbrev main_call3_v0 : Ref sig .tc := ⟨.hbm, 239, rfl⟩
abbrev main_call3_cst_0 : Ref sig .tc := ⟨.hbm, 240, rfl⟩
abbrev main_call3_v1 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_call4_cst : Ref sig .tc := ⟨.hbm, 249, rfl⟩
abbrev main_call4_v0 : Ref sig .tc := ⟨.hbm, 250, rfl⟩
abbrev main_call4_v1 : Ref sig .tc := ⟨.hbm, 251, rfl⟩
abbrev main_call4_v2 : Ref sig .tc := ⟨.hbm, 252, rfl⟩
abbrev main_call4_v3 : Ref sig .tc := ⟨.hbm, 253, rfl⟩
abbrev main_call4_v4 : Ref sig .tc := ⟨.hbm, 254, rfl⟩
abbrev main_call4_v5 : Ref sig .tc := ⟨.hbm, 255, rfl⟩
abbrev main_call4_v6 : Ref sig .tc := ⟨.hbm, 256, rfl⟩
abbrev main_call4_v7 : Ref sig .tc := ⟨.hbm, 257, rfl⟩
abbrev main_call4_v8 : Ref sig .tc := ⟨.hbm, 258, rfl⟩
abbrev main_call4_v9 : Ref sig .tc := ⟨.hbm, 259, rfl⟩
abbrev main_call4_v10 : Ref sig .tc := ⟨.hbm, 260, rfl⟩
abbrev main_call4_v11 : Ref sig .tc := ⟨.hbm, 261, rfl⟩
abbrev main_v141 : Ref sig .tc := ⟨.hbm, 262, rfl⟩
abbrev main_cst_29 : Ref sig .tc := ⟨.hbm, 263, rfl⟩
abbrev main_v142 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_cst_30 : Ref sig .tc := ⟨.hbm, 272, rfl⟩
abbrev main_v150 : Ref sig .tc := ⟨.hbm, 273, rfl⟩
abbrev main_v151 : Ref sig .tc := ⟨.hbm, 274, rfl⟩
abbrev main_cst_31 : Ref sig .tc := ⟨.hbm, 275, rfl⟩
abbrev main_v152 : Ref sig .tc := ⟨.hbm, 276, rfl⟩
abbrev main_v153 : Ref sig .tc := ⟨.hbm, 277, rfl⟩
abbrev main_cst_32 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_cst_33 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_cst_34 : Ref sig .tc := ⟨.hbm, 288, rfl⟩
abbrev main_v162 : Ref sig .tc := ⟨.hbm, 289, rfl⟩
abbrev main_v163 : Ref sig .tc := ⟨.hbm, 290, rfl⟩
abbrev main_cst_35 : Ref sig .tc := ⟨.hbm, 291, rfl⟩
abbrev main_v164 : Ref sig .tc := ⟨.hbm, 292, rfl⟩
abbrev main_v165 : Ref sig .tc := ⟨.hbm, 293, rfl⟩
abbrev main_cst_36 : Ref sig .tc := ⟨.hbm, 294, rfl⟩
abbrev main_v166 : Ref sig .tc := ⟨.hbm, 295, rfl⟩
abbrev main_v167 : Ref sig .tc := ⟨.hbm, 296, rfl⟩
abbrev main_cst_37 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_cst_38 : Ref sig .tc := ⟨.hbm, 302, rfl⟩
abbrev main_v172 : Ref sig .tc := ⟨.hbm, 303, rfl⟩
abbrev main_v173 : Ref sig .tc := ⟨.hbm, 304, rfl⟩
abbrev main_v174 : Ref sig .tc := ⟨.hbm, 305, rfl⟩
abbrev main_v175 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_cst_39 : Ref sig .tc := ⟨.hbm, 313, rfl⟩
abbrev main_v182 : Ref sig .tc := ⟨.hbm, 314, rfl⟩
abbrev main_v183 : Ref sig .tc := ⟨.hbm, 315, rfl⟩
abbrev main_v184 : Ref sig .tc := ⟨.hbm, 316, rfl⟩
abbrev main_v185 : Ref sig .tc := ⟨.hbm, 317, rfl⟩
abbrev main_v186 : Ref sig .tc := ⟨.hbm, 318, rfl⟩
abbrev main_cst_40 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_cst_41 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_cst_42 : Ref sig .tc := ⟨.hbm, 328, rfl⟩
abbrev main_v194 : Ref sig .tc := ⟨.hbm, 329, rfl⟩
abbrev main_v195 : Ref sig .tc := ⟨.hbm, 330, rfl⟩
abbrev main_cst_43 : Ref sig .tc := ⟨.hbm, 331, rfl⟩
abbrev main_v196 : Ref sig .tc := ⟨.hbm, 332, rfl⟩
abbrev main_v197 : Ref sig .tc := ⟨.hbm, 333, rfl⟩
abbrev main_cst_44 : Ref sig .tc := ⟨.hbm, 334, rfl⟩
abbrev main_v198 : Ref sig .tc := ⟨.hbm, 335, rfl⟩
abbrev main_v199 : Ref sig .tc := ⟨.hbm, 336, rfl⟩
abbrev main_cst_45 : Ref sig .tc := ⟨.hbm, 337, rfl⟩
abbrev main_v200 : Ref sig .tc := ⟨.hbm, 338, rfl⟩
abbrev main_v201 : Ref sig .tc := ⟨.hbm, 339, rfl⟩
abbrev main_v202 : Ref sig .tc := ⟨.hbm, 340, rfl⟩
abbrev main_v203 : Ref sig .tc := ⟨.hbm, 341, rfl⟩
abbrev main_cst_46 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_cst_47 : Ref sig .tc := ⟨.hbm, 347, rfl⟩
abbrev main_v208 : Ref sig .tc := ⟨.hbm, 348, rfl⟩
abbrev main_v209 : Ref sig .tc := ⟨.hbm, 349, rfl⟩
abbrev main_cst_48 : Ref sig .tc := ⟨.hbm, 350, rfl⟩
abbrev main_v210 : Ref sig .tc := ⟨.hbm, 351, rfl⟩
abbrev main_v211 : Ref sig .tc := ⟨.hbm, 352, rfl⟩
abbrev main_cst_49 : Ref sig .tc := ⟨.hbm, 353, rfl⟩
abbrev main_v212 : Ref sig .tc := ⟨.hbm, 354, rfl⟩
abbrev main_v213 : Ref sig .tc := ⟨.hbm, 355, rfl⟩
abbrev main_cst_50 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_cst_51 : Ref sig .tc := ⟨.hbm, 361, rfl⟩
abbrev main_v218 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_cst_52 : Ref sig .tc := ⟨.hbm, 372, rfl⟩
abbrev main_v228 : Ref sig .tc := ⟨.hbm, 373, rfl⟩
abbrev main_v229 : Ref sig .tc := ⟨.hbm, 374, rfl⟩
abbrev main_v230 : Ref sig .tc := ⟨.hbm, 375, rfl⟩
abbrev main_v231 : Ref sig .tc := ⟨.hbm, 376, rfl⟩
abbrev main_v232 : Ref sig .tc := ⟨.hbm, 377, rfl⟩
abbrev main_cst_53 : Ref sig .tc := ⟨.hbm, 378, rfl⟩
abbrev main_v233 : Ref sig .tc := ⟨.hbm, 379, rfl⟩
abbrev main_v234 : Ref sig .tc := ⟨.hbm, 380, rfl⟩
abbrev main_v235 : Ref sig .tc := ⟨.hbm, 381, rfl⟩
abbrev main_cst_54 : Ref sig .tc := ⟨.hbm, 382, rfl⟩
abbrev main_v236 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_cst_55 : Ref sig .tc := ⟨.hbm, 387, rfl⟩
abbrev main_v240 : Ref sig .tc := ⟨.hbm, 388, rfl⟩
abbrev main_v241 : Ref sig .tc := ⟨.hbm, 389, rfl⟩
abbrev main_cst_56 : Ref sig .tc := ⟨.hbm, 390, rfl⟩
abbrev main_v242 : Ref sig .tc := ⟨.hbm, 391, rfl⟩
abbrev main_cst_57 : Ref sig .tc := ⟨.hbm, 392, rfl⟩
abbrev main_v243 : Ref sig .tc := ⟨.hbm, 393, rfl⟩
abbrev main_v244 : Ref sig .tc := ⟨.hbm, 394, rfl⟩
abbrev main_c_58 : Ref sig .tc := ⟨.hbm, 395, rfl⟩
abbrev main_call5_cst : Ref sig .tc := ⟨.hbm, 396, rfl⟩
abbrev main_call5_v0 : Ref sig .tc := ⟨.hbm, 397, rfl⟩
abbrev main_call5_v1 : Ref sig .tc := ⟨.hbm, 398, rfl⟩
abbrev main_call5_cst_0 : Ref sig .tc := ⟨.hbm, 399, rfl⟩
abbrev main_call5_v2 : Ref sig .tc := ⟨.hbm, 400, rfl⟩
abbrev main_call5_v3 : Ref sig .tc := ⟨.hbm, 401, rfl⟩
abbrev main_call5_v4 : Ref sig .tc := ⟨.hbm, 402, rfl⟩
abbrev main_call5_v5 : Ref sig .tc := ⟨.hbm, 403, rfl⟩
abbrev main_call5_v6 : Ref sig .tc := ⟨.hbm, 404, rfl⟩
abbrev main_call5_v7 : Ref sig .tc := ⟨.hbm, 405, rfl⟩
abbrev main_call5_cst_1 : Ref sig .tc := ⟨.hbm, 406, rfl⟩
abbrev main_call5_v8 : Ref sig .tc := ⟨.hbm, 407, rfl⟩
abbrev main_call5_cst_2 : Ref sig .tc := ⟨.hbm, 408, rfl⟩
abbrev main_call5_v9 : Ref sig .tc := ⟨.hbm, 409, rfl⟩
abbrev main_call5_v10 : Ref sig .tc := ⟨.hbm, 410, rfl⟩
abbrev main_call5_v11 : Ref sig .tc := ⟨.hbm, 411, rfl⟩
abbrev main_call5_cst_3 : Ref sig .tc := ⟨.hbm, 412, rfl⟩
abbrev main_call5_v12 : Ref sig .tc := ⟨.hbm, 413, rfl⟩
abbrev main_call5_cst_4 : Ref sig .tc := ⟨.hbm, 414, rfl⟩
abbrev main_call5_call0_v0 : Ref sig .tc := ⟨.hbm, 415, rfl⟩
abbrev main_call5_call0_v1 : Ref sig .tc := ⟨.hbm, 416, rfl⟩
abbrev main_v245 : Ref sig .tc := ⟨.hbm, 417, rfl⟩
abbrev main_v246 : Ref sig .tc := ⟨.hbm, 418, rfl⟩
abbrev main_v247 : Ref sig .tc := ⟨.hbm, 419, rfl⟩
abbrev main_v248 : Ref sig .tc := ⟨.hbm, 420, rfl⟩
abbrev main_cst_59 : Ref sig .tc := ⟨.hbm, 421, rfl⟩
abbrev main_v249 : Ref sig .tc := ⟨.hbm, 422, rfl⟩
abbrev main_v250 : Ref sig .tc := ⟨.hbm, 423, rfl⟩
abbrev main_v251 : Ref sig .tc := ⟨.hbm, 424, rfl⟩
abbrev main_v252 : Ref sig .tc := ⟨.hbm, 425, rfl⟩
abbrev main_v253 : Ref sig .tc := ⟨.hbm, 426, rfl⟩
abbrev main_v254 : Ref sig .tc := ⟨.hbm, 427, rfl⟩
abbrev main_v255 : Ref sig .tc := ⟨.hbm, 428, rfl⟩
abbrev main_v256 : Ref sig .tc := ⟨.hbm, 429, rfl⟩
abbrev main_v257 : Ref sig .tc := ⟨.hbm, 430, rfl⟩
abbrev main_v258 : Ref sig .tc := ⟨.hbm, 431, rfl⟩
abbrev main_v259 : Ref sig .tc := ⟨.hbm, 432, rfl⟩
abbrev main_v260 : Ref sig .tc := ⟨.hbm, 433, rfl⟩
abbrev main_v261 : Ref sig .tc := ⟨.hbm, 434, rfl⟩
abbrev main_v262 : Ref sig .tc := ⟨.hbm, 435, rfl⟩
abbrev main_v263 : Ref sig .tc := ⟨.hbm, 436, rfl⟩
abbrev main_call6_cst : Ref sig .tc := ⟨.hbm, 437, rfl⟩
abbrev main_call6_call0_cst : Ref sig .tc := ⟨.hbm, 438, rfl⟩
abbrev main_call6_call0_v0 : Ref sig .tc := ⟨.hbm, 439, rfl⟩
abbrev main_call6_call0_v1 : Ref sig .tc := ⟨.hbm, 440, rfl⟩
abbrev main_call6_call0_cst_0 : Ref sig .tc := ⟨.hbm, 441, rfl⟩
abbrev main_call6_call0_v2 : Ref sig .tc := ⟨.hbm, 442, rfl⟩
abbrev main_call6_call0_v3 : Ref sig .tc := ⟨.hbm, 443, rfl⟩
abbrev main_call6_call0_cst_1 : Ref sig .tc := ⟨.hbm, 444, rfl⟩
abbrev main_call6_call0_call0_v0 : Ref sig .tc := ⟨.hbm, 445, rfl⟩
abbrev main_call6_call0_call0_v1 : Ref sig .tc := ⟨.hbm, 446, rfl⟩
abbrev main_call6_call0_v4 : Ref sig .tc := ⟨.hbm, 447, rfl⟩
abbrev main_call6_call0_v5 : Ref sig .tc := ⟨.hbm, 448, rfl⟩
abbrev main_call6_call0_v6 : Ref sig .tc := ⟨.hbm, 449, rfl⟩
abbrev main_call6_call0_v7 : Ref sig .tc := ⟨.hbm, 450, rfl⟩
abbrev main_call6_call0_v8 : Ref sig .tc := ⟨.hbm, 451, rfl⟩
abbrev main_call6_v0 : Ref sig .tc := ⟨.hbm, 452, rfl⟩
abbrev main_call6_cst_0 : Ref sig .tc := ⟨.hbm, 453, rfl⟩
abbrev main_call6_v1 : Ref sig .tc := ⟨.hbm, 454, rfl⟩
abbrev main_v264 : Ref sig .tc := ⟨.hbm, 455, rfl⟩
abbrev main_v265 : Ref sig .tc := ⟨.hbm, 456, rfl⟩
abbrev main_v266 : Ref sig .tc := ⟨.hbm, 457, rfl⟩
abbrev main_v267 : Ref sig .tc := ⟨.hbm, 458, rfl⟩
abbrev main_v268 : Ref sig .tc := ⟨.hbm, 459, rfl⟩
abbrev main_call7_cst : Ref sig .tc := ⟨.hbm, 460, rfl⟩
abbrev main_call7_call0_cst : Ref sig .tc := ⟨.hbm, 461, rfl⟩
abbrev main_call7_call0_v0 : Ref sig .tc := ⟨.hbm, 462, rfl⟩
abbrev main_call7_call0_v1 : Ref sig .tc := ⟨.hbm, 463, rfl⟩
abbrev main_call7_call0_cst_0 : Ref sig .tc := ⟨.hbm, 464, rfl⟩
abbrev main_call7_call0_v2 : Ref sig .tc := ⟨.hbm, 465, rfl⟩
abbrev main_call7_call0_v3 : Ref sig .tc := ⟨.hbm, 466, rfl⟩
abbrev main_call7_call0_cst_1 : Ref sig .tc := ⟨.hbm, 467, rfl⟩
abbrev main_call7_call0_call0_v0 : Ref sig .tc := ⟨.hbm, 468, rfl⟩
abbrev main_call7_call0_call0_v1 : Ref sig .tc := ⟨.hbm, 469, rfl⟩
abbrev main_call7_call0_v4 : Ref sig .tc := ⟨.hbm, 470, rfl⟩
abbrev main_call7_call0_v5 : Ref sig .tc := ⟨.hbm, 471, rfl⟩
abbrev main_call7_call0_v6 : Ref sig .tc := ⟨.hbm, 472, rfl⟩
abbrev main_call7_call0_v7 : Ref sig .tc := ⟨.hbm, 473, rfl⟩
abbrev main_call7_call0_v8 : Ref sig .tc := ⟨.hbm, 474, rfl⟩
abbrev main_call7_v0 : Ref sig .tc := ⟨.hbm, 475, rfl⟩
abbrev main_call7_cst_0 : Ref sig .tc := ⟨.hbm, 476, rfl⟩
abbrev main_call7_v1 : Ref sig .tc := ⟨.hbm, 477, rfl⟩
abbrev main_v269 : Ref sig .tc := ⟨.hbm, 478, rfl⟩
abbrev main_v270 : Ref sig .tc := ⟨.hbm, 479, rfl⟩
abbrev main_v271 : Ref sig .tc := ⟨.hbm, 480, rfl⟩
abbrev main_v272 : Ref sig .tc := ⟨.hbm, 481, rfl⟩
abbrev main_v273 : Ref sig .tc := ⟨.hbm, 482, rfl⟩

abbrev nD : Nat := 1
abbrev τ : Topo := Topo.v7x

variable {F : FTy → Type} [FloatOps F]

class Facts₀ : Prop where
  bcast_S6144x10_S1x6144x10_1_2 : S6144x10.BroadcastsInDim S1x6144x10 (![1, 2] : Fin 2 → Fin S1x6144x10.rank)
  bcast_S1x6144x10_S3x6144x10_0_1_2 : S1x6144x10.BroadcastsInDim S3x6144x10 (![0, 1, 2] : Fin 3 → Fin S3x6144x10.rank)
  bcast_S_S3x6144x10 : S_.BroadcastsInDim S3x6144x10 (![] : Fin 0 → Fin S3x6144x10.rank)
  slices_S3x6144x10_S1x6144x10_0_0_0 : S3x6144x10.Slices ![0, 0, 0] S1x6144x10
  shapeCasts_S1x6144x10_S6144x10 : S1x6144x10.ShapeCasts S6144x10
  slices_S3x6144x10_S1x6144x10_1_0_0 : S3x6144x10.Slices ![1, 0, 0] S1x6144x10
  slices_S3x6144x10_S1x6144x10_2_0_0 : S3x6144x10.Slices ![2, 0, 0] S1x6144x10
  reducesTo_S6144x10_S6144_d1 : S6144x10.ReducesTo [1] S6144
  h_S_ : 0 < S_.numel
  bcast_S6144_S6144x1_0 : S6144.BroadcastsInDim S6144x1 (![0] : Fin 1 → Fin S6144x1.rank)
  bcast_S_S6144x10 : S_.BroadcastsInDim S6144x10 (![] : Fin 0 → Fin S6144x10.rank)
  bcast_S6144x1_S6144x10_0_1 : S6144x1.BroadcastsInDim S6144x10 (![0, 1] : Fin 2 → Fin S6144x10.rank)
  bcast_S_S6144x1 : S_.BroadcastsInDim S6144x1 (![] : Fin 0 → Fin S6144x1.rank)
  reducesTo_S6144x10_S10_d0 : S6144x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S6144x10_0_1 : S1x10.BroadcastsInDim S6144x10 (![0, 1] : Fin 2 → Fin S6144x10.rank)
  bcast_S1_S1x1_1 : S1.BroadcastsInDim S1x1 (![1] : Fin 1 → Fin S1x1.rank)
  bcast_S1x1_S6144x10_0_1 : S1x1.BroadcastsInDim S6144x10 (![0, 1] : Fin 2 → Fin S6144x10.rank)
  concatenates_S1x6144x10_S1x6144x10_S2x6144x10_d0 : Shape.Concatenates [S1x6144x10, S1x6144x10] S2x6144x10 0
  dot_S3x6144x512_S3x512x10_S3x6144x10_2_1_1_2_0_0_wf : DotDims.WF S3x6144x512 S3x512x10 S3x6144x10 [2] [1] [1] [2] [0] [0]
  dot_S3x6144x6144_S6144x10_S3x6144x10_2_0_01_1_n_n_wf : DotDims.WF S3x6144x6144 S6144x10 S3x6144x10 [2] [0] [0, 1] [1] [] []

variable [Facts₀]

def dot_S3x6144x512_S3x512x10_S3x6144x10_2_1_1_2_0_0 : DotDims S3x6144x512 S3x512x10 S3x6144x10 where
  lhsContracting := [2]
  rhsContracting := [1]
  lhsNonContracting := [1]
  rhsNonContracting := [2]
  lhsBatch := [0]
  rhsBatch := [0]
  wf := dot_S3x6144x512_S3x512x10_S3x6144x10_2_1_1_2_0_0_wf
def dot_S3x6144x6144_S6144x10_S3x6144x10_2_0_01_1_n_n : DotDims S3x6144x6144 S6144x10 S3x6144x10 where
  lhsContracting := [2]
  rhsContracting := [0]
  lhsNonContracting := [0, 1]
  rhsNonContracting := [1]
  lhsBatch := []
  rhsBatch := []
  wf := dot_S3x6144x6144_S6144x10_S3x6144x10_2_0_01_1_n_n_wf

class Facts : Prop extends Facts₀ where

variable [Facts]
-- ==== Proof.KRun.lean ====
/-
  The idealized kernel program run to its end with the result array named.

  The generated frame of this program ends with every unscoped buffer at the last boundary's contents
  (the valuation `Gen.W17`: the launch memory folded through the host stretches and the two regions);
  it then keeps only the argument arrays.  Here the same run is read once more at the result buffer
  `main_v63`: after the run it holds `Gen.W17 m ρ c main_v63`, and the arguments are as launched.
-/
import proofs.«115280_j31628139168172_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the
    last boundary's contents and the seven argument arrays are as launched. -/
theorem run : θ_run defs (onTc (τ := τ) (main (F := F))) ⟨m, fun _ => 0, ρ⟩ (fun r => ∀ c : Dev nD,
      r.2.mem ((c.tc : Thread nD τ).loc main_v63) = W17 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v63 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c)⟩)

end Cert.KernelIdeal.Hand

end
-- ==== Proof.TailSpec.lean ====
/-
  The glue both programs apply to one sweep's fused evidences h (6144 x 10), written once.

  The column mean and the biased column variance are taken over the 6144 rows; the rows are normalised,
  hn = (h - mean) / sqrt (var + eps) * gamma + beta, and passed through the soft threshold
  selu (hn - theta) - selu (-hn - theta).  The result of the whole program stacks the two sweeps'
  thresholded arrays.  Both programs apply these operations in the same order to the same operands, so
  each is carried as one function of its operands and is never opened.
-/
import proofs.«115280_j31628139168172_2_alg».proof.Proof.Gen.KernelIdeal

noncomputable section

namespace Cert.Tail

open Idealize.ShloMosaic Cert.KernelIdeal Cert.KernelIdeal.Gen

variable {F : FTy → Type} [FloatOps F]

/-- A 6144 x 10 array of floats. -/
abbrev Mat (F : FTy → Type) : Type := (⟨S6144x10, .f32⟩ : BufTy).Contents (Elt F)
/-- A row of ten floats. -/
abbrev Row (F : FTy → Type) : Type := (⟨S10, .f32⟩ : BufTy).Contents (Elt F)
/-- A scalar float. -/
abbrev Sca (F : FTy → Type) : Type := (⟨S_, .f32⟩ : BufTy).Contents (Elt F)

/-- The f32 literal with the given word. -/
def lit (w : BitVec 32) : Sca F := constant S_ .f32 w

/-- A scalar spread over the ten columns. -/
def row10 (s : Sca F) : Row F := broadcastInDim S10 ![] bcast_S_S10 s

/-- A scalar spread over the whole array. -/
def full (s : Sca F) : Mat F := broadcastInDim S6144x10 ![] bcast_S_S6144x10 s

/-- A row of ten repeated down the 6144 rows. -/
def rows (r : Row F) : Mat F :=
  broadcastInDim S6144x10 ![0, 1] bcast_S1x10_S6144x10_0_1 (broadcastInDim S1x10 ![1] bcast_S10_S1x10_1 r)

/-- Column sums over the 6144 rows. -/
def colSum (h : Mat F) : Row F := Host.reduceAdd h (lit 0x00000000#32) reducesTo_S6144x10_S10_d0 h_S_

/-- Column means: the column sums over 6144. -/
def colMean (h : Mat F) : Row F := Host.divf (colSum h) (row10 (lit 0x45C00000#32))

/-- The rows with the column means taken off (the means computed as a 1 x 10 array). -/
def centred (h : Mat F) : Mat F :=
  subf h (broadcastInDim S6144x10 ![0, 1] bcast_S1x10_S6144x10_0_1
    (Host.divf (broadcastInDim S1x10 ![1] bcast_S10_S1x10_1 (colSum h))
      (broadcastInDim S1x10 ![] bcast_S_S1x10 (lit 0x45C00000#32))))

/-- The divisor of the variance: 6144 minus zero degrees of freedom. -/
def count : Sca F := subf (lit 0x45C00000#32) (sitofp .f32 (constantI S_ 32 0#32))

/-- Biased column variances: the column sums of the squared centred rows over the count, guarded by
    the count being positive. -/
def colVar (h : Mat F) : Row F :=
  select (broadcastInDim S10 ![] bcast_S_S10 (cmpf .ogt (count (F := F)) (lit 0x00000000#32)))
    (Host.divf (Host.reduceAdd (mulf (centred h) (centred h)) (lit 0x00000000#32) reducesTo_S6144x10_S10_d0 h_S_)
      (row10 count))
    (row10 (id (lit 0x7FC00000#32)))

/-- The normalised rows (h - mean) / sqrt (var + eps) * gamma + beta. -/
def normed (h : Mat F) (γ β : Row F) : Mat F :=
  addf (mulf (Host.divf (subf h (rows (colMean h)))
      (rows (Host.sqrt (addf (colVar h) (row10 (lit 0x3727C5AC#32)))))) (rows γ)) (rows β)

/-- The threshold spread over the whole array. -/
def thr (θ : (⟨S1, .f32⟩ : BufTy).Contents (Elt F)) : Mat F :=
  broadcastInDim S6144x10 ![0, 1] bcast_S1x1_S6144x10_0_1 (broadcastInDim S1x1 ![1] bcast_S1_S1x1_1 θ)

/-- selu x = scale * (x if x > 0 else alpha * expm1 (x if x <= 0 else 0)). -/
def selu (x : Mat F) : Mat F :=
  mulf (full (lit 0x3F867D5F#32))
    (select (cmpf .ogt x (full (lit 0x00000000#32))) x
      (mulf (full (id (lit 0x3FD62D7D#32)))
        (Host.expm1 (select (cmpf .ogt x (full (lit 0x00000000#32))) (full (id (lit 0x00000000#32))) x))))

/-- One sweep's glue: the soft-thresholded normalised rows. -/
def tail (h : Mat F) (θ : (⟨S1, .f32⟩ : BufTy).Contents (Elt F)) (γ β : Row F) : Mat F :=
  subf (selu (subf (normed h γ β) (thr θ))) (selu (subf (Host.negf (normed h γ β)) (thr θ)))

/-- The two sweeps' arrays stacked along a new leading axis. -/
def stack (z1 z2 : Mat F) : (⟨S2x6144x10, .f32⟩ : BufTy).Contents (Elt F) :=
  concatenate S2x6144x10 0
    [⟨S1x6144x10, broadcastInDim S1x6144x10 ![1, 2] bcast_S6144x10_S1x6144x10_1_2 z1⟩,
     ⟨S1x6144x10, broadcastInDim S1x6144x10 ![1, 2] bcast_S6144x10_S1x6144x10_1_2 z2⟩]
    concatenates_S1x6144x10_S1x6144x10_S2x6144x10_d0

/-- The per-view projection of the features: a batched matrix product. -/
def proj (X : (⟨S3x6144x512, .f32⟩ : BufTy).Contents (Elt F)) (U : (⟨S3x512x10, .f32⟩ : BufTy).Contents (Elt F)) :
    (⟨S3x6144x10, .f32⟩ : BufTy).Contents (Elt F) :=
  Host.dotGeneral dot_S3x6144x512_S3x512x10_S3x6144x10_2_1_1_2_0_0 none X U

end Cert.Tail

end
-- ==== Proof.KTail.lean ====
/-
  The host operations of the idealized kernel program around its two regions, read as the shared glue.

  Before region 0 the program forms the per-view projection of the features.  After each region it applies
  the normalisation and soft threshold to the region's output; after the second it stacks the two
  thresholded arrays.  Each stretch of host operations is read at the one buffer the rest of the program
  uses, from ANY contents of the buffers at the stretch's entry.
-/
import proofs.«115280_j31628139168172_2_alg».proof.Proof.Gen.KernelIdeal.Launch
import proofs.«115280_j31628139168172_2_alg».proof.Proof.TailSpec
import Idealize.ShloMosaic.Lib.StableHlo.Run

set_option maxRecDepth 16384

noncomputable section

namespace Cert.KernelIdeal.Hand

open Idealize.ShloMosaic Idealize.ShloMosaic.StableHlo Cert.KernelIdeal Cert.KernelIdeal.Gen

variable {F : FTy → Type} [FloatOps F]

/-- The projection is what the one operation before region 0 writes. -/
theorem proj_read (V : Valuation τ sig (Elt F)) :
    after hostOps0 V (Proc.devRef .tc main_v0)
      = Cert.Tail.proj (V (Proc.devRef .tc main_arg0)) (V (Proc.devRef .tc main_arg3)) := by
  simp only [after_cons, after_nil]
  rfl

attribute [local irreducible] Host.reduceAdd Host.sqrt Host.expm1 Host.divf Host.negf in
set_option maxHeartbeats 1000000 in
/-- After region 0's output h sits in its buffer, the seven stretches up to region 1 leave the glue of h. -/
theorem tail1_read (V : Valuation τ sig (Elt F)) :
    after hostOps1_6 (after hostOps1_5 (after hostOps1_4 (after hostOps1_3 (after hostOps1_2 (after hostOps1_1
        (after hostOps1 V)))))) (Proc.devRef .tc main_v30)
      = Cert.Tail.tail (V (Proc.devRef .tc main_v1)) (V (Proc.devRef .tc main_arg4))
          (V (Proc.devRef .tc main_arg5)) (V (Proc.devRef .tc main_arg6)) := by
  simp only [after_cons, after_nil]
  rfl

/-- The last stretch stacks the first sweep's array on the difference it has just formed. -/
theorem stack_read (W : Valuation τ sig (Elt F)) :
    after hostOps2_6 W (Proc.devRef .tc main_v63)
      = Cert.Tail.stack (W (Proc.devRef .tc main_v30)) (after hostOps2_6 W (Proc.devRef .tc main_v60)) := by
  simp only [after_cons, after_nil]
  rfl

attribute [local irreducible] Host.reduceAdd Host.sqrt Host.expm1 Host.divf Host.negf in
/-- The first sweep's array is not written by the stretches after region 1. -/
theorem pass2_main_v30 (V : Valuation τ sig (Elt F)) :
    after hostOps2_5 (after hostOps2_4 (after hostOps2_3 (after hostOps2_2 (after hostOps2_1
        (after hostOps2 V))))) (Proc.devRef .tc main_v30) = V (Proc.devRef .tc main_v30) := by
  simp only [after_cons, after_nil]
  rfl

attribute [local irreducible] Host.reduceAdd Host.sqrt Host.expm1 Host.divf Host.negf in
set_option maxHeartbeats 1000000 in
/-- After region 1's output h' sits in its buffer, the last seven stretches leave the glue of h'. -/
theorem tail2_at (V : Valuation τ sig (Elt F)) :
    after hostOps2_6 (after hostOps2_5 (after hostOps2_4 (after hostOps2_3 (after hostOps2_2 (after hostOps2_1
        (after hostOps2 V)))))) (Proc.devRef .tc main_v60)
      = Cert.Tail.tail (V (Proc.devRef .tc main_v31)) (V (Proc.devRef .tc main_arg4))
          (V (Proc.devRef .tc main_arg5)) (V (Proc.devRef .tc main_arg6)) := by
  simp only [after_cons, after_nil]
  rfl

/-- After region 1's output h' sits in its buffer, the last seven stretches leave the first sweep's array
    stacked on the glue of h'. -/
theorem tail2_read (V : Valuation τ sig (Elt F)) :
    after hostOps2_6 (after hostOps2_5 (after hostOps2_4 (after hostOps2_3 (after hostOps2_2 (after hostOps2_1
        (after hostOps2 V)))))) (Proc.devRef .tc main_v63)
      = Cert.Tail.stack (V (Proc.devRef .tc main_v30))
          (Cert.Tail.tail (V (Proc.devRef .tc main_v31)) (V (Proc.devRef .tc main_arg4))
            (V (Proc.devRef .tc main_arg5)) (V (Proc.devRef .tc main_arg6))) :=
  (stack_read _).trans (congr (congrArg Cert.Tail.stack (pass2_main_v30 V)) (tail2_at V))

/-! The buffers the later stretches still need are not written meanwhile. -/

theorem pass0_main_arg1 (V : Valuation τ sig (Elt F)) :
    after hostOps0 V (Proc.devRef .tc main_arg1) = V (Proc.devRef .tc main_arg1) := by
  simp only [after_cons, after_nil]
  rfl

theorem pass0_main_arg2 (V : Valuation τ sig (Elt F)) :
    after hostOps0 V (Proc.devRef .tc main_arg2) = V (Proc.devRef .tc main_arg2) := by
  simp only [after_cons, after_nil]
  rfl

theorem pass0_main_arg4 (V : Valuation τ sig (Elt F)) :
    after hostOps0 V (Proc.devRef .tc main_arg4) = V (Proc.devRef .tc main_arg4) := by
  simp only [after_cons, after_nil]
  rfl

theorem pass0_main_arg5 (V : Valuation τ sig (Elt F)) :
    after hostOps0 V (Proc.devRef .tc main_arg5) = V (Proc.devRef .tc main_arg5) := by
  simp only [after_cons, after_nil]
  rfl

theorem pass0_main_arg6 (V : Valuation τ sig (Elt F)) :
    after hostOps0 V (Proc.devRef .tc main_arg6) = V (Proc.devRef .tc main_arg6) := by
  simp only [after_cons, after_nil]
  rfl

attribute [local irreducible] Host.reduceAdd Host.sqrt Host.expm1 Host.divf Host.negf in
theorem pass1_main_arg1 (V : Valuation τ sig (Elt F)) :
    after hostOps1_6 (after hostOps1_5 (after hostOps1_4 (after hostOps1_3 (after hostOps1_2 (after hostOps1_1
        (after hostOps1 V)))))) (Proc.devRef .tc main_arg1) = V (Proc.devRef .tc main_arg1) := by
  simp only [after_cons, after_nil]
  rfl

attribute [local irreducible] Host.reduceAdd Host.sqrt Host.expm1 Host.divf Host.negf in
theorem pass1_main_arg4 (V : Valuation τ sig (Elt F)) :
    after hostOps1_6 (after hostOps1_5 (after hostOps1_4 (after hostOps1_3 (after hostOps1_2 (after hostOps1_1
        (after hostOps1 V)))))) (Proc.devRef .tc main_arg4) = V (Proc.devRef .tc main_arg4) := by
  simp only [after_cons, after_nil]
  rfl

attribute [local irreducible] Host.reduceAdd Host.sqrt Host.expm1 Host.divf Host.negf in
theorem pass1_main_arg5 (V : Valuation τ sig (Elt F)) :
    after hostOps1_6 (after hostOps1_5 (after hostOps1_4 (after hostOps1_3 (after hostOps1_2 (after hostOps1_1
        (after hostOps1 V)))))) (Proc.devRef .tc main_arg5) = V (Proc.devRef .tc main_arg5) := by
  simp only [after_cons, after_nil]
  rfl

attribute [local irreducible] Host.reduceAdd Host.sqrt Host.expm1 Host.divf Host.negf in
theorem pass1_main_arg6 (V : Valuation τ sig (Elt F)) :
    after hostOps1_6 (after hostOps1_5 (after hostOps1_4 (after hostOps1_3 (after hostOps1_2 (after hostOps1_1
        (after hostOps1 V)))))) (Proc.devRef .tc main_arg6) = V (Proc.devRef .tc main_arg6) := by
  simp only [after_cons, after_nil]
  rfl

attribute [local irreducible] Host.reduceAdd Host.sqrt Host.expm1 Host.divf Host.negf in
theorem pass1_main_v0 (V : Valuation τ sig (Elt F)) :
    after hostOps1_6 (after hostOps1_5 (after hostOps1_4 (after hostOps1_3 (after hostOps1_2 (after hostOps1_1
        (after hostOps1 V)))))) (Proc.devRef .tc main_v0) = V (Proc.devRef .tc main_v0) := by
  simp only [after_cons, after_nil]
  rfl

end Cert.KernelIdeal.Hand

end
-- ==== Proof.DsSpec.lean ====
/-
  The arithmetic both programs perform, written once on the extended reals.

  One sweep takes the Laplacians L (3 views, 6144 x 6144), the current estimate z (6144 x 10) and the
  projected features P (3 views, 6144 x 10) to an array h (6144 x 10).  Row r of h depends on row r of
  the three evidence arrays only:  the pre-activation of view v is  z(r,j) - sum_m L(v,r,m) z(m,j) + P(v,r,j),
  its evidence is  softplus + 1  (`alpha`),  and the three rows of evidences are fused, the first two and then
  the result with the third, by Dempster's rule for Dirichlet evidences (`ds`).  Every step is the exact
  operation of the extended reals (a quotient is `Ideal.div`), so nothing here needs a finite input: the two
  programs apply the same operations to the same sums.
-/
import Idealize.ShloMosaic.PureOps.Ideal
import Idealize.ShloMosaic.PureOps.Ideal.Laws
import Idealize.ShloMosaic.Lib.ValueIdx

noncomputable section

namespace Cert.DS

open Idealize.ShloMosaic Idealize.ShloMosaic.ValueIdx

/-- The f32 word of 1.0, read as an extended real. -/
abbrev w1 : EReal := Ideal.ofBits .f32 0x3F800000#32
/-- The f32 word of 10.0 (the number of classes), read as an extended real. -/
abbrev w10 : EReal := Ideal.ofBits .f32 0x41200000#32

/-- Evidence of a pre-activation: softplus x + 1, with softplus x = max x 0 + log (1 + e^(-|x|)) and
    |x| = max x (-x). -/
def alpha (x : EReal) : EReal := max x 0 + Ideal.log1p (Ideal.exp (-(max x (-x)))) + w1

/-- The sum of a row of ten entries. -/
def rsum (a : Fin 10 → EReal) : EReal := ∑ j : Fin 10, a j

/-- Belief masses of a row of evidences: (a_j - 1) / S with S the row's sum. -/
def belief (a : Fin 10 → EReal) (j : Fin 10) : EReal := Ideal.div (a j - w1) (rsum a)

/-- Uncertainty mass of a row of evidences: 10 / S. -/
def unc (a : Fin 10 → EReal) : EReal := Ideal.div w10 (rsum a)

/-- Conflict of two rows: (sum of b1)(sum of b2) - sum of b1 b2. -/
def conflict (a b : Fin 10 → EReal) : EReal :=
  rsum (belief a) * rsum (belief b) - rsum (fun j => belief a j * belief b j)

/-- Dempster's combination of two rows of evidences, entry k:
    b = (b1 b2 + b1 u2 + b2 u1) / (1 - C),  u = u1 u2 / (1 - C),  result  b * (10 / u) + 1. -/
def ds (a b : Fin 10 → EReal) (k : Fin 10) : EReal :=
  Ideal.div (belief a k * belief b k + belief a k * unc b + belief b k * unc a) (w1 - conflict a b)
    * Ideal.div w10 (Ideal.div (unc a * unc b) (w1 - conflict a b)) + w1

/-- Pre-activation of view v at (r, j): z(r,j) - sum_m L(v,r,m) z(m,j) + P(v,r,j). -/
def pre (L : (⟨3, ![3, 6144, 6144]⟩ : Shape).Idx → EReal) (z : (⟨2, ![6144, 10]⟩ : Shape).Idx → EReal)
    (P : (⟨3, ![3, 6144, 10]⟩ : Shape).Idx → EReal) (v : Fin 3) (r : Fin 6144) (j : Fin 10) : EReal :=
  z (ix2 r j) - (∑ m : Fin 6144, L (ix3 v r m) * z (ix2 m j)) + P (ix3 v r j)

/-- Row r of the evidences of view v. -/
def ev (L : (⟨3, ![3, 6144, 6144]⟩ : Shape).Idx → EReal) (z : (⟨2, ![6144, 10]⟩ : Shape).Idx → EReal)
    (P : (⟨3, ![3, 6144, 10]⟩ : Shape).Idx → EReal) (v : Fin 3) (r : Fin 6144) : Fin 10 → EReal :=
  fun j => alpha (pre L z P v r j)

/-- Entry (r, k) of one sweep's fused evidences. -/
def Hrow (L : (⟨3, ![3, 6144, 6144]⟩ : Shape).Idx → EReal) (z : (⟨2, ![6144, 10]⟩ : Shape).Idx → EReal)
    (P : (⟨3, ![3, 6144, 10]⟩ : Shape).Idx → EReal) (r : Fin 6144) (k : Fin 10) : EReal :=
  ds (ds (ev L z P 0 r) (ev L z P 1 r)) (ev L z P 2 r) k

/-- One sweep's fused evidences as an array. -/
def H (L : (⟨3, ![3, 6144, 6144]⟩ : Shape).Idx → EReal) (z : (⟨2, ![6144, 10]⟩ : Shape).Idx → EReal)
    (P : (⟨3, ![3, 6144, 10]⟩ : Shape).Idx → EReal) : (⟨2, ![6144, 10]⟩ : Shape).Idx → EReal :=
  fun i => Hrow L z P (i 0) (i 1)

theorem H_apply (L : (⟨3, ![3, 6144, 6144]⟩ : Shape).Idx → EReal) (z : (⟨2, ![6144, 10]⟩ : Shape).Idx → EReal)
    (P : (⟨3, ![3, 6144, 10]⟩ : Shape).Idx → EReal) (r : Fin 6144) (k : Fin 10) :
    H L z P (ix2 r k) = Hrow L z P r k := rfl

end Cert.DS

end
-- ==== Proof.OutSpec.lean ====
/-
  What both programs return, as one function of the seven argument arrays.

  With P the per-view projection of the features, the first sweep fuses the evidences of (L, z, P) into h
  and passes h through the glue to z1; the second sweep does the same from z1; the result stacks z1 on the
  second sweep's array.
-/
import proofs.«115280_j31628139168172_2_alg».proof.Proof.DsSpec
import proofs.«115280_j31628139168172_2_alg».proof.Proof.TailSpec

noncomputable section

namespace Cert.Out

open Idealize.ShloMosaic Cert.KernelIdeal

/-- The first sweep's thresholded array. -/
def z1 (X : (⟨S3x6144x512, .f32⟩ : BufTy).Contents (Elt Ideal)) (L : (⟨S3x6144x6144, .f32⟩ : BufTy).Contents (Elt Ideal))
    (z : (⟨S6144x10, .f32⟩ : BufTy).Contents (Elt Ideal)) (U : (⟨S3x512x10, .f32⟩ : BufTy).Contents (Elt Ideal))
    (θ : (⟨S1, .f32⟩ : BufTy).Contents (Elt Ideal)) (γ β : (⟨S10, .f32⟩ : BufTy).Contents (Elt Ideal)) :
    (⟨S6144x10, .f32⟩ : BufTy).Contents (Elt Ideal) :=
  Cert.Tail.tail (Cert.DS.H L z (Cert.Tail.proj X U)) θ γ β

/-- The program's result: the two sweeps' arrays stacked. -/
def out (X : (⟨S3x6144x512, .f32⟩ : BufTy).Contents (Elt Ideal)) (L : (⟨S3x6144x6144, .f32⟩ : BufTy).Contents (Elt Ideal))
    (z : (⟨S6144x10, .f32⟩ : BufTy).Contents (Elt Ideal)) (U : (⟨S3x512x10, .f32⟩ : BufTy).Contents (Elt Ideal))
    (θ : (⟨S1, .f32⟩ : BufTy).Contents (Elt Ideal)) (γ β : (⟨S10, .f32⟩ : BufTy).Contents (Elt Ideal)) :
    (⟨S2x6144x10, .f32⟩ : BufTy).Contents (Elt Ideal) :=
  Cert.Tail.stack (z1 X L z U θ γ β)
    (Cert.Tail.tail (Cert.DS.H L (z1 X L z U θ γ β) (Cert.Tail.proj X U)) θ γ β)

end Cert.Out

end
-- ==== Proof.KValue.lean ====
/-
  The idealized kernel program's result buffer after the run, as the shared function of the arguments.

  The run's last boundary is the launch memory folded through: the projection; region 0, whose output is the
  fused evidences of (L, z, P); the glue, giving z1; region 1, whose output is the fused evidences of
  (L, z1, P); the glue and the stack.  Each step is one of the readings of the host stretches or one of the
  two regions' values, and the buffers a step needs are carried across the steps that do not write them.
-/
import proofs.«115280_j31628139168172_2_alg».proof.Proof.Gen.KernelIdeal.Frame
import proofs.«115280_j31628139168172_2_alg».proof.Proof.KTail
import proofs.«115280_j31628139168172_2_alg».proof.Proof.OutSpec

set_option maxRecDepth 16384

noncomputable section

namespace Cert.KernelIdeal.Hand

open Idealize.ShloMosaic Idealize.ShloMosaic.TcCoe Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- Given the two regions' values at ANY entry contents, the last boundary's contents of the result buffer
    are the shared function of the launch memory's argument arrays. -/
theorem kernel_value_of
    (h0 : ∀ (V : (c : Dev nD) → (b : Ref sig .tc) → Buf (Elt Ideal) ((c : Thread nD τ).loc b)) (c : Dev nD),
      (dat0 (F := Ideal) V c).arrAt 3 cfg0.N = Cert.DS.H (V c main_arg1) (V c main_arg2) (V c main_v0))
    (h1 : ∀ (V : (c : Dev nD) → (b : Ref sig .tc) → Buf (Elt Ideal) ((c : Thread nD τ).loc b)) (c : Dev nD),
      (dat1 (F := Ideal) V c).arrAt 3 cfg1.N = Cert.DS.H (V c main_arg1) (V c main_v30) (V c main_v0))
    (c : Dev nD) :
    W17 m ρ c (Proc.devRef .tc main_v63)
      = Cert.Out.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- region 0's entry: the projection is formed, the arguments are as launched
  have e1P : W1 m ρ c (Proc.devRef .tc main_v0) = Cert.Tail.proj (m ((c : Thread nD τ).loc main_arg0)) (m ((c : Thread nD τ).loc main_arg3)) := proj_read (W0 m ρ c)
  have e1a1 : W1 m ρ c (Proc.devRef .tc main_arg1) = (m ((c : Thread nD τ).loc main_arg1)) := pass0_main_arg1 (W0 m ρ c)
  have e1a2 : W1 m ρ c (Proc.devRef .tc main_arg2) = (m ((c : Thread nD τ).loc main_arg2)) := pass0_main_arg2 (W0 m ρ c)
  have e1a4 : W1 m ρ c (Proc.devRef .tc main_arg4) = (m ((c : Thread nD τ).loc main_arg4)) := pass0_main_arg4 (W0 m ρ c)
  have e1a5 : W1 m ρ c (Proc.devRef .tc main_arg5) = (m ((c : Thread nD τ).loc main_arg5)) := pass0_main_arg5 (W0 m ρ c)
  have e1a6 : W1 m ρ c (Proc.devRef .tc main_arg6) = (m ((c : Thread nD τ).loc main_arg6)) := pass0_main_arg6 (W0 m ρ c)
  -- region 0's exit: its output holds the fused evidences; its input arrays and the other buffers are kept
  have e2h : W2 m ρ c (Proc.devRef .tc main_v1)
      = Cert.DS.H (m ((c : Thread nD τ).loc main_arg1)) (m ((c : Thread nD τ).loc main_arg2)) (Cert.Tail.proj (m ((c : Thread nD τ).loc main_arg0)) (m ((c : Thread nD τ).loc main_arg3))) :=
    (W2_arr m ρ c 3).trans ((h0 (V1 m ρ) c).trans (congr (congr (congrArg Cert.DS.H e1a1) e1a2) e1P))
  have e2a1 : W2 m ρ c (Proc.devRef .tc main_arg1) = (m ((c : Thread nD τ).loc main_arg1)) :=
    ((W2_arr m ρ c 0).trans (((dat0 (V1 m ρ) c).arrAt_in 0 rfl _).trans (A_eq0 (V1 m ρ) c 0))).trans e1a1
  have e2P : W2 m ρ c (Proc.devRef .tc main_v0) = Cert.Tail.proj (m ((c : Thread nD τ).loc main_arg0)) (m ((c : Thread nD τ).loc main_arg3)) :=
    ((W2_arr m ρ c 2).trans (((dat0 (V1 m ρ) c).arrAt_in 2 rfl _).trans (A_eq0 (V1 m ρ) c 2))).trans e1P
  have e2a4 : W2 m ρ c (Proc.devRef .tc main_arg4) = (m ((c : Thread nD τ).loc main_arg4)) := (W2_of_ne m ρ c main_arg4 (by decide)).trans e1a4
  have e2a5 : W2 m ρ c (Proc.devRef .tc main_arg5) = (m ((c : Thread nD τ).loc main_arg5)) := (W2_of_ne m ρ c main_arg5 (by decide)).trans e1a5
  have e2a6 : W2 m ρ c (Proc.devRef .tc main_arg6) = (m ((c : Thread nD τ).loc main_arg6)) := (W2_of_ne m ρ c main_arg6 (by decide)).trans e1a6
  -- region 1's entry: the glue of region 0's output
  have e9z : W9 m ρ c (Proc.devRef .tc main_v30) = Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (tail1_read (W2 m ρ c)).trans (congr (congr (congr (congrArg Cert.Tail.tail e2h) e2a4) e2a5) e2a6)
  have e9a1 : W9 m ρ c (Proc.devRef .tc main_arg1) = (m ((c : Thread nD τ).loc main_arg1)) := (pass1_main_arg1 (W2 m ρ c)).trans e2a1
  have e9P : W9 m ρ c (Proc.devRef .tc main_v0) = Cert.Tail.proj (m ((c : Thread nD τ).loc main_arg0)) (m ((c : Thread nD τ).loc main_arg3)) := (pass1_main_v0 (W2 m ρ c)).trans e2P
  have e9a4 : W9 m ρ c (Proc.devRef .tc main_arg4) = (m ((c : Thread nD τ).loc main_arg4)) := (pass1_main_arg4 (W2 m ρ c)).trans e2a4
  have e9a5 : W9 m ρ c (Proc.devRef .tc main_arg5) = (m ((c : Thread nD τ).loc main_arg5)) := (pass1_main_arg5 (W2 m ρ c)).trans e2a5
  have e9a6 : W9 m ρ c (Proc.devRef .tc main_arg6) = (m ((c : Thread nD τ).loc main_arg6)) := (pass1_main_arg6 (W2 m ρ c)).trans e2a6
  -- region 1's exit
  have e10h : W10 m ρ c (Proc.devRef .tc main_v31)
      = Cert.DS.H (m ((c : Thread nD τ).loc main_arg1)) (Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
          (Cert.Tail.proj (m ((c : Thread nD τ).loc main_arg0)) (m ((c : Thread nD τ).loc main_arg3))) :=
    (W10_arr m ρ c 3).trans ((h1 (V9 m ρ) c).trans (congr (congr (congrArg Cert.DS.H e9a1) e9z) e9P))
  have e10z : W10 m ρ c (Proc.devRef .tc main_v30) = Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    ((W10_arr m ρ c 1).trans (((dat1 (V9 m ρ) c).arrAt_in 1 rfl _).trans (A_eq1 (V9 m ρ) c 1))).trans e9z
  have e10a4 : W10 m ρ c (Proc.devRef .tc main_arg4) = (m ((c : Thread nD τ).loc main_arg4)) := (W10_of_ne m ρ c main_arg4 (by decide)).trans e9a4
  have e10a5 : W10 m ρ c (Proc.devRef .tc main_arg5) = (m ((c : Thread nD τ).loc main_arg5)) := (W10_of_ne m ρ c main_arg5 (by decide)).trans e9a5
  have e10a6 : W10 m ρ c (Proc.devRef .tc main_arg6) = (m ((c : Thread nD τ).loc main_arg6)) := (W10_of_ne m ρ c main_arg6 (by decide)).trans e9a6
  -- the last stretches: the glue of region 1's output, stacked under the first sweep's array
  exact (tail2_read (W10 m ρ c)).trans
    (congr (congrArg Cert.Tail.stack e10z) (congr (congr (congr (congrArg Cert.Tail.tail e10h) e10a4) e10a5) e10a6))

end Cert.KernelIdeal.Hand

end
-- ==== Proof.KRegion0Body.lean ====
/-
  One grid point of the fused kernel, read entry by entry on the extended reals.

  The body of the kernel loads the whole estimate z (6144 x 10), the 128 rows of z that belong to the point,
  and for each of the three views a 128 x 6144 block of the Laplacian and a 128 x 10 block of the projected
  features.  It forms the three pre-activations  z(r,j) - sum_m L_v(r,m) z(m,j) + P_v(r,j)  (the product
  on the matrix unit, whose operands pass through a narrower format that is the identity on extended
  reals), their evidences  softplus + 1, and fuses the three rows of evidences by Dempster's rule, the
  first two and then the result with the third.  This file names that tree of operations (`body`) over
  the loaded blocks as variables and proves that its entry (p, q) is the specification's
  `ds (ds e0 e1) e2 q` of the three rows of evidences of row p.
-/
import proofs.«115280_j31628139168172_2_alg».proof.Proof.Gen.KernelIdeal.Skeleton
import proofs.«115280_j31628139168172_2_alg».proof.Proof.DsSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.ValueIdx

namespace Cert.KernelIdeal.Hand0

open Cert.KernelIdeal Cert.KernelIdeal.Gen

/-! ## The body's value as one term of its loaded blocks -/

section AnyInstance
variable {F : FTy → Type} [FloatOps F]

/-- What the body stores, as a term of what it loads: the whole estimate `z`, the point's rows `zs` of it,
    and per view the Laplacian block `l` and the feature block `f`. -/
def body (z : Vec F S6144x10 .f32) (zs : Vec F S128x10 .f32)
    (l0 l1 l2 : Vec F S1x128x6144 .f32) (f0 f1 f2 : Vec F S1x128x10 .f32) : FVec F S128x10 .f32 :=
  k0_pay1 (k0_pay6 (k0_pay2 z) zs l2 f2)
    (k0_pay9 (k0_pay3 z zs l0 f0) (k0_pay5 (k0_pay4 z zs l1 f1)) (k0_pay7 (k0_pay3 z zs l0 f0))
      (k0_pay8 (k0_pay4 z zs l1 f1)) (Scalar.ofBits .f32 0x3F800000#32))
    (k0_pay10 (k0_pay3 z zs l0 f0) (k0_pay5 (k0_pay4 z zs l1 f1)) (k0_pay7 (k0_pay3 z zs l0 f0))
      (k0_pay8 (k0_pay4 z zs l1 f1)) (Scalar.ofBits .f32 0x3F800000#32))
    (k0_pay11 (k0_pay6 (k0_pay2 z) zs l2 f2))
    k0_pay12

end AnyInstance

/-! ## Layout operations with a kept unit axis, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The non-pointwise operations of the body, read at an index -/

/-- A row of a 128 x 10 array. -/
abbrev row (x : FVec Ideal S128x10 .f32) (p : Fin 128) : Fin 10 → EReal := fun j => x (ix2 p j)

/-- The lane sum with the reduced axis kept: entry `(p, u)` is the sum of row `p`. -/
theorem rowsum_apply (x : FVec Ideal S128x10 .f32) (h : S128x10.Reduces [1] S128) (hφ : FKind.Formats .f32)
    (hacc : (0x00000000#32 : BitVec 32) = 0x00000000#32) (hc : S128.ShapeCasts S128x1)
    (p : Fin 128) (u : Fin 1) :
    shapeCast S128x1 (multiReduction .add [1] S128 x 0x00000000#32 h hφ hacc) hc (ix2 p u)
      = DS.rsum (fun j => x (ix2 p j)) := by
  refine (shapeCast_a_a1_apply _ hc p u).trans ?_
  refine (Ideal.multiReduction_add_single x 0x00000000#32 h hφ hacc (ix1 p)).trans ?_
  exact Finset.sum_congr rfl fun j _ => congrArg x (funext fun a => Fin.ext (by
    match a with
    | ⟨0, _⟩ => rfl
    | ⟨1, _⟩ => rfl))

/-- The matrix unit's product into a zero accumulator: entry `(p, j)` is the sum over the contracted
    coordinate of the products of the entries. -/
theorem mm_apply {φ₁ φ₂ : FTy} (A : FVec Ideal S128x6144 φ₁) (B : FVec Ideal S6144x10 φ₂) (p : Fin 128) (j : Fin 10) :
    matmul dot_S128x6144_S6144x10_S128x10_1_0_0_1_n_n none A B (constant (F := Ideal) S128x10 .f32 0x00000000#32) (ix2 p j)
      = ∑ m : Fin 6144, A (ix2 p m) * B (ix2 m j) := by
  show FloatOps.matmul _ none A B _ (ix2 p j) = _
  rw [Ideal.matmul_constant_zero_apply, ← Equiv.sum_comp (contrEquiv1 dot_S128x6144_S6144x10_S128x10_1_0_0_1_n_n 6144 rfl rfl).symm]
  refine Finset.sum_congr rfl fun c _ => ?_
  have c2 := contrEquiv1_symm_val dot_S128x6144_S6144x10_S128x10_1_0_0_1_n_n 6144 rfl rfl c
  have l2 : (dot_S128x6144_S6144x10_S128x10_1_0_0_1_n_n).lhsIdx (ix2 p j) ((contrEquiv1 _ 6144 rfl rfl).symm c) = ix2 p c := by
    funext ax; apply Fin.ext
    match ax with
    | ⟨0, _⟩ => simp [DotDims.lhsIdx, dot_S128x6144_S6144x10_S128x10_1_0_0_1_n_n]; rfl
    | ⟨1, _⟩ => simp [DotDims.lhsIdx, dot_S128x6144_S6144x10_S128x10_1_0_0_1_n_n]; exact c2
  have r2 : (dot_S128x6144_S6144x10_S128x10_1_0_0_1_n_n).rhsIdx (ix2 p j) ((contrEquiv1 _ 6144 rfl rfl).symm c) = ix2 c j := by
    funext ax; apply Fin.ext
    match ax with
    | ⟨0, _⟩ => simp [DotDims.rhsIdx, dot_S128x6144_S6144x10_S128x10_1_0_0_1_n_n]; exact c2
    | ⟨1, _⟩ => simp [DotDims.rhsIdx, dot_S128x6144_S6144x10_S128x10_1_0_0_1_n_n]; rfl
  rw [l2, r2]

/-! ## The pointwise stages -/

/-- The pre-activation of one view at `(p, j)`: the point's row of z, minus the row of the Laplacian block
    against column j of z, plus the feature block's entry. -/
theorem pre_apply (z : Vec Ideal S6144x10 .f32) (zs : Vec Ideal S128x10 .f32) (l : Vec Ideal S1x128x6144 .f32)
    (f : Vec Ideal S1x128x10 .f32) (p : Fin 128) (j : Fin 10) :
    k0_pay4 z zs l f (ix2 p j)
      = zs (ix2 p j) - (∑ m : Fin 6144, l (ix3 (0 : Fin 1) p m) * z (ix2 m j)) + f (ix3 (0 : Fin 1) p j) := by
  unfold k0_pay4 k0_pay2
  simp only [addf_apply, subf_apply, mm_apply, truncf_apply, shapeCast_1ab_ab_apply]

/-- The evidence of a pre-activation: the kernel's softplus (its guard against an unordered operand never
    fires on extended reals) plus one is the specification's `alpha`. -/
theorem evidence_apply (h : FVec Ideal S128x10 .f32) (i : S128x10.Idx) : k0_pay5 h i = DS.alpha (h i) := by
  unfold k0_pay5
  show Scalar.select (Ideal.cmp .one (h i - Ideal.ofBits .f32 0x00000000#32) (h i - Ideal.ofBits .f32 0x00000000#32))
      (h i + Ideal.ofBits .f32 0x00000000#32)
      (max (h i) (Ideal.ofBits .f32 0x00000000#32) + Ideal.log1p (Ideal.exp (Ideal.ofBits .f32 0x00000000#32
        - max (h i - Ideal.ofBits .f32 0x00000000#32) (-(h i - Ideal.ofBits .f32 0x00000000#32)))))
      + Ideal.ofBits .f32 0x3F800000#32 = _
  have hc : Ideal.cmp .one (h i) (h i) = 0#1 := by simp [Ideal.cmp]
  rw [Ideal.ofBits_zero_f32, sub_zero, zero_sub, hc, select_zero]
  rfl

/-- The first view's evidence payload is the evidence of its pre-activation. -/
theorem pay3_eq (z : Vec Ideal S6144x10 .f32) (zs : Vec Ideal S128x10 .f32) (l : Vec Ideal S1x128x6144 .f32)
    (f : Vec Ideal S1x128x10 .f32) : k0_pay3 z zs l f = k0_pay5 (k0_pay4 z zs l f) := rfl

/-- So is the third view's. -/
theorem pay6_eq (z : Vec Ideal S6144x10 .f32) (zs : Vec Ideal S128x10 .f32) (l : Vec Ideal S1x128x6144 .f32)
    (f : Vec Ideal S1x128x10 .f32) : k0_pay6 (k0_pay2 z) zs l f = k0_pay5 (k0_pay4 z zs l f) := rfl

/-- Row `p` of one view's evidences, from the loaded blocks. -/
def evb (z : Vec Ideal S6144x10 .f32) (zs : Vec Ideal S128x10 .f32) (l : Vec Ideal S1x128x6144 .f32)
    (f : Vec Ideal S1x128x10 .f32) (p : Fin 128) : Fin 10 → EReal :=
  fun j => DS.alpha (zs (ix2 p j) - (∑ m : Fin 6144, l (ix3 (0 : Fin 1) p m) * z (ix2 m j)) + f (ix3 (0 : Fin 1) p j))

theorem row_evidence (z : Vec Ideal S6144x10 .f32) (zs : Vec Ideal S128x10 .f32) (l : Vec Ideal S1x128x6144 .f32)
    (f : Vec Ideal S1x128x10 .f32) (p : Fin 128) : row (k0_pay5 (k0_pay4 z zs l f)) p = evb z zs l f p :=
  funext fun j => (evidence_apply _ _).trans (congrArg DS.alpha (pre_apply z zs l f p j))

/-! ## Dempster's rule on two arrays of evidences -/

/-- The combination payload at `(p, q)`, given that the two columns of row sums hold the rows' sums: the
    specification's `ds` of the two rows. -/
theorem combine_apply (a b : FVec Ideal S128x10 .f32) (sa sb : FVec Ideal S128x1 .f32) (p : Fin 128) (q : Fin 10)
    (hsa : sa (ix2 p (0 : Fin 1)) = DS.rsum (row a p)) (hsb : sb (ix2 p (0 : Fin 1)) = DS.rsum (row b p)) :
    k0_pay9 a b sa sb (Scalar.ofBits .f32 0x3F800000#32) (ix2 p q) = DS.ds (row a p) (row b p) q := by
  unfold k0_pay9
  simp only [addf_apply, mulf_apply, subf_apply, divf_apply, broadcast_apply, broadcastTo_a1_ab_apply]
  rw [rowsum_apply, rowsum_apply, rowsum_apply]
  simp only [addf_apply, mulf_apply, subf_apply, divf_apply, broadcast_apply, broadcastTo_a1_ab_apply, hsa, hsb]
  simp only [DS.ds, DS.belief, DS.unc, DS.conflict]
  rfl

/-! ## The payloads of the body against one another -/

/-- The column of row sums of an array: entry `(p, u)` is the sum of row `p`. -/
theorem rowsum_pay (x : FVec Ideal S128x10 .f32) (p : Fin 128) (u : Fin 1) :
    k0_pay7 x (ix2 p u) = DS.rsum (row x p) := by
  unfold k0_pay7
  exact rowsum_apply x _ _ _ _ p u

/-- The other three columns of row sums are the same operations on other operands. -/
theorem pay8_eq (h : FVec Ideal S128x10 .f32) : k0_pay8 h = k0_pay7 (k0_pay5 h) := rfl
theorem pay10_eq (a b : FVec Ideal S128x10 .f32) (sa sb : FVec Ideal S128x1 .f32) (c : Ideal .f32) :
    k0_pay10 a b sa sb c = k0_pay7 (k0_pay9 a b sa sb c) := rfl
theorem pay11_eq (x : FVec Ideal S128x10 .f32) : k0_pay11 x = k0_pay7 x := rfl

/-- The second combination is the first one's operations, its operands in the other order. -/
theorem pay1_eq (a b : FVec Ideal S128x10 .f32) (sa sb : FVec Ideal S128x1 .f32) :
    k0_pay1 b a sa sb k0_pay12 = k0_pay9 a b sa sb (Scalar.ofBits .f32 0x3F800000#32) := rfl

/-- Dempster's rule on two arrays of evidences with their own columns of row sums. -/
theorem fuse_apply (a b : FVec Ideal S128x10 .f32) (p : Fin 128) (q : Fin 10) :
    k0_pay9 a b (k0_pay7 a) (k0_pay7 b) (Scalar.ofBits .f32 0x3F800000#32) (ix2 p q) = DS.ds (row a p) (row b p) q :=
  combine_apply a b _ _ p q (rowsum_pay a p 0) (rowsum_pay b p 0)

theorem fuse_row (a b : FVec Ideal S128x10 .f32) (p : Fin 128) :
    row (k0_pay9 a b (k0_pay7 a) (k0_pay7 b) (Scalar.ofBits .f32 0x3F800000#32)) p = DS.ds (row a p) (row b p) :=
  funext fun q => fuse_apply a b p q

/-! ## The body at an entry -/

/-- Entry `(p, q)` of what the body stores: the three rows of evidences of row `p`, fused the first two and
    then the result with the third. -/
theorem body_apply (z : Vec Ideal S6144x10 .f32) (zs : Vec Ideal S128x10 .f32)
    (l0 l1 l2 : Vec Ideal S1x128x6144 .f32) (f0 f1 f2 : Vec Ideal S1x128x10 .f32) (p : Fin 128) (q : Fin 10) :
    body z zs l0 l1 l2 f0 f1 f2 (ix2 p q)
      = DS.ds (DS.ds (evb z zs l0 f0 p) (evb z zs l1 f1 p)) (evb z zs l2 f2 p) q := by
  unfold body
  rw [pay3_eq, pay6_eq, pay8_eq, pay10_eq, pay11_eq, pay1_eq]
  refine (fuse_apply _ _ p q).trans ?_
  rw [fuse_row, row_evidence, row_evidence, row_evidence]

end Cert.KernelIdeal.Hand0

end
-- ==== Proof.KRegion0.lean ====
/-
  The value of the first sweep's fused kernel region: the output array ends holding the specification's
  array `DS.H` of the region-entry contents of the Laplacians, the estimate and the projected features.

  Grid point t handles rows 128 t .. 128 t + 127.  The body's one covering store leaves, in the output's
  staging buffer, the term `body` of the body's loads (`out_eq`); each load reads a rectangle of an input
  block, and each input block is the rectangle of its array that the point's index map names
  (`blkL`, `blkZ`, `blkP`), so entry (p, q) of what point t writes back is `DS.Hrow` at row 128 t + p
  (`outs_apply`, `flushed_eq`).  The 48 blocks tile the 6144 rows (`cover`), which gives the array.
-/
import proofs.«115280_j31628139168172_2_alg».proof.Proof.Gen.KernelIdeal.Frame
import proofs.«115280_j31628139168172_2_alg».proof.Proof.DsSpec
import proofs.«115280_j31628139168172_2_alg».proof.Proof.KRegion0Body
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand0

open Cert.KernelIdeal Cert.KernelIdeal.Gen

theorem hz : (![0, 0] : Fin 2 → Nat) = fun _ => 0 := funext fun a => by fin_cases a <;> rfl

/-! ## What the body leaves in the output's staging buffer -/

section AnyInstance
variable {F : FTy → Type} [FloatOps F]

/-- The body's loads of its staging buffers, by their rectangles: the point's rows of the estimate, and per
    view the Laplacian rows and the feature rows. -/
abbrev ldZ (x1 : Vec F S6144x10 .f32) (i : grid0.Coords) : Vec F S128x10 .f32 :=
  View.ld x1 (Rect.unit (s := S6144x10) (k0_off1 i) S128x10.size (k0_off1_inb i))
abbrev ldL0 (x0 : Vec F S3x128x6144 .f32) : Vec F S1x128x6144 .f32 :=
  View.ld x0 (Rect.unit (s := S3x128x6144) ![0, 0, 0] S1x128x6144.size inb_S3x128x6144_S1x128x6144_0_0_0)
abbrev ldL1 (x0 : Vec F S3x128x6144 .f32) : Vec F S1x128x6144 .f32 :=
  View.ld x0 (Rect.unit (s := S3x128x6144) ![1, 0, 0] S1x128x6144.size inb_S3x128x6144_S1x128x6144_1_0_0)
abbrev ldL2 (x0 : Vec F S3x128x6144 .f32) : Vec F S1x128x6144 .f32 :=
  View.ld x0 (Rect.unit (s := S3x128x6144) ![2, 0, 0] S1x128x6144.size inb_S3x128x6144_S1x128x6144_2_0_0)
abbrev ldP0 (x2 : Vec F S3x128x10 .f32) : Vec F S1x128x10 .f32 :=
  View.ld x2 (Rect.unit (s := S3x128x10) ![0, 0, 0] S1x128x10.size inb_S3x128x10_S1x128x10_0_0_0)
abbrev ldP1 (x2 : Vec F S3x128x10 .f32) : Vec F S1x128x10 .f32 :=
  View.ld x2 (Rect.unit (s := S3x128x10) ![1, 0, 0] S1x128x10.size inb_S3x128x10_S1x128x10_1_0_0)
abbrev ldP2 (x2 : Vec F S3x128x10 .f32) : Vec F S1x128x10 .f32 :=
  View.ld x2 (Rect.unit (s := S3x128x10) ![2, 0, 0] S1x128x10.size inb_S3x128x10_S1x128x10_2_0_0)

/-- The run's one piece is a covering store of `body` of the body's loads: the whole estimate, the point's
    rows of it, and the three views' rows of the Laplacian block and of the feature block. -/
theorem out_eq (c : Dev nD) (i : grid0.Coords) (arg1 : Memref sig .tc .vmem S3x128x6144 .f32) (harg1 : arg1.IsWhole) (arg2 : Memref sig .tc .vmem S6144x10 .f32) (harg2 : arg2.IsWhole) (arg3 : Memref sig .tc .vmem S3x128x10 .f32) (harg3 : arg3.IsWhole) (arg4 : Memref sig .tc .vmem S128x10 .f32) (harg4 : arg4.IsWhole)
    (x0 : Vec F S3x128x6144 .f32) (x1 : Vec F S6144x10 .f32) (x2 : Vec F S3x128x10 .f32) :
    out0_A_3 c i arg1 harg1 arg2 harg2 arg3 harg3 arg4 harg4 x0 x1 x2
      = body x1 (ldZ x1 i) (ldL0 x0) (ldL1 x0) (ldL2 x0) (ldP0 x2) (ldP1 x2) (ldP2 x2) := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz]
  simp only [View.readAt_eq_ld, harg1.read_unread, harg2.read_unread, harg3.read_unread, View.ld_unit_zero (S := S6144x10) hz]
  rfl

/-! ## The input blocks as rectangles of their arrays -/

variable (V : (c : Dev nD) → (b : Ref sig .tc) → Buf (Elt F) ((c : Thread nD τ).loc b))

/-- The printed index maps, decided over the grid: the Laplacian, feature and output blocks move along the
    row axis with the point; the estimate's block is the whole array. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 2) = t.val ∧ win0_3.index t (1 : Fin 2) = 0
    ∧ k0_off1 (grid0.coords t) (0 : Fin 2) = 128 * t.val ∧ k0_off1 (grid0.coords t) (1 : Fin 2) = 0 :=
  (by decide +kernel : ∀ t : Fin grid0.N, _)

/-- The Laplacian block at point `t` is rows `128 t …` of the array, all views and all columns. -/
theorem blkL (c : Dev nD) (t : Fin cfg0.N) (y : S3x128x6144.Idx) (k : S3x6144x6144.Idx)
    (h0 : (k 0).val = (y 0).val) (h1 : (k 1).val = 128 * t.val + (y 1).val) (h2 : (k 2).val = (y 2).val) :
    (iblk0 V c 0 t : Vec F S3x128x6144 .f32) y = (V c main_arg1 : S3x6144x6144.Idx → Elt F .f32) k := by
  obtain ⟨e0, e1, e2, -⟩ := idx_facts t
  unfold iblk0
  rw [View.read_apply]
  show V c main_arg1 _ = V c main_arg1 _
  refine congrArg _ ?_
  funext a
  apply Fin.ext
  match a with
  | ⟨0, _⟩ => show win0_0.index t (0 : Fin 3) * 3 + 1 * (y 0).val = (k 0).val; rw [e0, h0]; omega
  | ⟨1, _⟩ => show win0_0.index t (1 : Fin 3) * 128 + 1 * (y 1).val = (k 1).val; rw [e1, h1]; omega
  | ⟨2, _⟩ => show win0_0.index t (2 : Fin 3) * 6144 + 1 * (y 2).val = (k 2).val; rw [e2, h2]; omega

/-- The estimate's block at every point is the whole array. -/
theorem blkZ (c : Dev nD) (t : Fin cfg0.N) (y : S6144x10.Idx) :
    (iblk0 V c 1 t : Vec F S6144x10 .f32) y = (V c main_arg2 : S6144x10.Idx → Elt F .f32) y := by
  obtain ⟨-, -, -, e0, e1, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 6144 + 1 * (y 0).val = (y 0).val; rw [e0]; omega
  | ⟨1, _⟩ => show win0_1.index t (1 : Fin 2) * 10 + 1 * (y 1).val = (y 1).val; rw [e1]; omega

/-- The feature block at point `t` is rows `128 t …` of the array, all views and all columns. -/
theorem blkP (c : Dev nD) (t : Fin cfg0.N) (y : S3x128x10.Idx) (k : S3x6144x10.Idx)
    (h0 : (k 0).val = (y 0).val) (h1 : (k 1).val = 128 * t.val + (y 1).val) (h2 : (k 2).val = (y 2).val) :
    (iblk0 V c 2 t : Vec F S3x128x10 .f32) y = (V c main_v0 : S3x6144x10.Idx → Elt F .f32) k := by
  obtain ⟨-, -, -, -, -, e0, e1, e2, -⟩ := idx_facts t
  unfold iblk0
  rw [View.read_apply]
  show V c main_v0 _ = V c main_v0 _
  refine congrArg _ ?_
  funext a
  apply Fin.ext
  match a with
  | ⟨0, _⟩ => show win0_2.index t (0 : Fin 3) * 3 + 1 * (y 0).val = (k 0).val; rw [e0, h0]; omega
  | ⟨1, _⟩ => show win0_2.index t (1 : Fin 3) * 128 + 1 * (y 1).val = (k 1).val; rw [e1, h1]; omega
  | ⟨2, _⟩ => show win0_2.index t (2 : Fin 3) * 10 + 1 * (y 2).val = (k 2).val; rw [e2, h2]; omega

end AnyInstance

/-! ## One point's block of the output, at the extended reals -/

section AtIdeal
variable (V : (c : Dev nD) → (b : Ref sig .tc) → Buf (Elt Ideal) ((c : Thread nD τ).loc b))

/-- The array row that row `p` of point `t`'s block is. -/
def rowOf (t : Fin cfg0.N) (p : Fin 128) : Fin 6144 :=
  ⟨128 * t.val + p.val, by have ht : t.val < 48 := lt_of_lt_of_eq t.isLt N_0; have := p.isLt; omega⟩

/-- Row `p` of a view's evidences, computed from the point's blocks, is row `128 t + p` of the specification's
    evidences of the arrays: each load reads where the point's index maps and the load's offsets say. -/
theorem ev_blk (c : Dev nD) (t : Fin cfg0.N) (v : Fin 3) (off : Fin 3 → Nat)
    (ho0 : off 0 = v.val) (ho1 : off 1 = 0) (ho2 : off 2 = 0)
    (hL : ∀ a, off a + S1x128x6144.size a ≤ S3x128x6144.size a) (hP : ∀ a, off a + S1x128x10.size a ≤ S3x128x10.size a)
    (p : Fin 128) :
    evb (iblk0 V c 1 t) (ldZ (iblk0 V c 1 t) (grid0.coords t))
        (View.ld (iblk0 V c 0 t) (Rect.unit (s := S3x128x6144) off S1x128x6144.size hL))
        (View.ld (iblk0 V c 2 t) (Rect.unit (s := S3x128x10) off S1x128x10.size hP)) p
      = DS.ev (V c main_arg1) (V c main_arg2) (V c main_v0) v (rowOf t p) := by
  obtain ⟨-, -, -, -, -, -, -, -, -, -, k0, k1⟩ := idx_facts t
  funext j
  have hzs : ldZ (iblk0 V c 1 t) (grid0.coords t) (ix2 p j) = V c main_arg2 (ix2 (rowOf t p) j) := by
    refine (blkZ V c t _).trans (congrArg _ (funext fun a => Fin.ext ?_))
    match a with
    | ⟨0, _⟩ => show k0_off1 (grid0.coords t) (0 : Fin 2) + 1 * p.val = 128 * t.val + p.val; rw [k0]; omega
    | ⟨1, _⟩ => show k0_off1 (grid0.coords t) (1 : Fin 2) + 1 * j.val = j.val; rw [k1]; omega
  have hl : ∀ m : Fin 6144, View.ld (iblk0 V c 0 t) (Rect.unit (s := S3x128x6144) off S1x128x6144.size hL) (ix3 (0 : Fin 1) p m)
      = V c main_arg1 (ix3 v (rowOf t p) m) := fun m =>
    blkL V c t _ _ (by show v.val = off 0 + 1 * 0; omega)
      (by show 128 * t.val + p.val = 128 * t.val + (off 1 + 1 * p.val); omega) (by show m.val = off 2 + 1 * m.val; omega)
  have hf : View.ld (iblk0 V c 2 t) (Rect.unit (s := S3x128x10) off S1x128x10.size hP) (ix3 (0 : Fin 1) p j)
      = V c main_v0 (ix3 v (rowOf t p) j) :=
    blkP V c t _ _ (by show v.val = off 0 + 1 * 0; omega)
      (by show 128 * t.val + p.val = 128 * t.val + (off 1 + 1 * p.val); omega) (by show j.val = off 2 + 1 * j.val; omega)
  show DS.alpha _ = DS.alpha _
  refine congrArg DS.alpha ?_
  refine congr (congrArg HAdd.hAdd (congr (congrArg HSub.hSub hzs) (Finset.sum_congr rfl fun m _ => ?_))) hf
  exact congr (congrArg HMul.hMul (hl m)) (blkZ V c t (ix2 m j))

/-- Entry `(p, q)` of what the body leaves at point `t` is the specification's entry at row `128 t + p`. -/
theorem outs_apply (c : Dev nD) (t : Fin cfg0.N) (p : Fin 128) (q : Fin 10) :
    outsAt0 (F := Ideal) V c t (ix2 p q) = DS.Hrow (V c main_arg1) (V c main_arg2) (V c main_v0) (rowOf t p) q := by
  unfold outsAt0
  refine (congrFun (out_eq c (grid0.coords t) (ms0_0 t) (hs0_0 t) (ms0_1 t) (hs0_1 t) (ms0_2 t) (hs0_2 t) (ms0_3 t) (hs0_3 t)
    (iblk0 V c 0 t) (iblk0 V c 1 t) (iblk0 V c 2 t)) (ix2 p q)).trans ?_
  refine (body_apply (iblk0 V c 1 t) (ldZ (iblk0 V c 1 t) (grid0.coords t)) (ldL0 (iblk0 V c 0 t)) (ldL1 (iblk0 V c 0 t))
    (ldL2 (iblk0 V c 0 t)) (ldP0 (iblk0 V c 2 t)) (ldP1 (iblk0 V c 2 t)) (ldP2 (iblk0 V c 2 t)) p q).trans ?_
  have e0 := ev_blk V c t 0 ![0, 0, 0] rfl rfl rfl inb_S3x128x6144_S1x128x6144_0_0_0 inb_S3x128x10_S1x128x10_0_0_0 p
  have e1 := ev_blk V c t 1 ![1, 0, 0] rfl rfl rfl inb_S3x128x6144_S1x128x6144_1_0_0 inb_S3x128x10_S1x128x10_1_0_0 p
  have e2 := ev_blk V c t 2 ![2, 0, 0] rfl rfl rfl inb_S3x128x6144_S1x128x6144_2_0_0 inb_S3x128x10_S1x128x10_2_0_0 p
  unfold DS.Hrow
  rw [← e0, ← e1, ← e2]
  rfl

/-- What point `t` writes back is its block of the specification's array. -/
theorem flushed_eq (c : Dev nD) (t : Fin cfg0.N) :
    (dat0 (F := Ideal) V c).flushed 3 t
      = ((cfg0.win 3).blk t).view.read (Elt Ideal) (DS.H (V c main_arg1) (V c main_arg2) (V c main_v0)) := by
  obtain ⟨-, -, -, -, -, -, -, -, o0, o1, -⟩ := idx_facts t
  show (cfg0.win 3).cut (grid0.coords t) ((dat0 V c).after 3 t) = _
  rw [after0_3]
  funext y
  have h0 : (((cfg0.win 3).blk t).view.emb y) 0 = rowOf t (y 0) :=
    Fin.ext (by show win0_3.index t (0 : Fin 2) * 128 + 1 * (y 0).val = 128 * t.val + (y 0).val; rw [o0]; omega)
  have h1 : (((cfg0.win 3).blk t).view.emb y) 1 = y 1 :=
    Fin.ext (by show win0_3.index t (1 : Fin 2) * 10 + 1 * (y 1).val = (y 1).val; rw [o1]; omega)
  refine ((congrArg (outsAt0 V c t) (eq_ix2 y)).trans (outs_apply V c t (y 0) (y 1))).trans ?_
  show DS.Hrow (V c main_arg1) (V c main_arg2) (V c main_v0) (rowOf t (y 0)) (y 1)
    = DS.Hrow (V c main_arg1) (V c main_arg2) (V c main_v0) ((((cfg0.win 3).blk t).view.emb y) 0) ((((cfg0.win 3).blk t).view.emb y) 1)
  exact congr (congrArg (DS.Hrow (V c main_arg1) (V c main_arg2) (V c main_v0)) h0.symm) h1.symm

/-- Every row of the output array is in the block of the point `row / 128`. -/
theorem cover (i : S6144x10.Idx) :
    ∃ t : Fin cfg0.N, (cfg0.win 3).flush t = true ∧ i ∈ ((cfg0.win 3).blk t).view.set := by
  have hi0 : (i 0).val < 6144 := (i 0).isLt
  have hi1 : (i 1).val < 10 := (i 1).isLt
  obtain ⟨t, ht⟩ : ∃ t : Fin cfg0.N, t.val = (i 0).val / 128 :=
    ⟨⟨(i 0).val / 128, by rw [show cfg0.N = 48 from N_0]; omega⟩, rfl⟩
  obtain ⟨-, -, -, -, -, -, -, -, o0, o1, -⟩ := idx_facts t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 2) * 128 ≤ (i 0).val ∧ (i 0).val < win0_3.index t (0 : Fin 2) * 128 + 128
    rw [o0, ht]; omega
  | ⟨1, _⟩ =>
    show win0_3.index t (1 : Fin 2) * 10 ≤ (i 1).val ∧ (i 1).val < win0_3.index t (1 : Fin 2) * 10 + 10
    rw [o1]; omega

/-- THE REGION'S VALUE: after the 48 points the output array holds the specification's array of the
    region-entry contents of the Laplacians, the estimate and the projected features. -/
theorem region0_value (c : Dev nD) :
    (dat0 (F := Ideal) V c).arrAt 3 cfg0.N = Cert.DS.H (V c main_arg1) (V c main_arg2) (V c main_v0) :=
  (dat0 (F := Ideal) V c).arrAt_eq_of_cover 3 (Cert.DS.H (V c main_arg1) (V c main_arg2) (V c main_v0))
    (fun t _ => flushed_eq V c t) cover

end AtIdeal

end Cert.KernelIdeal.Hand0

end
-- ==== Proof.KRegion1Body.lean ====
/-
  The value one grid point of the fused sweep stores, on the extended reals.

  The body loads the whole estimate z, the point's own 128 rows of it, and per view the point's block of the Laplacian
  and of the projected features; it stores one 128 x 10 block.  Here that stored block is read entry by entry:
  entry (p, q) is Dempster's rule applied twice to the three rows of evidences
      alpha (z_self(p, j) - sum_m L_v(p, m) z(m, j) + P_v(p, j)),   v = 0, 1, 2.
  The narrowing of the matmul operands to bf16 is the identity on extended reals, the product into a zero accumulator is
  a plain sum over the 6144 contracted coordinates, a lane sum is the sum of a row's ten entries, and the
  softplus the body spells out (with its guard on an unordered operand, which never fires here) is the specification's.
-/
import proofs.«115280_j31628139168172_2_alg».proof.Proof.Gen.KernelIdeal.Frame
import proofs.«115280_j31628139168172_2_alg».proof.Proof.DsSpec
import Idealize.ShloMosaic.Lib.Tactic
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand1

open Cert.KernelIdeal Cert.KernelIdeal.Gen

section AnyInstance

variable {F : FTy → Type} [FloatOps F]

theorem hz : (![0, 0] : Fin 2 → Nat) = fun _ => 0 := funext fun a => by fin_cases a <;> rfl

/-- What the body stores in the output block, as a function of the eight values it loads: the whole estimate `z`,
    the point's own rows `zs` of it, and per view the block of the Laplacian (`l0 l1 l2`) and of the projected
    features (`p0 p1 p2`). -/
def pay (z : Vec F S6144x10 .f32) (zs : Vec F S128x10 .f32) (l0 l1 l2 : Vec F S1x128x6144 .f32)
    (p0 p1 p2 : Vec F S1x128x10 .f32) : FVec F S128x10 .f32 :=
  k1_pay12 (k1_pay6 (k1_pay1 z) (k1_pay2 zs) l2 p2)
    (k1_pay9 (k1_pay3 z zs l0 p0) (k1_pay5 (k1_pay4 z zs l1) p1) (k1_pay7 (k1_pay3 z zs l0 p0)) (k1_pay8 (k1_pay4 z zs l1) p1))
    (k1_pay10 (k1_pay3 z zs l0 p0) (k1_pay5 (k1_pay4 z zs l1) p1) (k1_pay7 (k1_pay3 z zs l0 p0)) (k1_pay8 (k1_pay4 z zs l1) p1))
    (k1_pay11 (k1_pay6 (k1_pay1 z) (k1_pay2 zs) l2 p2))

/-- The body's one covering store leaves that value of its loads in the output's staging buffer. -/
theorem out_eq (c : Dev nD) (i : grid1.Coords) (a1 : Memref sig .tc .vmem S3x128x6144 .f32) (h1 : a1.IsWhole)
    (a2 : Memref sig .tc .vmem S6144x10 .f32) (h2 : a2.IsWhole) (a3 : Memref sig .tc .vmem S3x128x10 .f32) (h3 : a3.IsWhole)
    (a4 : Memref sig .tc .vmem S128x10 .f32) (h4 : a4.IsWhole)
    (x0 : Vec F S3x128x6144 .f32) (x1 : Vec F S6144x10 .f32) (x2 : Vec F S3x128x10 .f32) :
    out1_A_3 c i a1 h1 a2 h2 a3 h3 a4 h4 x0 x1 x2
      = pay x1 (View.ld x1 (Rect.unit (s := S6144x10) (k1_off1 i) S128x10.size (k1_off1_inb i)))
          (View.ld x0 (Rect.unit (s := S3x128x6144) ![0, 0, 0] S1x128x6144.size inb_S3x128x6144_S1x128x6144_0_0_0))
          (View.ld x0 (Rect.unit (s := S3x128x6144) ![1, 0, 0] S1x128x6144.size inb_S3x128x6144_S1x128x6144_1_0_0))
          (View.ld x0 (Rect.unit (s := S3x128x6144) ![2, 0, 0] S1x128x6144.size inb_S3x128x6144_S1x128x6144_2_0_0))
          (View.ld x2 (Rect.unit (s := S3x128x10) ![0, 0, 0] S1x128x10.size inb_S3x128x10_S1x128x10_0_0_0))
          (View.ld x2 (Rect.unit (s := S3x128x10) ![1, 0, 0] S1x128x10.size inb_S3x128x10_S1x128x10_1_0_0))
          (View.ld x2 (Rect.unit (s := S3x128x10) ![2, 0, 0] S1x128x10.size inb_S3x128x10_S1x128x10_2_0_0)) := by
  unfold out1_A_3
  rw [View.read_writes_eq_canon _ _ _ (cover1_A_3 c i a1 h1 a2 h2 a3 h3 a4 h4 x0 x1 x2)]
  unfold kernelRun1_A
  dsimp only
  sl_unfold_words
  rw [View.canon_unit_zero hz]
  simp only [View.readAt_eq_ld, h1.read_unread, h2.read_unread, h3.read_unread, View.ld_unit_zero (S := S6144x10) hz]
  rfl

/-- Evidence of a block of pre-activations as the body computes it: softplus + 1, the softplus as
    max x 0 + log1p (exp (0 - |x - 0|)) behind a guard on x - 0 being unordered with itself. -/
def evid (X : FVec F S128x10 .f32) : FVec F S128x10 .f32 :=
  have z0 : F .f32 := Scalar.ofBits .f32 0x00000000#32
  have zb : FVec F S128x10 .f32 := broadcast S128x10 z0
  have d : FVec F S128x10 .f32 := subf X zb
  addf (select (cmpf .one d d) (addf X zb) (addf (maximumf X zb) (log1p (exp (subf zb (absf d))))))
    (broadcast S128x10 (Scalar.ofBits .f32 0x3F800000#32))

/-- Pre-activation of one view on the point's rows: the rows of the estimate, minus the Laplacian block times the
    whole estimate (both narrowed to bf16, accumulated from zero), plus the projected features' block. -/
def preact (zb : FVec F S6144x10 .bf16) (zs : FVec F S128x10 .f32) (l : Vec F S1x128x6144 .f32) (p : Vec F S1x128x10 .f32) :
    FVec F S128x10 .f32 :=
  addf (subf zs (matmul dot_S128x6144_S6144x10_S128x10_1_0_0_1_n_n none
      (truncf .bf16 (shapeCast S128x6144 l shapeCasts_S1x128x6144_S128x6144) bitsLt_bf16_f32) zb (constant S128x10 .f32 0x00000000#32)))
    (shapeCast S128x10 p shapeCasts_S1x128x10_S128x10)

theorem pay3_eq (z : Vec F S6144x10 .f32) (zs : Vec F S128x10 .f32) (l : Vec F S1x128x6144 .f32) (p : Vec F S1x128x10 .f32) :
    k1_pay3 z zs l p = evid (preact (k1_pay1 z) (k1_pay2 zs) l p) := rfl
theorem pay5_eq (z : Vec F S6144x10 .f32) (zs : Vec F S128x10 .f32) (l : Vec F S1x128x6144 .f32) (p : Vec F S1x128x10 .f32) :
    k1_pay5 (k1_pay4 z zs l) p = evid (preact (k1_pay1 z) (k1_pay2 zs) l p) := rfl
theorem pay6_eq (zb : FVec F S6144x10 .bf16) (zs : FVec F S128x10 .f32) (l : Vec F S1x128x6144 .f32) (p : Vec F S1x128x10 .f32) :
    k1_pay6 zb zs l p = evid (preact zb zs l p) := rfl

/-- A lane sum kept as a column. -/
def colsum (A : FVec F S128x10 .f32) : FVec F S128x1 .f32 :=
  shapeCast S128x1 (multiReduction .add [1] S128 A 0x00000000#32 reduces_S128x10_S128 (.inl rfl) rfl) shapeCasts_S128_S128x1

/-- The combination of two blocks of evidences `A`, `B` given their row sums `SA`, `SB` as columns, as the body
    computes it: beliefs (x - 1) / S, uncertainties 10 / S, conflict, the combined belief and uncertainty over
    1 - conflict, and b * (10 / u) + 1. -/
def comb (A B : FVec F S128x10 .f32) (SA SB : FVec F S128x1 .f32) : FVec F S128x10 .f32 :=
  have one : F .f32 := Scalar.ofBits .f32 0x3F800000#32
  have ten : F .f32 := Scalar.ofBits .f32 0x41200000#32
  have b1 : FVec F S128x10 .f32 := divf (subf A (broadcast S128x10 one)) (broadcastTo S128x10 SA broadcasts_S128x1_S128x10)
  have b2 : FVec F S128x10 .f32 := divf (subf B (broadcast S128x10 one)) (broadcastTo S128x10 SB broadcasts_S128x1_S128x10)
  have u1 : FVec F S128x1 .f32 := divf (broadcast S128x1 ten) SA
  have u2 : FVec F S128x1 .f32 := divf (broadcast S128x1 ten) SB
  have C : FVec F S128x1 .f32 := subf (mulf (colsum b1) (colsum b2)) (colsum (mulf b1 b2))
  have num : FVec F S128x10 .f32 :=
    addf (addf (mulf b1 b2) (mulf b1 (broadcastTo S128x10 u2 broadcasts_S128x1_S128x10)))
      (mulf b2 (broadcastTo S128x10 u1 broadcasts_S128x1_S128x10))
  have omc : FVec F S128x1 .f32 := subf (broadcast S128x1 one) C
  have b : FVec F S128x10 .f32 := divf num (broadcastTo S128x10 omc broadcasts_S128x1_S128x10)
  have u : FVec F S128x1 .f32 := divf (mulf u1 u2) omc
  have S : FVec F S128x1 .f32 := divf (broadcast S128x1 ten) u
  addf (mulf b (broadcastTo S128x10 S broadcasts_S128x1_S128x10)) (broadcast S128x10 one)

theorem pay7_eq (A : FVec F S128x10 .f32) : k1_pay7 A = colsum A := rfl
theorem pay11_eq (A : FVec F S128x10 .f32) : k1_pay11 A = colsum A := rfl
theorem pay9_eq (A B : FVec F S128x10 .f32) (SA : FVec F S128x1 .f32) (sb : FVec F S128 .f32) :
    k1_pay9 A B SA sb = comb A B SA (shapeCast S128x1 sb shapeCasts_S128_S128x1) := rfl
theorem pay10_eq (A B : FVec F S128x10 .f32) (SA : FVec F S128x1 .f32) (sb : FVec F S128 .f32) :
    k1_pay10 A B SA sb = colsum (k1_pay9 A B SA sb) := rfl
theorem pay12_eq (X Y : FVec F S128x10 .f32) (SY SX : FVec F S128x1 .f32) :
    k1_pay12 X Y SY SX = comb Y X SY SX := rfl

end AnyInstance

section AtIdeal

/-! ## Reading at an index, on the extended reals -/

theorem absf_at {s : Shape} {φ : FTy} (a : FVec Ideal s φ) (i : s.Idx) : absf a i = max (a i) (-(a i)) := rfl
theorem exp_at {s : Shape} {φ : FTy} (a : FVec Ideal s φ) (i : s.Idx) : exp a i = Ideal.exp (a i) := rfl
theorem log1p_at {s : Shape} {φ : FTy} (a : FVec Ideal s φ) (i : s.Idx) : log1p a i = Ideal.log1p (a i) := rfl

/-- The body's evidence is the specification's: the zero word is 0, and no extended real differs from itself, so the
    guard never fires. -/
theorem evid_apply (X : FVec Ideal S128x10 .f32) (i : S128x10.Idx) : evid X i = Cert.DS.alpha (X i) := by
  have hc : ∀ y : EReal, Ideal.cmp .one y y = 0#1 := fun y => by simp [Ideal.cmp]
  show Scalar.select (Ideal.cmp .one (X i - Ideal.ofBits .f32 0x00000000#32) (X i - Ideal.ofBits .f32 0x00000000#32))
      (X i + Ideal.ofBits .f32 0x00000000#32)
      (max (X i) (Ideal.ofBits .f32 0x00000000#32) + Ideal.log1p (Ideal.exp (Ideal.ofBits .f32 0x00000000#32
        - max (X i - Ideal.ofBits .f32 0x00000000#32) (-(X i - Ideal.ofBits .f32 0x00000000#32)))))
      + Ideal.ofBits .f32 0x3F800000#32 = _
  rw [hc, select_zero, Ideal.ofBits_zero_f32, sub_zero, zero_sub]
  rfl

/-- A column broadcast along the lanes reads the column's entry of the row. -/
theorem bcol_apply {α : Type} (C : S128x1.Idx → α) (h : S128x1.Broadcasts S128x10) (p : Fin 128) (q : Fin 10) :
    broadcastTo S128x10 C h (ix2 p q) = C (ix2 p 0) :=
  broadcastTo_apply C h (ix2 p q) (ix2 p 0) fun a => by
    match a with
    | ⟨0, _⟩ => rfl
    | ⟨1, _⟩ => rfl

/-- A vector of 128 entries viewed as a column reads the vector's entry of the row. -/
theorem col_apply {α : Type} (V : S128.Idx → α) (h : S128.ShapeCasts S128x1) (p : Fin 128) (q : Fin 1) :
    shapeCast S128x1 V h (ix2 p q) = V (ix1 p) :=
  shapeCast_apply V h (ix2 p q) (ix1 p) (by
    rw [Shape.rowMajor_val_one, Shape.rowMajor_val_two]
    show p.val = p.val * 1 + q.val
    have := q.isLt; omega)

/-- A lane sum of a block reads, at a row, the sum of the row's ten entries. -/
theorem rowsum_apply (A : FVec Ideal S128x10 .f32) (p : Fin 128) :
    multiReduction (F := Ideal) .add [1] S128 A 0x00000000#32 reduces_S128x10_S128 (.inl rfl) rfl (ix1 p)
      = ∑ j : Fin 10, A (ix2 p j) := by
  refine (Ideal.multiReduction_add_single A 0x00000000#32 reduces_S128x10_S128 (.inl rfl) rfl (ix1 p)).trans ?_
  refine Finset.sum_congr rfl fun j _ => congrArg A (funext fun c => Fin.ext ?_)
  match c with
  | ⟨0, _⟩ => rfl
  | ⟨1, _⟩ => rfl

theorem colsum_apply (A : FVec Ideal S128x10 .f32) (p : Fin 128) (q : Fin 1) :
    colsum A (ix2 p q) = Cert.DS.rsum fun j => A (ix2 p j) :=
  (col_apply _ _ p q).trans (rowsum_apply A p)

/-! ## The block product -/

abbrev dotD := dot_S128x6144_S6144x10_S128x10_1_0_0_1_n_n

theorem lhs_0 (i : S128x10.Idx) (q : dotD.contr.Idx) : (dotD.lhsIdx i q 0).val = (i 0).val := by
  unfold DotDims.lhsIdx
  rw [dif_neg (show ¬(0 : Fin S128x6144.rank) ∈ dotD.lhsBatch by decide),
    dif_pos (show (0 : Fin S128x6144.rank) ∈ dotD.lhsNonContracting by decide)]
  rfl
theorem lhs_1 (i : S128x10.Idx) (q : dotD.contr.Idx) : (dotD.lhsIdx i q 1).val = (q ⟨0, by decide⟩).val :=
  dotD.lhsIdx_val_of_single rfl i q
theorem rhs_0 (i : S128x10.Idx) (q : dotD.contr.Idx) : (dotD.rhsIdx i q 0).val = (q ⟨0, by decide⟩).val :=
  dotD.rhsIdx_val_of_single rfl i q
theorem rhs_1 (i : S128x10.Idx) (q : dotD.contr.Idx) : (dotD.rhsIdx i q 1).val = (i 1).val := by
  unfold DotDims.rhsIdx
  rw [dif_neg (show ¬(1 : Fin S6144x10.rank) ∈ dotD.rhsBatch by decide),
    dif_pos (show (1 : Fin S6144x10.rank) ∈ dotD.rhsNonContracting by decide)]
  rfl

/-- The block product into a zero accumulator, at (p, q): the sum over the 6144 contracted coordinates. -/
theorem mm_apply (A : FVec Ideal S128x6144 .bf16) (B : FVec Ideal S6144x10 .bf16) (p : Fin 128) (q : Fin 10) :
    matmul dotD none A B (constant (F := Ideal) S128x10 .f32 0x00000000#32) (ix2 p q)
      = ∑ m : Fin 6144, A (ix2 p m) * B (ix2 m q) := by
  show FloatOps.matmul dotD none A B (constant (F := Ideal) S128x10 .f32 0x00000000#32) (ix2 p q) = _
  rw [Ideal.matmul_constant_zero_apply, ← Equiv.sum_comp (contrEquiv1 dotD 6144 rfl rfl).symm]
  refine Finset.sum_congr rfl fun k _ => ?_
  have hk := contrEquiv1_symm_val dotD 6144 rfl rfl k
  have el : dotD.lhsIdx (ix2 p q) ((contrEquiv1 dotD 6144 rfl rfl).symm k) = ix2 p k := funext fun a => Fin.ext (by
    match a with
    | ⟨0, _⟩ => exact lhs_0 _ _
    | ⟨1, _⟩ => exact (lhs_1 _ _).trans hk)
  have er : dotD.rhsIdx (ix2 p q) ((contrEquiv1 dotD 6144 rfl rfl).symm k) = ix2 k q := funext fun a => Fin.ext (by
    match a with
    | ⟨0, _⟩ => exact (rhs_0 _ _).trans hk
    | ⟨1, _⟩ => exact rhs_1 _ _)
  rw [el, er]

/-- The pre-activation at (r, j). -/
theorem preact_apply (zb : FVec Ideal S6144x10 .bf16) (zs : FVec Ideal S128x10 .f32) (l : Vec Ideal S1x128x6144 .f32)
    (p : Vec Ideal S1x128x10 .f32) (r : Fin 128) (j : Fin 10) :
    preact zb zs l p (ix2 r j) = zs (ix2 r j) - (∑ m : Fin 6144, l (ix3 0 r m) * zb (ix2 m j)) + p (ix3 0 r j) := by
  have e1 : ∀ m : Fin 6144,
      (truncf .bf16 (shapeCast S128x6144 l shapeCasts_S1x128x6144_S128x6144) bitsLt_bf16_f32 : FVec Ideal S128x6144 .bf16) (ix2 r m)
        = l (ix3 0 r m) := fun m =>
    (truncf_apply (ψ := .bf16) (shapeCast S128x6144 l shapeCasts_S1x128x6144_S128x6144) bitsLt_bf16_f32 (ix2 r m)).trans <|
     shapeCast_apply l shapeCasts_S1x128x6144_S128x6144 (ix2 r m) (ix3 0 r m) (by
      rw [Shape.rowMajor_val_three, Shape.rowMajor_val_two]
      show (0 * 128 + r.val) * 6144 + m.val = r.val * 6144 + m.val
      omega)
  have e2 : shapeCast S128x10 p shapeCasts_S1x128x10_S128x10 (ix2 r j) = p (ix3 0 r j) :=
    shapeCast_apply p shapeCasts_S1x128x10_S128x10 (ix2 r j) (ix3 0 r j) (by
      rw [Shape.rowMajor_val_three, Shape.rowMajor_val_two]
      show (0 * 128 + r.val) * 10 + j.val = r.val * 10 + j.val
      omega)
  unfold preact
  rw [addf_apply, subf_apply, mm_apply, e2]
  simp only [e1]

/-! ## The combination of two blocks of evidences -/

/-- At (p, q) the body's combination is Dempster's rule on the two rows, once the two columns hold the rows' sums. -/
theorem comb_apply (A B : FVec Ideal S128x10 .f32) (SA SB : FVec Ideal S128x1 .f32) (p : Fin 128) (q : Fin 10)
    (hA : SA (ix2 p 0) = Cert.DS.rsum fun j => A (ix2 p j)) (hB : SB (ix2 p 0) = Cert.DS.rsum fun j => B (ix2 p j)) :
    comb A B SA SB (ix2 p q) = Cert.DS.ds (fun j => A (ix2 p j)) (fun j => B (ix2 p j)) q := by
  unfold comb
  simp only [addf_apply, subf_apply, mulf_apply, divf_apply, broadcast_apply, bcol_apply, colsum_apply, hA, hB]
  rfl

end AtIdeal

section Fused

/-- The two combinations, on three blocks of evidences: the first two blocks, then the result with the third. -/
theorem fuse_apply (a0 a1 a2 : FVec Ideal S128x10 .f32) (s1 : FVec Ideal S128 .f32) (p : Fin 128) (q : Fin 10)
    (hs1 : s1 (ix1 p) = Cert.DS.rsum fun j => a1 (ix2 p j)) :
    k1_pay12 a2 (k1_pay9 a0 a1 (k1_pay7 a0) s1) (k1_pay10 a0 a1 (k1_pay7 a0) s1) (k1_pay11 a2) (ix2 p q)
      = Cert.DS.ds (Cert.DS.ds (fun j => a0 (ix2 p j)) (fun j => a1 (ix2 p j))) (fun j => a2 (ix2 p j)) q := by
  have hc : (fun j => k1_pay9 a0 a1 (k1_pay7 a0) s1 (ix2 p j))
      = Cert.DS.ds (fun j => a0 (ix2 p j)) (fun j => a1 (ix2 p j)) := funext fun j => by
    rw [pay9_eq]
    exact comb_apply a0 a1 (k1_pay7 a0) (shapeCast S128x1 s1 shapeCasts_S128_S128x1) p j (colsum_apply a0 p 0)
      ((col_apply s1 shapeCasts_S128_S128x1 p 0).trans hs1)
  rw [pay12_eq]
  refine (comb_apply (k1_pay9 a0 a1 (k1_pay7 a0) s1) a2 (k1_pay10 a0 a1 (k1_pay7 a0) s1) (k1_pay11 a2) p q
    (colsum_apply (k1_pay9 a0 a1 (k1_pay7 a0) s1) p 0) (colsum_apply a2 p 0)).trans ?_
  rw [hc]

/-- Row p of the evidences of one view, from what the point loads: the estimate `z`, the point's rows `zs` of it, the
    view's Laplacian block `l` and projected-features block `pr`. -/
def evRow (z : Vec Ideal S6144x10 .f32) (zs : Vec Ideal S128x10 .f32) (l : Vec Ideal S1x128x6144 .f32)
    (pr : Vec Ideal S1x128x10 .f32) (p : Fin 128) : Fin 10 → EReal :=
  fun j => Cert.DS.alpha (zs (ix2 p j) - (∑ m : Fin 6144, l (ix3 0 p m) * z (ix2 m j)) + pr (ix3 0 p j))

/-- THE STORED VALUE AT (p, q): the three views' rows of evidences fused by Dempster's rule. -/
theorem pay_apply (z : Vec Ideal S6144x10 .f32) (zs : Vec Ideal S128x10 .f32) (l0 l1 l2 : Vec Ideal S1x128x6144 .f32)
    (p0 p1 p2 : Vec Ideal S1x128x10 .f32) (p : Fin 128) (q : Fin 10) :
    pay z zs l0 l1 l2 p0 p1 p2 (ix2 p q)
      = Cert.DS.ds (Cert.DS.ds (evRow z zs l0 p0 p) (evRow z zs l1 p1 p)) (evRow z zs l2 p2 p) q := by
  have hz1 : ∀ i, k1_pay1 z i = z i := fun i => congrFun (shapeCast_self z shapeCasts_S6144x10_S6144x10) i
  have hz2 : k1_pay2 zs = zs := shapeCast_self zs shapeCasts_S128x10_S128x10
  have hev : ∀ (l : Vec Ideal S1x128x6144 .f32) (pr : Vec Ideal S1x128x10 .f32),
      (fun j => evid (preact (k1_pay1 z) (k1_pay2 zs) l pr) (ix2 p j)) = evRow z zs l pr p := fun l pr => by
    funext j
    rw [evid_apply, preact_apply, hz2]
    simp only [hz1]
    rfl
  unfold pay
  rw [pay3_eq, pay5_eq, pay6_eq]
  refine (fuse_apply (evid (preact (k1_pay1 z) (k1_pay2 zs) l0 p0)) (evid (preact (k1_pay1 z) (k1_pay2 zs) l1 p1))
    (evid (preact (k1_pay1 z) (k1_pay2 zs) l2 p2)) (k1_pay8 (k1_pay4 z zs l1) p1) p q ?_).trans ?_
  · exact rowsum_apply (k1_pay5 (k1_pay4 z zs l1) p1) p
  · rw [hev, hev, hev]

end Fused

end Cert.KernelIdeal.Hand1

end
-- ==== Proof.KRegion1.lean ====
/-
  The output array of the second fused sweep, on the extended reals.

  Point t of the 48-point grid reads rows 128 t … 128 t + 127 of the three Laplacians and of the three projected
  feature arrays, and the whole estimate; it writes back rows 128 t … 128 t + 127 of the output.  Entry (p, q) of what it
  writes is Dempster's rule applied twice to the three rows of evidences of row 128 t + p (the module before this one),
  which is entry (128 t + p, q) of the specification's array H of the arrays the sweep found.  The 48 blocks tile the
  6144 rows (row r lies in block r / 128), so after the sweep the output array is H.
-/
import proofs.«115280_j31628139168172_2_alg».proof.Proof.KRegion1Body

noncomputable section

open Idealize.ShloMosaic Idealize.ShloMosaic.TcCoe Idealize.SL.Sem
open Idealize.ShloMosaic.Pipeline (Dat)
open Idealize.ShloMosaic.ValueIdx

namespace Cert.KernelIdeal.Hand1

open Cert.KernelIdeal Cert.KernelIdeal.Gen

/-! ## One point, over any three blocks -/

/-- Row of evidences of view `v` at block row `p`, the estimate's own row being row `r` of the whole estimate. -/
def evAt (x0 : Vec Ideal S3x128x6144 .f32) (x1 : Vec Ideal S6144x10 .f32) (x2 : Vec Ideal S3x128x10 .f32)
    (v : Fin 3) (r : Fin 6144) (p : Fin 128) : Fin 10 → EReal :=
  fun j => Cert.DS.alpha (x1 (ix2 r j) - (∑ m : Fin 6144, x0 (ix3 v p m) * x1 (ix2 m j)) + x2 (ix3 v p j))

/-- The stored value at an index of the block, with the loads read off the three blocks: the view's slices at
    (v, p, ·), the estimate's own rows at the row offset. -/
theorem point_apply (x0 : Vec Ideal S3x128x6144 .f32) (x1 : Vec Ideal S6144x10 .f32) (x2 : Vec Ideal S3x128x10 .f32)
    (off : Fin 2 → Nat) (inb : ∀ a, off a + S128x10.size a ≤ S6144x10.size a) (y : S128x10.Idx)
    (r : Fin 6144) (hr : r.val = off 0 + (y 0).val) (h1 : off 1 = 0) :
    pay x1 (View.ld x1 (Rect.unit (s := S6144x10) off S128x10.size inb))
        (View.ld x0 (Rect.unit (s := S3x128x6144) ![0, 0, 0] S1x128x6144.size inb_S3x128x6144_S1x128x6144_0_0_0))
        (View.ld x0 (Rect.unit (s := S3x128x6144) ![1, 0, 0] S1x128x6144.size inb_S3x128x6144_S1x128x6144_1_0_0))
        (View.ld x0 (Rect.unit (s := S3x128x6144) ![2, 0, 0] S1x128x6144.size inb_S3x128x6144_S1x128x6144_2_0_0))
        (View.ld x2 (Rect.unit (s := S3x128x10) ![0, 0, 0] S1x128x10.size inb_S3x128x10_S1x128x10_0_0_0))
        (View.ld x2 (Rect.unit (s := S3x128x10) ![1, 0, 0] S1x128x10.size inb_S3x128x10_S1x128x10_1_0_0))
        (View.ld x2 (Rect.unit (s := S3x128x10) ![2, 0, 0] S1x128x10.size inb_S3x128x10_S1x128x10_2_0_0)) y
      = Cert.DS.ds (Cert.DS.ds (evAt x0 x1 x2 0 r (y 0)) (evAt x0 x1 x2 1 r (y 0))) (evAt x0 x1 x2 2 r (y 0)) (y 1) := by
  obtain ⟨p, q, rfl⟩ : ∃ (p : Fin 128) (q : Fin 10), y = ix2 p q := ⟨y 0, y 1, eq_ix2 y⟩
  refine (pay_apply _ _ _ _ _ _ _ _ p q).trans ?_
  have hs : ∀ j : Fin 10, View.ld x1 (Rect.unit (s := S6144x10) off S128x10.size inb) (ix2 p j) = x1 (ix2 r j) := fun j =>
    congrArg x1 (funext fun a => Fin.ext (by
      match a with
      | ⟨0, _⟩ => show off 0 + 1 * p.val = r.val; rw [hr]; show _ = off 0 + p.val; omega
      | ⟨1, _⟩ => show off 1 + 1 * j.val = j.val; omega))
  have hl : ∀ (v : Fin 3) (hv : ∀ a, (![v.val, 0, 0] : Fin 3 → Nat) a + S1x128x6144.size a ≤ S3x128x6144.size a) (m : Fin 6144),
      View.ld x0 (Rect.unit (s := S3x128x6144) ![v.val, 0, 0] S1x128x6144.size hv) (ix3 0 p m) = x0 (ix3 v p m) := fun v hv m =>
    congrArg x0 (funext fun a => Fin.ext (by
      match a with
      | ⟨0, _⟩ => show v.val + 1 * 0 = v.val; omega
      | ⟨1, _⟩ => show 0 + 1 * p.val = p.val; omega
      | ⟨2, _⟩ => show 0 + 1 * m.val = m.val; omega))
  have hp : ∀ (v : Fin 3) (hv : ∀ a, (![v.val, 0, 0] : Fin 3 → Nat) a + S1x128x10.size a ≤ S3x128x10.size a) (j : Fin 10),
      View.ld x2 (Rect.unit (s := S3x128x10) ![v.val, 0, 0] S1x128x10.size hv) (ix3 0 p j) = x2 (ix3 v p j) := fun v hv j =>
    congrArg x2 (funext fun a => Fin.ext (by
      match a with
      | ⟨0, _⟩ => show v.val + 1 * 0 = v.val; omega
      | ⟨1, _⟩ => show 0 + 1 * p.val = p.val; omega
      | ⟨2, _⟩ => show 0 + 1 * j.val = j.val; omega))
  have he : ∀ (v : Fin 3) (hv) (hv'),
      evRow x1 (View.ld x1 (Rect.unit (s := S6144x10) off S128x10.size inb))
        (View.ld x0 (Rect.unit (s := S3x128x6144) ![v.val, 0, 0] S1x128x6144.size hv))
        (View.ld x2 (Rect.unit (s := S3x128x10) ![v.val, 0, 0] S1x128x10.size hv')) p = evAt x0 x1 x2 v r p := fun v hv hv' => by
    funext j
    unfold evRow evAt
    rw [hs j, hp v hv' j]
    simp only [hl v hv]
  exact congrArg₂ (fun A B => Cert.DS.ds A B q)
    (congrArg₂ Cert.DS.ds (he 0 _ _) (he 1 _ _)) (he 2 _ _)

/-! ## The point's blocks as rows of the arrays -/

section Region

variable (V : (c : Dev nD) → (b : Ref sig .tc) → Buf (Elt Ideal) ((c : Thread nD τ).loc b))

/-- The printed index maps and the body's row offset over the grid: point t takes rows 128 t … 128 t + 127 of the
    Laplacians, of the projected features and of the output, all three views, and the whole estimate. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 2) = t.val ∧ win1_3.index t (1 : Fin 2) = 0
    ∧ k1_off1 (grid1.coords t) (0 : Fin 2) = 128 * t.val ∧ k1_off1 (grid1.coords t) (1 : Fin 2) = 0 :=
  (by decide +kernel : ∀ t : Fin grid1.N, _)

/-- The Laplacian block at point t is rows 128 t + p of every view. -/
theorem iblk_L (c : Dev nD) (t : Fin cfg1.N) (v : Fin 3) (p : Fin 128) (m : Fin 6144) (r : Fin 6144)
    (hr : r.val = 128 * t.val + p.val) :
    (iblk1 V c 0 t : Vec Ideal S3x128x6144 .f32) (ix3 v p m) = (V c main_arg1 : S3x6144x6144.Idx → EReal) (ix3 v r m) := by
  obtain ⟨e0, e1, e2, -⟩ := idx_facts t
  unfold iblk1
  rw [View.read_apply]
  show V c main_arg1 _ = V c main_arg1 _
  congr 1
  funext a
  apply Fin.ext
  match a with
  | ⟨0, _⟩ => show win1_0.index t 0 * 3 + 1 * v.val = v.val; rw [e0]; omega
  | ⟨1, _⟩ => show win1_0.index t 1 * 128 + 1 * p.val = r.val; rw [e1, hr]; omega
  | ⟨2, _⟩ => show win1_0.index t 2 * 6144 + 1 * m.val = m.val; rw [e2]; omega

/-- The estimate's block at every point is the whole estimate. -/
theorem iblk_z (c : Dev nD) (t : Fin cfg1.N) (a : Fin 6144) (b : Fin 10) :
    (iblk1 V c 1 t : Vec Ideal S6144x10 .f32) (ix2 a b) = (V c main_v30 : S6144x10.Idx → EReal) (ix2 a b) := by
  obtain ⟨-, -, -, e3, e4, -⟩ := idx_facts t
  unfold iblk1
  rw [View.read_apply]
  show V c main_v30 _ = V c main_v30 _
  congr 1
  funext ax
  apply Fin.ext
  match ax with
  | ⟨0, _⟩ => show win1_1.index t 0 * 6144 + 1 * a.val = a.val; rw [e3]; omega
  | ⟨1, _⟩ => show win1_1.index t 1 * 10 + 1 * b.val = b.val; rw [e4]; omega

/-- The projected features' block at point t is rows 128 t + p of every view. -/
theorem iblk_P (c : Dev nD) (t : Fin cfg1.N) (v : Fin 3) (p : Fin 128) (j : Fin 10) (r : Fin 6144)
    (hr : r.val = 128 * t.val + p.val) :
    (iblk1 V c 2 t : Vec Ideal S3x128x10 .f32) (ix3 v p j) = (V c main_v0 : S3x6144x10.Idx → EReal) (ix3 v r j) := by
  obtain ⟨-, -, -, -, -, e5, e6, e7, -⟩ := idx_facts t
  unfold iblk1
  rw [View.read_apply]
  show V c main_v0 _ = V c main_v0 _
  congr 1
  funext a
  apply Fin.ext
  match a with
  | ⟨0, _⟩ => show win1_2.index t 0 * 3 + 1 * v.val = v.val; rw [e5]; omega
  | ⟨1, _⟩ => show win1_2.index t 1 * 128 + 1 * p.val = r.val; rw [e6, hr]; omega
  | ⟨2, _⟩ => show win1_2.index t 2 * 10 + 1 * j.val = j.val; rw [e7]; omega

/-- So a row of evidences computed from the point's blocks is the specification's row 128 t + p. -/
theorem evAt_iblk (c : Dev nD) (t : Fin cfg1.N) (v : Fin 3) (p : Fin 128) (r : Fin 6144) (hr : r.val = 128 * t.val + p.val) :
    evAt (iblk1 V c 0 t) (iblk1 V c 1 t) (iblk1 V c 2 t) v r p
      = Cert.DS.ev (V c main_arg1) (V c main_v30) (V c main_v0) v r := by
  funext j
  unfold evAt Cert.DS.ev Cert.DS.pre
  rw [iblk_z V c t r j, iblk_P V c t v p j r hr]
  refine congrArg (fun s => Cert.DS.alpha (_ - s + _)) (Finset.sum_congr rfl fun m _ => ?_)
  rw [iblk_L V c t v p m r hr, iblk_z V c t m j]

/-! ## What a point writes back, and the array after the sweep -/

/-- Point t writes back block t of the specification's array. -/
theorem flushed_eq (c : Dev nD) (t : Fin cfg1.N) :
    (dat1 (F := Ideal) V c).flushed 3 t
      = ((cfg1.win 3).blk t).view.read (Elt Ideal) (Cert.DS.H (V c main_arg1) (V c main_v30) (V c main_v0)) := by
  show (cfg1.win 3).cut (grid1.coords t) ((dat1 V c).after 3 t) = _
  rw [after1_3]
  unfold outsAt1
  rw [out_eq]
  obtain ⟨-, -, -, -, -, -, -, -, e8, e9, e10, e11⟩ := idx_facts t
  have hN : cfg1.N = 48 := N_1
  funext j
  have hj0 : (j 0).val < 128 := (j 0).isLt
  have ht : t.val < 48 := hN ▸ t.isLt
  have hr : (⟨128 * t.val + (j 0).val, by omega⟩ : Fin 6144).val = k1_off1 (grid1.coords t) 0 + (j 0).val := by
    rw [e10]
  refine (point_apply (iblk1 V c 0 t) (iblk1 V c 1 t) (iblk1 V c 2 t) (k1_off1 (grid1.coords t))
    (k1_off1_inb (grid1.coords t)) j ⟨128 * t.val + (j 0).val, by omega⟩ hr e11).trans ?_
  rw [evAt_iblk V c t 0 (j 0) _ rfl, evAt_iblk V c t 1 (j 0) _ rfl, evAt_iblk V c t 2 (j 0) _ rfl]
  show _ = Cert.DS.H (V c main_arg1) (V c main_v30) (V c main_v0) (((cfg1.win 3).blk t).view.emb j)
  have hi : ((cfg1.win 3).blk t).view.emb j = ix2 (⟨128 * t.val + (j 0).val, by omega⟩ : Fin 6144) (j 1) := by
    funext a
    apply Fin.ext
    match a with
    | ⟨0, _⟩ => show win1_3.index t 0 * 128 + 1 * (j 0).val = 128 * t.val + (j 0).val; rw [e8]; omega
    | ⟨1, _⟩ => show win1_3.index t 1 * 10 + 1 * (j 1).val = (j 1).val; rw [e9]; omega
  rw [hi]
  rfl

/-- THE OUTPUT ARRAY AFTER THE SWEEP: the 48 blocks tile its rows (row r is in block r / 128), so it ends holding the
    specification's fused evidences of the arrays the sweep found. -/
theorem region1_value (c : Dev nD) :
    (dat1 (F := Ideal) V c).arrAt 3 cfg1.N = Cert.DS.H (V c main_arg1) (V c main_v30) (V c main_v0) :=
  (dat1 (F := Ideal) V c).arrAt_eq_of_cover 3 (Cert.DS.H (V c main_arg1) (V c main_v30) (V c main_v0))
    (fun t _ => flushed_eq V c t) fun i => by
      have hN : cfg1.N = 48 := N_1
      have hi0 : (i 0).val < 6144 := (i 0).isLt
      have hi1 : (i 1).val < 10 := (i 1).isLt
      have hlt : (i 0).val / 128 < cfg1.N := by rw [hN]; omega
      obtain ⟨-, -, -, -, -, -, -, -, e8, e9, -⟩ := idx_facts ⟨(i 0).val / 128, hlt⟩
      refine ⟨⟨(i 0).val / 128, hlt⟩, flush1_3 _, ?_⟩
      show i ∈ ((View.whole main_v31).slice (win1_3.rect ⟨(i 0).val / 128, hlt⟩)).set
      rw [View.set_slice_whole, Rect.mem_set_unit]
      intro a
      match a with
      | ⟨0, _⟩ =>
        show win1_3.index ⟨(i 0).val / 128, hlt⟩ 0 * 128 ≤ (i 0).val ∧ (i 0).val < win1_3.index ⟨(i 0).val / 128, hlt⟩ 0 * 128 + 128
        rw [e8]; show (i 0).val / 128 * 128 ≤ (i 0).val ∧ (i 0).val < (i 0).val / 128 * 128 + 128; omega
      | ⟨1, _⟩ =>
        show win1_3.index ⟨(i 0).val / 128, hlt⟩ 1 * 10 ≤ (i 1).val ∧ (i 1).val < win1_3.index ⟨(i 0).val / 128, hlt⟩ 1 * 10 + 10
        rw [e9]; omega

end Region

end Cert.KernelIdeal.Hand1

end
-- ==== Proof.RefOps.lean ====
/-
  The reference program's @main as one straight line of host operations.

  @main calls the functions softplus, _var and selu (selu calls elu, which calls two selects; _var calls one
  select); a call executes the callee's body on the operands, so each call is listed here as the callee's
  operations, in order, over the buffers that call names.  The line is cut where the arithmetic turns:
  the projection of the features, then twice a sweep (evidences of the three views, then the two Dempster
  combinations) followed by its tail (column statistics, normalisation, selu), then the stacking of the two
  estimates.
-/
import proofs.«115280_j31628139168172_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The projected features: P = features · U, one contraction per view (3 x 6144 x 512 against 3 x 512 x 10), written to `main_v0`. (1 operation.) -/
abbrev opsP : List (HloOp τ sig (Elt F)) :=
  [ StableHlo.binary main_arg0 main_arg3 main_v0 ((fun l r => Host.dotGeneral dot_S3x6144x512_S3x512x10_S3x6144x10_2_1_1_2_0_0 none l r) : (⟨S3x6144x512, .f32⟩ : BufTy).Contents (Elt F) → (⟨S3x512x10, .f32⟩ : BufTy).Contents (Elt F) → (⟨S3x6144x10, .f32⟩ : BufTy).Contents (Elt F)) ]  -- %0 = stablehlo.dot_general %arg0, %arg3, batching_dims = [0] x [0], contracting_dims = [2] x [1], precision = [DEFAULT, DEFAULT] : (tensor<3x6144x512xf32>, tensor<3x512x10xf32>) -> tensor<3x6144x10xf32>

/-- The first sweep's evidences, from the launch estimate z = `main_arg2`: the pre-activations z - L z + P of the three views,
    softplus of them (the softplus function's fourteen operations at its call's buffers) plus one, and the three views sliced out
    and reshaped to 6144 x 10: `main_v10`, `main_v12`, and last `main_v14`. (28 operations.) -/
abbrev opsE1 : List (HloOp τ sig (Elt F)) :=
  [ StableHlo.unary main_arg2 main_v1 (broadcastInDim S1x6144x10 ![1, 2] bcast_S6144x10_S1x6144x10_1_2 : (⟨S6144x10, .f32⟩ : BufTy).Contents (Elt F) → (⟨S1x6144x10, .f32⟩ : BufTy).Contents (Elt F)),  -- %1 = stablehlo.broadcast_in_dim %arg2, dims = [1, 2] : (tensor<6144x10xf32>) -> tensor<1x6144x10xf32>
    StableHlo.binary main_arg1 main_arg2 main_v2 ((fun l r => Host.dotGeneral dot_S3x6144x6144_S6144x10_S3x6144x10_2_0_01_1_n_n none l r) : (⟨S3x6144x6144, .f32⟩ : BufTy).Contents (Elt F) → (⟨S6144x10, .f32⟩ : BufTy).Contents (Elt F) → (⟨S3x6144x10, .f32⟩ : BufTy).Contents (Elt F)),  -- %2 = stablehlo.dot_general %arg1, %arg2, contracting_dims = [2] x [0], precision = [DEFAULT, DEFAULT] : (tensor<3x6144x6144xf32>, tensor<6144x10xf32>) -> tensor<3x6144x10xf32>
    StableHlo.unary main_v1 main_v3 (broadcastInDim S3x6144x10 ![0, 1, 2] bcast_S1x6144x10_S3x6144x10_0_1_2 : (⟨S1x6144x10, .f32⟩ : BufTy).Contents (Elt F) → (⟨S3x6144x10, .f32⟩ : BufTy).Contents (Elt F)),  -- %3 = stablehlo.broadcast_in_dim %1, dims = [0, 1, 2] : (tensor<1x6144x10xf32>) -> tensor<3x6144x10xf32>
    StableHlo.binary main_v3 main_v2 main_v4 (subf : (⟨S3x6144x10, .f32⟩ : BufTy).Contents (Elt F) → (⟨S3x6144x10, .f32⟩ : BufTy).Contents (Elt F) → (⟨S3x6144x10, .f32⟩ : BufTy).Contents (Elt F)),  -- %4 = stablehlo.subtract %3, %2 : tensor<3x6144x10xf32>
    StableHlo.binary main_v4 main_v0 main_v5 (addf : (⟨S3x6144x10, .f32⟩ : BufTy).Contents (Elt F) → (⟨S3x6144x10, .f32⟩ : BufTy).Contents (Elt F) → (⟨S3x6144x10, .f32⟩ : BufTy).Contents (Elt F)),  -- %5 = stablehlo.add %4, %0 : tensor<3x6144x10xf32>
    StableHlo.TRef.nullary (.of main_call0_cst : StableHlo.TRef sig ⟨S_, .f32⟩) (constant S_ .f32 0x00000000#32),  -- @softplus %cst = stablehlo.constant dense<0.000000e+00> : tensor<f32>
    StableHlo.TRef.unary (.of main_call0_cst : StableHlo.TRef sig ⟨S_, .f32⟩) (.of main_call0_v0 : StableHlo.TRef sig ⟨S3x6144x10, .f32⟩) (broadcastInDim S3x6144x10 ![] bcast_S_S3x6144x10),  -- @softplus %0 = stablehlo.broadcast_in_dim %cst, dims = [] : (tensor<f32>) -> tensor<3x6144x10xf32>
    StableHlo.TRef.binary (.of main_v5 : StableHlo.TRef sig ⟨S3x6144x10, .f32⟩) (.of main_call0_v0 : StableHlo.TRef sig ⟨S3x6144x10, .f32⟩) (.of main_call0_v1 : StableHlo.TRef sig ⟨S3x6144x10, .f32⟩) maximumf,  -- @softplus %1 = stablehlo.maximum %arg0, %0 : tensor<3x6144x10xf32>
    StableHlo.TRef.unary (.of main_call0_cst : StableHlo.TRef sig ⟨S_, .f32⟩) (.of main_call0_v2 : StableHlo.TRef sig ⟨S3x6144x10, .f32⟩) (broadcastInDim S3x6144x10 ![] bcast_S_S3x6144x10),  -- @softplus %2 = stablehlo.broadcast_in_dim %cst, dims = [] : (tensor<f32>) -> tensor<3x6144x10xf32>
    StableHlo.TRef.binary (.of main_v5 : StableHlo.TRef sig ⟨S3x6144x10, .f32⟩) (.of main_call0_v2 : StableHlo.TRef sig ⟨S3x6144x10, .f32⟩) (.of main_call0_v3 : StableHlo.TRef sig ⟨S3x6144x10, .f32⟩) subf,  -- @softplus %3 = stablehlo.subtract %arg0, %2 : tensor<3x6144x10xf32>
    StableHlo.TRef.binary (.of main_call0_v3 : StableHlo.TRef sig ⟨S3x6144x10, .f32⟩) (.of main_call0_v3 : StableHlo.TRef sig ⟨S3x6144x10, .f32⟩) (.of main_call0_v4 : StableHlo.TRef sig ⟨S3x6144x10, .i1⟩) (cmpf .une),  -- @softplus %4 = stablehlo.compare NE, %3, %3, FLOAT : (tensor<3x6144x10xf32>, tensor<3x6144x10xf32>) -> tensor<3x6144x10xi1>
    StableHlo.TRef.unary (.of main_call0_cst : StableHlo.TRef sig ⟨S_, .f32⟩) (.of main_call0_v5 : StableHlo.TRef sig ⟨S3x6144x10, .f32⟩) (broadcastInDim S3x6144x10 ![] bcast_S_S3x6144x10),  -- @softplus %5 = stablehlo.broadcast_in_dim %cst, dims = [] : (tensor<f32>) -> tensor<3x6144x10xf32>
    StableHlo.TRef.binary (.of main_v5 : StableHlo.TRef sig ⟨S3x6144x10, .f32⟩) (.of main_call0_v5 : StableHlo.TRef sig ⟨S3x6144x10, .f32⟩) (.of main_call0_v6 : StableHlo.TRef sig ⟨S3x6144x10, .f32⟩) addf,  -- @softplus %6 = stablehlo.add %arg0, %5 : tensor<3x6144x10xf32>
    StableHlo.TRef.unary (.of main_call0_v3 : StableHlo.TRef sig ⟨S3x6144x10, .f32⟩) (.of main_call0_v7 : StableHlo.TRef sig ⟨S3x6144x10, .f32⟩) Host.absf,  -- @softplus %7 = stablehlo.abs %3 : tensor<3x6144x10xf32>
    StableHlo.TRef.unary (.of main_call0_v7 : StableHlo.TRef sig ⟨S3x6144x10, .f32⟩) (.of main_call0_v8 : StableHlo.TRef sig ⟨S3x6144x10, .f32⟩) Host.negf,  -- @softplus %8 = stablehlo.negate %7 : tensor<3x6144x10xf32>
    StableHlo.TRef.unary (.of main_call0_v8 : StableHlo.TRef sig ⟨S3x6144x10, .f32⟩) (.of main_call0_v9 : StableHlo.TRef sig ⟨S3x6144x10, .f32⟩) Host.exp,  -- @softplus %9 = stablehlo.exponential %8 : tensor<3x6144x10xf32>
    StableHlo.TRef.unary (.of main_call0_v9 : StableHlo.TRef sig ⟨S3x6144x10, .f32⟩) (.of main_call0_v10 : StableHlo.TRef sig ⟨S3x6144x10, .f32⟩) Host.log1p,  -- @softplus %10 = stablehlo.log_plus_one %9 : tensor<3x6144x10xf32>
    StableHlo.TRef.binary (.of main_call0_v1 : StableHlo.TRef sig ⟨S3x6144x10, .f32⟩) (.of main_call0_v10 : StableHlo.TRef sig ⟨S3x6144x10, .f32⟩) (.of main_call0_v11 : StableHlo.TRef sig ⟨S3x6144x10, .f32⟩) addf,  -- @softplus %11 = stablehlo.add %1, %10 : tensor<3x6144x10xf32>
    StableHlo.TRef.ternary (.of main_call0_v4 : StableHlo.TRef sig ⟨S3x6144x10, .i1⟩) (.of main_call0_v6 : StableHlo.TRef sig ⟨S3x6144x10, .f32⟩) (.of main_call0_v11 : StableHlo.TRef sig ⟨S3x6144x10, .f32⟩) (.of main_v6 : StableHlo.TRef sig ⟨S3x6144x10, .f32⟩) select,  -- @softplus %12 = stablehlo.select %4, %6, %11 : tensor<3x6144x10xi1>, tensor<3x6144x10xf32>
    StableHlo.nullary main_cst (constant S_ .f32 0x3F800000#32),  -- %cst = stablehlo.constant dense<1.000000e+00> : tensor<f32>
    StableHlo.unary main_cst main_v7 (broadcastInDim S3x6144x10 ![] bcast_S_S3x6144x10 : (⟨S_, .f32⟩ : BufTy).Contents (Elt F) → (⟨S3x6144x10, .f32⟩ : BufTy).Contents (Elt F)),  -- %7 = stablehlo.broadcast_in_dim %cst, dims = [] : (tensor<f32>) -> tensor<3x6144x10xf32>
    StableHlo.binary main_v6 main_v7 main_v8 (addf : (⟨S3x6144x10, .f32⟩ : BufTy).Contents (Elt F) → (⟨S3x6144x10, .f32⟩ : BufTy).Contents (Elt F) → (⟨S3x6144x10, .f32⟩ : BufTy).Contents (Elt F)),  -- %8 = stablehlo.add %6, %7 : tensor<3x6144x10xf32>
    StableHlo.unary main_v8 main_v9 ((extractStridedSlice S1x6144x10 ![0, 0, 0] · slices_S3x6144x10_S1x6144x10_0_0_0) : (⟨S3x6144x10, .f32⟩ : BufTy).Contents (Elt F) → (⟨S1x6144x10, .f32⟩ : BufTy).Contents (Elt F)),  -- %9 = stablehlo.slice %8 [0:1, 0:6144, 0:10] : (tensor<3x6144x10xf32>) -> tensor<1x6144x10xf32>
    StableHlo.reshape main_v9 main_v10 rfl shapeCasts_S1x6144x10_S6144x10,  -- %10 = stablehlo.reshape %9 : (tensor<1x6144x10xf32>) -> tensor<6144x10xf32>
    StableHlo.unary main_v8 main_v11 ((extractStridedSlice S1x6144x10 ![1, 0, 0] · slices_S3x6144x10_S1x6144x10_1_0_0) : (⟨S3x6144x10, .f32⟩ : BufTy).Contents (Elt F) → (⟨S1x6144x10, .f32⟩ : BufTy).Contents (Elt F)),  -- %11 = stablehlo.slice %8 [1:2, 0:6144, 0:10] : (tensor<3x6144x10xf32>) -> tensor<1x6144x10xf32>
    StableHlo.reshape main_v11 main_v12 rfl shapeCasts_S1x6144x10_S6144x10,  -- %12 = stablehlo.reshape %11 : (tensor<1x6144x10xf32>) -> tensor<6144x10xf32>
    StableHlo.unary main_v8 main_v13 ((extractStridedSlice S1x6144x10 ![2, 0, 0] · slices_S3x6144x10_S1x6144x10_2_0_0) : (⟨S3x6144x10, .f32⟩ : BufTy).Contents (Elt F) → (⟨S1x6144x10, .f32⟩ : BufTy).Contents (Elt F)),  -- %13 = stablehlo.slice %8 [2:3, 0:6144, 0:10] : (tensor<3x6144x10xf32>) -> tensor<1x6144x10xf32>
    StableHlo.reshape main_v13 main_v14 rfl shapeCasts_S1x6144x10_S6144x10 ]  -- %14 = stablehlo.reshape %13 : (tensor<1x6144x10xf32>) -> tensor<6144x10xf32>

/-- The first sweep's first Dempster combination, of the evidences `main_v10` and `main_v12`, row by row: the row sums, beliefs
    and uncertainties, the conflict, the combined beliefs and uncertainty, and the evidences they give back; written last, to `main_v60`. (59 operations.) -/
abbrev opsDa1 : List (HloOp τ sig (Elt F)) :=
  [ StableHlo.nullary main_cst_0 (constant S_ .f32 0x00000000#32),  -- %cst_0 = stablehlo.constant dense<0.000000e+00> : tensor<f32>
    StableHlo.binary main_v10 main_cst_0 main_v15 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %15 = stablehlo.reduce(%10 init: %cst_0) applies stablehlo.add across dimensions = [1] : (tensor<6144x10xf32>, tensor<f32>) -> tensor<6144xf32> {
    StableHlo.unary main_v15 main_v16 (broadcastInDim S6144x1 ![0] bcast_S6144_S6144x1_0 : (⟨S6144, .f32⟩ : BufTy).Contents (Elt F) → (⟨S6144x1, .f32⟩ : BufTy).Contents (Elt F)),  -- %16 = stablehlo.broadcast_in_dim %15, dims = [0] : (tensor<6144xf32>) -> tensor<6144x1xf32>
    StableHlo.nullary main_cst_1 (constant S_ .f32 0x00000000#32),  -- %cst_1 = stablehlo.constant dense<0.000000e+00> : tensor<f32>
    StableHlo.binary main_v12 main_cst_1 main_v17 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %17 = stablehlo.reduce(%12 init: %cst_1) applies stablehlo.add across dimensions = [1] : (tensor<6144x10xf32>, tensor<f32>) -> tensor<6144xf32> {
    StableHlo.unary main_v17 main_v18 (broadcastInDim S6144x1 ![0] bcast_S6144_S6144x1_0 : (⟨S6144, .f32⟩ : BufTy).Contents (Elt F) → (⟨S6144x1, .f32⟩ : BufTy).Contents (Elt F)),  -- %18 = stablehlo.broadcast_in_dim %17, dims = [0] : (tensor<6144xf32>) -> tensor<6144x1xf32>
    StableHlo.nullary main_cst_2 (constant S_ .f32 0x3F800000#32),  -- %cst_2 = stablehlo.constant dense<1.000000e+00> : tensor<f32>
    StableHlo.unary main_cst_2 main_v19 (broadcastInDim S6144x10 ![] bcast_S_S6144x10 : (⟨S_, .f32⟩ : BufTy).Contents (Elt F) → (⟨S6144x10, .f32⟩ : BufTy).Contents (Elt F)),  -- %19 = stablehlo.broadcast_in_dim %cst_2, dims = [] : (tensor<f32>) -> tensor<6144x10xf32>
    StableHlo.binary main_v10 main_v19 main_v20 (subf : (⟨S6144x10, .f32⟩ : BufTy).Contents (Elt F) → (⟨S6144x10, .f32⟩ : BufTy).Contents (Elt F) → (⟨S6144x10, .f32⟩ : BufTy).Contents (Elt F)),  -- %20 = stablehlo.subtract %10, %19 : tensor<6144x10xf32>
    StableHlo.unary main_v16 main_v21 (broadcastInDim S6144x10 ![0, 1] bcast_S6144x1_S6144x10_0_1 : (⟨S6144x1, .f32⟩ : BufTy).Contents (Elt F) → (⟨S6144x10, .f32⟩ : BufTy).Contents (Elt F)),  -- %21 = stablehlo.broadcast_in_dim %16, dims = [0, 1] : (tensor<6144x1xf32>) -> tensor<6144x10xf32>
    StableHlo.binary main_v20 main_v21 main_v22 (Host.divf : (⟨S6144x10, .f32⟩ : BufTy).Contents (Elt F) → (⟨S6144x10, .f32⟩ : BufTy).Contents (Elt F) → (⟨S6144x10, .f32⟩ : BufTy).Contents (Elt F)),  -- %22 = stablehlo.divide %20, %21 : tensor<6144x10xf32>
    StableHlo.nullary main_cst_3 (constant S_ .f32 0x3F800000#32),  -- %cst_3 = stablehlo.constant dense<1.000000e+00> : tensor<f32>
    StableHlo.unary main_cst_3 main_v23 (broadcastInDim S6144x10 ![] bcast_S_S6144x10 : (⟨S_, .f32⟩ : BufTy).Contents (Elt F) → (⟨S6144x10, .f32⟩ : BufTy).Contents (Elt F)),  -- %23 = stablehlo.broadcast_in_dim %cst_3, dims = [] : (tensor<f32>) -> tensor<6144x10xf32>
    StableHlo.binary main_v12 main_v23 main_v24 (subf : (⟨S6144x10, .f32⟩ : BufTy).Contents (Elt F) → (⟨S6144x10, .f32⟩ : BufTy).Contents (Elt F) → (⟨S6144x10, .f32⟩ : BufTy).Contents (Elt F)),  -- %24 = stablehlo.subtract %12, %23 : tensor<6144x10xf32>
    StableHlo.unary main_v18 main_v25 (broadcastInDim S6144x10 ![0, 1] bcast_S6144x1_S6144x10_0_1 : (⟨S6144x1, .f32⟩ : BufTy).Contents (Elt F) → (⟨S6144x10, .f32⟩ : BufTy).Contents (Elt F)),  -- %25 = stablehlo.broadcast_in_dim %18, dims = [0, 1] : (tensor<6144x1xf32>) -> tensor<6144x10xf32>
    StableHlo.binary main_v24 main_v25 main_v26 (Host.divf : (⟨S6144x10, .f32⟩ : BufTy).Contents (Elt F) → (⟨S6144x10, .f32⟩ : BufTy).Contents (Elt F) → (⟨S6144x10, .f32⟩ : BufTy).Contents (Elt F)),  -- %26 = stablehlo.divide %24, %25 : tensor<6144x10xf32>
    StableHlo.nullary main_cst_4 (constant S_ .f32 0x41200000#32),  -- %cst_4 = stablehlo.constant dense<1.000000e+01> : tensor<f32>
    StableHlo.unary main_cst_4 main_v27 (broadcastInDim S6144x1 ![] bcast_S_S6144x1 : (⟨S_, .f32⟩ : BufTy).Contents (Elt F) → (⟨S6144x1, .f32⟩ : BufTy).Contents (Elt F)),  -- %27 = stablehlo.broadcast_in_dim %cst_4, dims = [] : (tensor<f32>) -> tensor<6144x1xf32>
    StableHlo.binary main_v27 main_v16 main_v28 (Host.divf : (⟨S6144x1, .f32⟩ : BufTy).Contents (Elt F) → (⟨S6144x1, .f32⟩ : BufTy).Contents (Elt F) → (⟨S6144x1, .f32⟩ : BufTy).Contents (Elt F)),  -- %28 = stablehlo.divide %27, %16 : tensor<6144x1xf32>
    StableHlo.nullary main_cst_5 (constant S_ .f32 0x41200000#32),  -- %cst_5 = stablehlo.constant dense<1.000000e+01> : tensor<f32>
    StableHlo.unary main_cst_5 main_v29 (broadcastInDim S6144x1 ![] bcast_S_S6144x1 : (⟨S_, .f32⟩ : BufTy).Contents (Elt F) → (⟨S6144x1, .f32⟩ : BufTy).Contents (Elt F)),  -- %29 = stablehlo.broadcast_in_dim %cst_5, dims = [] : (tensor<f32>) -> tensor<6144x1xf32>
    StableHlo.binary main_v29 main_v18 main_v30 (Host.divf : (⟨S6144x1, .f32⟩ : BufTy).Contents (Elt F) → (⟨S6144x1, .f32⟩ : BufTy).Contents (Elt F) → (⟨S6144x1, .f32⟩ : BufTy).Contents (Elt F)),  -- %30 = stablehlo.divide %29, %18 : tensor<6144x1xf32>
    StableHlo.nullary main_cst_6 (constant S_ .f32 0x00000000#32),  -- %cst_6 = stablehlo.constant dense<0.000000e+00> : tensor<f32>
    StableHlo.binary main_v22 main_cst_6 main_v31 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %31 = stablehlo.reduce(%22 init: %cst_6) applies stablehlo.add across dimensions = [1] : (tensor<6144x10xf32>, tensor<f32>) -> tensor<6144xf32> {
    StableHlo.unary main_v31 main_v32 (broadcastInDim S6144x1 ![0] bcast_S6144_S6144x1_0 : (⟨S6144, .f32⟩ : BufTy).Contents (Elt F) → (⟨S6144x1, .f32⟩ : BufTy).Contents (Elt F)),  -- %32 = stablehlo.broadcast_in_dim %31, dims = [0] : (tensor<6144xf32>) -> tensor<6144x1xf32>
    StableHlo.nullary main_cst_7 (constant S_ .f32 0x00000000#32),  -- %cst_7 = stablehlo.constant dense<0.000000e+00> : tensor<f32>
    StableHlo.binary main_v26 main_cst_7 main_v33 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %33 = stablehlo.reduce(%26 init: %cst_7) applies stablehlo.add across dimensions = [1] : (tensor<6144x10xf32>, tensor<f32>) -> tensor<6144xf32> {
    StableHlo.unary main_v33 main_v34 (broadcastInDim S6144x1 ![0] bcast_S6144_S6144x1_0 : (⟨S6144, .f32⟩ : BufTy).Contents (Elt F) → (⟨S6144x1, .f32⟩ : BufTy).Contents (Elt F)),  -- %34 = stablehlo.broadcast_in_dim %33, dims = [0] : (tensor<6144xf32>) -> tensor<6144x1xf32>
    StableHlo.binary main_v32 main_v34 main_v35 (mulf : (⟨S6144x1, .f32⟩ : BufTy).Contents (Elt F) → (⟨S6144x1, .f32⟩ : BufTy).Contents (Elt F) → (⟨S6144x1, .f32⟩ : BufTy).Contents (Elt F)),  -- %35 = stablehlo.multiply %32, %34 : tensor<6144x1xf32>
    StableHlo.binary main_v22 main_v26 main_v36 (mulf : (⟨S6144x10, .f32⟩ : BufTy).Contents (Elt F) → (⟨S6144x10, .f32⟩ : BufTy).Contents (Elt F) → (⟨S6144x10, .f32⟩ : BufTy).Contents (Elt F)),  -- %36 = stablehlo.multiply %22, %26 : tensor<6144x10xf32>
    StableHlo.nullary main_cst_8 (constant S_ .f32 0x00000000#32),  -- %cst_8 = stablehlo.constant dense<0.000000e+00> : tensor<f32>
    StableHlo.binary main_v36 main_cst_8 main_v37 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %37 = stablehlo.reduce(%36 init: %cst_8) applies stablehlo.add across dimensions = [1] : (tensor<6144x10xf32>, tensor<f32>) -> tensor<6144xf32> {
    StableHlo.unary main_v37 main_v38 (broadcastInDim S6144x1 ![0] bcast_S6144_S6144x1_0 : (⟨S6144, .f32⟩ : BufTy).Contents (Elt F) → (⟨S6144x1, .f32⟩ : BufTy).Contents (Elt F)),  -- %38 = stablehlo.broadcast_in_dim %37, dims = [0] : (tensor<6144xf32>) -> tensor<6144x1xf32>
    StableHlo.binary main_v35 main_v38 main_v39 (subf : (⟨S6144x1, .f32⟩ : BufTy).Contents (Elt F) → (⟨S6144x1, .f32⟩ : BufTy).Contents (Elt F) → (⟨S6144x1, .f32⟩ : BufTy).Contents (Elt F)),  -- %39 = stablehlo.subtract %35, %38 : tensor<6144x1xf32>
    StableHlo.binary main_v22 main_v26 main_v40 (mulf : (⟨S6144x10, .f32⟩ : BufTy).Contents (Elt F) → (⟨S6144x10, .f32⟩ : BufTy).Contents (Elt F) → (⟨S6144x10, .f32⟩ : BufTy).Contents (Elt F)),  -- %40 = stablehlo.multiply %22, %26 : tensor<6144x10xf32>
    StableHlo.unary main_v30 main_v41 (broadcastInDim S6144x10 ![0, 1] bcast_S6144x1_S6144x10_0_1 : (⟨S6144x1, .f32⟩ : BufTy).Contents (Elt F) → (⟨S6144x10, .f32⟩ : BufTy).Contents (Elt F)),  -- %41 = stablehlo.broadcast_in_dim %30, dims = [0, 1] : (tensor<6144x1xf32>) -> tensor<6144x10xf32>
    StableHlo.binary main_v22 main_v41 main_v42 (mulf : (⟨S6144x10, .f32⟩ : BufTy).Contents (Elt F) → (⟨S6144x10, .f32⟩ : BufTy).Contents (Elt F) → (⟨S6144x10, .f32⟩ : BufTy).Contents (Elt F)),  -- %42 = stablehlo.multiply %22, %41 : tensor<6144x10xf32>
    StableHlo.binary main_v40 main_v42 main_v43 (addf : (⟨S6144x10, .f32⟩ : BufTy).Contents (Elt F) → (⟨S6144x10, .f32⟩ : BufTy).Contents (Elt F) → (⟨S6144x10, .f32⟩ : BufTy).Contents (Elt F)),  -- %43 = stablehlo.add %40, %42 : tensor<6144x10xf32>
    StableHlo.unary main_v28 main_v44 (broadcastInDim S6144x10 ![0, 1] bcast_S6144x1_S6144x10_0_1 : (⟨S6144x1, .f32⟩ : BufTy).Contents (Elt F) → (⟨S6144x10, .f32⟩ : BufTy).Contents (Elt F)),  -- %44 = stablehlo.broadcast_in_dim %28, dims = [0, 1] : (tensor<6144x1xf32>) -> tensor<6144x10xf32>
    StableHlo.binary main_v26 main_v44 main_v45 (mulf : (⟨S6144x10, .f32⟩ : BufTy).Contents (Elt F) → (⟨S6144x10, .f32⟩ : BufTy).Contents (Elt F) → (⟨S6144x10, .f32⟩ : BufTy).Contents (Elt F)),  -- %45 = stablehlo.multiply %26, %44 : tensor<6144x10xf32>
    StableHlo.binary main_v43 main_v45 main_v46 (addf : (⟨S6144x10, .f32⟩ : BufTy).Contents (Elt F) → (⟨S6144x10, .f32⟩ : BufTy).Contents (Elt F) → (⟨S6144x10, .f32⟩ : BufTy).Contents (Elt F)),  -- %46 = stablehlo.add %43, %45 : tensor<6144x10xf32>
    StableHlo.nullary main_cst_9 (constant S_ .f32 0x3F800000#32),  -- %cst_9 = stablehlo.constant dense<1.000000e+00> : tensor<f32>
    StableHlo.unary main_cst_9 main_v47 (broadcastInDim S6144x1 ![] bcast_S_S6144x1 : (⟨S_, .f32⟩ : BufTy).Contents (Elt F) → (⟨S6144x1, .f32⟩ : BufTy).Contents (Elt F)),  -- %47 = stablehlo.broadcast_in_dim %cst_9, dims = [] : (tensor<f32>) -> tensor<6144x1xf32>
    StableHlo.binary main_v47 main_v39 main_v48 (subf : (⟨S6144x1, .f32⟩ : BufTy).Contents (Elt F) → (⟨S6144x1, .f32⟩ : BufTy).Contents (Elt F) → (⟨S6144x1, .f32⟩ : BufTy).Contents (Elt F)),  -- %48 = stablehlo.subtract %47, %39 : tensor<6144x1xf32>
    StableHlo.unary main_v48 main_v49 (broadcastInDim S6144x10 ![0, 1] bcast_S6144x1_S6144x10_0_1 : (⟨S6144x1, .f32⟩ : BufTy).Contents (Elt F) → (⟨S6144x10, .f32⟩ : BufTy).Contents (Elt F)),  -- %49 = stablehlo.broadcast_in_dim %48, dims = [0, 1] : (tensor<6144x1xf32>) -> tensor<6144x10xf32>
    StableHlo.binary main_v46 main_v49 main_v50 (Host.divf : (⟨S6144x10, .f32⟩ : BufTy).Contents (Elt F) → (⟨S6144x10, .f32⟩ : BufTy).Contents (Elt F) → (⟨S6144x10, .f32⟩ : BufTy).Contents (Elt F)),  -- %50 = stablehlo.divide %46, %49 : tensor<6144x10xf32>
    StableHlo.binary main_v28 main_v30 main_v51 (mulf : (⟨S6144x1, .f32⟩ : BufTy).Contents (Elt F) → (⟨S6144x1, .f32⟩ : BufTy).Contents (Elt F) → (⟨S6144x1, .f32⟩ : BufTy).Contents (Elt F)),  -- %51 = stablehlo.multiply %28, %30 : tensor<6144x1xf32>
    StableHlo.nullary main_cst_10 (constant S_ .f32 0x3F800000#32),  -- %cst_10 = stablehlo.constant dense<1.000000e+00> : tensor<f32>
    StableHlo.unary main_cst_10 main_v52 (broadcastInDim S6144x1 ![] bcast_S_S6144x1 : (⟨S_, .f32⟩ : BufTy).Contents (Elt F) → (⟨S6144x1, .f32⟩ : BufTy).Contents (Elt F)),  -- %52 = stablehlo.broadcast_in_dim %cst_10, dims = [] : (tensor<f32>) -> tensor<6144x1xf32>
    StableHlo.binary main_v52 main_v39 main_v53 (subf : (⟨S6144x1, .f32⟩ : BufTy).Contents (Elt F) → (⟨S6144x1, .f32⟩ : BufTy).Contents (Elt F) → (⟨S6144x1, .f32⟩ : BufTy).Contents (Elt F)),  -- %53 = stablehlo.subtract %52, %39 : tensor<6144x1xf32>
    StableHlo.binary main_v51 main_v53 main_v54 (Host.divf : (⟨S6144x1, .f32⟩ : BufTy).Contents (Elt F) → (⟨S6144x1, .f32⟩ : BufTy).Contents (Elt F) → (⟨S6144x1, .f32⟩ : BufTy).Contents (Elt F)),  -- %54 = stablehlo.divide %51, %53 : tensor<6144x1xf32>
    StableHlo.nullary main_cst_11 (constant S_ .f32 0x41200000#32),  -- %cst_11 = stablehlo.constant dense<1.000000e+01> : tensor<f32>
    StableHlo.unary main_cst_11 main_v55 (broadcastInDim S6144x1 ![] bcast_S_S6144x1 : (⟨S_, .f32⟩ : BufTy).Contents (Elt F) → (⟨S6144x1, .f32⟩ : BufTy).Contents (Elt F)),  -- %55 = stablehlo.broadcast_in_dim %cst_11, dims = [] : (tensor<f32>) -> tensor<6144x1xf32>
    StableHlo.binary main_v55 main_v54 main_v56 (Host.divf : (⟨S6144x1, .f32⟩ : BufTy).Contents (Elt F) → (⟨S6144x1, .f32⟩ : BufTy).Contents (Elt F) → (⟨S6144x1, .f32⟩ : BufTy).Contents (Elt F)),  -- %56 = stablehlo.divide %55, %54 : tensor<6144x1xf32>
    StableHlo.unary main_v56 main_v57 (broadcastInDim S6144x10 ![0, 1] bcast_S6144x1_S6144x10_0_1 : (⟨S6144x1, .f32⟩ : BufTy).Contents (Elt F) → (⟨S6144x10, .f32⟩ : BufTy).Contents (Elt F)),  -- %57 = stablehlo.broadcast_in_dim %56, dims = [0, 1] : (tensor<6144x1xf32>) -> tensor<6144x10xf32>
    StableHlo.binary main_v50 main_v57 main_v58 (mulf : (⟨S6144x10, .f32⟩ : BufTy).Contents (Elt F) → (⟨S6144x10, .f32⟩ : BufTy).Contents (Elt F) → (⟨S6144x10, .f32⟩ : BufTy).Contents (Elt F)),  -- %58 = stablehlo.multiply %50, %57 : tensor<6144x10xf32>
    StableHlo.nullary main_cst_12 (constant S_ .f32 0x3F800000#32),  -- %cst_12 = stablehlo.constant dense<1.000000e+00> : tensor<f32>
    StableHlo.unary main_cst_12 main_v59 (broadcastInDim S6144x10 ![] bcast_S_S6144x10 : (⟨S_, .f32⟩ : BufTy).Contents (Elt F) → (⟨S6144x10, .f32⟩ : BufTy).Contents (Elt F)),  -- %59 = stablehlo.broadcast_in_dim %cst_12, dims = [] : (tensor<f32>) -> tensor<6144x10xf32>
    StableHlo.binary main_v58 main_v59 main_v60 (addf : (⟨S6144x10, .f32⟩ : BufTy).Contents (Elt F) → (⟨S6144x10, .f32⟩ : BufTy).Contents (Elt F) → (⟨S6144x10, .f32⟩ : BufTy).Contents (Elt F)) ]  -- %60 = stablehlo.add %58, %59 : tensor<6144x10xf32>

/-- The first sweep's second Dempster combination, of `main_v60` and the third view `main_v14`; the fused array h is written
    last, to `main_v106`. (59 operations.) -/
abbrev opsDb1 : List (HloOp τ sig (Elt F)) :=
  [ StableHlo.nullary main_cst_13 (constant S_ .f32 0x00000000#32),  -- %cst_13 = stablehlo.constant dense<0.000000e+00> : tensor<f32>
    StableHlo.binary main_v60 main_cst_13 main_v61 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %61 = stablehlo.reduce(%60 init: %cst_13) applies stablehlo.add across dimensions = [1] : (tensor<6144x10xf32>, tensor<f32>) -> tensor<6144xf32> {
    StableHlo.unary main_v61 main_v62 (broadcastInDim S6144x1 ![0] bcast_S6144_S6144x1_0 : (⟨S6144, .f32⟩ : BufTy).Contents (Elt F) → (⟨S6144x1, .f32⟩ : BufTy).Contents (Elt F)),  -- %62 = stablehlo.broadcast_in_dim %61, dims = [0] : (tensor<6144xf32>) -> tensor<6144x1xf32>
    StableHlo.nullary main_cst_14 (constant S_ .f32 0x00000000#32),  -- %cst_14 = stablehlo.constant dense<0.000000e+00> : tensor<f32>
    StableHlo.binary main_v14 main_cst_14 main_v63 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %63 = stablehlo.reduce(%14 init: %cst_14) applies stablehlo.add across dimensions = [1] : (tensor<6144x10xf32>, tensor<f32>) -> tensor<6144xf32> {
    StableHlo.unary main_v63 main_v64 (broadcastInDim S6144x1 ![0] bcast_S6144_S6144x1_0 : (⟨S6144, .f32⟩ : BufTy).Contents (Elt F) → (⟨S6144x1, .f32⟩ : BufTy).Contents (Elt F)),  -- %64 = stablehlo.broadcast_in_dim %63, dims = [0] : (tensor<6144xf32>) -> tensor<6144x1xf32>
    StableHlo.nullary main_cst_15 (constant S_ .f32 0x3F800000#32),  -- %cst_15 = stablehlo.constant dense<1.000000e+00> : tensor<f32>
    StableHlo.unary main_cst_15 main_v65 (broadcastInDim S6144x10 ![] bcast_S_S6144x10 : (⟨S_, .f32⟩ : BufTy).Contents (Elt F) → (⟨S6144x10, .f32⟩ : BufTy).Contents (Elt F)),  -- %65 = stablehlo.broadcast_in_dim %cst_15, dims = [] : (tensor<f32>) -> tensor<6144x10xf32>
    StableHlo.binary main_v60 main_v65 main_v66 (subf : (⟨S6144x10, .f32⟩ : BufTy).Contents (Elt F) → (⟨S6144x10, .f32⟩ : BufTy).Contents (Elt F) → (⟨S6144x10, .f32⟩ : BufTy).Contents (Elt F)),  -- %66 = stablehlo.subtract %60, %65 : tensor<6144x10xf32>
    StableHlo.unary main_v62 main_v67 (broadcastInDim S6144x10 ![0, 1] bcast_S6144x1_S6144x10_0_1 : (⟨S6144x1, .f32⟩ : BufTy).Contents (Elt F) → (⟨S6144x10, .f32⟩ : BufTy).Contents (Elt F)),  -- %67 = stablehlo.broadcast_in_dim %62, dims = [0, 1] : (tensor<6144x1xf32>) -> tensor<6144x10xf32>
    StableHlo.binary main_v66 main_v67 main_v68 (Host.divf : (⟨S6144x10, .f32⟩ : BufTy).Contents (Elt F) → (⟨S6144x10, .f32⟩ : BufTy).Contents (Elt F) → (⟨S6144x10, .f32⟩ : BufTy).Contents (Elt F)),  -- %68 = stablehlo.divide %66, %67 : tensor<6144x10xf32>
    StableHlo.nullary main_cst_16 (constant S_ .f32 0x3F800000#32),  -- %cst_16 = stablehlo.constant dense<1.000000e+00> : tensor<f32>
    StableHlo.unary main_cst_16 main_v69 (broadcastInDim S6144x10 ![] bcast_S_S6144x10 : (⟨S_, .f32⟩ : BufTy).Contents (Elt F) → (⟨S6144x10, .f32⟩ : BufTy).Contents (Elt F)),  -- %69 = stablehlo.broadcast_in_dim %cst_16, dims = [] : (tensor<f32>) -> tensor<6144x10xf32>
    StableHlo.binary main_v14 main_v69 main_v70 (subf : (⟨S6144x10, .f32⟩ : BufTy).Contents (Elt F) → (⟨S6144x10, .f32⟩ : BufTy).Contents (Elt F) → (⟨S6144x10, .f32⟩ : BufTy).Contents (Elt F)),  -- %70 = stablehlo.subtract %14, %69 : tensor<6144x10xf32>
    StableHlo.unary main_v64 main_v71 (broadcastInDim S6144x10 ![0, 1] bcast_S6144x1_S6144x10_0_1 : (⟨S6144x1, .f32⟩ : BufTy).Contents (Elt F) → (⟨S6144x10, .f32⟩ : BufTy).Contents (Elt F)),  -- %71 = stablehlo.broadcast_in_dim %64, dims = [0, 1] : (tensor<6144x1xf32>) -> tensor<6144x10xf32>
    StableHlo.binary main_v70 main_v71 main_v72 (Host.divf : (⟨S6144x10, .f32⟩ : BufTy).Contents (Elt F) → (⟨S6144x10, .f32⟩ : BufTy).Contents (Elt F) → (⟨S6144x10, .f32⟩ : BufTy).Contents (Elt F)),  -- %72 = stablehlo.divide %70, %71 : tensor<6144x10xf32>
    StableHlo.nullary main_cst_17 (constant S_ .f32 0x41200000#32),  -- %cst_17 = stablehlo.constant dense<1.000000e+01> : tensor<f32>
    StableHlo.unary main_cst_17 main_v73 (broadcastInDim S6144x1 ![] bcast_S_S6144x1 : (⟨S_, .f32⟩ : BufTy).Contents (Elt F) → (⟨S6144x1, .f32⟩ : BufTy).Contents (Elt F)),  -- %73 = stablehlo.broadcast_in_dim %cst_17, dims = [] : (tensor<f32>) -> tensor<6144x1xf32>
    StableHlo.binary main_v73 main_v62 main_v74 (Host.divf : (⟨S6144x1, .f32⟩ : BufTy).Contents (Elt F) → (⟨S6144x1, .f32⟩ : BufTy).Contents (Elt F) → (⟨S6144x1, .f32⟩ : BufTy).Contents (Elt F)),  -- %74 = stablehlo.divide %73, %62 : tensor<6144x1xf32>
    StableHlo.nullary main_cst_18 (constant S_ .f32 0x41200000#32),  -- %cst_18 = stablehlo.constant dense<1.000000e+01> : tensor<f32>
    StableHlo.unary main_cst_18 main_v75 (broadcastInDim S6144x1 ![] bcast_S_S6144x1 : (⟨S_, .f32⟩ : BufTy).Contents (Elt F) → (⟨S6144x1, .f32⟩ : BufTy).Contents (Elt F)),  -- %75 = stablehlo.broadcast_in_dim %cst_18, dims = [] : (tensor<f32>) -> tensor<6144x1xf32>
    StableHlo.binary main_v75 main_v64 main_v76 (Host.divf : (⟨S6144x1, .f32⟩ : BufTy).Contents (Elt F) → (⟨S6144x1, .f32⟩ : BufTy).Contents (Elt F) → (⟨S6144x1, .f32⟩ : BufTy).Contents (Elt F)),  -- %76 = stablehlo.divide %75, %64 : tensor<6144x1xf32>
    StableHlo.nullary main_cst_19 (constant S_ .f32 0x00000000#32),  -- %cst_19 = stablehlo.constant dense<0.000000e+00> : tensor<f32>
    StableHlo.binary main_v68 main_cst_19 main_v77 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %77 = stablehlo.reduce(%68 init: %cst_19) applies stablehlo.add across dimensions = [1] : (tensor<6144x10xf32>, tensor<f32>) -> tensor<6144xf32> {
    StableHlo.unary main_v77 main_v78 (broadcastInDim S6144x1 ![0] bcast_S6144_S6144x1_0 : (⟨S6144, .f32⟩ : BufTy).Contents (Elt F) → (⟨S6144x1, .f32⟩ : BufTy).Contents (Elt F)),  -- %78 = stablehlo.broadcast_in_dim %77, dims = [0] : (tensor<6144xf32>) -> tensor<6144x1xf32>
    StableHlo.nullary main_cst_20 (constant S_ .f32 0x00000000#32),  -- %cst_20 = stablehlo.constant dense<0.000000e+00> : tensor<f32>
    StableHlo.binary main_v72 main_cst_20 main_v79 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %79 = stablehlo.reduce(%72 init: %cst_20) applies stablehlo.add across dimensions = [1] : (tensor<6144x10xf32>, tensor<f32>) -> tensor<6144xf32> {
    StableHlo.unary main_v79 main_v80 (broadcastInDim S6144x1 ![0] bcast_S6144_S6144x1_0 : (⟨S6144, .f32⟩ : BufTy).Contents (Elt F) → (⟨S6144x1, .f32⟩ : BufTy).Contents (Elt F)),  -- %80 = stablehlo.broadcast_in_dim %79, dims = [0] : (tensor<6144xf32>) -> tensor<6144x1xf32>
    StableHlo.binary main_v78 main_v80 main_v81 (mulf : (⟨S6144x1, .f32⟩ : BufTy).Contents (Elt F) → (⟨S6144x1, .f32⟩ : BufTy).Contents (Elt F) → (⟨S6144x1, .f32⟩ : BufTy).Contents (Elt F)),  -- %81 = stablehlo.multiply %78, %80 : tensor<6144x1xf32>
    StableHlo.binary main_v68 main_v72 main_v82 (mulf : (⟨S6144x10, .f32⟩ : BufTy).Contents (Elt F) → (⟨S6144x10, .f32⟩ : BufTy).Contents (Elt F) → (⟨S6144x10, .f32⟩ : BufTy).Contents (Elt F)),  -- %82 = stablehlo.multiply %68, %72 : tensor<6144x10xf32>
    StableHlo.nullary main_cst_21 (constant S_ .f32 0x00000000#32),  -- %cst_21 = stablehlo.constant dense<0.000000e+00> : tensor<f32>
    StableHlo.binary main_v82 main_cst_21 main_v83 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %83 = stablehlo.reduce(%82 init: %cst_21) applies stablehlo.add across dimensions = [1] : (tensor<6144x10xf32>, tensor<f32>) -> tensor<6144xf32> {
    StableHlo.unary main_v83 main_v84 (broadcastInDim S6144x1 ![0] bcast_S6144_S6144x1_0 : (⟨S6144, .f32⟩ : BufTy).Contents (Elt F) → (⟨S6144x1, .f32⟩ : BufTy).Contents (Elt F)),  -- %84 = stablehlo.broadcast_in_dim %83, dims = [0] : (tensor<6144xf32>) -> tensor<6144x1xf32>
    StableHlo.binary main_v81 main_v84 main_v85 (subf : (⟨S6144x1, .f32⟩ : BufTy).Contents (Elt F) → (⟨S6144x1, .f32⟩ : BufTy).Contents (Elt F) → (⟨S6144x1, .f32⟩ : BufTy).Contents (Elt F)),  -- %85 = stablehlo.subtract %81, %84 : tensor<6144x1xf32>
    StableHlo.binary main_v68 main_v72 main_v86 (mulf : (⟨S6144x10, .f32⟩ : BufTy).Contents (Elt F) → (⟨S6144x10, .f32⟩ : BufTy).Contents (Elt F) → (⟨S6144x10, .f32⟩ : BufTy).Contents (Elt F)),  -- %86 = stablehlo.multiply %68, %72 : tensor<6144x10xf32>
    StableHlo.unary main_v76 main_v87 (broadcastInDim S6144x10 ![0, 1] bcast_S6144x1_S6144x10_0_1 : (⟨S6144x1, .f32⟩ : BufTy).Contents (Elt F) → (⟨S6144x10, .f32⟩ : BufTy).Contents (Elt F)),  -- %87 = stablehlo.broadcast_in_dim %76, dims = [0, 1] : (tensor<6144x1xf32>) -> tensor<6144x10xf32>
    StableHlo.binary main_v68 main_v87 main_v88 (mulf : (⟨S6144x10, .f32⟩ : BufTy).Contents (Elt F) → (⟨S6144x10, .f32⟩ : BufTy).Contents (Elt F) → (⟨S6144x10, .f32⟩ : BufTy).Contents (Elt F)),  -- %88 = stablehlo.multiply %68, %87 : tensor<6144x10xf32>
    StableHlo.binary main_v86 main_v88 main_v89 (addf : (⟨S6144x10, .f32⟩ : BufTy).Contents (Elt F) → (⟨S6144x10, .f32⟩ : BufTy).Contents (Elt F) → (⟨S6144x10, .f32⟩ : BufTy).Contents (Elt F)),  -- %89 = stablehlo.add %86, %88 : tensor<6144x10xf32>
    StableHlo.unary main_v74 main_v90 (broadcastInDim S6144x10 ![0, 1] bcast_S6144x1_S6144x10_0_1 : (⟨S6144x1, .f32⟩ : BufTy).Contents (Elt F) → (⟨S6144x10, .f32⟩ : BufTy).Contents (Elt F)),  -- %90 = stablehlo.broadcast_in_dim %74, dims = [0, 1] : (tensor<6144x1xf32>) -> tensor<6144x10xf32>
    StableHlo.binary main_v72 main_v90 main_v91 (mulf : (⟨S6144x10, .f32⟩ : BufTy).Contents (Elt F) → (⟨S6144x10, .f32⟩ : BufTy).Contents (Elt F) → (⟨S6144x10, .f32⟩ : BufTy).Contents (Elt F)),  -- %91 = stablehlo.multiply %72, %90 : tensor<6144x10xf32>
    StableHlo.binary main_v89 main_v91 main_v92 (addf : (⟨S6144x10, .f32⟩ : BufTy).Contents (Elt F) → (⟨S6144x10, .f32⟩ : BufTy).Contents (Elt F) → (⟨S6144x10, .f32⟩ : BufTy).Contents (Elt F)),  -- %92 = stablehlo.add %89, %91 : tensor<6144x10xf32>
    StableHlo.nullary main_cst_22 (constant S_ .f32 0x3F800000#32),  -- %cst_22 = stablehlo.constant dense<1.000000e+00> : tensor<f32>
    StableHlo.unary main_cst_22 main_v93 (broadcastInDim S6144x1 ![] bcast_S_S6144x1 : (⟨S_, .f32⟩ : BufTy).Contents (Elt F) → (⟨S6144x1, .f32⟩ : BufTy).Contents (Elt F)),  -- %93 = stablehlo.broadcast_in_dim %cst_22, dims = [] : (tensor<f32>) -> tensor<6144x1xf32>
    StableHlo.binary main_v93 main_v85 main_v94 (subf : (⟨S6144x1, .f32⟩ : BufTy).Contents (Elt F) → (⟨S6144x1, .f32⟩ : BufTy).Contents (Elt F) → (⟨S6144x1, .f32⟩ : BufTy).Contents (Elt F)),  -- %94 = stablehlo.subtract %93, %85 : tensor<6144x1xf32>
    StableHlo.unary main_v94 main_v95 (broadcastInDim S6144x10 ![0, 1] bcast_S6144x1_S6144x10_0_1 : (⟨S6144x1, .f32⟩ : BufTy).Contents (Elt F) → (⟨S6144x10, .f32⟩ : BufTy).Contents (Elt F)),  -- %95 = stablehlo.broadcast_in_dim %94, dims = [0, 1] : (tensor<6144x1xf32>) -> tensor<6144x10xf32>
    StableHlo.binary main_v92 main_v95 main_v96 (Host.divf : (⟨S6144x10, .f32⟩ : BufTy).Contents (Elt F) → (⟨S6144x10, .f32⟩ : BufTy).Contents (Elt F) → (⟨S6144x10, .f32⟩ : BufTy).Contents (Elt F)),  -- %96 = stablehlo.divide %92, %95 : tensor<6144x10xf32>
    StableHlo.binary main_v74 main_v76 main_v97 (mulf : (⟨S6144x1, .f32⟩ : BufTy).Contents (Elt F) → (⟨S6144x1, .f32⟩ : BufTy).Contents (Elt F) → (⟨S6144x1, .f32⟩ : BufTy).Contents (Elt F)),  -- %97 = stablehlo.multiply %74, %76 : tensor<6144x1xf32>
    StableHlo.nullary main_cst_23 (constant S_ .f32 0x3F800000#32),  -- %cst_23 = stablehlo.constant dense<1.000000e+00> : tensor<f32>
    StableHlo.unary main_cst_23 main_v98 (broadcastInDim S6144x1 ![] bcast_S_S6144x1 : (⟨S_, .f32⟩ : BufTy).Contents (Elt F) → (⟨S6144x1, .f32⟩ : BufTy).Contents (Elt F)),  -- %98 = stablehlo.broadcast_in_dim %cst_23, dims = [] : (tensor<f32>) -> tensor<6144x1xf32>
    StableHlo.binary main_v98 main_v85 main_v99 (subf : (⟨S6144x1, .f32⟩ : BufTy).Contents (Elt F) → (⟨S6144x1, .f32⟩ : BufTy).Contents (Elt F) → (⟨S6144x1, .f32⟩ : BufTy).Contents (Elt F)),  -- %99 = stablehlo.subtract %98, %85 : tensor<6144x1xf32>
    StableHlo.binary main_v97 main_v99 main_v100 (Host.divf : (⟨S6144x1, .f32⟩ : BufTy).Contents (Elt F) → (⟨S6144x1, .f32⟩ : BufTy).Contents (Elt F) → (⟨S6144x1, .f32⟩ : BufTy).Contents (Elt F)),  -- %100 = stablehlo.divide %97, %99 : tensor<6144x1xf32>
    StableHlo.nullary main_cst_24 (constant S_ .f32 0x41200000#32),  -- %cst_24 = stablehlo.constant dense<1.000000e+01> : tensor<f32>
    StableHlo.unary main_cst_24 main_v101 (broadcastInDim S6144x1 ![] bcast_S_S6144x1 : (⟨S_, .f32⟩ : BufTy).Contents (Elt F) → (⟨S6144x1, .f32⟩ : BufTy).Contents (Elt F)),  -- %101 = stablehlo.broadcast_in_dim %cst_24, dims = [] : (tensor<f32>) -> tensor<6144x1xf32>
    StableHlo.binary main_v101 main_v100 main_v102 (Host.divf : (⟨S6144x1, .f32⟩ : BufTy).Contents (Elt F) → (⟨S6144x1, .f32⟩ : BufTy).Contents (Elt F) → (⟨S6144x1, .f32⟩ : BufTy).Contents (Elt F)),  -- %102 = stablehlo.divide %101, %100 : tensor<6144x1xf32>
    StableHlo.unary main_v102 main_v103 (broadcastInDim S6144x10 ![0, 1] bcast_S6144x1_S6144x10_0_1 : (⟨S6144x1, .f32⟩ : BufTy).Contents (Elt F) → (⟨S6144x10, .f32⟩ : BufTy).Contents (Elt F)),  -- %103 = stablehlo.broadcast_in_dim %102, dims = [0, 1] : (tensor<6144x1xf32>) -> tensor<6144x10xf32>
    StableHlo.binary main_v96 main_v103 main_v104 (mulf : (⟨S6144x10, .f32⟩ : BufTy).Contents (Elt F) → (⟨S6144x10, .f32⟩ : BufTy).Contents (Elt F) → (⟨S6144x10, .f32⟩ : BufTy).Contents (Elt F)),  -- %104 = stablehlo.multiply %96, %103 : tensor<6144x10xf32>
    StableHlo.nullary main_cst_25 (constant S_ .f32 0x3F800000#32),  -- %cst_25 = stablehlo.constant dense<1.000000e+00> : tensor<f32>
    StableHlo.unary main_cst_25 main_v105 (broadcastInDim S6144x10 ![] bcast_S_S6144x10 : (⟨S_, .f32⟩ : BufTy).Contents (Elt F) → (⟨S6144x10, .f32⟩ : BufTy).Contents (Elt F)),  -- %105 = stablehlo.broadcast_in_dim %cst_25, dims = [] : (tensor<f32>) -> tensor<6144x10xf32>
    StableHlo.binary main_v104 main_v105 main_v106 (addf : (⟨S6144x10, .f32⟩ : BufTy).Contents (Elt F) → (⟨S6144x10, .f32⟩ : BufTy).Contents (Elt F) → (⟨S6144x10, .f32⟩ : BufTy).Contents (Elt F)) ]  -- %106 = stablehlo.add %104, %105 : tensor<6144x10xf32>

/-- The first sweep: evidences, then the two combinations; the fused array h is written last, to `main_v106`. (146 operations.) -/
abbrev opsS1 : List (HloOp τ sig (Elt F)) := opsE1 ++ opsDa1 ++ opsDb1

/-- The first sweep's tail: the column mean of h, its variance (the variance function's operations and its select at the call's
    buffers), the normalisation, scale and shift, and the two selu calls (each: elu's comparison, its two selects, expm1, the two
    scalings); the next estimate z' is written last, to `main_v135`. (90 operations.) -/
abbrev opsT1 : List (HloOp τ sig (Elt F)) :=
  [ StableHlo.nullary main_cst_26 (constant S_ .f32 0x00000000#32),  -- %cst_26 = stablehlo.constant dense<0.000000e+00> : tensor<f32>
    StableHlo.binary main_v106 main_cst_26 main_v107 ((fun x v => Host.reduceAdd x v reducesTo_S6144x10_S10_d0 h_S_) : (⟨S6144x10, .f32⟩ : BufTy).Contents (Elt F) → (⟨S_, .f32⟩ : BufTy).Contents (Elt F) → (⟨S10, .f32⟩ : BufTy).Contents (Elt F)),  -- %107 = stablehlo.reduce(%106 init: %cst_26) applies stablehlo.add across dimensions = [0] : (tensor<6144x10xf32>, tensor<f32>) -> tensor<10xf32> {
    StableHlo.nullary main_cst_27 (constant S_ .f32 0x45C00000#32),  -- %cst_27 = stablehlo.constant dense<6.144000e+03> : tensor<f32>
    StableHlo.unary main_cst_27 main_v108 (broadcastInDim S10 ![] bcast_S_S10 : (⟨S_, .f32⟩ : BufTy).Contents (Elt F) → (⟨S10, .f32⟩ : BufTy).Contents (Elt F)),  -- %108 = stablehlo.broadcast_in_dim %cst_27, dims = [] : (tensor<f32>) -> tensor<10xf32>
    StableHlo.binary main_v107 main_v108 main_v109 (Host.divf : (⟨S10, .f32⟩ : BufTy).Contents (Elt F) → (⟨S10, .f32⟩ : BufTy).Contents (Elt F) → (⟨S10, .f32⟩ : BufTy).Contents (Elt F)),  -- %109 = stablehlo.divide %107, %108 : tensor<10xf32>
    StableHlo.nullary main_c (constantI S_ 32 0#32),  -- %c = stablehlo.constant dense<0> : tensor<i32>
    StableHlo.TRef.nullary (.of main_call1_cst : StableHlo.TRef sig ⟨S_, .f32⟩) (constant S_ .f32 0x00000000#32),  -- @var %cst = stablehlo.constant dense<0.000000e+00> : tensor<f32>
    StableHlo.TRef.binary (.of main_v106 : StableHlo.TRef sig ⟨S6144x10, .f32⟩) (.of main_call1_cst : StableHlo.TRef sig ⟨S_, .f32⟩) (.of main_call1_v0 : StableHlo.TRef sig ⟨S10, .f32⟩) (fun x v => Host.reduceAdd x v reducesTo_S6144x10_S10_d0 h_S_),  -- @var %0 = stablehlo.reduce(%arg0 init: %cst) applies stablehlo.add across dimensions = [0] : (tensor<6144x10xf32>, tensor<f32>) -> tensor<10xf32> {
    StableHlo.TRef.unary (.of main_call1_v0 : StableHlo.TRef sig ⟨S10, .f32⟩) (.of main_call1_v1 : StableHlo.TRef sig ⟨S1x10, .f32⟩) (broadcastInDim S1x10 ![1] bcast_S10_S1x10_1),  -- @var %1 = stablehlo.broadcast_in_dim %0, dims = [1] : (tensor<10xf32>) -> tensor<1x10xf32>
    StableHlo.TRef.nullary (.of main_call1_cst_0 : StableHlo.TRef sig ⟨S_, .f32⟩) (constant S_ .f32 0x45C00000#32),  -- @var %cst_0 = stablehlo.constant dense<6.144000e+03> : tensor<f32>
    StableHlo.TRef.unary (.of main_call1_cst_0 : StableHlo.TRef sig ⟨S_, .f32⟩) (.of main_call1_v2 : StableHlo.TRef sig ⟨S1x10, .f32⟩) (broadcastInDim S1x10 ![] bcast_S_S1x10),  -- @var %2 = stablehlo.broadcast_in_dim %cst_0, dims = [] : (tensor<f32>) -> tensor<1x10xf32>
    StableHlo.TRef.binary (.of main_call1_v1 : StableHlo.TRef sig ⟨S1x10, .f32⟩) (.of main_call1_v2 : StableHlo.TRef sig ⟨S1x10, .f32⟩) (.of main_call1_v3 : StableHlo.TRef sig ⟨S1x10, .f32⟩) Host.divf,  -- @var %3 = stablehlo.divide %1, %2 : tensor<1x10xf32>
    StableHlo.TRef.unary (.of main_call1_v3 : StableHlo.TRef sig ⟨S1x10, .f32⟩) (.of main_call1_v4 : StableHlo.TRef sig ⟨S6144x10, .f32⟩) (broadcastInDim S6144x10 ![0, 1] bcast_S1x10_S6144x10_0_1),  -- @var %4 = stablehlo.broadcast_in_dim %3, dims = [0, 1] : (tensor<1x10xf32>) -> tensor<6144x10xf32>
    StableHlo.TRef.binary (.of main_v106 : StableHlo.TRef sig ⟨S6144x10, .f32⟩) (.of main_call1_v4 : StableHlo.TRef sig ⟨S6144x10, .f32⟩) (.of main_call1_v5 : StableHlo.TRef sig ⟨S6144x10, .f32⟩) subf,  -- @var %5 = stablehlo.subtract %arg0, %4 : tensor<6144x10xf32>
    StableHlo.TRef.binary (.of main_call1_v5 : StableHlo.TRef sig ⟨S6144x10, .f32⟩) (.of main_call1_v5 : StableHlo.TRef sig ⟨S6144x10, .f32⟩) (.of main_call1_v6 : StableHlo.TRef sig ⟨S6144x10, .f32⟩) mulf,  -- @var %6 = chlo.square %5 : tensor<6144x10xf32> -> tensor<6144x10xf32>
    StableHlo.TRef.unary (.of main_c : StableHlo.TRef sig ⟨S_, .i32⟩) (.of main_call1_v7 : StableHlo.TRef sig ⟨S_, .f32⟩) (sitofp .f32),  -- @var %7 = stablehlo.convert %arg1 : (tensor<i32>) -> tensor<f32>
    StableHlo.TRef.nullary (.of main_call1_cst_1 : StableHlo.TRef sig ⟨S_, .f32⟩) (constant S_ .f32 0x45C00000#32),  -- @var %cst_1 = stablehlo.constant dense<6.144000e+03> : tensor<f32>
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,  -- @var %8 = stablehlo.subtract %cst_1, %7 : tensor<f32>
    StableHlo.TRef.nullary (.of main_call1_cst_2 : StableHlo.TRef sig ⟨S_, .f32⟩) (constant S_ .f32 0x00000000#32),  -- @var %cst_2 = stablehlo.constant dense<0.000000e+00> : tensor<f32>
    StableHlo.TRef.binary (.of main_call1_v6 : StableHlo.TRef sig ⟨S6144x10, .f32⟩) (.of main_call1_cst_2 : StableHlo.TRef sig ⟨S_, .f32⟩) (.of main_call1_v9 : StableHlo.TRef sig ⟨S10, .f32⟩) (fun x v => Host.reduceAdd x v reducesTo_S6144x10_S10_d0 h_S_),  -- @var %9 = stablehlo.reduce(%6 init: %cst_2) applies stablehlo.add across dimensions = [0] : (tensor<6144x10xf32>, tensor<f32>) -> tensor<10xf32> {
    StableHlo.TRef.unary (.of main_call1_v8 : StableHlo.TRef sig ⟨S_, .f32⟩) (.of main_call1_v10 : StableHlo.TRef sig ⟨S10, .f32⟩) (broadcastInDim S10 ![] bcast_S_S10),  -- @var %10 = stablehlo.broadcast_in_dim %8, dims = [] : (tensor<f32>) -> tensor<10xf32>
    StableHlo.TRef.binary (.of main_call1_v9 : StableHlo.TRef sig ⟨S10, .f32⟩) (.of main_call1_v10 : StableHlo.TRef sig ⟨S10, .f32⟩) (.of main_call1_v11 : StableHlo.TRef sig ⟨S10, .f32⟩) Host.divf,  -- @var %11 = stablehlo.divide %9, %10 : tensor<10xf32>
    StableHlo.TRef.nullary (.of main_call1_cst_3 : StableHlo.TRef sig ⟨S_, .f32⟩) (constant S_ .f32 0x00000000#32),  -- @var %cst_3 = stablehlo.constant dense<0.000000e+00> : tensor<f32>
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),  -- @var %12 = stablehlo.compare GT, %8, %cst_3, FLOAT : (tensor<f32>, tensor<f32>) -> tensor<i1>
    StableHlo.TRef.nullary (.of main_call1_cst_4 : StableHlo.TRef sig ⟨S_, .f32⟩) (constant S_ .f32 0x7FC00000#32),  -- @var %cst_4 = stablehlo.constant dense<0x7FC00000> : tensor<f32>
    StableHlo.TRef.unary (.of main_call1_cst_4 : StableHlo.TRef sig ⟨S_, .f32⟩) (.of main_call1_call0_v0 : StableHlo.TRef sig ⟨S_, .f32⟩) id,  -- @var>@where %0 = stablehlo.convert %arg2 : tensor<f32>
    StableHlo.TRef.unary (.of main_call1_call0_v0 : StableHlo.TRef sig ⟨S_, .f32⟩) (.of main_call1_call0_v1 : StableHlo.TRef sig ⟨S10, .f32⟩) (broadcastInDim S10 ![] bcast_S_S10),  -- @var>@where %1 = stablehlo.broadcast_in_dim %0, dims = [] : (tensor<f32>) -> tensor<10xf32>
    StableHlo.TRef.ternary (.of main_call1_v12 : StableHlo.TRef sig ⟨S_, .i1⟩) (.of main_call1_v11 : StableHlo.TRef sig ⟨S10, .f32⟩) (.of main_call1_call0_v1 : StableHlo.TRef sig ⟨S10, .f32⟩) (.of main_v110 : StableHlo.TRef sig ⟨S10, .f32⟩) (fun p a b => select (broadcastInDim S10 ![] bcast_S_S10 p) a b),  -- @var>@where %2 = stablehlo.select %arg0, %arg1, %1 : tensor<i1>, tensor<10xf32>
    StableHlo.unary main_v109 main_v111 (broadcastInDim S1x10 ![1] bcast_S10_S1x10_1 : (⟨S10, .f32⟩ : BufTy).Contents (Elt F) → (⟨S1x10, .f32⟩ : BufTy).Contents (Elt F)),  -- %111 = stablehlo.broadcast_in_dim %109, dims = [1] : (tensor<10xf32>) -> tensor<1x10xf32>
    StableHlo.unary main_v111 main_v112 (broadcastInDim S6144x10 ![0, 1] bcast_S1x10_S6144x10_0_1 : (⟨S1x10, .f32⟩ : BufTy).Contents (Elt F) → (⟨S6144x10, .f32⟩ : BufTy).Contents (Elt F)),  -- %112 = stablehlo.broadcast_in_dim %111, dims = [0, 1] : (tensor<1x10xf32>) -> tensor<6144x10xf32>
    StableHlo.binary main_v106 main_v112 main_v113 (subf : (⟨S6144x10, .f32⟩ : BufTy).Contents (Elt F) → (⟨S6144x10, .f32⟩ : BufTy).Contents (Elt F) → (⟨S6144x10, .f32⟩ : BufTy).Contents (Elt F)),  -- %113 = stablehlo.subtract %106, %112 : tensor<6144x10xf32>
    StableHlo.nullary main_cst_28 (constant S_ .f32 0x3727C5AC#32),  -- %cst_28 = stablehlo.constant dense<9.99999974E-6> : tensor<f32>
    StableHlo.unary main_cst_28 main_v114 (broadcastInDim S10 ![] bcast_S_S10 : (⟨S_, .f32⟩ : BufTy).Contents (Elt F) → (⟨S10, .f32⟩ : BufTy).Contents (Elt F)),  -- %114 = stablehlo.broadcast_in_dim %cst_28, dims = [] : (tensor<f32>) -> tensor<10xf32>
    StableHlo.binary main_v110 main_v114 main_v115 (addf : (⟨S10, .f32⟩ : BufTy).Contents (Elt F) → (⟨S10, .f32⟩ : BufTy).Contents (Elt F) → (⟨S10, .f32⟩ : BufTy).Contents (Elt F)),  -- %115 = stablehlo.add %110, %114 : tensor<10xf32>
    StableHlo.unary main_v115 main_v116 (Host.sqrt : (⟨S10, .f32⟩ : BufTy).Contents (Elt F) → (⟨S10, .f32⟩ : BufTy).Contents (Elt F)),  -- %116 = stablehlo.sqrt %115 : tensor<10xf32>
    StableHlo.unary main_v116 main_v117 (broadcastInDim S1x10 ![1] bcast_S10_S1x10_1 : (⟨S10, .f32⟩ : BufTy).Contents (Elt F) → (⟨S1x10, .f32⟩ : BufTy).Contents (Elt F)),  -- %117 = stablehlo.broadcast_in_dim %116, dims = [1] : (tensor<10xf32>) -> tensor<1x10xf32>
    StableHlo.unary main_v117 main_v118 (broadcastInDim S6144x10 ![0, 1] bcast_S1x10_S6144x10_0_1 : (⟨S1x10, .f32⟩ : BufTy).Contents (Elt F) → (⟨S6144x10, .f32⟩ : BufTy).Contents (Elt F)),  -- %118 = stablehlo.broadcast_in_dim %117, dims = [0, 1] : (tensor<1x10xf32>) -> tensor<6144x10xf32>
    StableHlo.binary main_v113 main_v118 main_v119 (Host.divf : (⟨S6144x10, .f32⟩ : BufTy).Contents (Elt F) → (⟨S6144x10, .f32⟩ : BufTy).Contents (Elt F) → (⟨S6144x10, .f32⟩ : BufTy).Contents (Elt F)),  -- %119 = stablehlo.divide %113, %118 : tensor<6144x10xf32>
    StableHlo.unary main_arg5 main_v120 (broadcastInDim S1x10 ![1] bcast_S10_S1x10_1 : (⟨S10, .f32⟩ : BufTy).Contents (Elt F) → (⟨S1x10, .f32⟩ : BufTy).Contents (Elt F)),  -- %120 = stablehlo.broadcast_in_dim %arg5, dims = [1] : (tensor<10xf32>) -> tensor<1x10xf32>
    StableHlo.unary main_v120 main_v121 (broadcastInDim S6144x10 ![0, 1] bcast_S1x10_S6144x10_0_1 : (⟨S1x10, .f32⟩ : BufTy).Contents (Elt F) → (⟨S6144x10, .f32⟩ : BufTy).Contents (Elt F)),  -- %121 = stablehlo.broadcast_in_dim %120, dims = [0, 1] : (tensor<1x10xf32>) -> tensor<6144x10xf32>
    StableHlo.binary main_v119 main_v121 main_v122 (mulf : (⟨S6144x10, .f32⟩ : BufTy).Contents (Elt F) → (⟨S6144x10, .f32⟩ : BufTy).Contents (Elt F) → (⟨S6144x10, .f32⟩ : BufTy).Contents (Elt F)),  -- %122 = stablehlo.multiply %119, %121 : tensor<6144x10xf32>
    StableHlo.unary main_arg6 main_v123 (broadcastInDim S1x10 ![1] bcast_S10_S1x10_1 : (⟨S10, .f32⟩ : BufTy).Contents (Elt F) → (⟨S1x10, .f32⟩ : BufTy).Contents (Elt F)),  -- %123 = stablehlo.broadcast_in_dim %arg6, dims = [1] : (tensor<10xf32>) -> tensor<1x10xf32>
    StableHlo.unary main_v123 main_v124 (broadcastInDim S6144x10 ![0, 1] bcast_S1x10_S6144x10_0_1 : (⟨S1x10, .f32⟩ : BufTy).Contents (Elt F) → (⟨S6144x10, .f32⟩ : BufTy).Contents (Elt F)),  -- %124 = stablehlo.broadcast_in_dim %123, dims = [0, 1] : (tensor<1x10xf32>) -> tensor<6144x10xf32>
    StableHlo.binary main_v122 main_v124 main_v125 (addf : (⟨S6144x10, .f32⟩ : BufTy).Contents (Elt F) → (⟨S6144x10, .f32⟩ : BufTy).Contents (Elt F) → (⟨S6144x10, .f32⟩ : BufTy).Contents (Elt F)),  -- %125 = stablehlo.add %122, %124 : tensor<6144x10xf32>
    StableHlo.unary main_arg4 main_v126 (broadcastInDim S1x1 ![1] bcast_S1_S1x1_1 : (⟨S1, .f32⟩ : BufTy).Contents (Elt F) → (⟨S1x1, .f32⟩ : BufTy).Contents (Elt F)),  -- %126 = stablehlo.broadcast_in_dim %arg4, dims = [1] : (tensor<1xf32>) -> tensor<1x1xf32>
    StableHlo.unary main_v126 main_v127 (broadcastInDim S6144x10 ![0, 1] bcast_S1x1_S6144x10_0_1 : (⟨S1x1, .f32⟩ : BufTy).Contents (Elt F) → (⟨S6144x10, .f32⟩ : BufTy).Contents (Elt F)),  -- %127 = stablehlo.broadcast_in_dim %126, dims = [0, 1] : (tensor<1x1xf32>) -> tensor<6144x10xf32>
    StableHlo.binary main_v125 main_v127 main_v128 (subf : (⟨S6144x10, .f32⟩ : BufTy).Contents (Elt F) → (⟨S6144x10, .f32⟩ : BufTy).Contents (Elt F) → (⟨S6144x10, .f32⟩ : BufTy).Contents (Elt F)),  -- %128 = stablehlo.subtract %125, %127 : tensor<6144x10xf32>
    StableHlo.TRef.nullary (.of main_call2_cst : StableHlo.TRef sig ⟨S_, .f32⟩) (constant S_ .f32 0x3FD62D7D#32),  -- @selu %cst = stablehlo.constant dense<1.67326319> : tensor<f32>
    StableHlo.TRef.nullary (.of main_call2_call0_cst : StableHlo.TRef sig ⟨S_, .f32⟩) (constant S_ .f32 0x00000000#32),  -- @selu>@elu %cst = stablehlo.constant dense<0.000000e+00> : tensor<f32>
    StableHlo.TRef.unary (.of main_call2_call0_cst : StableHlo.TRef sig ⟨S_, .f32⟩) (.of main_call2_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v128 : StableHlo.TRef sig ⟨S6144x10, .f32⟩) (.of main_call2_call0_v0 : StableHlo.TRef sig ⟨S6144x10, .f32⟩) (.of main_call2_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call2_call0_cst_0 : StableHlo.TRef sig ⟨S_, .f32⟩) (constant S_ .f32 0x00000000#32),  -- @selu>@elu %cst_0 = stablehlo.constant dense<0.000000e+00> : tensor<f32>
    StableHlo.TRef.unary (.of main_call2_call0_cst_0 : StableHlo.TRef sig ⟨S_, .f32⟩) (.of main_call2_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v128 : StableHlo.TRef sig ⟨S6144x10, .f32⟩) (.of main_call2_call0_v2 : StableHlo.TRef sig ⟨S6144x10, .f32⟩) (.of main_call2_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call2_call0_cst_1 : StableHlo.TRef sig ⟨S_, .f32⟩) (constant S_ .f32 0x00000000#32),  -- @selu>@elu %cst_1 = stablehlo.constant dense<0.000000e+00> : tensor<f32>
    StableHlo.TRef.unary (.of main_call2_call0_cst_1 : StableHlo.TRef sig ⟨S_, .f32⟩) (.of main_call2_call0_call0_v0 : StableHlo.TRef sig ⟨S_, .f32⟩) id,  -- @selu>@elu>@where_0 %0 = stablehlo.convert %arg1 : tensor<f32>
    StableHlo.TRef.unary (.of main_call2_call0_call0_v0 : StableHlo.TRef sig ⟨S_, .f32⟩) (.of main_call2_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call2_call0_v3 : StableHlo.TRef sig ⟨S6144x10, .i1⟩) (.of main_call2_call0_call0_v1 : StableHlo.TRef sig ⟨S6144x10, .f32⟩) (.of main_v128 : StableHlo.TRef sig ⟨S6144x10, .f32⟩) (.of main_call2_call0_v4 : StableHlo.TRef sig ⟨S6144x10, .f32⟩) select,  -- @selu>@elu>@where_0 %2 = stablehlo.select %arg0, %1, %arg2 : tensor<6144x10xi1>, tensor<6144x10xf32>
    StableHlo.TRef.unary (.of main_call2_call0_v4 : StableHlo.TRef sig ⟨S6144x10, .f32⟩) (.of main_call2_call0_v5 : StableHlo.TRef sig ⟨S6144x10, .f32⟩) Host.expm1,  -- @selu>@elu %5 = stablehlo.exponential_minus_one %4 : tensor<6144x10xf32>
    StableHlo.TRef.unary (.of main_call2_cst : StableHlo.TRef sig ⟨S_, .f32⟩) (.of main_call2_call0_v6 : StableHlo.TRef sig ⟨S_, .f32⟩) id,  -- @selu>@elu %6 = stablehlo.convert %arg1 : tensor<f32>
    StableHlo.TRef.unary (.of main_call2_call0_v6 : StableHlo.TRef sig ⟨S_, .f32⟩) (.of main_call2_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call2_call0_v7 : StableHlo.TRef sig ⟨S6144x10, .f32⟩) (.of main_call2_call0_v5 : StableHlo.TRef sig ⟨S6144x10, .f32⟩) (.of main_call2_call0_v8 : StableHlo.TRef sig ⟨S6144x10, .f32⟩) mulf,  -- @selu>@elu %8 = stablehlo.multiply %7, %5 : tensor<6144x10xf32>
    StableHlo.TRef.ternary (.of main_call2_call0_v1 : StableHlo.TRef sig ⟨S6144x10, .i1⟩) (.of main_v128 : StableHlo.TRef sig ⟨S6144x10, .f32⟩) (.of main_call2_call0_v8 : StableHlo.TRef sig ⟨S6144x10, .f32⟩) (.of main_call2_v0 : StableHlo.TRef sig ⟨S6144x10, .f32⟩) select,  -- @selu>@elu>@where_1 %0 = stablehlo.select %arg0, %arg1, %arg2 : tensor<6144x10xi1>, tensor<6144x10xf32>
    StableHlo.TRef.nullary (.of main_call2_cst_0 : StableHlo.TRef sig ⟨S_, .f32⟩) (constant S_ .f32 0x3F867D5F#32),  -- @selu %cst_0 = stablehlo.constant dense<1.05070102> : tensor<f32>
    StableHlo.TRef.unary (.of main_call2_cst_0 : StableHlo.TRef sig ⟨S_, .f32⟩) (.of main_call2_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call2_v1 : StableHlo.TRef sig ⟨S6144x10, .f32⟩) (.of main_call2_v0 : StableHlo.TRef sig ⟨S6144x10, .f32⟩) (.of main_v129 : StableHlo.TRef sig ⟨S6144x10, .f32⟩) mulf,  -- @selu %2 = stablehlo.multiply %1, %0 : tensor<6144x10xf32>
    StableHlo.unary main_v125 main_v130 (Host.negf : (⟨S6144x10, .f32⟩ : BufTy).Contents (Elt F) → (⟨S6144x10, .f32⟩ : BufTy).Contents (Elt F)),  -- %130 = stablehlo.negate %125 : tensor<6144x10xf32>
    StableHlo.unary main_arg4 main_v131 (broadcastInDim S1x1 ![1] bcast_S1_S1x1_1 : (⟨S1, .f32⟩ : BufTy).Contents (Elt F) → (⟨S1x1, .f32⟩ : BufTy).Contents (Elt F)),  -- %131 = stablehlo.broadcast_in_dim %arg4, dims = [1] : (tensor<1xf32>) -> tensor<1x1xf32>
    StableHlo.unary main_v131 main_v132 (broadcastInDim S6144x10 ![0, 1] bcast_S1x1_S6144x10_0_1 : (⟨S1x1, .f32⟩ : BufTy).Contents (Elt F) → (⟨S6144x10, .f32⟩ : BufTy).Contents (Elt F)),  -- %132 = stablehlo.broadcast_in_dim %131, dims = [0, 1] : (tensor<1x1xf32>) -> tensor<6144x10xf32>
    StableHlo.binary main_v130 main_v132 main_v133 (subf : (⟨S6144x10, .f32⟩ : BufTy).Contents (Elt F) → (⟨S6144x10, .f32⟩ : BufTy).Contents (Elt F) → (⟨S6144x10, .f32⟩ : BufTy).Contents (Elt F)),  -- %133 = stablehlo.subtract %130, %132 : tensor<6144x10xf32>
    StableHlo.TRef.nullary (.of main_call3_cst : StableHlo.TRef sig ⟨S_, .f32⟩) (constant S_ .f32 0x3FD62D7D#32),  -- @selu %cst = stablehlo.constant dense<1.67326319> : tensor<f32>
    StableHlo.TRef.nullary (.of main_call3_call0_cst : StableHlo.TRef sig ⟨S_, .f32⟩) (constant S_ .f32 0x00000000#32),  -- @selu>@elu %cst = stablehlo.constant dense<0.000000e+00> : tensor<f32>
    StableHlo.TRef.unary (.of main_call3_call0_cst : StableHlo.TRef sig ⟨S_, .f32⟩) (.of main_call3_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v133 : StableHlo.TRef sig ⟨S6144x10, .f32⟩) (.of main_call3_call0_v0 : StableHlo.TRef sig ⟨S6144x10, .f32⟩) (.of main_call3_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call3_call0_cst_0 : StableHlo.TRef sig ⟨S_, .f32⟩) (constant S_ .f32 0x00000000#32),  -- @selu>@elu %cst_0 = stablehlo.constant dense<0.000000e+00> : tensor<f32>
    StableHlo.TRef.unary (.of main_call3_call0_cst_0 : StableHlo.TRef sig ⟨S_, .f32⟩) (.of main_call3_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v133 : StableHlo.TRef sig ⟨S6144x10, .f32⟩) (.of main_call3_call0_v2 : StableHlo.TRef sig ⟨S6144x10, .f32⟩) (.of main_call3_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call3_call0_cst_1 : StableHlo.TRef sig ⟨S_, .f32⟩) (constant S_ .f32 0x00000000#32),  -- @selu>@elu %cst_1 = stablehlo.constant dense<0.000000e+00> : tensor<f32>
    StableHlo.TRef.unary (.of main_call3_call0_cst_1 : StableHlo.TRef sig ⟨S_, .f32⟩) (.of main_call3_call0_call0_v0 : StableHlo.TRef sig ⟨S_, .f32⟩) id,  -- @selu>@elu>@where_0 %0 = stablehlo.convert %arg1 : tensor<f32>
    StableHlo.TRef.unary (.of main_call3_call0_call0_v0 : StableHlo.TRef sig ⟨S_, .f32⟩) (.of main_call3_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call3_call0_v3 : StableHlo.TRef sig ⟨S6144x10, .i1⟩) (.of main_call3_call0_call0_v1 : StableHlo.TRef sig ⟨S6144x10, .f32⟩) (.of main_v133 : StableHlo.TRef sig ⟨S6144x10, .f32⟩) (.of main_call3_call0_v4 : StableHlo.TRef sig ⟨S6144x10, .f32⟩) select,  -- @selu>@elu>@where_0 %2 = stablehlo.select %arg0, %1, %arg2 : tensor<6144x10xi1>, tensor<6144x10xf32>
    StableHlo.TRef.unary (.of main_call3_call0_v4 : StableHlo.TRef sig ⟨S6144x10, .f32⟩) (.of main_call3_call0_v5 : StableHlo.TRef sig ⟨S6144x10, .f32⟩) Host.expm1,  -- @selu>@elu %5 = stablehlo.exponential_minus_one %4 : tensor<6144x10xf32>
    StableHlo.TRef.unary (.of main_call3_cst : StableHlo.TRef sig ⟨S_, .f32⟩) (.of main_call3_call0_v6 : StableHlo.TRef sig ⟨S_, .f32⟩) id,  -- @selu>@elu %6 = stablehlo.convert %arg1 : tensor<f32>
    StableHlo.TRef.unary (.of main_call3_call0_v6 : StableHlo.TRef sig ⟨S_, .f32⟩) (.of main_call3_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call3_call0_v7 : StableHlo.TRef sig ⟨S6144x10, .f32⟩) (.of main_call3_call0_v5 : StableHlo.TRef sig ⟨S6144x10, .f32⟩) (.of main_call3_call0_v8 : StableHlo.TRef sig ⟨S6144x10, .f32⟩) mulf,  -- @selu>@elu %8 = stablehlo.multiply %7, %5 : tensor<6144x10xf32>
    StableHlo.TRef.ternary (.of main_call3_call0_v1 : StableHlo.TRef sig ⟨S6144x10, .i1⟩) (.of main_v133 : StableHlo.TRef sig ⟨S6144x10, .f32⟩) (.of main_call3_call0_v8 : StableHlo.TRef sig ⟨S6144x10, .f32⟩) (.of main_call3_v0 : StableHlo.TRef sig ⟨S6144x10, .f32⟩) select,  -- @selu>@elu>@where_1 %0 = stablehlo.select %arg0, %arg1, %arg2 : tensor<6144x10xi1>, tensor<6144x10xf32>
    StableHlo.TRef.nullary (.of main_call3_cst_0 : StableHlo.TRef sig ⟨S_, .f32⟩) (constant S_ .f32 0x3F867D5F#32),  -- @selu %cst_0 = stablehlo.constant dense<1.05070102> : tensor<f32>
    StableHlo.TRef.unary (.of main_call3_cst_0 : StableHlo.TRef sig ⟨S_, .f32⟩) (.of main_call3_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call3_v1 : StableHlo.TRef sig ⟨S6144x10, .f32⟩) (.of main_call3_v0 : StableHlo.TRef sig ⟨S6144x10, .f32⟩) (.of main_v134 : StableHlo.TRef sig ⟨S6144x10, .f32⟩) mulf,  -- @selu %2 = stablehlo.multiply %1, %0 : tensor<6144x10xf32>
    StableHlo.binary main_v129 main_v134 main_v135 (subf : (⟨S6144x10, .f32⟩ : BufTy).Contents (Elt F) → (⟨S6144x10, .f32⟩ : BufTy).Contents (Elt F) → (⟨S6144x10, .f32⟩ : BufTy).Contents (Elt F)) ]  -- %135 = stablehlo.subtract %129, %134 : tensor<6144x10xf32>

/-- The second sweep's evidences, the first sweep's operations again from z' = `main_v135`: the views are `main_v145`,
    `main_v147`, and last `main_v149`. (28 operations.) -/
abbrev opsE2 : List (HloOp τ sig (Elt F)) :=
  [ StableHlo.unary main_v135 main_v136 (broadcastInDim S1x6144x10 ![1, 2] bcast_S6144x10_S1x6144x10_1_2 : (⟨S6144x10, .f32⟩ : BufTy).Contents (Elt F) → (⟨S1x6144x10, .f32⟩ : BufTy).Contents (Elt F)),  -- %136 = stablehlo.broadcast_in_dim %135, dims = [1, 2] : (tensor<6144x10xf32>) -> tensor<1x6144x10xf32>
    StableHlo.binary main_arg1 main_v135 main_v137 ((fun l r => Host.dotGeneral dot_S3x6144x6144_S6144x10_S3x6144x10_2_0_01_1_n_n none l r) : (⟨S3x6144x6144, .f32⟩ : BufTy).Contents (Elt F) → (⟨S6144x10, .f32⟩ : BufTy).Contents (Elt F) → (⟨S3x6144x10, .f32⟩ : BufTy).Contents (Elt F)),  -- %137 = stablehlo.dot_general %arg1, %135, contracting_dims = [2] x [0], precision = [DEFAULT, DEFAULT] : (tensor<3x6144x6144xf32>, tensor<6144x10xf32>) -> tensor<3x6144x10xf32>
    StableHlo.unary main_v136 main_v138 (broadcastInDim S3x6144x10 ![0, 1, 2] bcast_S1x6144x10_S3x6144x10_0_1_2 : (⟨S1x6144x10, .f32⟩ : BufTy).Contents (Elt F) → (⟨S3x6144x10, .f32⟩ : BufTy).Contents (Elt F)),  -- %138 = stablehlo.broadcast_in_dim %136, dims = [0, 1, 2] : (tensor<1x6144x10xf32>) -> tensor<3x6144x10xf32>
    StableHlo.binary main_v138 main_v137 main_v139 (subf : (⟨S3x6144x10, .f32⟩ : BufTy).Contents (Elt F) → (⟨S3x6144x10, .f32⟩ : BufTy).Contents (Elt F) → (⟨S3x6144x10, .f32⟩ : BufTy).Contents (Elt F)),  -- %139 = stablehlo.subtract %138, %137 : tensor<3x6144x10xf32>
    StableHlo.binary main_v139 main_v0 main_v140 (addf : (⟨S3x6144x10, .f32⟩ : BufTy).Contents (Elt F) → (⟨S3x6144x10, .f32⟩ : BufTy).Contents (Elt F) → (⟨S3x6144x10, .f32⟩ : BufTy).Contents (Elt F)),  -- %140 = stablehlo.add %139, %0 : tensor<3x6144x10xf32>
    StableHlo.TRef.nullary (.of main_call4_cst : StableHlo.TRef sig ⟨S_, .f32⟩) (constant S_ .f32 0x00000000#32),  -- @softplus %cst = stablehlo.constant dense<0.000000e+00> : tensor<f32>
    StableHlo.TRef.unary (.of main_call4_cst : StableHlo.TRef sig ⟨S_, .f32⟩) (.of main_call4_v0 : StableHlo.TRef sig ⟨S3x6144x10, .f32⟩) (broadcastInDim S3x6144x10 ![] bcast_S_S3x6144x10),  -- @softplus %0 = stablehlo.broadcast_in_dim %cst, dims = [] : (tensor<f32>) -> tensor<3x6144x10xf32>
    StableHlo.TRef.binary (.of main_v140 : StableHlo.TRef sig ⟨S3x6144x10, .f32⟩) (.of main_call4_v0 : StableHlo.TRef sig ⟨S3x6144x10, .f32⟩) (.of main_call4_v1 : StableHlo.TRef sig ⟨S3x6144x10, .f32⟩) maximumf,  -- @softplus %1 = stablehlo.maximum %arg0, %0 : tensor<3x6144x10xf32>
    StableHlo.TRef.unary (.of main_call4_cst : StableHlo.TRef sig ⟨S_, .f32⟩) (.of main_call4_v2 : StableHlo.TRef sig ⟨S3x6144x10, .f32⟩) (broadcastInDim S3x6144x10 ![] bcast_S_S3x6144x10),  -- @softplus %2 = stablehlo.broadcast_in_dim %cst, dims = [] : (tensor<f32>) -> tensor<3x6144x10xf32>
    StableHlo.TRef.binary (.of main_v140 : StableHlo.TRef sig ⟨S3x6144x10, .f32⟩) (.of main_call4_v2 : StableHlo.TRef sig ⟨S3x6144x10, .f32⟩) (.of main_call4_v3 : StableHlo.TRef sig ⟨S3x6144x10, .f32⟩) subf,  -- @softplus %3 = stablehlo.subtract %arg0, %2 : tensor<3x6144x10xf32>
    StableHlo.TRef.binary (.of main_call4_v3 : StableHlo.TRef sig ⟨S3x6144x10, .f32⟩) (.of main_call4_v3 : StableHlo.TRef sig ⟨S3x6144x10, .f32⟩) (.of main_call4_v4 : StableHlo.TRef sig ⟨S3x6144x10, .i1⟩) (cmpf .une),  -- @softplus %4 = stablehlo.compare NE, %3, %3, FLOAT : (tensor<3x6144x10xf32>, tensor<3x6144x10xf32>) -> tensor<3x6144x10xi1>
    StableHlo.TRef.unary (.of main_call4_cst : StableHlo.TRef sig ⟨S_, .f32⟩) (.of main_call4_v5 : StableHlo.TRef sig ⟨S3x6144x10, .f32⟩) (broadcastInDim S3x6144x10 ![] bcast_S_S3x6144x10),  -- @softplus %5 = stablehlo.broadcast_in_dim %cst, dims = [] : (tensor<f32>) -> tensor<3x6144x10xf32>
    StableHlo.TRef.binary (.of main_v140 : StableHlo.TRef sig ⟨S3x6144x10, .f32⟩) (.of main_call4_v5 : StableHlo.TRef sig ⟨S3x6144x10, .f32⟩) (.of main_call4_v6 : StableHlo.TRef sig ⟨S3x6144x10, .f32⟩) addf,  -- @softplus %6 = stablehlo.add %arg0, %5 : tensor<3x6144x10xf32>
    StableHlo.TRef.unary (.of main_call4_v3 : StableHlo.TRef sig ⟨S3x6144x10, .f32⟩) (.of main_call4_v7 : StableHlo.TRef sig ⟨S3x6144x10, .f32⟩) Host.absf,  -- @softplus %7 = stablehlo.abs %3 : tensor<3x6144x10xf32>
    StableHlo.TRef.unary (.of main_call4_v7 : StableHlo.TRef sig ⟨S3x6144x10, .f32⟩) (.of main_call4_v8 : StableHlo.TRef sig ⟨S3x6144x10, .f32⟩) Host.negf,  -- @softplus %8 = stablehlo.negate %7 : tensor<3x6144x10xf32>
    StableHlo.TRef.unary (.of main_call4_v8 : StableHlo.TRef sig ⟨S3x6144x10, .f32⟩) (.of main_call4_v9 : StableHlo.TRef sig ⟨S3x6144x10, .f32⟩) Host.exp,  -- @softplus %9 = stablehlo.exponential %8 : tensor<3x6144x10xf32>
    StableHlo.TRef.unary (.of main_call4_v9 : StableHlo.TRef sig ⟨S3x6144x10, .f32⟩) (.of main_call4_v10 : StableHlo.TRef sig ⟨S3x6144x10, .f32⟩) Host.log1p,  -- @softplus %10 = stablehlo.log_plus_one %9 : tensor<3x6144x10xf32>
    StableHlo.TRef.binary (.of main_call4_v1 : StableHlo.TRef sig ⟨S3x6144x10, .f32⟩) (.of main_call4_v10 : StableHlo.TRef sig ⟨S3x6144x10, .f32⟩) (.of main_call4_v11 : StableHlo.TRef sig ⟨S3x6144x10, .f32⟩) addf,  -- @softplus %11 = stablehlo.add %1, %10 : tensor<3x6144x10xf32>
    StableHlo.TRef.ternary (.of main_call4_v4 : StableHlo.TRef sig ⟨S3x6144x10, .i1⟩) (.of main_call4_v6 : StableHlo.TRef sig ⟨S3x6144x10, .f32⟩) (.of main_call4_v11 : StableHlo.TRef sig ⟨S3x6144x10, .f32⟩) (.of main_v141 : StableHlo.TRef sig ⟨S3x6144x10, .f32⟩) select,  -- @softplus %12 = stablehlo.select %4, %6, %11 : tensor<3x6144x10xi1>, tensor<3x6144x10xf32>
    StableHlo.nullary main_cst_29 (constant S_ .f32 0x3F800000#32),  -- %cst_29 = stablehlo.constant dense<1.000000e+00> : tensor<f32>
    StableHlo.unary main_cst_29 main_v142 (broadcastInDim S3x6144x10 ![] bcast_S_S3x6144x10 : (⟨S_, .f32⟩ : BufTy).Contents (Elt F) → (⟨S3x6144x10, .f32⟩ : BufTy).Contents (Elt F)),  -- %142 = stablehlo.broadcast_in_dim %cst_29, dims = [] : (tensor<f32>) -> tensor<3x6144x10xf32>
    StableHlo.binary main_v141 main_v142 main_v143 (addf : (⟨S3x6144x10, .f32⟩ : BufTy).Contents (Elt F) → (⟨S3x6144x10, .f32⟩ : BufTy).Contents (Elt F) → (⟨S3x6144x10, .f32⟩ : BufTy).Contents (Elt F)),  -- %143 = stablehlo.add %141, %142 : tensor<3x6144x10xf32>
    StableHlo.unary main_v143 main_v144 ((extractStridedSlice S1x6144x10 ![0, 0, 0] · slices_S3x6144x10_S1x6144x10_0_0_0) : (⟨S3x6144x10, .f32⟩ : BufTy).Contents (Elt F) → (⟨S1x6144x10, .f32⟩ : BufTy).Contents (Elt F)),  -- %144 = stablehlo.slice %143 [0:1, 0:6144, 0:10] : (tensor<3x6144x10xf32>) -> tensor<1x6144x10xf32>
    StableHlo.reshape main_v144 main_v145 rfl shapeCasts_S1x6144x10_S6144x10,  -- %145 = stablehlo.reshape %144 : (tensor<1x6144x10xf32>) -> tensor<6144x10xf32>
    StableHlo.unary main_v143 main_v146 ((extractStridedSlice S1x6144x10 ![1, 0, 0] · slices_S3x6144x10_S1x6144x10_1_0_0) : (⟨S3x6144x10, .f32⟩ : BufTy).Contents (Elt F) → (⟨S1x6144x10, .f32⟩ : BufTy).Contents (Elt F)),  -- %146 = stablehlo.slice %143 [1:2, 0:6144, 0:10] : (tensor<3x6144x10xf32>) -> tensor<1x6144x10xf32>
    StableHlo.reshape main_v146 main_v147 rfl shapeCasts_S1x6144x10_S6144x10,  -- %147 = stablehlo.reshape %146 : (tensor<1x6144x10xf32>) -> tensor<6144x10xf32>
    StableHlo.unary main_v143 main_v148 ((extractStridedSlice S1x6144x10 ![2, 0, 0] · slices_S3x6144x10_S1x6144x10_2_0_0) : (⟨S3x6144x10, .f32⟩ : BufTy).Contents (Elt F) → (⟨S1x6144x10, .f32⟩ : BufTy).Contents (Elt F)),  -- %148 = stablehlo.slice %143 [2:3, 0:6144, 0:10] : (tensor<3x6144x10xf32>) -> tensor<1x6144x10xf32>
    StableHlo.reshape main_v148 main_v149 rfl shapeCasts_S1x6144x10_S6144x10 ]  -- %149 = stablehlo.reshape %148 : (tensor<1x6144x10xf32>) -> tensor<6144x10xf32>

/-- The second sweep's first Dempster combination, of `main_v145` and `main_v147`; written last, to `main_v195`. (59 operations.) -/
abbrev opsDa2 : List (HloOp τ sig (Elt F)) :=
  [ StableHlo.nullary main_cst_30 (constant S_ .f32 0x00000000#32),  -- %cst_30 = stablehlo.constant dense<0.000000e+00> : tensor<f32>
    StableHlo.binary main_v145 main_cst_30 main_v150 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %150 = stablehlo.reduce(%145 init: %cst_30) applies stablehlo.add across dimensions = [1] : (tensor<6144x10xf32>, tensor<f32>) -> tensor<6144xf32> {
    StableHlo.unary main_v150 main_v151 (broadcastInDim S6144x1 ![0] bcast_S6144_S6144x1_0 : (⟨S6144, .f32⟩ : BufTy).Contents (Elt F) → (⟨S6144x1, .f32⟩ : BufTy).Contents (Elt F)),  -- %151 = stablehlo.broadcast_in_dim %150, dims = [0] : (tensor<6144xf32>) -> tensor<6144x1xf32>
    StableHlo.nullary main_cst_31 (constant S_ .f32 0x00000000#32),  -- %cst_31 = stablehlo.constant dense<0.000000e+00> : tensor<f32>
    StableHlo.binary main_v147 main_cst_31 main_v152 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %152 = stablehlo.reduce(%147 init: %cst_31) applies stablehlo.add across dimensions = [1] : (tensor<6144x10xf32>, tensor<f32>) -> tensor<6144xf32> {
    StableHlo.unary main_v152 main_v153 (broadcastInDim S6144x1 ![0] bcast_S6144_S6144x1_0 : (⟨S6144, .f32⟩ : BufTy).Contents (Elt F) → (⟨S6144x1, .f32⟩ : BufTy).Contents (Elt F)),  -- %153 = stablehlo.broadcast_in_dim %152, dims = [0] : (tensor<6144xf32>) -> tensor<6144x1xf32>
    StableHlo.nullary main_cst_32 (constant S_ .f32 0x3F800000#32),  -- %cst_32 = stablehlo.constant dense<1.000000e+00> : tensor<f32>
    StableHlo.unary main_cst_32 main_v154 (broadcastInDim S6144x10 ![] bcast_S_S6144x10 : (⟨S_, .f32⟩ : BufTy).Contents (Elt F) → (⟨S6144x10, .f32⟩ : BufTy).Contents (Elt F)),  -- %154 = stablehlo.broadcast_in_dim %cst_32, dims = [] : (tensor<f32>) -> tensor<6144x10xf32>
    StableHlo.binary main_v145 main_v154 main_v155 (subf : (⟨S6144x10, .f32⟩ : BufTy).Contents (Elt F) → (⟨S6144x10, .f32⟩ : BufTy).Contents (Elt F) → (⟨S6144x10, .f32⟩ : BufTy).Contents (Elt F)),  -- %155 = stablehlo.subtract %145, %154 : tensor<6144x10xf32>
    StableHlo.unary main_v151 main_v156 (broadcastInDim S6144x10 ![0, 1] bcast_S6144x1_S6144x10_0_1 : (⟨S6144x1, .f32⟩ : BufTy).Contents (Elt F) → (⟨S6144x10, .f32⟩ : BufTy).Contents (Elt F)),  -- %156 = stablehlo.broadcast_in_dim %151, dims = [0, 1] : (tensor<6144x1xf32>) -> tensor<6144x10xf32>
    StableHlo.binary main_v155 main_v156 main_v157 (Host.divf : (⟨S6144x10, .f32⟩ : BufTy).Contents (Elt F) → (⟨S6144x10, .f32⟩ : BufTy).Contents (Elt F) → (⟨S6144x10, .f32⟩ : BufTy).Contents (Elt F)),  -- %157 = stablehlo.divide %155, %156 : tensor<6144x10xf32>
    StableHlo.nullary main_cst_33 (constant S_ .f32 0x3F800000#32),  -- %cst_33 = stablehlo.constant dense<1.000000e+00> : tensor<f32>
    StableHlo.unary main_cst_33 main_v158 (broadcastInDim S6144x10 ![] bcast_S_S6144x10 : (⟨S_, .f32⟩ : BufTy).Contents (Elt F) → (⟨S6144x10, .f32⟩ : BufTy).Contents (Elt F)),  -- %158 = stablehlo.broadcast_in_dim %cst_33, dims = [] : (tensor<f32>) -> tensor<6144x10xf32>
    StableHlo.binary main_v147 main_v158 main_v159 (subf : (⟨S6144x10, .f32⟩ : BufTy).Contents (Elt F) → (⟨S6144x10, .f32⟩ : BufTy).Contents (Elt F) → (⟨S6144x10, .f32⟩ : BufTy).Contents (Elt F)),  -- %159 = stablehlo.subtract %147, %158 : tensor<6144x10xf32>
    StableHlo.unary main_v153 main_v160 (broadcastInDim S6144x10 ![0, 1] bcast_S6144x1_S6144x10_0_1 : (⟨S6144x1, .f32⟩ : BufTy).Contents (Elt F) → (⟨S6144x10, .f32⟩ : BufTy).Contents (Elt F)),  -- %160 = stablehlo.broadcast_in_dim %153, dims = [0, 1] : (tensor<6144x1xf32>) -> tensor<6144x10xf32>
    StableHlo.binary main_v159 main_v160 main_v161 (Host.divf : (⟨S6144x10, .f32⟩ : BufTy).Contents (Elt F) → (⟨S6144x10, .f32⟩ : BufTy).Contents (Elt F) → (⟨S6144x10, .f32⟩ : BufTy).Contents (Elt F)),  -- %161 = stablehlo.divide %159, %160 : tensor<6144x10xf32>
    StableHlo.nullary main_cst_34 (constant S_ .f32 0x41200000#32),  -- %cst_34 = stablehlo.constant dense<1.000000e+01> : tensor<f32>
    StableHlo.unary main_cst_34 main_v162 (broadcastInDim S6144x1 ![] bcast_S_S6144x1 : (⟨S_, .f32⟩ : BufTy).Contents (Elt F) → (⟨S6144x1, .f32⟩ : BufTy).Contents (Elt F)),  -- %162 = stablehlo.broadcast_in_dim %cst_34, dims = [] : (tensor<f32>) -> tensor<6144x1xf32>
    StableHlo.binary main_v162 main_v151 main_v163 (Host.divf : (⟨S6144x1, .f32⟩ : BufTy).Contents (Elt F) → (⟨S6144x1, .f32⟩ : BufTy).Contents (Elt F) → (⟨S6144x1, .f32⟩ : BufTy).Contents (Elt F)),  -- %163 = stablehlo.divide %162, %151 : tensor<6144x1xf32>
    StableHlo.nullary main_cst_35 (constant S_ .f32 0x41200000#32),  -- %cst_35 = stablehlo.constant dense<1.000000e+01> : tensor<f32>
    StableHlo.unary main_cst_35 main_v164 (broadcastInDim S6144x1 ![] bcast_S_S6144x1 : (⟨S_, .f32⟩ : BufTy).Contents (Elt F) → (⟨S6144x1, .f32⟩ : BufTy).Contents (Elt F)),  -- %164 = stablehlo.broadcast_in_dim %cst_35, dims = [] : (tensor<f32>) -> tensor<6144x1xf32>
    StableHlo.binary main_v164 main_v153 main_v165 (Host.divf : (⟨S6144x1, .f32⟩ : BufTy).Contents (Elt F) → (⟨S6144x1, .f32⟩ : BufTy).Contents (Elt F) → (⟨S6144x1, .f32⟩ : BufTy).Contents (Elt F)),  -- %165 = stablehlo.divide %164, %153 : tensor<6144x1xf32>
    StableHlo.nullary main_cst_36 (constant S_ .f32 0x00000000#32),  -- %cst_36 = stablehlo.constant dense<0.000000e+00> : tensor<f32>
    StableHlo.binary main_v157 main_cst_36 main_v166 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %166 = stablehlo.reduce(%157 init: %cst_36) applies stablehlo.add across dimensions = [1] : (tensor<6144x10xf32>, tensor<f32>) -> tensor<6144xf32> {
    StableHlo.unary main_v166 main_v167 (broadcastInDim S6144x1 ![0] bcast_S6144_S6144x1_0 : (⟨S6144, .f32⟩ : BufTy).Contents (Elt F) → (⟨S6144x1, .f32⟩ : BufTy).Contents (Elt F)),  -- %167 = stablehlo.broadcast_in_dim %166, dims = [0] : (tensor<6144xf32>) -> tensor<6144x1xf32>
    StableHlo.nullary main_cst_37 (constant S_ .f32 0x00000000#32),  -- %cst_37 = stablehlo.constant dense<0.000000e+00> : tensor<f32>
    StableHlo.binary main_v161 main_cst_37 main_v168 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %168 = stablehlo.reduce(%161 init: %cst_37) applies stablehlo.add across dimensions = [1] : (tensor<6144x10xf32>, tensor<f32>) -> tensor<6144xf32> {
    StableHlo.unary main_v168 main_v169 (broadcastInDim S6144x1 ![0] bcast_S6144_S6144x1_0 : (⟨S6144, .f32⟩ : BufTy).Contents (Elt F) → (⟨S6144x1, .f32⟩ : BufTy).Contents (Elt F)),  -- %169 = stablehlo.broadcast_in_dim %168, dims = [0] : (tensor<6144xf32>) -> tensor<6144x1xf32>
    StableHlo.binary main_v167 main_v169 main_v170 (mulf : (⟨S6144x1, .f32⟩ : BufTy).Contents (Elt F) → (⟨S6144x1, .f32⟩ : BufTy).Contents (Elt F) → (⟨S6144x1, .f32⟩ : BufTy).Contents (Elt F)),  -- %170 = stablehlo.multiply %167, %169 : tensor<6144x1xf32>
    StableHlo.binary main_v157 main_v161 main_v171 (mulf : (⟨S6144x10, .f32⟩ : BufTy).Contents (Elt F) → (⟨S6144x10, .f32⟩ : BufTy).Contents (Elt F) → (⟨S6144x10, .f32⟩ : BufTy).Contents (Elt F)),  -- %171 = stablehlo.multiply %157, %161 : tensor<6144x10xf32>
    StableHlo.nullary main_cst_38 (constant S_ .f32 0x00000000#32),  -- %cst_38 = stablehlo.constant dense<0.000000e+00> : tensor<f32>
    StableHlo.binary main_v171 main_cst_38 main_v172 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %172 = stablehlo.reduce(%171 init: %cst_38) applies stablehlo.add across dimensions = [1] : (tensor<6144x10xf32>, tensor<f32>) -> tensor<6144xf32> {
    StableHlo.unary main_v172 main_v173 (broadcastInDim S6144x1 ![0] bcast_S6144_S6144x1_0 : (⟨S6144, .f32⟩ : BufTy).Contents (Elt F) → (⟨S6144x1, .f32⟩ : BufTy).Contents (Elt F)),  -- %173 = stablehlo.broadcast_in_dim %172, dims = [0] : (tensor<6144xf32>) -> tensor<6144x1xf32>
    StableHlo.binary main_v170 main_v173 main_v174 (subf : (⟨S6144x1, .f32⟩ : BufTy).Contents (Elt F) → (⟨S6144x1, .f32⟩ : BufTy).Contents (Elt F) → (⟨S6144x1, .f32⟩ : BufTy).Contents (Elt F)),  -- %174 = stablehlo.subtract %170, %173 : tensor<6144x1xf32>
    StableHlo.binary main_v157 main_v161 main_v175 (mulf : (⟨S6144x10, .f32⟩ : BufTy).Contents (Elt F) → (⟨S6144x10, .f32⟩ : BufTy).Contents (Elt F) → (⟨S6144x10, .f32⟩ : BufTy).Contents (Elt F)),  -- %175 = stablehlo.multiply %157, %161 : tensor<6144x10xf32>
    StableHlo.unary main_v165 main_v176 (broadcastInDim S6144x10 ![0, 1] bcast_S6144x1_S6144x10_0_1 : (⟨S6144x1, .f32⟩ : BufTy).Contents (Elt F) → (⟨S6144x10, .f32⟩ : BufTy).Contents (Elt F)),  -- %176 = stablehlo.broadcast_in_dim %165, dims = [0, 1] : (tensor<6144x1xf32>) -> tensor<6144x10xf32>
    StableHlo.binary main_v157 main_v176 main_v177 (mulf : (⟨S6144x10, .f32⟩ : BufTy).Contents (Elt F) → (⟨S6144x10, .f32⟩ : BufTy).Contents (Elt F) → (⟨S6144x10, .f32⟩ : BufTy).Contents (Elt F)),  -- %177 = stablehlo.multiply %157, %176 : tensor<6144x10xf32>
    StableHlo.binary main_v175 main_v177 main_v178 (addf : (⟨S6144x10, .f32⟩ : BufTy).Contents (Elt F) → (⟨S6144x10, .f32⟩ : BufTy).Contents (Elt F) → (⟨S6144x10, .f32⟩ : BufTy).Contents (Elt F)),  -- %178 = stablehlo.add %175, %177 : tensor<6144x10xf32>
    StableHlo.unary main_v163 main_v179 (broadcastInDim S6144x10 ![0, 1] bcast_S6144x1_S6144x10_0_1 : (⟨S6144x1, .f32⟩ : BufTy).Contents (Elt F) → (⟨S6144x10, .f32⟩ : BufTy).Contents (Elt F)),  -- %179 = stablehlo.broadcast_in_dim %163, dims = [0, 1] : (tensor<6144x1xf32>) -> tensor<6144x10xf32>
    StableHlo.binary main_v161 main_v179 main_v180 (mulf : (⟨S6144x10, .f32⟩ : BufTy).Contents (Elt F) → (⟨S6144x10, .f32⟩ : BufTy).Contents (Elt F) → (⟨S6144x10, .f32⟩ : BufTy).Contents (Elt F)),  -- %180 = stablehlo.multiply %161, %179 : tensor<6144x10xf32>
    StableHlo.binary main_v178 main_v180 main_v181 (addf : (⟨S6144x10, .f32⟩ : BufTy).Contents (Elt F) → (⟨S6144x10, .f32⟩ : BufTy).Contents (Elt F) → (⟨S6144x10, .f32⟩ : BufTy).Contents (Elt F)),  -- %181 = stablehlo.add %178, %180 : tensor<6144x10xf32>
    StableHlo.nullary main_cst_39 (constant S_ .f32 0x3F800000#32),  -- %cst_39 = stablehlo.constant dense<1.000000e+00> : tensor<f32>
    StableHlo.unary main_cst_39 main_v182 (broadcastInDim S6144x1 ![] bcast_S_S6144x1 : (⟨S_, .f32⟩ : BufTy).Contents (Elt F) → (⟨S6144x1, .f32⟩ : BufTy).Contents (Elt F)),  -- %182 = stablehlo.broadcast_in_dim %cst_39, dims = [] : (tensor<f32>) -> tensor<6144x1xf32>
    StableHlo.binary main_v182 main_v174 main_v183 (subf : (⟨S6144x1, .f32⟩ : BufTy).Contents (Elt F) → (⟨S6144x1, .f32⟩ : BufTy).Contents (Elt F) → (⟨S6144x1, .f32⟩ : BufTy).Contents (Elt F)),  -- %183 = stablehlo.subtract %182, %174 : tensor<6144x1xf32>
    StableHlo.unary main_v183 main_v184 (broadcastInDim S6144x10 ![0, 1] bcast_S6144x1_S6144x10_0_1 : (⟨S6144x1, .f32⟩ : BufTy).Contents (Elt F) → (⟨S6144x10, .f32⟩ : BufTy).Contents (Elt F)),  -- %184 = stablehlo.broadcast_in_dim %183, dims = [0, 1] : (tensor<6144x1xf32>) -> tensor<6144x10xf32>
    StableHlo.binary main_v181 main_v184 main_v185 (Host.divf : (⟨S6144x10, .f32⟩ : BufTy).Contents (Elt F) → (⟨S6144x10, .f32⟩ : BufTy).Contents (Elt F) → (⟨S6144x10, .f32⟩ : BufTy).Contents (Elt F)),  -- %185 = stablehlo.divide %181, %184 : tensor<6144x10xf32>
    StableHlo.binary main_v163 main_v165 main_v186 (mulf : (⟨S6144x1, .f32⟩ : BufTy).Contents (Elt F) → (⟨S6144x1, .f32⟩ : BufTy).Contents (Elt F) → (⟨S6144x1, .f32⟩ : BufTy).Contents (Elt F)),  -- %186 = stablehlo.multiply %163, %165 : tensor<6144x1xf32>
    StableHlo.nullary main_cst_40 (constant S_ .f32 0x3F800000#32),  -- %cst_40 = stablehlo.constant dense<1.000000e+00> : tensor<f32>
    StableHlo.unary main_cst_40 main_v187 (broadcastInDim S6144x1 ![] bcast_S_S6144x1 : (⟨S_, .f32⟩ : BufTy).Contents (Elt F) → (⟨S6144x1, .f32⟩ : BufTy).Contents (Elt F)),  -- %187 = stablehlo.broadcast_in_dim %cst_40, dims = [] : (tensor<f32>) -> tensor<6144x1xf32>
    StableHlo.binary main_v187 main_v174 main_v188 (subf : (⟨S6144x1, .f32⟩ : BufTy).Contents (Elt F) → (⟨S6144x1, .f32⟩ : BufTy).Contents (Elt F) → (⟨S6144x1, .f32⟩ : BufTy).Contents (Elt F)),  -- %188 = stablehlo.subtract %187, %174 : tensor<6144x1xf32>
    StableHlo.binary main_v186 main_v188 main_v189 (Host.divf : (⟨S6144x1, .f32⟩ : BufTy).Contents (Elt F) → (⟨S6144x1, .f32⟩ : BufTy).Contents (Elt F) → (⟨S6144x1, .f32⟩ : BufTy).Contents (Elt F)),  -- %189 = stablehlo.divide %186, %188 : tensor<6144x1xf32>
    StableHlo.nullary main_cst_41 (constant S_ .f32 0x41200000#32),  -- %cst_41 = stablehlo.constant dense<1.000000e+01> : tensor<f32>
    StableHlo.unary main_cst_41 main_v190 (broadcastInDim S6144x1 ![] bcast_S_S6144x1 : (⟨S_, .f32⟩ : BufTy).Contents (Elt F) → (⟨S6144x1, .f32⟩ : BufTy).Contents (Elt F)),  -- %190 = stablehlo.broadcast_in_dim %cst_41, dims = [] : (tensor<f32>) -> tensor<6144x1xf32>
    StableHlo.binary main_v190 main_v189 main_v191 (Host.divf : (⟨S6144x1, .f32⟩ : BufTy).Contents (Elt F) → (⟨S6144x1, .f32⟩ : BufTy).Contents (Elt F) → (⟨S6144x1, .f32⟩ : BufTy).Contents (Elt F)),  -- %191 = stablehlo.divide %190, %189 : tensor<6144x1xf32>
    StableHlo.unary main_v191 main_v192 (broadcastInDim S6144x10 ![0, 1] bcast_S6144x1_S6144x10_0_1 : (⟨S6144x1, .f32⟩ : BufTy).Contents (Elt F) → (⟨S6144x10, .f32⟩ : BufTy).Contents (Elt F)),  -- %192 = stablehlo.broadcast_in_dim %191, dims = [0, 1] : (tensor<6144x1xf32>) -> tensor<6144x10xf32>
    StableHlo.binary main_v185 main_v192 main_v193 (mulf : (⟨S6144x10, .f32⟩ : BufTy).Contents (Elt F) → (⟨S6144x10, .f32⟩ : BufTy).Contents (Elt F) → (⟨S6144x10, .f32⟩ : BufTy).Contents (Elt F)),  -- %193 = stablehlo.multiply %185, %192 : tensor<6144x10xf32>
    StableHlo.nullary main_cst_42 (constant S_ .f32 0x3F800000#32),  -- %cst_42 = stablehlo.constant dense<1.000000e+00> : tensor<f32>
    StableHlo.unary main_cst_42 main_v194 (broadcastInDim S6144x10 ![] bcast_S_S6144x10 : (⟨S_, .f32⟩ : BufTy).Contents (Elt F) → (⟨S6144x10, .f32⟩ : BufTy).Contents (Elt F)),  -- %194 = stablehlo.broadcast_in_dim %cst_42, dims = [] : (tensor<f32>) -> tensor<6144x10xf32>
    StableHlo.binary main_v193 main_v194 main_v195 (addf : (⟨S6144x10, .f32⟩ : BufTy).Contents (Elt F) → (⟨S6144x10, .f32⟩ : BufTy).Contents (Elt F) → (⟨S6144x10, .f32⟩ : BufTy).Contents (Elt F)) ]  -- %195 = stablehlo.add %193, %194 : tensor<6144x10xf32>

/-- The second sweep's second Dempster combination, of `main_v195` and `main_v149`; the fused array is written last, to `main_v241`. (59 operations.) -/
abbrev opsDb2 : List (HloOp τ sig (Elt F)) :=
  [ StableHlo.nullary main_cst_43 (constant S_ .f32 0x00000000#32),  -- %cst_43 = stablehlo.constant dense<0.000000e+00> : tensor<f32>
    StableHlo.binary main_v195 main_cst_43 main_v196 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %196 = stablehlo.reduce(%195 init: %cst_43) applies stablehlo.add across dimensions = [1] : (tensor<6144x10xf32>, tensor<f32>) -> tensor<6144xf32> {
    StableHlo.unary main_v196 main_v197 (broadcastInDim S6144x1 ![0] bcast_S6144_S6144x1_0 : (⟨S6144, .f32⟩ : BufTy).Contents (Elt F) → (⟨S6144x1, .f32⟩ : BufTy).Contents (Elt F)),  -- %197 = stablehlo.broadcast_in_dim %196, dims = [0] : (tensor<6144xf32>) -> tensor<6144x1xf32>
    StableHlo.nullary main_cst_44 (constant S_ .f32 0x00000000#32),  -- %cst_44 = stablehlo.constant dense<0.000000e+00> : tensor<f32>
    StableHlo.binary main_v149 main_cst_44 main_v198 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %198 = stablehlo.reduce(%149 init: %cst_44) applies stablehlo.add across dimensions = [1] : (tensor<6144x10xf32>, tensor<f32>) -> tensor<6144xf32> {
    StableHlo.unary main_v198 main_v199 (broadcastInDim S6144x1 ![0] bcast_S6144_S6144x1_0 : (⟨S6144, .f32⟩ : BufTy).Contents (Elt F) → (⟨S6144x1, .f32⟩ : BufTy).Contents (Elt F)),  -- %199 = stablehlo.broadcast_in_dim %198, dims = [0] : (tensor<6144xf32>) -> tensor<6144x1xf32>
    StableHlo.nullary main_cst_45 (constant S_ .f32 0x3F800000#32),  -- %cst_45 = stablehlo.constant dense<1.000000e+00> : tensor<f32>
    StableHlo.unary main_cst_45 main_v200 (broadcastInDim S6144x10 ![] bcast_S_S6144x10 : (⟨S_, .f32⟩ : BufTy).Contents (Elt F) → (⟨S6144x10, .f32⟩ : BufTy).Contents (Elt F)),  -- %200 = stablehlo.broadcast_in_dim %cst_45, dims = [] : (tensor<f32>) -> tensor<6144x10xf32>
    StableHlo.binary main_v195 main_v200 main_v201 (subf : (⟨S6144x10, .f32⟩ : BufTy).Contents (Elt F) → (⟨S6144x10, .f32⟩ : BufTy).Contents (Elt F) → (⟨S6144x10, .f32⟩ : BufTy).Contents (Elt F)),  -- %201 = stablehlo.subtract %195, %200 : tensor<6144x10xf32>
    StableHlo.unary main_v197 main_v202 (broadcastInDim S6144x10 ![0, 1] bcast_S6144x1_S6144x10_0_1 : (⟨S6144x1, .f32⟩ : BufTy).Contents (Elt F) → (⟨S6144x10, .f32⟩ : BufTy).Contents (Elt F)),  -- %202 = stablehlo.broadcast_in_dim %197, dims = [0, 1] : (tensor<6144x1xf32>) -> tensor<6144x10xf32>
    StableHlo.binary main_v201 main_v202 main_v203 (Host.divf : (⟨S6144x10, .f32⟩ : BufTy).Contents (Elt F) → (⟨S6144x10, .f32⟩ : BufTy).Contents (Elt F) → (⟨S6144x10, .f32⟩ : BufTy).Contents (Elt F)),  -- %203 = stablehlo.divide %201, %202 : tensor<6144x10xf32>
    StableHlo.nullary main_cst_46 (constant S_ .f32 0x3F800000#32),  -- %cst_46 = stablehlo.constant dense<1.000000e+00> : tensor<f32>
    StableHlo.unary main_cst_46 main_v204 (broadcastInDim S6144x10 ![] bcast_S_S6144x10 : (⟨S_, .f32⟩ : BufTy).Contents (Elt F) → (⟨S6144x10, .f32⟩ : BufTy).Contents (Elt F)),  -- %204 = stablehlo.broadcast_in_dim %cst_46, dims = [] : (tensor<f32>) -> tensor<6144x10xf32>
    StableHlo.binary main_v149 main_v204 main_v205 (subf : (⟨S6144x10, .f32⟩ : BufTy).Contents (Elt F) → (⟨S6144x10, .f32⟩ : BufTy).Contents (Elt F) → (⟨S6144x10, .f32⟩ : BufTy).Contents (Elt F)),  -- %205 = stablehlo.subtract %149, %204 : tensor<6144x10xf32>
    StableHlo.unary main_v199 main_v206 (broadcastInDim S6144x10 ![0, 1] bcast_S6144x1_S6144x10_0_1 : (⟨S6144x1, .f32⟩ : BufTy).Contents (Elt F) → (⟨S6144x10, .f32⟩ : BufTy).Contents (Elt F)),  -- %206 = stablehlo.broadcast_in_dim %199, dims = [0, 1] : (tensor<6144x1xf32>) -> tensor<6144x10xf32>
    StableHlo.binary main_v205 main_v206 main_v207 (Host.divf : (⟨S6144x10, .f32⟩ : BufTy).Contents (Elt F) → (⟨S6144x10, .f32⟩ : BufTy).Contents (Elt F) → (⟨S6144x10, .f32⟩ : BufTy).Contents (Elt F)),  -- %207 = stablehlo.divide %205, %206 : tensor<6144x10xf32>
    StableHlo.nullary main_cst_47 (constant S_ .f32 0x41200000#32),  -- %cst_47 = stablehlo.constant dense<1.000000e+01> : tensor<f32>
    StableHlo.unary main_cst_47 main_v208 (broadcastInDim S6144x1 ![] bcast_S_S6144x1 : (⟨S_, .f32⟩ : BufTy).Contents (Elt F) → (⟨S6144x1, .f32⟩ : BufTy).Contents (Elt F)),  -- %208 = stablehlo.broadcast_in_dim %cst_47, dims = [] : (tensor<f32>) -> tensor<6144x1xf32>
    StableHlo.binary main_v208 main_v197 main_v209 (Host.divf : (⟨S6144x1, .f32⟩ : BufTy).Contents (Elt F) → (⟨S6144x1, .f32⟩ : BufTy).Contents (Elt F) → (⟨S6144x1, .f32⟩ : BufTy).Contents (Elt F)),  -- %209 = stablehlo.divide %208, %197 : tensor<6144x1xf32>
    StableHlo.nullary main_cst_48 (constant S_ .f32 0x41200000#32),  -- %cst_48 = stablehlo.constant dense<1.000000e+01> : tensor<f32>
    StableHlo.unary main_cst_48 main_v210 (broadcastInDim S6144x1 ![] bcast_S_S6144x1 : (⟨S_, .f32⟩ : BufTy).Contents (Elt F) → (⟨S6144x1, .f32⟩ : BufTy).Contents (Elt F)),  -- %210 = stablehlo.broadcast_in_dim %cst_48, dims = [] : (tensor<f32>) -> tensor<6144x1xf32>
    StableHlo.binary main_v210 main_v199 main_v211 (Host.divf : (⟨S6144x1, .f32⟩ : BufTy).Contents (Elt F) → (⟨S6144x1, .f32⟩ : BufTy).Contents (Elt F) → (⟨S6144x1, .f32⟩ : BufTy).Contents (Elt F)),  -- %211 = stablehlo.divide %210, %199 : tensor<6144x1xf32>
    StableHlo.nullary main_cst_49 (constant S_ .f32 0x00000000#32),  -- %cst_49 = stablehlo.constant dense<0.000000e+00> : tensor<f32>
    StableHlo.binary main_v203 main_cst_49 main_v212 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %212 = stablehlo.reduce(%203 init: %cst_49) applies stablehlo.add across dimensions = [1] : (tensor<6144x10xf32>, tensor<f32>) -> tensor<6144xf32> {
    StableHlo.unary main_v212 main_v213 (broadcastInDim S6144x1 ![0] bcast_S6144_S6144x1_0 : (⟨S6144, .f32⟩ : BufTy).Contents (Elt F) → (⟨S6144x1, .f32⟩ : BufTy).Contents (Elt F)),  -- %213 = stablehlo.broadcast_in_dim %212, dims = [0] : (tensor<6144xf32>) -> tensor<6144x1xf32>
    StableHlo.nullary main_cst_50 (constant S_ .f32 0x00000000#32),  -- %cst_50 = stablehlo.constant dense<0.000000e+00> : tensor<f32>
    StableHlo.binary main_v207 main_cst_50 main_v214 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %214 = stablehlo.reduce(%207 init: %cst_50) applies stablehlo.add across dimensions = [1] : (tensor<6144x10xf32>, tensor<f32>) -> tensor<6144xf32> {
    StableHlo.unary main_v214 main_v215 (broadcastInDim S6144x1 ![0] bcast_S6144_S6144x1_0 : (⟨S6144, .f32⟩ : BufTy).Contents (Elt F) → (⟨S6144x1, .f32⟩ : BufTy).Contents (Elt F)),  -- %215 = stablehlo.broadcast_in_dim %214, dims = [0] : (tensor<6144xf32>) -> tensor<6144x1xf32>
    StableHlo.binary main_v213 main_v215 main_v216 (mulf : (⟨S6144x1, .f32⟩ : BufTy).Contents (Elt F) → (⟨S6144x1, .f32⟩ : BufTy).Contents (Elt F) → (⟨S6144x1, .f32⟩ : BufTy).Contents (Elt F)),  -- %216 = stablehlo.multiply %213, %215 : tensor<6144x1xf32>
    StableHlo.binary main_v203 main_v207 main_v217 (mulf : (⟨S6144x10, .f32⟩ : BufTy).Contents (Elt F) → (⟨S6144x10, .f32⟩ : BufTy).Contents (Elt F) → (⟨S6144x10, .f32⟩ : BufTy).Contents (Elt F)),  -- %217 = stablehlo.multiply %203, %207 : tensor<6144x10xf32>
    StableHlo.nullary main_cst_51 (constant S_ .f32 0x00000000#32),  -- %cst_51 = stablehlo.constant dense<0.000000e+00> : tensor<f32>
    StableHlo.binary main_v217 main_cst_51 main_v218 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %218 = stablehlo.reduce(%217 init: %cst_51) applies stablehlo.add across dimensions = [1] : (tensor<6144x10xf32>, tensor<f32>) -> tensor<6144xf32> {
    StableHlo.unary main_v218 main_v219 (broadcastInDim S6144x1 ![0] bcast_S6144_S6144x1_0 : (⟨S6144, .f32⟩ : BufTy).Contents (Elt F) → (⟨S6144x1, .f32⟩ : BufTy).Contents (Elt F)),  -- %219 = stablehlo.broadcast_in_dim %218, dims = [0] : (tensor<6144xf32>) -> tensor<6144x1xf32>
    StableHlo.binary main_v216 main_v219 main_v220 (subf : (⟨S6144x1, .f32⟩ : BufTy).Contents (Elt F) → (⟨S6144x1, .f32⟩ : BufTy).Contents (Elt F) → (⟨S6144x1, .f32⟩ : BufTy).Contents (Elt F)),  -- %220 = stablehlo.subtract %216, %219 : tensor<6144x1xf32>
    StableHlo.binary main_v203 main_v207 main_v221 (mulf : (⟨S6144x10, .f32⟩ : BufTy).Contents (Elt F) → (⟨S6144x10, .f32⟩ : BufTy).Contents (Elt F) → (⟨S6144x10, .f32⟩ : BufTy).Contents (Elt F)),  -- %221 = stablehlo.multiply %203, %207 : tensor<6144x10xf32>
    StableHlo.unary main_v211 main_v222 (broadcastInDim S6144x10 ![0, 1] bcast_S6144x1_S6144x10_0_1 : (⟨S6144x1, .f32⟩ : BufTy).Contents (Elt F) → (⟨S6144x10, .f32⟩ : BufTy).Contents (Elt F)),  -- %222 = stablehlo.broadcast_in_dim %211, dims = [0, 1] : (tensor<6144x1xf32>) -> tensor<6144x10xf32>
    StableHlo.binary main_v203 main_v222 main_v223 (mulf : (⟨S6144x10, .f32⟩ : BufTy).Contents (Elt F) → (⟨S6144x10, .f32⟩ : BufTy).Contents (Elt F) → (⟨S6144x10, .f32⟩ : BufTy).Contents (Elt F)),  -- %223 = stablehlo.multiply %203, %222 : tensor<6144x10xf32>
    StableHlo.binary main_v221 main_v223 main_v224 (addf : (⟨S6144x10, .f32⟩ : BufTy).Contents (Elt F) → (⟨S6144x10, .f32⟩ : BufTy).Contents (Elt F) → (⟨S6144x10, .f32⟩ : BufTy).Contents (Elt F)),  -- %224 = stablehlo.add %221, %223 : tensor<6144x10xf32>
    StableHlo.unary main_v209 main_v225 (broadcastInDim S6144x10 ![0, 1] bcast_S6144x1_S6144x10_0_1 : (⟨S6144x1, .f32⟩ : BufTy).Contents (Elt F) → (⟨S6144x10, .f32⟩ : BufTy).Contents (Elt F)),  -- %225 = stablehlo.broadcast_in_dim %209, dims = [0, 1] : (tensor<6144x1xf32>) -> tensor<6144x10xf32>
    StableHlo.binary main_v207 main_v225 main_v226 (mulf : (⟨S6144x10, .f32⟩ : BufTy).Contents (Elt F) → (⟨S6144x10, .f32⟩ : BufTy).Contents (Elt F) → (⟨S6144x10, .f32⟩ : BufTy).Contents (Elt F)),  -- %226 = stablehlo.multiply %207, %225 : tensor<6144x10xf32>
    StableHlo.binary main_v224 main_v226 main_v227 (addf : (⟨S6144x10, .f32⟩ : BufTy).Contents (Elt F) → (⟨S6144x10, .f32⟩ : BufTy).Contents (Elt F) → (⟨S6144x10, .f32⟩ : BufTy).Contents (Elt F)),  -- %227 = stablehlo.add %224, %226 : tensor<6144x10xf32>
    StableHlo.nullary main_cst_52 (constant S_ .f32 0x3F800000#32),  -- %cst_52 = stablehlo.constant dense<1.000000e+00> : tensor<f32>
    StableHlo.unary main_cst_52 main_v228 (broadcastInDim S6144x1 ![] bcast_S_S6144x1 : (⟨S_, .f32⟩ : BufTy).Contents (Elt F) → (⟨S6144x1, .f32⟩ : BufTy).Contents (Elt F)),  -- %228 = stablehlo.broadcast_in_dim %cst_52, dims = [] : (tensor<f32>) -> tensor<6144x1xf32>
    StableHlo.binary main_v228 main_v220 main_v229 (subf : (⟨S6144x1, .f32⟩ : BufTy).Contents (Elt F) → (⟨S6144x1, .f32⟩ : BufTy).Contents (Elt F) → (⟨S6144x1, .f32⟩ : BufTy).Contents (Elt F)),  -- %229 = stablehlo.subtract %228, %220 : tensor<6144x1xf32>
    StableHlo.unary main_v229 main_v230 (broadcastInDim S6144x10 ![0, 1] bcast_S6144x1_S6144x10_0_1 : (⟨S6144x1, .f32⟩ : BufTy).Contents (Elt F) → (⟨S6144x10, .f32⟩ : BufTy).Contents (Elt F)),  -- %230 = stablehlo.broadcast_in_dim %229, dims = [0, 1] : (tensor<6144x1xf32>) -> tensor<6144x10xf32>
    StableHlo.binary main_v227 main_v230 main_v231 (Host.divf : (⟨S6144x10, .f32⟩ : BufTy).Contents (Elt F) → (⟨S6144x10, .f32⟩ : BufTy).Contents (Elt F) → (⟨S6144x10, .f32⟩ : BufTy).Contents (Elt F)),  -- %231 = stablehlo.divide %227, %230 : tensor<6144x10xf32>
    StableHlo.binary main_v209 main_v211 main_v232 (mulf : (⟨S6144x1, .f32⟩ : BufTy).Contents (Elt F) → (⟨S6144x1, .f32⟩ : BufTy).Contents (Elt F) → (⟨S6144x1, .f32⟩ : BufTy).Contents (Elt F)),  -- %232 = stablehlo.multiply %209, %211 : tensor<6144x1xf32>
    StableHlo.nullary main_cst_53 (constant S_ .f32 0x3F800000#32),  -- %cst_53 = stablehlo.constant dense<1.000000e+00> : tensor<f32>
    StableHlo.unary main_cst_53 main_v233 (broadcastInDim S6144x1 ![] bcast_S_S6144x1 : (⟨S_, .f32⟩ : BufTy).Contents (Elt F) → (⟨S6144x1, .f32⟩ : BufTy).Contents (Elt F)),  -- %233 = stablehlo.broadcast_in_dim %cst_53, dims = [] : (tensor<f32>) -> tensor<6144x1xf32>
    StableHlo.binary main_v233 main_v220 main_v234 (subf : (⟨S6144x1, .f32⟩ : BufTy).Contents (Elt F) → (⟨S6144x1, .f32⟩ : BufTy).Contents (Elt F) → (⟨S6144x1, .f32⟩ : BufTy).Contents (Elt F)),  -- %234 = stablehlo.subtract %233, %220 : tensor<6144x1xf32>
    StableHlo.binary main_v232 main_v234 main_v235 (Host.divf : (⟨S6144x1, .f32⟩ : BufTy).Contents (Elt F) → (⟨S6144x1, .f32⟩ : BufTy).Contents (Elt F) → (⟨S6144x1, .f32⟩ : BufTy).Contents (Elt F)),  -- %235 = stablehlo.divide %232, %234 : tensor<6144x1xf32>
    StableHlo.nullary main_cst_54 (constant S_ .f32 0x41200000#32),  -- %cst_54 = stablehlo.constant dense<1.000000e+01> : tensor<f32>
    StableHlo.unary main_cst_54 main_v236 (broadcastInDim S6144x1 ![] bcast_S_S6144x1 : (⟨S_, .f32⟩ : BufTy).Contents (Elt F) → (⟨S6144x1, .f32⟩ : BufTy).Contents (Elt F)),  -- %236 = stablehlo.broadcast_in_dim %cst_54, dims = [] : (tensor<f32>) -> tensor<6144x1xf32>
    StableHlo.binary main_v236 main_v235 main_v237 (Host.divf : (⟨S6144x1, .f32⟩ : BufTy).Contents (Elt F) → (⟨S6144x1, .f32⟩ : BufTy).Contents (Elt F) → (⟨S6144x1, .f32⟩ : BufTy).Contents (Elt F)),  -- %237 = stablehlo.divide %236, %235 : tensor<6144x1xf32>
    StableHlo.unary main_v237 main_v238 (broadcastInDim S6144x10 ![0, 1] bcast_S6144x1_S6144x10_0_1 : (⟨S6144x1, .f32⟩ : BufTy).Contents (Elt F) → (⟨S6144x10, .f32⟩ : BufTy).Contents (Elt F)),  -- %238 = stablehlo.broadcast_in_dim %237, dims = [0, 1] : (tensor<6144x1xf32>) -> tensor<6144x10xf32>
    StableHlo.binary main_v231 main_v238 main_v239 (mulf : (⟨S6144x10, .f32⟩ : BufTy).Contents (Elt F) → (⟨S6144x10, .f32⟩ : BufTy).Contents (Elt F) → (⟨S6144x10, .f32⟩ : BufTy).Contents (Elt F)),  -- %239 = stablehlo.multiply %231, %238 : tensor<6144x10xf32>
    StableHlo.nullary main_cst_55 (constant S_ .f32 0x3F800000#32),  -- %cst_55 = stablehlo.constant dense<1.000000e+00> : tensor<f32>
    StableHlo.unary main_cst_55 main_v240 (broadcastInDim S6144x10 ![] bcast_S_S6144x10 : (⟨S_, .f32⟩ : BufTy).Contents (Elt F) → (⟨S6144x10, .f32⟩ : BufTy).Contents (Elt F)),  -- %240 = stablehlo.broadcast_in_dim %cst_55, dims = [] : (tensor<f32>) -> tensor<6144x10xf32>
    StableHlo.binary main_v239 main_v240 main_v241 (addf : (⟨S6144x10, .f32⟩ : BufTy).Contents (Elt F) → (⟨S6144x10, .f32⟩ : BufTy).Contents (Elt F) → (⟨S6144x10, .f32⟩ : BufTy).Contents (Elt F)) ]  -- %241 = stablehlo.add %239, %240 : tensor<6144x10xf32>

/-- The second sweep, from z' = `main_v135`; the fused array is written last, to `main_v241`. (146 operations.) -/
abbrev opsS2 : List (HloOp τ sig (Elt F)) := opsE2 ++ opsDa2 ++ opsDb2

/-- The second sweep's tail, the first tail's operations again; the final estimate z'' is written last, to `main_v270`. (90 operations.) -/
abbrev opsT2 : List (HloOp τ sig (Elt F)) :=
  [ StableHlo.nullary main_cst_56 (constant S_ .f32 0x00000000#32),  -- %cst_56 = stablehlo.constant dense<0.000000e+00> : tensor<f32>
    StableHlo.binary main_v241 main_cst_56 main_v242 ((fun x v => Host.reduceAdd x v reducesTo_S6144x10_S10_d0 h_S_) : (⟨S6144x10, .f32⟩ : BufTy).Contents (Elt F) → (⟨S_, .f32⟩ : BufTy).Contents (Elt F) → (⟨S10, .f32⟩ : BufTy).Contents (Elt F)),  -- %242 = stablehlo.reduce(%241 init: %cst_56) applies stablehlo.add across dimensions = [0] : (tensor<6144x10xf32>, tensor<f32>) -> tensor<10xf32> {
    StableHlo.nullary main_cst_57 (constant S_ .f32 0x45C00000#32),  -- %cst_57 = stablehlo.constant dense<6.144000e+03> : tensor<f32>
    StableHlo.unary main_cst_57 main_v243 (broadcastInDim S10 ![] bcast_S_S10 : (⟨S_, .f32⟩ : BufTy).Contents (Elt F) → (⟨S10, .f32⟩ : BufTy).Contents (Elt F)),  -- %243 = stablehlo.broadcast_in_dim %cst_57, dims = [] : (tensor<f32>) -> tensor<10xf32>
    StableHlo.binary main_v242 main_v243 main_v244 (Host.divf : (⟨S10, .f32⟩ : BufTy).Contents (Elt F) → (⟨S10, .f32⟩ : BufTy).Contents (Elt F) → (⟨S10, .f32⟩ : BufTy).Contents (Elt F)),  -- %244 = stablehlo.divide %242, %243 : tensor<10xf32>
    StableHlo.nullary main_c_58 (constantI S_ 32 0#32),  -- %c_58 = stablehlo.constant dense<0> : tensor<i32>
    StableHlo.TRef.nullary (.of main_call5_cst : StableHlo.TRef sig ⟨S_, .f32⟩) (constant S_ .f32 0x00000000#32),  -- @var %cst = stablehlo.constant dense<0.000000e+00> : tensor<f32>
    StableHlo.TRef.binary (.of main_v241 : StableHlo.TRef sig ⟨S6144x10, .f32⟩) (.of main_call5_cst : StableHlo.TRef sig ⟨S_, .f32⟩) (.of main_call5_v0 : StableHlo.TRef sig ⟨S10, .f32⟩) (fun x v => Host.reduceAdd x v reducesTo_S6144x10_S10_d0 h_S_),  -- @var %0 = stablehlo.reduce(%arg0 init: %cst) applies stablehlo.add across dimensions = [0] : (tensor<6144x10xf32>, tensor<f32>) -> tensor<10xf32> {
    StableHlo.TRef.unary (.of main_call5_v0 : StableHlo.TRef sig ⟨S10, .f32⟩) (.of main_call5_v1 : StableHlo.TRef sig ⟨S1x10, .f32⟩) (broadcastInDim S1x10 ![1] bcast_S10_S1x10_1),  -- @var %1 = stablehlo.broadcast_in_dim %0, dims = [1] : (tensor<10xf32>) -> tensor<1x10xf32>
    StableHlo.TRef.nullary (.of main_call5_cst_0 : StableHlo.TRef sig ⟨S_, .f32⟩) (constant S_ .f32 0x45C00000#32),  -- @var %cst_0 = stablehlo.constant dense<6.144000e+03> : tensor<f32>
    StableHlo.TRef.unary (.of main_call5_cst_0 : StableHlo.TRef sig ⟨S_, .f32⟩) (.of main_call5_v2 : StableHlo.TRef sig ⟨S1x10, .f32⟩) (broadcastInDim S1x10 ![] bcast_S_S1x10),  -- @var %2 = stablehlo.broadcast_in_dim %cst_0, dims = [] : (tensor<f32>) -> tensor<1x10xf32>
    StableHlo.TRef.binary (.of main_call5_v1 : StableHlo.TRef sig ⟨S1x10, .f32⟩) (.of main_call5_v2 : StableHlo.TRef sig ⟨S1x10, .f32⟩) (.of main_call5_v3 : StableHlo.TRef sig ⟨S1x10, .f32⟩) Host.divf,  -- @var %3 = stablehlo.divide %1, %2 : tensor<1x10xf32>
    StableHlo.TRef.unary (.of main_call5_v3 : StableHlo.TRef sig ⟨S1x10, .f32⟩) (.of main_call5_v4 : StableHlo.TRef sig ⟨S6144x10, .f32⟩) (broadcastInDim S6144x10 ![0, 1] bcast_S1x10_S6144x10_0_1),  -- @var %4 = stablehlo.broadcast_in_dim %3, dims = [0, 1] : (tensor<1x10xf32>) -> tensor<6144x10xf32>
    StableHlo.TRef.binary (.of main_v241 : StableHlo.TRef sig ⟨S6144x10, .f32⟩) (.of main_call5_v4 : StableHlo.TRef sig ⟨S6144x10, .f32⟩) (.of main_call5_v5 : StableHlo.TRef sig ⟨S6144x10, .f32⟩) subf,  -- @var %5 = stablehlo.subtract %arg0, %4 : tensor<6144x10xf32>
    StableHlo.TRef.binary (.of main_call5_v5 : StableHlo.TRef sig ⟨S6144x10, .f32⟩) (.of main_call5_v5 : StableHlo.TRef sig ⟨S6144x10, .f32⟩) (.of main_call5_v6 : StableHlo.TRef sig ⟨S6144x10, .f32⟩) mulf,  -- @var %6 = chlo.square %5 : tensor<6144x10xf32> -> tensor<6144x10xf32>
    StableHlo.TRef.unary (.of main_c_58 : StableHlo.TRef sig ⟨S_, .i32⟩) (.of main_call5_v7 : StableHlo.TRef sig ⟨S_, .f32⟩) (sitofp .f32),  -- @var %7 = stablehlo.convert %arg1 : (tensor<i32>) -> tensor<f32>
    StableHlo.TRef.nullary (.of main_call5_cst_1 : StableHlo.TRef sig ⟨S_, .f32⟩) (constant S_ .f32 0x45C00000#32),  -- @var %cst_1 = stablehlo.constant dense<6.144000e+03> : tensor<f32>
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,  -- @var %8 = stablehlo.subtract %cst_1, %7 : tensor<f32>
    StableHlo.TRef.nullary (.of main_call5_cst_2 : StableHlo.TRef sig ⟨S_, .f32⟩) (constant S_ .f32 0x00000000#32),  -- @var %cst_2 = stablehlo.constant dense<0.000000e+00> : tensor<f32>
    StableHlo.TRef.binary (.of main_call5_v6 : StableHlo.TRef sig ⟨S6144x10, .f32⟩) (.of main_call5_cst_2 : StableHlo.TRef sig ⟨S_, .f32⟩) (.of main_call5_v9 : StableHlo.TRef sig ⟨S10, .f32⟩) (fun x v => Host.reduceAdd x v reducesTo_S6144x10_S10_d0 h_S_),  -- @var %9 = stablehlo.reduce(%6 init: %cst_2) applies stablehlo.add across dimensions = [0] : (tensor<6144x10xf32>, tensor<f32>) -> tensor<10xf32> {
    StableHlo.TRef.unary (.of main_call5_v8 : StableHlo.TRef sig ⟨S_, .f32⟩) (.of main_call5_v10 : StableHlo.TRef sig ⟨S10, .f32⟩) (broadcastInDim S10 ![] bcast_S_S10),  -- @var %10 = stablehlo.broadcast_in_dim %8, dims = [] : (tensor<f32>) -> tensor<10xf32>
    StableHlo.TRef.binary (.of main_call5_v9 : StableHlo.TRef sig ⟨S10, .f32⟩) (.of main_call5_v10 : StableHlo.TRef sig ⟨S10, .f32⟩) (.of main_call5_v11 : StableHlo.TRef sig ⟨S10, .f32⟩) Host.divf,  -- @var %11 = stablehlo.divide %9, %10 : tensor<10xf32>
    StableHlo.TRef.nullary (.of main_call5_cst_3 : StableHlo.TRef sig ⟨S_, .f32⟩) (constant S_ .f32 0x00000000#32),  -- @var %cst_3 = stablehlo.constant dense<0.000000e+00> : tensor<f32>
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),  -- @var %12 = stablehlo.compare GT, %8, %cst_3, FLOAT : (tensor<f32>, tensor<f32>) -> tensor<i1>
    StableHlo.TRef.nullary (.of main_call5_cst_4 : StableHlo.TRef sig ⟨S_, .f32⟩) (constant S_ .f32 0x7FC00000#32),  -- @var %cst_4 = stablehlo.constant dense<0x7FC00000> : tensor<f32>
    StableHlo.TRef.unary (.of main_call5_cst_4 : StableHlo.TRef sig ⟨S_, .f32⟩) (.of main_call5_call0_v0 : StableHlo.TRef sig ⟨S_, .f32⟩) id,  -- @var>@where %0 = stablehlo.convert %arg2 : tensor<f32>
    StableHlo.TRef.unary (.of main_call5_call0_v0 : StableHlo.TRef sig ⟨S_, .f32⟩) (.of main_call5_call0_v1 : StableHlo.TRef sig ⟨S10, .f32⟩) (broadcastInDim S10 ![] bcast_S_S10),  -- @var>@where %1 = stablehlo.broadcast_in_dim %0, dims = [] : (tensor<f32>) -> tensor<10xf32>
    StableHlo.TRef.ternary (.of main_call5_v12 : StableHlo.TRef sig ⟨S_, .i1⟩) (.of main_call5_v11 : StableHlo.TRef sig ⟨S10, .f32⟩) (.of main_call5_call0_v1 : StableHlo.TRef sig ⟨S10, .f32⟩) (.of main_v245 : StableHlo.TRef sig ⟨S10, .f32⟩) (fun p a b => select (broadcastInDim S10 ![] bcast_S_S10 p) a b),  -- @var>@where %2 = stablehlo.select %arg0, %arg1, %1 : tensor<i1>, tensor<10xf32>
    StableHlo.unary main_v244 main_v246 (broadcastInDim S1x10 ![1] bcast_S10_S1x10_1 : (⟨S10, .f32⟩ : BufTy).Contents (Elt F) → (⟨S1x10, .f32⟩ : BufTy).Contents (Elt F)),  -- %246 = stablehlo.broadcast_in_dim %244, dims = [1] : (tensor<10xf32>) -> tensor<1x10xf32>
    StableHlo.unary main_v246 main_v247 (broadcastInDim S6144x10 ![0, 1] bcast_S1x10_S6144x10_0_1 : (⟨S1x10, .f32⟩ : BufTy).Contents (Elt F) → (⟨S6144x10, .f32⟩ : BufTy).Contents (Elt F)),  -- %247 = stablehlo.broadcast_in_dim %246, dims = [0, 1] : (tensor<1x10xf32>) -> tensor<6144x10xf32>
    StableHlo.binary main_v241 main_v247 main_v248 (subf : (⟨S6144x10, .f32⟩ : BufTy).Contents (Elt F) → (⟨S6144x10, .f32⟩ : BufTy).Contents (Elt F) → (⟨S6144x10, .f32⟩ : BufTy).Contents (Elt F)),  -- %248 = stablehlo.subtract %241, %247 : tensor<6144x10xf32>
    StableHlo.nullary main_cst_59 (constant S_ .f32 0x3727C5AC#32),  -- %cst_59 = stablehlo.constant dense<9.99999974E-6> : tensor<f32>
    StableHlo.unary main_cst_59 main_v249 (broadcastInDim S10 ![] bcast_S_S10 : (⟨S_, .f32⟩ : BufTy).Contents (Elt F) → (⟨S10, .f32⟩ : BufTy).Contents (Elt F)),  -- %249 = stablehlo.broadcast_in_dim %cst_59, dims = [] : (tensor<f32>) -> tensor<10xf32>
    StableHlo.binary main_v245 main_v249 main_v250 (addf : (⟨S10, .f32⟩ : BufTy).Contents (Elt F) → (⟨S10, .f32⟩ : BufTy).Contents (Elt F) → (⟨S10, .f32⟩ : BufTy).Contents (Elt F)),  -- %250 = stablehlo.add %245, %249 : tensor<10xf32>
    StableHlo.unary main_v250 main_v251 (Host.sqrt : (⟨S10, .f32⟩ : BufTy).Contents (Elt F) → (⟨S10, .f32⟩ : BufTy).Contents (Elt F)),  -- %251 = stablehlo.sqrt %250 : tensor<10xf32>
    StableHlo.unary main_v251 main_v252 (broadcastInDim S1x10 ![1] bcast_S10_S1x10_1 : (⟨S10, .f32⟩ : BufTy).Contents (Elt F) → (⟨S1x10, .f32⟩ : BufTy).Contents (Elt F)),  -- %252 = stablehlo.broadcast_in_dim %251, dims = [1] : (tensor<10xf32>) -> tensor<1x10xf32>
    StableHlo.unary main_v252 main_v253 (broadcastInDim S6144x10 ![0, 1] bcast_S1x10_S6144x10_0_1 : (⟨S1x10, .f32⟩ : BufTy).Contents (Elt F) → (⟨S6144x10, .f32⟩ : BufTy).Contents (Elt F)),  -- %253 = stablehlo.broadcast_in_dim %252, dims = [0, 1] : (tensor<1x10xf32>) -> tensor<6144x10xf32>
    StableHlo.binary main_v248 main_v253 main_v254 (Host.divf : (⟨S6144x10, .f32⟩ : BufTy).Contents (Elt F) → (⟨S6144x10, .f32⟩ : BufTy).Contents (Elt F) → (⟨S6144x10, .f32⟩ : BufTy).Contents (Elt F)),  -- %254 = stablehlo.divide %248, %253 : tensor<6144x10xf32>
    StableHlo.unary main_arg5 main_v255 (broadcastInDim S1x10 ![1] bcast_S10_S1x10_1 : (⟨S10, .f32⟩ : BufTy).Contents (Elt F) → (⟨S1x10, .f32⟩ : BufTy).Contents (Elt F)),  -- %255 = stablehlo.broadcast_in_dim %arg5, dims = [1] : (tensor<10xf32>) -> tensor<1x10xf32>
    StableHlo.unary main_v255 main_v256 (broadcastInDim S6144x10 ![0, 1] bcast_S1x10_S6144x10_0_1 : (⟨S1x10, .f32⟩ : BufTy).Contents (Elt F) → (⟨S6144x10, .f32⟩ : BufTy).Contents (Elt F)),  -- %256 = stablehlo.broadcast_in_dim %255, dims = [0, 1] : (tensor<1x10xf32>) -> tensor<6144x10xf32>
    StableHlo.binary main_v254 main_v256 main_v257 (mulf : (⟨S6144x10, .f32⟩ : BufTy).Contents (Elt F) → (⟨S6144x10, .f32⟩ : BufTy).Contents (Elt F) → (⟨S6144x10, .f32⟩ : BufTy).Contents (Elt F)),  -- %257 = stablehlo.multiply %254, %256 : tensor<6144x10xf32>
    StableHlo.unary main_arg6 main_v258 (broadcastInDim S1x10 ![1] bcast_S10_S1x10_1 : (⟨S10, .f32⟩ : BufTy).Contents (Elt F) → (⟨S1x10, .f32⟩ : BufTy).Contents (Elt F)),  -- %258 = stablehlo.broadcast_in_dim %arg6, dims = [1] : (tensor<10xf32>) -> tensor<1x10xf32>
    StableHlo.unary main_v258 main_v259 (broadcastInDim S6144x10 ![0, 1] bcast_S1x10_S6144x10_0_1 : (⟨S1x10, .f32⟩ : BufTy).Contents (Elt F) → (⟨S6144x10, .f32⟩ : BufTy).Contents (Elt F)),  -- %259 = stablehlo.broadcast_in_dim %258, dims = [0, 1] : (tensor<1x10xf32>) -> tensor<6144x10xf32>
    StableHlo.binary main_v257 main_v259 main_v260 (addf : (⟨S6144x10, .f32⟩ : BufTy).Contents (Elt F) → (⟨S6144x10, .f32⟩ : BufTy).Contents (Elt F) → (⟨S6144x10, .f32⟩ : BufTy).Contents (Elt F)),  -- %260 = stablehlo.add %257, %259 : tensor<6144x10xf32>
    StableHlo.unary main_arg4 main_v261 (broadcastInDim S1x1 ![1] bcast_S1_S1x1_1 : (⟨S1, .f32⟩ : BufTy).Contents (Elt F) → (⟨S1x1, .f32⟩ : BufTy).Contents (Elt F)),  -- %261 = stablehlo.broadcast_in_dim %arg4, dims = [1] : (tensor<1xf32>) -> tensor<1x1xf32>
    StableHlo.unary main_v261 main_v262 (broadcastInDim S6144x10 ![0, 1] bcast_S1x1_S6144x10_0_1 : (⟨S1x1, .f32⟩ : BufTy).Contents (Elt F) → (⟨S6144x10, .f32⟩ : BufTy).Contents (Elt F)),  -- %262 = stablehlo.broadcast_in_dim %261, dims = [0, 1] : (tensor<1x1xf32>) -> tensor<6144x10xf32>
    StableHlo.binary main_v260 main_v262 main_v263 (subf : (⟨S6144x10, .f32⟩ : BufTy).Contents (Elt F) → (⟨S6144x10, .f32⟩ : BufTy).Contents (Elt F) → (⟨S6144x10, .f32⟩ : BufTy).Contents (Elt F)),  -- %263 = stablehlo.subtract %260, %262 : tensor<6144x10xf32>
    StableHlo.TRef.nullary (.of main_call6_cst : StableHlo.TRef sig ⟨S_, .f32⟩) (constant S_ .f32 0x3FD62D7D#32),  -- @selu %cst = stablehlo.constant dense<1.67326319> : tensor<f32>
    StableHlo.TRef.nullary (.of main_call6_call0_cst : StableHlo.TRef sig ⟨S_, .f32⟩) (constant S_ .f32 0x00000000#32),  -- @selu>@elu %cst = stablehlo.constant dense<0.000000e+00> : tensor<f32>
    StableHlo.TRef.unary (.of main_call6_call0_cst : StableHlo.TRef sig ⟨S_, .f32⟩) (.of main_call6_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v263 : StableHlo.TRef sig ⟨S6144x10, .f32⟩) (.of main_call6_call0_v0 : StableHlo.TRef sig ⟨S6144x10, .f32⟩) (.of main_call6_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call6_call0_cst_0 : StableHlo.TRef sig ⟨S_, .f32⟩) (constant S_ .f32 0x00000000#32),  -- @selu>@elu %cst_0 = stablehlo.constant dense<0.000000e+00> : tensor<f32>
    StableHlo.TRef.unary (.of main_call6_call0_cst_0 : StableHlo.TRef sig ⟨S_, .f32⟩) (.of main_call6_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v263 : StableHlo.TRef sig ⟨S6144x10, .f32⟩) (.of main_call6_call0_v2 : StableHlo.TRef sig ⟨S6144x10, .f32⟩) (.of main_call6_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call6_call0_cst_1 : StableHlo.TRef sig ⟨S_, .f32⟩) (constant S_ .f32 0x00000000#32),  -- @selu>@elu %cst_1 = stablehlo.constant dense<0.000000e+00> : tensor<f32>
    StableHlo.TRef.unary (.of main_call6_call0_cst_1 : StableHlo.TRef sig ⟨S_, .f32⟩) (.of main_call6_call0_call0_v0 : StableHlo.TRef sig ⟨S_, .f32⟩) id,  -- @selu>@elu>@where_0 %0 = stablehlo.convert %arg1 : tensor<f32>
    StableHlo.TRef.unary (.of main_call6_call0_call0_v0 : StableHlo.TRef sig ⟨S_, .f32⟩) (.of main_call6_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call6_call0_v3 : StableHlo.TRef sig ⟨S6144x10, .i1⟩) (.of main_call6_call0_call0_v1 : StableHlo.TRef sig ⟨S6144x10, .f32⟩) (.of main_v263 : StableHlo.TRef sig ⟨S6144x10, .f32⟩) (.of main_call6_call0_v4 : StableHlo.TRef sig ⟨S6144x10, .f32⟩) select,  -- @selu>@elu>@where_0 %2 = stablehlo.select %arg0, %1, %arg2 : tensor<6144x10xi1>, tensor<6144x10xf32>
    StableHlo.TRef.unary (.of main_call6_call0_v4 : StableHlo.TRef sig ⟨S6144x10, .f32⟩) (.of main_call6_call0_v5 : StableHlo.TRef sig ⟨S6144x10, .f32⟩) Host.expm1,  -- @selu>@elu %5 = stablehlo.exponential_minus_one %4 : tensor<6144x10xf32>
    StableHlo.TRef.unary (.of main_call6_cst : StableHlo.TRef sig ⟨S_, .f32⟩) (.of main_call6_call0_v6 : StableHlo.TRef sig ⟨S_, .f32⟩) id,  -- @selu>@elu %6 = stablehlo.convert %arg1 : tensor<f32>
    StableHlo.TRef.unary (.of main_call6_call0_v6 : StableHlo.TRef sig ⟨S_, .f32⟩) (.of main_call6_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call6_call0_v7 : StableHlo.TRef sig ⟨S6144x10, .f32⟩) (.of main_call6_call0_v5 : StableHlo.TRef sig ⟨S6144x10, .f32⟩) (.of main_call6_call0_v8 : StableHlo.TRef sig ⟨S6144x10, .f32⟩) mulf,  -- @selu>@elu %8 = stablehlo.multiply %7, %5 : tensor<6144x10xf32>
    StableHlo.TRef.ternary (.of main_call6_call0_v1 : StableHlo.TRef sig ⟨S6144x10, .i1⟩) (.of main_v263 : StableHlo.TRef sig ⟨S6144x10, .f32⟩) (.of main_call6_call0_v8 : StableHlo.TRef sig ⟨S6144x10, .f32⟩) (.of main_call6_v0 : StableHlo.TRef sig ⟨S6144x10, .f32⟩) select,  -- @selu>@elu>@where_1 %0 = stablehlo.select %arg0, %arg1, %arg2 : tensor<6144x10xi1>, tensor<6144x10xf32>
    StableHlo.TRef.nullary (.of main_call6_cst_0 : StableHlo.TRef sig ⟨S_, .f32⟩) (constant S_ .f32 0x3F867D5F#32),  -- @selu %cst_0 = stablehlo.constant dense<1.05070102> : tensor<f32>
    StableHlo.TRef.unary (.of main_call6_cst_0 : StableHlo.TRef sig ⟨S_, .f32⟩) (.of main_call6_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call6_v1 : StableHlo.TRef sig ⟨S6144x10, .f32⟩) (.of main_call6_v0 : StableHlo.TRef sig ⟨S6144x10, .f32⟩) (.of main_v264 : StableHlo.TRef sig ⟨S6144x10, .f32⟩) mulf,  -- @selu %2 = stablehlo.multiply %1, %0 : tensor<6144x10xf32>
    StableHlo.unary main_v260 main_v265 (Host.negf : (⟨S6144x10, .f32⟩ : BufTy).Contents (Elt F) → (⟨S6144x10, .f32⟩ : BufTy).Contents (Elt F)),  -- %265 = stablehlo.negate %260 : tensor<6144x10xf32>
    StableHlo.unary main_arg4 main_v266 (broadcastInDim S1x1 ![1] bcast_S1_S1x1_1 : (⟨S1, .f32⟩ : BufTy).Contents (Elt F) → (⟨S1x1, .f32⟩ : BufTy).Contents (Elt F)),  -- %266 = stablehlo.broadcast_in_dim %arg4, dims = [1] : (tensor<1xf32>) -> tensor<1x1xf32>
    StableHlo.unary main_v266 main_v267 (broadcastInDim S6144x10 ![0, 1] bcast_S1x1_S6144x10_0_1 : (⟨S1x1, .f32⟩ : BufTy).Contents (Elt F) → (⟨S6144x10, .f32⟩ : BufTy).Contents (Elt F)),  -- %267 = stablehlo.broadcast_in_dim %266, dims = [0, 1] : (tensor<1x1xf32>) -> tensor<6144x10xf32>
    StableHlo.binary main_v265 main_v267 main_v268 (subf : (⟨S6144x10, .f32⟩ : BufTy).Contents (Elt F) → (⟨S6144x10, .f32⟩ : BufTy).Contents (Elt F) → (⟨S6144x10, .f32⟩ : BufTy).Contents (Elt F)),  -- %268 = stablehlo.subtract %265, %267 : tensor<6144x10xf32>
    StableHlo.TRef.nullary (.of main_call7_cst : StableHlo.TRef sig ⟨S_, .f32⟩) (constant S_ .f32 0x3FD62D7D#32),  -- @selu %cst = stablehlo.constant dense<1.67326319> : tensor<f32>
    StableHlo.TRef.nullary (.of main_call7_call0_cst : StableHlo.TRef sig ⟨S_, .f32⟩) (constant S_ .f32 0x00000000#32),  -- @selu>@elu %cst = stablehlo.constant dense<0.000000e+00> : tensor<f32>
    StableHlo.TRef.unary (.of main_call7_call0_cst : StableHlo.TRef sig ⟨S_, .f32⟩) (.of main_call7_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v268 : StableHlo.TRef sig ⟨S6144x10, .f32⟩) (.of main_call7_call0_v0 : StableHlo.TRef sig ⟨S6144x10, .f32⟩) (.of main_call7_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call7_call0_cst_0 : StableHlo.TRef sig ⟨S_, .f32⟩) (constant S_ .f32 0x00000000#32),  -- @selu>@elu %cst_0 = stablehlo.constant dense<0.000000e+00> : tensor<f32>
    StableHlo.TRef.unary (.of main_call7_call0_cst_0 : StableHlo.TRef sig ⟨S_, .f32⟩) (.of main_call7_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v268 : StableHlo.TRef sig ⟨S6144x10, .f32⟩) (.of main_call7_call0_v2 : StableHlo.TRef sig ⟨S6144x10, .f32⟩) (.of main_call7_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call7_call0_cst_1 : StableHlo.TRef sig ⟨S_, .f32⟩) (constant S_ .f32 0x00000000#32),  -- @selu>@elu %cst_1 = stablehlo.constant dense<0.000000e+00> : tensor<f32>
    StableHlo.TRef.unary (.of main_call7_call0_cst_1 : StableHlo.TRef sig ⟨S_, .f32⟩) (.of main_call7_call0_call0_v0 : StableHlo.TRef sig ⟨S_, .f32⟩) id,  -- @selu>@elu>@where_0 %0 = stablehlo.convert %arg1 : tensor<f32>
    StableHlo.TRef.unary (.of main_call7_call0_call0_v0 : StableHlo.TRef sig ⟨S_, .f32⟩) (.of main_call7_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call7_call0_v3 : StableHlo.TRef sig ⟨S6144x10, .i1⟩) (.of main_call7_call0_call0_v1 : StableHlo.TRef sig ⟨S6144x10, .f32⟩) (.of main_v268 : StableHlo.TRef sig ⟨S6144x10, .f32⟩) (.of main_call7_call0_v4 : StableHlo.TRef sig ⟨S6144x10, .f32⟩) select,  -- @selu>@elu>@where_0 %2 = stablehlo.select %arg0, %1, %arg2 : tensor<6144x10xi1>, tensor<6144x10xf32>
    StableHlo.TRef.unary (.of main_call7_call0_v4 : StableHlo.TRef sig ⟨S6144x10, .f32⟩) (.of main_call7_call0_v5 : StableHlo.TRef sig ⟨S6144x10, .f32⟩) Host.expm1,  -- @selu>@elu %5 = stablehlo.exponential_minus_one %4 : tensor<6144x10xf32>
    StableHlo.TRef.unary (.of main_call7_cst : StableHlo.TRef sig ⟨S_, .f32⟩) (.of main_call7_call0_v6 : StableHlo.TRef sig ⟨S_, .f32⟩) id,  -- @selu>@elu %6 = stablehlo.convert %arg1 : tensor<f32>
    StableHlo.TRef.unary (.of main_call7_call0_v6 : StableHlo.TRef sig ⟨S_, .f32⟩) (.of main_call7_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call7_call0_v7 : StableHlo.TRef sig ⟨S6144x10, .f32⟩) (.of main_call7_call0_v5 : StableHlo.TRef sig ⟨S6144x10, .f32⟩) (.of main_call7_call0_v8 : StableHlo.TRef sig ⟨S6144x10, .f32⟩) mulf,  -- @selu>@elu %8 = stablehlo.multiply %7, %5 : tensor<6144x10xf32>
    StableHlo.TRef.ternary (.of main_call7_call0_v1 : StableHlo.TRef sig ⟨S6144x10, .i1⟩) (.of main_v268 : StableHlo.TRef sig ⟨S6144x10, .f32⟩) (.of main_call7_call0_v8 : StableHlo.TRef sig ⟨S6144x10, .f32⟩) (.of main_call7_v0 : StableHlo.TRef sig ⟨S6144x10, .f32⟩) select,  -- @selu>@elu>@where_1 %0 = stablehlo.select %arg0, %arg1, %arg2 : tensor<6144x10xi1>, tensor<6144x10xf32>
    StableHlo.TRef.nullary (.of main_call7_cst_0 : StableHlo.TRef sig ⟨S_, .f32⟩) (constant S_ .f32 0x3F867D5F#32),  -- @selu %cst_0 = stablehlo.constant dense<1.05070102> : tensor<f32>
    StableHlo.TRef.unary (.of main_call7_cst_0 : StableHlo.TRef sig ⟨S_, .f32⟩) (.of main_call7_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call7_v1 : StableHlo.TRef sig ⟨S6144x10, .f32⟩) (.of main_call7_v0 : StableHlo.TRef sig ⟨S6144x10, .f32⟩) (.of main_v269 : StableHlo.TRef sig ⟨S6144x10, .f32⟩) mulf,  -- @selu %2 = stablehlo.multiply %1, %0 : tensor<6144x10xf32>
    StableHlo.binary main_v264 main_v269 main_v270 (subf : (⟨S6144x10, .f32⟩ : BufTy).Contents (Elt F) → (⟨S6144x10, .f32⟩ : BufTy).Contents (Elt F) → (⟨S6144x10, .f32⟩ : BufTy).Contents (Elt F)) ]  -- %270 = stablehlo.subtract %264, %269 : tensor<6144x10xf32>

/-- The result: z' and z'' each given a leading axis of length one and concatenated along it, written to `main_v273`. (3 operations.) -/
abbrev opsO : List (HloOp τ sig (Elt F)) :=
  [ StableHlo.unary main_v135 main_v271 (broadcastInDim S1x6144x10 ![1, 2] bcast_S6144x10_S1x6144x10_1_2 : (⟨S6144x10, .f32⟩ : BufTy).Contents (Elt F) → (⟨S1x6144x10, .f32⟩ : BufTy).Contents (Elt F)),  -- %271 = stablehlo.broadcast_in_dim %135, dims = [1, 2] : (tensor<6144x10xf32>) -> tensor<1x6144x10xf32>
    StableHlo.unary main_v270 main_v272 (broadcastInDim S1x6144x10 ![1, 2] bcast_S6144x10_S1x6144x10_1_2 : (⟨S6144x10, .f32⟩ : BufTy).Contents (Elt F) → (⟨S1x6144x10, .f32⟩ : BufTy).Contents (Elt F)),  -- %272 = stablehlo.broadcast_in_dim %270, dims = [1, 2] : (tensor<6144x10xf32>) -> tensor<1x6144x10xf32>
    StableHlo.binary main_v271 main_v272 main_v273 ((fun a b => concatenate S2x6144x10 0 [⟨S1x6144x10, a⟩, ⟨S1x6144x10, b⟩] concatenates_S1x6144x10_S1x6144x10_S2x6144x10_d0) : (⟨S1x6144x10, .f32⟩ : BufTy).Contents (Elt F) → (⟨S1x6144x10, .f32⟩ : BufTy).Contents (Elt F) → (⟨S2x6144x10, .f32⟩ : BufTy).Contents (Elt F)) ]  -- %273 = stablehlo.concatenate %271, %272, dim = 0 : (tensor<1x6144x10xf32>, tensor<1x6144x10xf32>) -> tensor<2x6144x10xf32>

/-- @main's 476 operations, in order. -/
abbrev ops : List (HloOp τ sig (Elt F)) := opsP ++ opsS1 ++ opsT1 ++ opsS2 ++ opsT2 ++ opsO

end Cert.ReferenceIdeal.Hand

end
-- ==== Proof.RefRun.lean ====
/-
  The reference program run to its end.

  @main is printed as six consecutive windows of statements; each window, with the bodies of the functions it
  calls unfolded at their calls, is the straight line of its operations, and the six lines in order are the
  line `ops`.  A straight line of host operations on buffers that are never scoped always terminates, and leaves every
  buffer at the fold of the operations' results over the launch contents.
-/
import proofs.«115280_j31628139168172_2_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxRecDepth 8192

/-- The operations of @main's window 0 (73), its calls unfolded. -/
abbrev win0 : List (HloOp τ sig (Elt F)) :=
  [ StableHlo.binary main_arg0 main_arg3 main_v0 ((fun l r => Host.dotGeneral dot_S3x6144x512_S3x512x10_S3x6144x10_2_1_1_2_0_0 none l r) : (⟨S3x6144x512, .f32⟩ : BufTy).Contents (Elt F) → (⟨S3x512x10, .f32⟩ : BufTy).Contents (Elt F) → (⟨S3x6144x10, .f32⟩ : BufTy).Contents (Elt F)),  -- %0 = stablehlo.dot_general %arg0, %arg3, batching_dims = [0] x [0], contracting_dims = [2] x [1], precision = [DEFAULT, DEFAULT] : (tensor<3x6144x512xf32>, tensor<3x512x10xf32>) -> tensor<3x6144x10xf32>
    StableHlo.unary main_arg2 main_v1 (broadcastInDim S1x6144x10 ![1, 2] bcast_S6144x10_S1x6144x10_1_2 : (⟨S6144x10, .f32⟩ : BufTy).Contents (Elt F) → (⟨S1x6144x10, .f32⟩ : BufTy).Contents (Elt F)),  -- %1 = stablehlo.broadcast_in_dim %arg2, dims = [1, 2] : (tensor<6144x10xf32>) -> tensor<1x6144x10xf32>
    StableHlo.binary main_arg1 main_arg2 main_v2 ((fun l r => Host.dotGeneral dot_S3x6144x6144_S6144x10_S3x6144x10_2_0_01_1_n_n none l r) : (⟨S3x6144x6144, .f32⟩ : BufTy).Contents (Elt F) → (⟨S6144x10, .f32⟩ : BufTy).Contents (Elt F) → (⟨S3x6144x10, .f32⟩ : BufTy).Contents (Elt F)),  -- %2 = stablehlo.dot_general %arg1, %arg2, contracting_dims = [2] x [0], precision = [DEFAULT, DEFAULT] : (tensor<3x6144x6144xf32>, tensor<6144x10xf32>) -> tensor<3x6144x10xf32>
    StableHlo.unary main_v1 main_v3 (broadcastInDim S3x6144x10 ![0, 1, 2] bcast_S1x6144x10_S3x6144x10_0_1_2 : (⟨S1x6144x10, .f32⟩ : BufTy).Contents (Elt F) → (⟨S3x6144x10, .f32⟩ : BufTy).Contents (Elt F)),  -- %3 = stablehlo.broadcast_in_dim %1, dims = [0, 1, 2] : (tensor<1x6144x10xf32>) -> tensor<3x6144x10xf32>
    StableHlo.binary main_v3 main_v2 main_v4 (subf : (⟨S3x6144x10, .f32⟩ : BufTy).Contents (Elt F) → (⟨S3x6144x10, .f32⟩ : BufTy).Contents (Elt F) → (⟨S3x6144x10, .f32⟩ : BufTy).Contents (Elt F)),  -- %4 = stablehlo.subtract %3, %2 : tensor<3x6144x10xf32>
    StableHlo.binary main_v4 main_v0 main_v5 (addf : (⟨S3x6144x10, .f32⟩ : BufTy).Contents (Elt F) → (⟨S3x6144x10, .f32⟩ : BufTy).Contents (Elt F) → (⟨S3x6144x10, .f32⟩ : BufTy).Contents (Elt F)),  -- %5 = stablehlo.add %4, %0 : tensor<3x6144x10xf32>
    StableHlo.TRef.nullary (.of main_call0_cst : StableHlo.TRef sig ⟨S_, .f32⟩) (constant S_ .f32 0x00000000#32),  -- @softplus %cst = stablehlo.constant dense<0.000000e+00> : tensor<f32>
    StableHlo.TRef.unary (.of main_call0_cst : StableHlo.TRef sig ⟨S_, .f32⟩) (.of main_call0_v0 : StableHlo.TRef sig ⟨S3x6144x10, .f32⟩) (broadcastInDim S3x6144x10 ![] bcast_S_S3x6144x10),  -- @softplus %0 = stablehlo.broadcast_in_dim %cst, dims = [] : (tensor<f32>) -> tensor<3x6144x10xf32>
    StableHlo.TRef.binary (.of main_v5 : StableHlo.TRef sig ⟨S3x6144x10, .f32⟩) (.of main_call0_v0 : StableHlo.TRef sig ⟨S3x6144x10, .f32⟩) (.of main_call0_v1 : StableHlo.TRef sig ⟨S3x6144x10, .f32⟩) maximumf,  -- @softplus %1 = stablehlo.maximum %arg0, %0 : tensor<3x6144x10xf32>
    StableHlo.TRef.unary (.of main_call0_cst : StableHlo.TRef sig ⟨S_, .f32⟩) (.of main_call0_v2 : StableHlo.TRef sig ⟨S3x6144x10, .f32⟩) (broadcastInDim S3x6144x10 ![] bcast_S_S3x6144x10),  -- @softplus %2 = stablehlo.broadcast_in_dim %cst, dims = [] : (tensor<f32>) -> tensor<3x6144x10xf32>
    StableHlo.TRef.binary (.of main_v5 : StableHlo.TRef sig ⟨S3x6144x10, .f32⟩) (.of main_call0_v2 : StableHlo.TRef sig ⟨S3x6144x10, .f32⟩) (.of main_call0_v3 : StableHlo.TRef sig ⟨S3x6144x10, .f32⟩) subf,  -- @softplus %3 = stablehlo.subtract %arg0, %2 : tensor<3x6144x10xf32>
    StableHlo.TRef.binary (.of main_call0_v3 : StableHlo.TRef sig ⟨S3x6144x10, .f32⟩) (.of main_call0_v3 : StableHlo.TRef sig ⟨S3x6144x10, .f32⟩) (.of main_call0_v4 : StableHlo.TRef sig ⟨S3x6144x10, .i1⟩) (cmpf .une),  -- @softplus %4 = stablehlo.compare NE, %3, %3, FLOAT : (tensor<3x6144x10xf32>, tensor<3x6144x10xf32>) -> tensor<3x6144x10xi1>
    StableHlo.TRef.unary (.of main_call0_cst : StableHlo.TRef sig ⟨S_, .f32⟩) (.of main_call0_v5 : StableHlo.TRef sig ⟨S3x6144x10, .f32⟩) (broadcastInDim S3x6144x10 ![] bcast_S_S3x6144x10),  -- @softplus %5 = stablehlo.broadcast_in_dim %cst, dims = [] : (tensor<f32>) -> tensor<3x6144x10xf32>
    StableHlo.TRef.binary (.of main_v5 : StableHlo.TRef sig ⟨S3x6144x10, .f32⟩) (.of main_call0_v5 : StableHlo.TRef sig ⟨S3x6144x10, .f32⟩) (.of main_call0_v6 : StableHlo.TRef sig ⟨S3x6144x10, .f32⟩) addf,  -- @softplus %6 = stablehlo.add %arg0, %5 : tensor<3x6144x10xf32>
    StableHlo.TRef.unary (.of main_call0_v3 : StableHlo.TRef sig ⟨S3x6144x10, .f32⟩) (.of main_call0_v7 : StableHlo.TRef sig ⟨S3x6144x10, .f32⟩) Host.absf,  -- @softplus %7 = stablehlo.abs %3 : tensor<3x6144x10xf32>
    StableHlo.TRef.unary (.of main_call0_v7 : StableHlo.TRef sig ⟨S3x6144x10, .f32⟩) (.of main_call0_v8 : StableHlo.TRef sig ⟨S3x6144x10, .f32⟩) Host.negf,  -- @softplus %8 = stablehlo.negate %7 : tensor<3x6144x10xf32>
    StableHlo.TRef.unary (.of main_call0_v8 : StableHlo.TRef sig ⟨S3x6144x10, .f32⟩) (.of main_call0_v9 : StableHlo.TRef sig ⟨S3x6144x10, .f32⟩) Host.exp,  -- @softplus %9 = stablehlo.exponential %8 : tensor<3x6144x10xf32>
    StableHlo.TRef.unary (.of main_call0_v9 : StableHlo.TRef sig ⟨S3x6144x10, .f32⟩) (.of main_call0_v10 : StableHlo.TRef sig ⟨S3x6144x10, .f32⟩) Host.log1p,  -- @softplus %10 = stablehlo.log_plus_one %9 : tensor<3x6144x10xf32>
    StableHlo.TRef.binary (.of main_call0_v1 : StableHlo.TRef sig ⟨S3x6144x10, .f32⟩) (.of main_call0_v10 : StableHlo.TRef sig ⟨S3x6144x10, .f32⟩) (.of main_call0_v11 : StableHlo.TRef sig ⟨S3x6144x10, .f32⟩) addf,  -- @softplus %11 = stablehlo.add %1, %10 : tensor<3x6144x10xf32>
    StableHlo.TRef.ternary (.of main_call0_v4 : StableHlo.TRef sig ⟨S3x6144x10, .i1⟩) (.of main_call0_v6 : StableHlo.TRef sig ⟨S3x6144x10, .f32⟩) (.of main_call0_v11 : StableHlo.TRef sig ⟨S3x6144x10, .f32⟩) (.of main_v6 : StableHlo.TRef sig ⟨S3x6144x10, .f32⟩) select,  -- @softplus %12 = stablehlo.select %4, %6, %11 : tensor<3x6144x10xi1>, tensor<3x6144x10xf32>
    StableHlo.nullary main_cst (constant S_ .f32 0x3F800000#32),  -- %cst = stablehlo.constant dense<1.000000e+00> : tensor<f32>
    StableHlo.unary main_cst main_v7 (broadcastInDim S3x6144x10 ![] bcast_S_S3x6144x10 : (⟨S_, .f32⟩ : BufTy).Contents (Elt F) → (⟨S3x6144x10, .f32⟩ : BufTy).Contents (Elt F)),  -- %7 = stablehlo.broadcast_in_dim %cst, dims = [] : (tensor<f32>) -> tensor<3x6144x10xf32>
    StableHlo.binary main_v6 main_v7 main_v8 (addf : (⟨S3x6144x10, .f32⟩ : BufTy).Contents (Elt F) → (⟨S3x6144x10, .f32⟩ : BufTy).Contents (Elt F) → (⟨S3x6144x10, .f32⟩ : BufTy).Contents (Elt F)),  -- %8 = stablehlo.add %6, %7 : tensor<3x6144x10xf32>
    StableHlo.unary main_v8 main_v9 ((extractStridedSlice S1x6144x10 ![0, 0, 0] · slices_S3x6144x10_S1x6144x10_0_0_0) : (⟨S3x6144x10, .f32⟩ : BufTy).Contents (Elt F) → (⟨S1x6144x10, .f32⟩ : BufTy).Contents (Elt F)),  -- %9 = stablehlo.slice %8 [0:1, 0:6144, 0:10] : (tensor<3x6144x10xf32>) -> tensor<1x6144x10xf32>
    StableHlo.reshape main_v9 main_v10 rfl shapeCasts_S1x6144x10_S6144x10,  -- %10 = stablehlo.reshape %9 : (tensor<1x6144x10xf32>) -> tensor<6144x10xf32>
    StableHlo.unary main_v8 main_v11 ((extractStridedSlice S1x6144x10 ![1, 0, 0] · slices_S3x6144x10_S1x6144x10_1_0_0) : (⟨S3x6144x10, .f32⟩ : BufTy).Contents (Elt F) → (⟨S1x6144x10, .f32⟩ : BufTy).Contents (Elt F)),  -- %11 = stablehlo.slice %8 [1:2, 0:6144, 0:10] : (tensor<3x6144x10xf32>) -> tensor<1x6144x10xf32>
    StableHlo.reshape main_v11 main_v12 rfl shapeCasts_S1x6144x10_S6144x10,  -- %12 = stablehlo.reshape %11 : (tensor<1x6144x10xf32>) -> tensor<6144x10xf32>
    StableHlo.unary main_v8 main_v13 ((extractStridedSlice S1x6144x10 ![2, 0, 0] · slices_S3x6144x10_S1x6144x10_2_0_0) : (⟨S3x6144x10, .f32⟩ : BufTy).Contents (Elt F) → (⟨S1x6144x10, .f32⟩ : BufTy).Contents (Elt F)),  -- %13 = stablehlo.slice %8 [2:3, 0:6144, 0:10] : (tensor<3x6144x10xf32>) -> tensor<1x6144x10xf32>
    StableHlo.reshape main_v13 main_v14 rfl shapeCasts_S1x6144x10_S6144x10,  -- %14 = stablehlo.reshape %13 : (tensor<1x6144x10xf32>) -> tensor<6144x10xf32>
    StableHlo.nullary main_cst_0 (constant S_ .f32 0x00000000#32),  -- %cst_0 = stablehlo.constant dense<0.000000e+00> : tensor<f32>
    StableHlo.binary main_v10 main_cst_0 main_v15 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %15 = stablehlo.reduce(%10 init: %cst_0) applies stablehlo.add across dimensions = [1] : (tensor<6144x10xf32>, tensor<f32>) -> tensor<6144xf32> {
    StableHlo.unary main_v15 main_v16 (broadcastInDim S6144x1 ![0] bcast_S6144_S6144x1_0 : (⟨S6144, .f32⟩ : BufTy).Contents (Elt F) → (⟨S6144x1, .f32⟩ : BufTy).Contents (Elt F)),  -- %16 = stablehlo.broadcast_in_dim %15, dims = [0] : (tensor<6144xf32>) -> tensor<6144x1xf32>
    StableHlo.nullary main_cst_1 (constant S_ .f32 0x00000000#32),  -- %cst_1 = stablehlo.constant dense<0.000000e+00> : tensor<f32>
    StableHlo.binary main_v12 main_cst_1 main_v17 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %17 = stablehlo.reduce(%12 init: %cst_1) applies stablehlo.add across dimensions = [1] : (tensor<6144x10xf32>, tensor<f32>) -> tensor<6144xf32> {
    StableHlo.unary main_v17 main_v18 (broadcastInDim S6144x1 ![0] bcast_S6144_S6144x1_0 : (⟨S6144, .f32⟩ : BufTy).Contents (Elt F) → (⟨S6144x1, .f32⟩ : BufTy).Contents (Elt F)),  -- %18 = stablehlo.broadcast_in_dim %17, dims = [0] : (tensor<6144xf32>) -> tensor<6144x1xf32>
    StableHlo.nullary main_cst_2 (constant S_ .f32 0x3F800000#32),  -- %cst_2 = stablehlo.constant dense<1.000000e+00> : tensor<f32>
    StableHlo.unary main_cst_2 main_v19 (broadcastInDim S6144x10 ![] bcast_S_S6144x10 : (⟨S_, .f32⟩ : BufTy).Contents (Elt F) → (⟨S6144x10, .f32⟩ : BufTy).Contents (Elt F)),  -- %19 = stablehlo.broadcast_in_dim %cst_2, dims = [] : (tensor<f32>) -> tensor<6144x10xf32>
    StableHlo.binary main_v10 main_v19 main_v20 (subf : (⟨S6144x10, .f32⟩ : BufTy).Contents (Elt F) → (⟨S6144x10, .f32⟩ : BufTy).Contents (Elt F) → (⟨S6144x10, .f32⟩ : BufTy).Contents (Elt F)),  -- %20 = stablehlo.subtract %10, %19 : tensor<6144x10xf32>
    StableHlo.unary main_v16 main_v21 (broadcastInDim S6144x10 ![0, 1] bcast_S6144x1_S6144x10_0_1 : (⟨S6144x1, .f32⟩ : BufTy).Contents (Elt F) → (⟨S6144x10, .f32⟩ : BufTy).Contents (Elt F)),  -- %21 = stablehlo.broadcast_in_dim %16, dims = [0, 1] : (tensor<6144x1xf32>) -> tensor<6144x10xf32>
    StableHlo.binary main_v20 main_v21 main_v22 (Host.divf : (⟨S6144x10, .f32⟩ : BufTy).Contents (Elt F) → (⟨S6144x10, .f32⟩ : BufTy).Contents (Elt F) → (⟨S6144x10, .f32⟩ : BufTy).Contents (Elt F)),  -- %22 = stablehlo.divide %20, %21 : tensor<6144x10xf32>
    StableHlo.nullary main_cst_3 (constant S_ .f32 0x3F800000#32),  -- %cst_3 = stablehlo.constant dense<1.000000e+00> : tensor<f32>
    StableHlo.unary main_cst_3 main_v23 (broadcastInDim S6144x10 ![] bcast_S_S6144x10 : (⟨S_, .f32⟩ : BufTy).Contents (Elt F) → (⟨S6144x10, .f32⟩ : BufTy).Contents (Elt F)),  -- %23 = stablehlo.broadcast_in_dim %cst_3, dims = [] : (tensor<f32>) -> tensor<6144x10xf32>
    StableHlo.binary main_v12 main_v23 main_v24 (subf : (⟨S6144x10, .f32⟩ : BufTy).Contents (Elt F) → (⟨S6144x10, .f32⟩ : BufTy).Contents (Elt F) → (⟨S6144x10, .f32⟩ : BufTy).Contents (Elt F)),  -- %24 = stablehlo.subtract %12, %23 : tensor<6144x10xf32>
    StableHlo.unary main_v18 main_v25 (broadcastInDim S6144x10 ![0, 1] bcast_S6144x1_S6144x10_0_1 : (⟨S6144x1, .f32⟩ : BufTy).Contents (Elt F) → (⟨S6144x10, .f32⟩ : BufTy).Contents (Elt F)),  -- %25 = stablehlo.broadcast_in_dim %18, dims = [0, 1] : (tensor<6144x1xf32>) -> tensor<6144x10xf32>
    StableHlo.binary main_v24 main_v25 main_v26 (Host.divf : (⟨S6144x10, .f32⟩ : BufTy).Contents (Elt F) → (⟨S6144x10, .f32⟩ : BufTy).Contents (Elt F) → (⟨S6144x10, .f32⟩ : BufTy).Contents (Elt F)),  -- %26 = stablehlo.divide %24, %25 : tensor<6144x10xf32>
    StableHlo.nullary main_cst_4 (constant S_ .f32 0x41200000#32),  -- %cst_4 = stablehlo.constant dense<1.000000e+01> : tensor<f32>
    StableHlo.unary main_cst_4 main_v27 (broadcastInDim S6144x1 ![] bcast_S_S6144x1 : (⟨S_, .f32⟩ : BufTy).Contents (Elt F) → (⟨S6144x1, .f32⟩ : BufTy).Contents (Elt F)),  -- %27 = stablehlo.broadcast_in_dim %cst_4, dims = [] : (tensor<f32>) -> tensor<6144x1xf32>
    StableHlo.binary main_v27 main_v16 main_v28 (Host.divf : (⟨S6144x1, .f32⟩ : BufTy).Contents (Elt F) → (⟨S6144x1, .f32⟩ : BufTy).Contents (Elt F) → (⟨S6144x1, .f32⟩ : BufTy).Contents (Elt F)),  -- %28 = stablehlo.divide %27, %16 : tensor<6144x1xf32>
    StableHlo.nullary main_cst_5 (constant S_ .f32 0x41200000#32),  -- %cst_5 = stablehlo.constant dense<1.000000e+01> : tensor<f32>
    StableHlo.unary main_cst_5 main_v29 (broadcastInDim S6144x1 ![] bcast_S_S6144x1 : (⟨S_, .f32⟩ : BufTy).Contents (Elt F) → (⟨S6144x1, .f32⟩ : BufTy).Contents (Elt F)),  -- %29 = stablehlo.broadcast_in_dim %cst_5, dims = [] : (tensor<f32>) -> tensor<6144x1xf32>
    StableHlo.binary main_v29 main_v18 main_v30 (Host.divf : (⟨S6144x1, .f32⟩ : BufTy).Contents (Elt F) → (⟨S6144x1, .f32⟩ : BufTy).Contents (Elt F) → (⟨S6144x1, .f32⟩ : BufTy).Contents (Elt F)),  -- %30 = stablehlo.divide %29, %18 : tensor<6144x1xf32>
    StableHlo.nullary main_cst_6 (constant S_ .f32 0x00000000#32),  -- %cst_6 = stablehlo.constant dense<0.000000e+00> : tensor<f32>
    StableHlo.binary main_v22 main_cst_6 main_v31 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %31 = stablehlo.reduce(%22 init: %cst_6) applies stablehlo.add across dimensions = [1] : (tensor<6144x10xf32>, tensor<f32>) -> tensor<6144xf32> {
    StableHlo.unary main_v31 main_v32 (broadcastInDim S6144x1 ![0] bcast_S6144_S6144x1_0 : (⟨S6144, .f32⟩ : BufTy).Contents (Elt F) → (⟨S6144x1, .f32⟩ : BufTy).Contents (Elt F)),  -- %32 = stablehlo.broadcast_in_dim %31, dims = [0] : (tensor<6144xf32>) -> tensor<6144x1xf32>
    StableHlo.nullary main_cst_7 (constant S_ .f32 0x00000000#32),  -- %cst_7 = stablehlo.constant dense<0.000000e+00> : tensor<f32>
    StableHlo.binary main_v26 main_cst_7 main_v33 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %33 = stablehlo.reduce(%26 init: %cst_7) applies stablehlo.add across dimensions = [1] : (tensor<6144x10xf32>, tensor<f32>) -> tensor<6144xf32> {
    StableHlo.unary main_v33 main_v34 (broadcastInDim S6144x1 ![0] bcast_S6144_S6144x1_0 : (⟨S6144, .f32⟩ : BufTy).Contents (Elt F) → (⟨S6144x1, .f32⟩ : BufTy).Contents (Elt F)),  -- %34 = stablehlo.broadcast_in_dim %33, dims = [0] : (tensor<6144xf32>) -> tensor<6144x1xf32>
    StableHlo.binary main_v32 main_v34 main_v35 (mulf : (⟨S6144x1, .f32⟩ : BufTy).Contents (Elt F) → (⟨S6144x1, .f32⟩ : BufTy).Contents (Elt F) → (⟨S6144x1, .f32⟩ : BufTy).Contents (Elt F)),  -- %35 = stablehlo.multiply %32, %34 : tensor<6144x1xf32>
    StableHlo.binary main_v22 main_v26 main_v36 (mulf : (⟨S6144x10, .f32⟩ : BufTy).Contents (Elt F) → (⟨S6144x10, .f32⟩ : BufTy).Contents (Elt F) → (⟨S6144x10, .f32⟩ : BufTy).Contents (Elt F)),  -- %36 = stablehlo.multiply %22, %26 : tensor<6144x10xf32>
    StableHlo.nullary main_cst_8 (constant S_ .f32 0x00000000#32),  -- %cst_8 = stablehlo.constant dense<0.000000e+00> : tensor<f32>
    StableHlo.binary main_v36 main_cst_8 main_v37 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %37 = stablehlo.reduce(%36 init: %cst_8) applies stablehlo.add across dimensions = [1] : (tensor<6144x10xf32>, tensor<f32>) -> tensor<6144xf32> {
    StableHlo.unary main_v37 main_v38 (broadcastInDim S6144x1 ![0] bcast_S6144_S6144x1_0 : (⟨S6144, .f32⟩ : BufTy).Contents (Elt F) → (⟨S6144x1, .f32⟩ : BufTy).Contents (Elt F)),  -- %38 = stablehlo.broadcast_in_dim %37, dims = [0] : (tensor<6144xf32>) -> tensor<6144x1xf32>
    StableHlo.binary main_v35 main_v38 main_v39 (subf : (⟨S6144x1, .f32⟩ : BufTy).Contents (Elt F) → (⟨S6144x1, .f32⟩ : BufTy).Contents (Elt F) → (⟨S6144x1, .f32⟩ : BufTy).Contents (Elt F)),  -- %39 = stablehlo.subtract %35, %38 : tensor<6144x1xf32>
    StableHlo.binary main_v22 main_v26 main_v40 (mulf : (⟨S6144x10, .f32⟩ : BufTy).Contents (Elt F) → (⟨S6144x10, .f32⟩ : BufTy).Contents (Elt F) → (⟨S6144x10, .f32⟩ : BufTy).Contents (Elt F)),  -- %40 = stablehlo.multiply %22, %26 : tensor<6144x10xf32>
    StableHlo.unary main_v30 main_v41 (broadcastInDim S6144x10 ![0, 1] bcast_S6144x1_S6144x10_0_1 : (⟨S6144x1, .f32⟩ : BufTy).Contents (Elt F) → (⟨S6144x10, .f32⟩ : BufTy).Contents (Elt F)),  -- %41 = stablehlo.broadcast_in_dim %30, dims = [0, 1] : (tensor<6144x1xf32>) -> tensor<6144x10xf32>
    StableHlo.binary main_v22 main_v41 main_v42 (mulf : (⟨S6144x10, .f32⟩ : BufTy).Contents (Elt F) → (⟨S6144x10, .f32⟩ : BufTy).Contents (Elt F) → (⟨S6144x10, .f32⟩ : BufTy).Contents (Elt F)),  -- %42 = stablehlo.multiply %22, %41 : tensor<6144x10xf32>
    StableHlo.binary main_v40 main_v42 main_v43 (addf : (⟨S6144x10, .f32⟩ : BufTy).Contents (Elt F) → (⟨S6144x10, .f32⟩ : BufTy).Contents (Elt F) → (⟨S6144x10, .f32⟩ : BufTy).Contents (Elt F)),  -- %43 = stablehlo.add %40, %42 : tensor<6144x10xf32>
    StableHlo.unary main_v28 main_v44 (broadcastInDim S6144x10 ![0, 1] bcast_S6144x1_S6144x10_0_1 : (⟨S6144x1, .f32⟩ : BufTy).Contents (Elt F) → (⟨S6144x10, .f32⟩ : BufTy).Contents (Elt F)),  -- %44 = stablehlo.broadcast_in_dim %28, dims = [0, 1] : (tensor<6144x1xf32>) -> tensor<6144x10xf32>
    StableHlo.binary main_v26 main_v44 main_v45 (mulf : (⟨S6144x10, .f32⟩ : BufTy).Contents (Elt F) → (⟨S6144x10, .f32⟩ : BufTy).Contents (Elt F) → (⟨S6144x10, .f32⟩ : BufTy).Contents (Elt F)),  -- %45 = stablehlo.multiply %26, %44 : tensor<6144x10xf32>
    StableHlo.binary main_v43 main_v45 main_v46 (addf : (⟨S6144x10, .f32⟩ : BufTy).Contents (Elt F) → (⟨S6144x10, .f32⟩ : BufTy).Contents (Elt F) → (⟨S6144x10, .f32⟩ : BufTy).Contents (Elt F)),  -- %46 = stablehlo.add %43, %45 : tensor<6144x10xf32>
    StableHlo.nullary main_cst_9 (constant S_ .f32 0x3F800000#32),  -- %cst_9 = stablehlo.constant dense<1.000000e+00> : tensor<f32>
    StableHlo.unary main_cst_9 main_v47 (broadcastInDim S6144x1 ![] bcast_S_S6144x1 : (⟨S_, .f32⟩ : BufTy).Contents (Elt F) → (⟨S6144x1, .f32⟩ : BufTy).Contents (Elt F)),  -- %47 = stablehlo.broadcast_in_dim %cst_9, dims = [] : (tensor<f32>) -> tensor<6144x1xf32>
    StableHlo.binary main_v47 main_v39 main_v48 (subf : (⟨S6144x1, .f32⟩ : BufTy).Contents (Elt F) → (⟨S6144x1, .f32⟩ : BufTy).Contents (Elt F) → (⟨S6144x1, .f32⟩ : BufTy).Contents (Elt F)) ]  -- %48 = stablehlo.subtract %47, %39 : tensor<6144x1xf32>

/-- The operations of @main's window 1 (60), its calls unfolded. -/
abbrev win1 : List (HloOp τ sig (Elt F)) :=
  [ StableHlo.unary main_v48 main_v49 (broadcastInDim S6144x10 ![0, 1] bcast_S6144x1_S6144x10_0_1 : (⟨S6144x1, .f32⟩ : BufTy).Contents (Elt F) → (⟨S6144x10, .f32⟩ : BufTy).Contents (Elt F)),  -- %49 = stablehlo.broadcast_in_dim %48, dims = [0, 1] : (tensor<6144x1xf32>) -> tensor<6144x10xf32>
    StableHlo.binary main_v46 main_v49 main_v50 (Host.divf : (⟨S6144x10, .f32⟩ : BufTy).Contents (Elt F) → (⟨S6144x10, .f32⟩ : BufTy).Contents (Elt F) → (⟨S6144x10, .f32⟩ : BufTy).Contents (Elt F)),  -- %50 = stablehlo.divide %46, %49 : tensor<6144x10xf32>
    StableHlo.binary main_v28 main_v30 main_v51 (mulf : (⟨S6144x1, .f32⟩ : BufTy).Contents (Elt F) → (⟨S6144x1, .f32⟩ : BufTy).Contents (Elt F) → (⟨S6144x1, .f32⟩ : BufTy).Contents (Elt F)),  -- %51 = stablehlo.multiply %28, %30 : tensor<6144x1xf32>
    StableHlo.nullary main_cst_10 (constant S_ .f32 0x3F800000#32),  -- %cst_10 = stablehlo.constant dense<1.000000e+00> : tensor<f32>
    StableHlo.unary main_cst_10 main_v52 (broadcastInDim S6144x1 ![] bcast_S_S6144x1 : (⟨S_, .f32⟩ : BufTy).Contents (Elt F) → (⟨S6144x1, .f32⟩ : BufTy).Contents (Elt F)),  -- %52 = stablehlo.broadcast_in_dim %cst_10, dims = [] : (tensor<f32>) -> tensor<6144x1xf32>
    StableHlo.binary main_v52 main_v39 main_v53 (subf : (⟨S6144x1, .f32⟩ : BufTy).Contents (Elt F) → (⟨S6144x1, .f32⟩ : BufTy).Contents (Elt F) → (⟨S6144x1, .f32⟩ : BufTy).Contents (Elt F)),  -- %53 = stablehlo.subtract %52, %39 : tensor<6144x1xf32>
    StableHlo.binary main_v51 main_v53 main_v54 (Host.divf : (⟨S6144x1, .f32⟩ : BufTy).Contents (Elt F) → (⟨S6144x1, .f32⟩ : BufTy).Contents (Elt F) → (⟨S6144x1, .f32⟩ : BufTy).Contents (Elt F)),  -- %54 = stablehlo.divide %51, %53 : tensor<6144x1xf32>
    StableHlo.nullary main_cst_11 (constant S_ .f32 0x41200000#32),  -- %cst_11 = stablehlo.constant dense<1.000000e+01> : tensor<f32>
    StableHlo.unary main_cst_11 main_v55 (broadcastInDim S6144x1 ![] bcast_S_S6144x1 : (⟨S_, .f32⟩ : BufTy).Contents (Elt F) → (⟨S6144x1, .f32⟩ : BufTy).Contents (Elt F)),  -- %55 = stablehlo.broadcast_in_dim %cst_11, dims = [] : (tensor<f32>) -> tensor<6144x1xf32>
    StableHlo.binary main_v55 main_v54 main_v56 (Host.divf : (⟨S6144x1, .f32⟩ : BufTy).Contents (Elt F) → (⟨S6144x1, .f32⟩ : BufTy).Contents (Elt F) → (⟨S6144x1, .f32⟩ : BufTy).Contents (Elt F)),  -- %56 = stablehlo.divide %55, %54 : tensor<6144x1xf32>
    StableHlo.unary main_v56 main_v57 (broadcastInDim S6144x10 ![0, 1] bcast_S6144x1_S6144x10_0_1 : (⟨S6144x1, .f32⟩ : BufTy).Contents (Elt F) → (⟨S6144x10, .f32⟩ : BufTy).Contents (Elt F)),  -- %57 = stablehlo.broadcast_in_dim %56, dims = [0, 1] : (tensor<6144x1xf32>) -> tensor<6144x10xf32>
    StableHlo.binary main_v50 main_v57 main_v58 (mulf : (⟨S6144x10, .f32⟩ : BufTy).Contents (Elt F) → (⟨S6144x10, .f32⟩ : BufTy).Contents (Elt F) → (⟨S6144x10, .f32⟩ : BufTy).Contents (Elt F)),  -- %58 = stablehlo.multiply %50, %57 : tensor<6144x10xf32>
    StableHlo.nullary main_cst_12 (constant S_ .f32 0x3F800000#32),  -- %cst_12 = stablehlo.constant dense<1.000000e+00> : tensor<f32>
    StableHlo.unary main_cst_12 main_v59 (broadcastInDim S6144x10 ![] bcast_S_S6144x10 : (⟨S_, .f32⟩ : BufTy).Contents (Elt F) → (⟨S6144x10, .f32⟩ : BufTy).Contents (Elt F)),  -- %59 = stablehlo.broadcast_in_dim %cst_12, dims = [] : (tensor<f32>) -> tensor<6144x10xf32>
    StableHlo.binary main_v58 main_v59 main_v60 (addf : (⟨S6144x10, .f32⟩ : BufTy).Contents (Elt F) → (⟨S6144x10, .f32⟩ : BufTy).Contents (Elt F) → (⟨S6144x10, .f32⟩ : BufTy).Contents (Elt F)),  -- %60 = stablehlo.add %58, %59 : tensor<6144x10xf32>
    StableHlo.nullary main_cst_13 (constant S_ .f32 0x00000000#32),  -- %cst_13 = stablehlo.constant dense<0.000000e+00> : tensor<f32>
    StableHlo.binary main_v60 main_cst_13 main_v61 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %61 = stablehlo.reduce(%60 init: %cst_13) applies stablehlo.add across dimensions = [1] : (tensor<6144x10xf32>, tensor<f32>) -> tensor<6144xf32> {
    StableHlo.unary main_v61 main_v62 (broadcastInDim S6144x1 ![0] bcast_S6144_S6144x1_0 : (⟨S6144, .f32⟩ : BufTy).Contents (Elt F) → (⟨S6144x1, .f32⟩ : BufTy).Contents (Elt F)),  -- %62 = stablehlo.broadcast_in_dim %61, dims = [0] : (tensor<6144xf32>) -> tensor<6144x1xf32>
    StableHlo.nullary main_cst_14 (constant S_ .f32 0x00000000#32),  -- %cst_14 = stablehlo.constant dense<0.000000e+00> : tensor<f32>
    StableHlo.binary main_v14 main_cst_14 main_v63 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %63 = stablehlo.reduce(%14 init: %cst_14) applies stablehlo.add across dimensions = [1] : (tensor<6144x10xf32>, tensor<f32>) -> tensor<6144xf32> {
    StableHlo.unary main_v63 main_v64 (broadcastInDim S6144x1 ![0] bcast_S6144_S6144x1_0 : (⟨S6144, .f32⟩ : BufTy).Contents (Elt F) → (⟨S6144x1, .f32⟩ : BufTy).Contents (Elt F)),  -- %64 = stablehlo.broadcast_in_dim %63, dims = [0] : (tensor<6144xf32>) -> tensor<6144x1xf32>
    StableHlo.nullary main_cst_15 (constant S_ .f32 0x3F800000#32),  -- %cst_15 = stablehlo.constant dense<1.000000e+00> : tensor<f32>
    StableHlo.unary main_cst_15 main_v65 (broadcastInDim S6144x10 ![] bcast_S_S6144x10 : (⟨S_, .f32⟩ : BufTy).Contents (Elt F) → (⟨S6144x10, .f32⟩ : BufTy).Contents (Elt F)),  -- %65 = stablehlo.broadcast_in_dim %cst_15, dims = [] : (tensor<f32>) -> tensor<6144x10xf32>
    StableHlo.binary main_v60 main_v65 main_v66 (subf : (⟨S6144x10, .f32⟩ : BufTy).Contents (Elt F) → (⟨S6144x10, .f32⟩ : BufTy).Contents (Elt F) → (⟨S6144x10, .f32⟩ : BufTy).Contents (Elt F)),  -- %66 = stablehlo.subtract %60, %65 : tensor<6144x10xf32>
    StableHlo.unary main_v62 main_v67 (broadcastInDim S6144x10 ![0, 1] bcast_S6144x1_S6144x10_0_1 : (⟨S6144x1, .f32⟩ : BufTy).Contents (Elt F) → (⟨S6144x10, .f32⟩ : BufTy).Contents (Elt F)),  -- %67 = stablehlo.broadcast_in_dim %62, dims = [0, 1] : (tensor<6144x1xf32>) -> tensor<6144x10xf32>
    StableHlo.binary main_v66 main_v67 main_v68 (Host.divf : (⟨S6144x10, .f32⟩ : BufTy).Contents (Elt F) → (⟨S6144x10, .f32⟩ : BufTy).Contents (Elt F) → (⟨S6144x10, .f32⟩ : BufTy).Contents (Elt F)),  -- %68 = stablehlo.divide %66, %67 : tensor<6144x10xf32>
    StableHlo.nullary main_cst_16 (constant S_ .f32 0x3F800000#32),  -- %cst_16 = stablehlo.constant dense<1.000000e+00> : tensor<f32>
    StableHlo.unary main_cst_16 main_v69 (broadcastInDim S6144x10 ![] bcast_S_S6144x10 : (⟨S_, .f32⟩ : BufTy).Contents (Elt F) → (⟨S6144x10, .f32⟩ : BufTy).Contents (Elt F)),  -- %69 = stablehlo.broadcast_in_dim %cst_16, dims = [] : (tensor<f32>) -> tensor<6144x10xf32>
    StableHlo.binary main_v14 main_v69 main_v70 (subf : (⟨S6144x10, .f32⟩ : BufTy).Contents (Elt F) → (⟨S6144x10, .f32⟩ : BufTy).Contents (Elt F) → (⟨S6144x10, .f32⟩ : BufTy).Contents (Elt F)),  -- %70 = stablehlo.subtract %14, %69 : tensor<6144x10xf32>
    StableHlo.unary main_v64 main_v71 (broadcastInDim S6144x10 ![0, 1] bcast_S6144x1_S6144x10_0_1 : (⟨S6144x1, .f32⟩ : BufTy).Contents (Elt F) → (⟨S6144x10, .f32⟩ : BufTy).Contents (Elt F)),  -- %71 = stablehlo.broadcast_in_dim %64, dims = [0, 1] : (tensor<6144x1xf32>) -> tensor<6144x10xf32>
    StableHlo.binary main_v70 main_v71 main_v72 (Host.divf : (⟨S6144x10, .f32⟩ : BufTy).Contents (Elt F) → (⟨S6144x10, .f32⟩ : BufTy).Contents (Elt F) → (⟨S6144x10, .f32⟩ : BufTy).Contents (Elt F)),  -- %72 = stablehlo.divide %70, %71 : tensor<6144x10xf32>
    StableHlo.nullary main_cst_17 (constant S_ .f32 0x41200000#32),  -- %cst_17 = stablehlo.constant dense<1.000000e+01> : tensor<f32>
    StableHlo.unary main_cst_17 main_v73 (broadcastInDim S6144x1 ![] bcast_S_S6144x1 : (⟨S_, .f32⟩ : BufTy).Contents (Elt F) → (⟨S6144x1, .f32⟩ : BufTy).Contents (Elt F)),  -- %73 = stablehlo.broadcast_in_dim %cst_17, dims = [] : (tensor<f32>) -> tensor<6144x1xf32>
    StableHlo.binary main_v73 main_v62 main_v74 (Host.divf : (⟨S6144x1, .f32⟩ : BufTy).Contents (Elt F) → (⟨S6144x1, .f32⟩ : BufTy).Contents (Elt F) → (⟨S6144x1, .f32⟩ : BufTy).Contents (Elt F)),  -- %74 = stablehlo.divide %73, %62 : tensor<6144x1xf32>
    StableHlo.nullary main_cst_18 (constant S_ .f32 0x41200000#32),  -- %cst_18 = stablehlo.constant dense<1.000000e+01> : tensor<f32>
    StableHlo.unary main_cst_18 main_v75 (broadcastInDim S6144x1 ![] bcast_S_S6144x1 : (⟨S_, .f32⟩ : BufTy).Contents (Elt F) → (⟨S6144x1, .f32⟩ : BufTy).Contents (Elt F)),  -- %75 = stablehlo.broadcast_in_dim %cst_18, dims = [] : (tensor<f32>) -> tensor<6144x1xf32>
    StableHlo.binary main_v75 main_v64 main_v76 (Host.divf : (⟨S6144x1, .f32⟩ : BufTy).Contents (Elt F) → (⟨S6144x1, .f32⟩ : BufTy).Contents (Elt F) → (⟨S6144x1, .f32⟩ : BufTy).Contents (Elt F)),  -- %76 = stablehlo.divide %75, %64 : tensor<6144x1xf32>
    StableHlo.nullary main_cst_19 (constant S_ .f32 0x00000000#32),  -- %cst_19 = stablehlo.constant dense<0.000000e+00> : tensor<f32>
    StableHlo.binary main_v68 main_cst_19 main_v77 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %77 = stablehlo.reduce(%68 init: %cst_19) applies stablehlo.add across dimensions = [1] : (tensor<6144x10xf32>, tensor<f32>) -> tensor<6144xf32> {
    StableHlo.unary main_v77 main_v78 (broadcastInDim S6144x1 ![0] bcast_S6144_S6144x1_0 : (⟨S6144, .f32⟩ : BufTy).Contents (Elt F) → (⟨S6144x1, .f32⟩ : BufTy).Contents (Elt F)),  -- %78 = stablehlo.broadcast_in_dim %77, dims = [0] : (tensor<6144xf32>) -> tensor<6144x1xf32>
    StableHlo.nullary main_cst_20 (constant S_ .f32 0x00000000#32),  -- %cst_20 = stablehlo.constant dense<0.000000e+00> : tensor<f32>
    StableHlo.binary main_v72 main_cst_20 main_v79 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %79 = stablehlo.reduce(%72 init: %cst_20) applies stablehlo.add across dimensions = [1] : (tensor<6144x10xf32>, tensor<f32>) -> tensor<6144xf32> {
    StableHlo.unary main_v79 main_v80 (broadcastInDim S6144x1 ![0] bcast_S6144_S6144x1_0 : (⟨S6144, .f32⟩ : BufTy).Contents (Elt F) → (⟨S6144x1, .f32⟩ : BufTy).Contents (Elt F)),  -- %80 = stablehlo.broadcast_in_dim %79, dims = [0] : (tensor<6144xf32>) -> tensor<6144x1xf32>
    StableHlo.binary main_v78 main_v80 main_v81 (mulf : (⟨S6144x1, .f32⟩ : BufTy).Contents (Elt F) → (⟨S6144x1, .f32⟩ : BufTy).Contents (Elt F) → (⟨S6144x1, .f32⟩ : BufTy).Contents (Elt F)),  -- %81 = stablehlo.multiply %78, %80 : tensor<6144x1xf32>
    StableHlo.binary main_v68 main_v72 main_v82 (mulf : (⟨S6144x10, .f32⟩ : BufTy).Contents (Elt F) → (⟨S6144x10, .f32⟩ : BufTy).Contents (Elt F) → (⟨S6144x10, .f32⟩ : BufTy).Contents (Elt F)),  -- %82 = stablehlo.multiply %68, %72 : tensor<6144x10xf32>
    StableHlo.nullary main_cst_21 (constant S_ .f32 0x00000000#32),  -- %cst_21 = stablehlo.constant dense<0.000000e+00> : tensor<f32>
    StableHlo.binary main_v82 main_cst_21 main_v83 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %83 = stablehlo.reduce(%82 init: %cst_21) applies stablehlo.add across dimensions = [1] : (tensor<6144x10xf32>, tensor<f32>) -> tensor<6144xf32> {
    StableHlo.unary main_v83 main_v84 (broadcastInDim S6144x1 ![0] bcast_S6144_S6144x1_0 : (⟨S6144, .f32⟩ : BufTy).Contents (Elt F) → (⟨S6144x1, .f32⟩ : BufTy).Contents (Elt F)),  -- %84 = stablehlo.broadcast_in_dim %83, dims = [0] : (tensor<6144xf32>) -> tensor<6144x1xf32>
    StableHlo.binary main_v81 main_v84 main_v85 (subf : (⟨S6144x1, .f32⟩ : BufTy).Contents (Elt F) → (⟨S6144x1, .f32⟩ : BufTy).Contents (Elt F) → (⟨S6144x1, .f32⟩ : BufTy).Contents (Elt F)),  -- %85 = stablehlo.subtract %81, %84 : tensor<6144x1xf32>
    StableHlo.binary main_v68 main_v72 main_v86 (mulf : (⟨S6144x10, .f32⟩ : BufTy).Contents (Elt F) → (⟨S6144x10, .f32⟩ : BufTy).Contents (Elt F) → (⟨S6144x10, .f32⟩ : BufTy).Contents (Elt F)),  -- %86 = stablehlo.multiply %68, %72 : tensor<6144x10xf32>
    StableHlo.unary main_v76 main_v87 (broadcastInDim S6144x10 ![0, 1] bcast_S6144x1_S6144x10_0_1 : (⟨S6144x1, .f32⟩ : BufTy).Contents (Elt F) → (⟨S6144x10, .f32⟩ : BufTy).Contents (Elt F)),  -- %87 = stablehlo.broadcast_in_dim %76, dims = [0, 1] : (tensor<6144x1xf32>) -> tensor<6144x10xf32>
    StableHlo.binary main_v68 main_v87 main_v88 (mulf : (⟨S6144x10, .f32⟩ : BufTy).Contents (Elt F) → (⟨S6144x10, .f32⟩ : BufTy).Contents (Elt F) → (⟨S6144x10, .f32⟩ : BufTy).Contents (Elt F)),  -- %88 = stablehlo.multiply %68, %87 : tensor<6144x10xf32>
    StableHlo.binary main_v86 main_v88 main_v89 (addf : (⟨S6144x10, .f32⟩ : BufTy).Contents (Elt F) → (⟨S6144x10, .f32⟩ : BufTy).Contents (Elt F) → (⟨S6144x10, .f32⟩ : BufTy).Contents (Elt F)),  -- %89 = stablehlo.add %86, %88 : tensor<6144x10xf32>
    StableHlo.unary main_v74 main_v90 (broadcastInDim S6144x10 ![0, 1] bcast_S6144x1_S6144x10_0_1 : (⟨S6144x1, .f32⟩ : BufTy).Contents (Elt F) → (⟨S6144x10, .f32⟩ : BufTy).Contents (Elt F)),  -- %90 = stablehlo.broadcast_in_dim %74, dims = [0, 1] : (tensor<6144x1xf32>) -> tensor<6144x10xf32>
    StableHlo.binary main_v72 main_v90 main_v91 (mulf : (⟨S6144x10, .f32⟩ : BufTy).Contents (Elt F) → (⟨S6144x10, .f32⟩ : BufTy).Contents (Elt F) → (⟨S6144x10, .f32⟩ : BufTy).Contents (Elt F)),  -- %91 = stablehlo.multiply %72, %90 : tensor<6144x10xf32>
    StableHlo.binary main_v89 main_v91 main_v92 (addf : (⟨S6144x10, .f32⟩ : BufTy).Contents (Elt F) → (⟨S6144x10, .f32⟩ : BufTy).Contents (Elt F) → (⟨S6144x10, .f32⟩ : BufTy).Contents (Elt F)),  -- %92 = stablehlo.add %89, %91 : tensor<6144x10xf32>
    StableHlo.nullary main_cst_22 (constant S_ .f32 0x3F800000#32),  -- %cst_22 = stablehlo.constant dense<1.000000e+00> : tensor<f32>
    StableHlo.unary main_cst_22 main_v93 (broadcastInDim S6144x1 ![] bcast_S_S6144x1 : (⟨S_, .f32⟩ : BufTy).Contents (Elt F) → (⟨S6144x1, .f32⟩ : BufTy).Contents (Elt F)),  -- %93 = stablehlo.broadcast_in_dim %cst_22, dims = [] : (tensor<f32>) -> tensor<6144x1xf32>
    StableHlo.binary main_v93 main_v85 main_v94 (subf : (⟨S6144x1, .f32⟩ : BufTy).Contents (Elt F) → (⟨S6144x1, .f32⟩ : BufTy).Contents (Elt F) → (⟨S6144x1, .f32⟩ : BufTy).Contents (Elt F)),  -- %94 = stablehlo.subtract %93, %85 : tensor<6144x1xf32>
    StableHlo.unary main_v94 main_v95 (broadcastInDim S6144x10 ![0, 1] bcast_S6144x1_S6144x10_0_1 : (⟨S6144x1, .f32⟩ : BufTy).Contents (Elt F) → (⟨S6144x10, .f32⟩ : BufTy).Contents (Elt F)) ]  -- %95 = stablehlo.broadcast_in_dim %94, dims = [0, 1] : (tensor<6144x1xf32>) -> tensor<6144x10xf32>

/-- The operations of @main's window 2 (130), its calls unfolded. -/
abbrev win2 : List (HloOp τ sig (Elt F)) :=
  [ StableHlo.binary main_v92 main_v95 main_v96 (Host.divf : (⟨S6144x10, .f32⟩ : BufTy).Contents (Elt F) → (⟨S6144x10, .f32⟩ : BufTy).Contents (Elt F) → (⟨S6144x10, .f32⟩ : BufTy).Contents (Elt F)),  -- %96 = stablehlo.divide %92, %95 : tensor<6144x10xf32>
    StableHlo.binary main_v74 main_v76 main_v97 (mulf : (⟨S6144x1, .f32⟩ : BufTy).Contents (Elt F) → (⟨S6144x1, .f32⟩ : BufTy).Contents (Elt F) → (⟨S6144x1, .f32⟩ : BufTy).Contents (Elt F)),  -- %97 = stablehlo.multiply %74, %76 : tensor<6144x1xf32>
    StableHlo.nullary main_cst_23 (constant S_ .f32 0x3F800000#32),  -- %cst_23 = stablehlo.constant dense<1.000000e+00> : tensor<f32>
    StableHlo.unary main_cst_23 main_v98 (broadcastInDim S6144x1 ![] bcast_S_S6144x1 : (⟨S_, .f32⟩ : BufTy).Contents (Elt F) → (⟨S6144x1, .f32⟩ : BufTy).Contents (Elt F)),  -- %98 = stablehlo.broadcast_in_dim %cst_23, dims = [] : (tensor<f32>) -> tensor<6144x1xf32>
    StableHlo.binary main_v98 main_v85 main_v99 (subf : (⟨S6144x1, .f32⟩ : BufTy).Contents (Elt F) → (⟨S6144x1, .f32⟩ : BufTy).Contents (Elt F) → (⟨S6144x1, .f32⟩ : BufTy).Contents (Elt F)),  -- %99 = stablehlo.subtract %98, %85 : tensor<6144x1xf32>
    StableHlo.binary main_v97 main_v99 main_v100 (Host.divf : (⟨S6144x1, .f32⟩ : BufTy).Contents (Elt F) → (⟨S6144x1, .f32⟩ : BufTy).Contents (Elt F) → (⟨S6144x1, .f32⟩ : BufTy).Contents (Elt F)),  -- %100 = stablehlo.divide %97, %99 : tensor<6144x1xf32>
    StableHlo.nullary main_cst_24 (constant S_ .f32 0x41200000#32),  -- %cst_24 = stablehlo.constant dense<1.000000e+01> : tensor<f32>
    StableHlo.unary main_cst_24 main_v101 (broadcastInDim S6144x1 ![] bcast_S_S6144x1 : (⟨S_, .f32⟩ : BufTy).Contents (Elt F) → (⟨S6144x1, .f32⟩ : BufTy).Contents (Elt F)),  -- %101 = stablehlo.broadcast_in_dim %cst_24, dims = [] : (tensor<f32>) -> tensor<6144x1xf32>
    StableHlo.binary main_v101 main_v100 main_v102 (Host.divf : (⟨S6144x1, .f32⟩ : BufTy).Contents (Elt F) → (⟨S6144x1, .f32⟩ : BufTy).Contents (Elt F) → (⟨S6144x1, .f32⟩ : BufTy).Contents (Elt F)),  -- %102 = stablehlo.divide %101, %100 : tensor<6144x1xf32>
    StableHlo.unary main_v102 main_v103 (broadcastInDim S6144x10 ![0, 1] bcast_S6144x1_S6144x10_0_1 : (⟨S6144x1, .f32⟩ : BufTy).Contents (Elt F) → (⟨S6144x10, .f32⟩ : BufTy).Contents (Elt F)),  -- %103 = stablehlo.broadcast_in_dim %102, dims = [0, 1] : (tensor<6144x1xf32>) -> tensor<6144x10xf32>
    StableHlo.binary main_v96 main_v103 main_v104 (mulf : (⟨S6144x10, .f32⟩ : BufTy).Contents (Elt F) → (⟨S6144x10, .f32⟩ : BufTy).Contents (Elt F) → (⟨S6144x10, .f32⟩ : BufTy).Contents (Elt F)),  -- %104 = stablehlo.multiply %96, %103 : tensor<6144x10xf32>
    StableHlo.nullary main_cst_25 (constant S_ .f32 0x3F800000#32),  -- %cst_25 = stablehlo.constant dense<1.000000e+00> : tensor<f32>
    StableHlo.unary main_cst_25 main_v105 (broadcastInDim S6144x10 ![] bcast_S_S6144x10 : (⟨S_, .f32⟩ : BufTy).Contents (Elt F) → (⟨S6144x10, .f32⟩ : BufTy).Contents (Elt F)),  -- %105 = stablehlo.broadcast_in_dim %cst_25, dims = [] : (tensor<f32>) -> tensor<6144x10xf32>
    StableHlo.binary main_v104 main_v105 main_v106 (addf : (⟨S6144x10, .f32⟩ : BufTy).Contents (Elt F) → (⟨S6144x10, .f32⟩ : BufTy).Contents (Elt F) → (⟨S6144x10, .f32⟩ : BufTy).Contents (Elt F)),  -- %106 = stablehlo.add %104, %105 : tensor<6144x10xf32>
    StableHlo.nullary main_cst_26 (constant S_ .f32 0x00000000#32),  -- %cst_26 = stablehlo.constant dense<0.000000e+00> : tensor<f32>
    StableHlo.binary main_v106 main_cst_26 main_v107 ((fun x v => Host.reduceAdd x v reducesTo_S6144x10_S10_d0 h_S_) : (⟨S6144x10, .f32⟩ : BufTy).Contents (Elt F) → (⟨S_, .f32⟩ : BufTy).Contents (Elt F) → (⟨S10, .f32⟩ : BufTy).Contents (Elt F)),  -- %107 = stablehlo.reduce(%106 init: %cst_26) applies stablehlo.add across dimensions = [0] : (tensor<6144x10xf32>, tensor<f32>) -> tensor<10xf32> {
    StableHlo.nullary main_cst_27 (constant S_ .f32 0x45C00000#32),  -- %cst_27 = stablehlo.constant dense<6.144000e+03> : tensor<f32>
    StableHlo.unary main_cst_27 main_v108 (broadcastInDim S10 ![] bcast_S_S10 : (⟨S_, .f32⟩ : BufTy).Contents (Elt F) → (⟨S10, .f32⟩ : BufTy).Contents (Elt F)),  -- %108 = stablehlo.broadcast_in_dim %cst_27, dims = [] : (tensor<f32>) -> tensor<10xf32>
    StableHlo.binary main_v107 main_v108 main_v109 (Host.divf : (⟨S10, .f32⟩ : BufTy).Contents (Elt F) → (⟨S10, .f32⟩ : BufTy).Contents (Elt F) → (⟨S10, .f32⟩ : BufTy).Contents (Elt F)),  -- %109 = stablehlo.divide %107, %108 : tensor<10xf32>
    StableHlo.nullary main_c (constantI S_ 32 0#32),  -- %c = stablehlo.constant dense<0> : tensor<i32>
    StableHlo.TRef.nullary (.of main_call1_cst : StableHlo.TRef sig ⟨S_, .f32⟩) (constant S_ .f32 0x00000000#32),  -- @var %cst = stablehlo.constant dense<0.000000e+00> : tensor<f32>
    StableHlo.TRef.binary (.of main_v106 : StableHlo.TRef sig ⟨S6144x10, .f32⟩) (.of main_call1_cst : StableHlo.TRef sig ⟨S_, .f32⟩) (.of main_call1_v0 : StableHlo.TRef sig ⟨S10, .f32⟩) (fun x v => Host.reduceAdd x v reducesTo_S6144x10_S10_d0 h_S_),  -- @var %0 = stablehlo.reduce(%arg0 init: %cst) applies stablehlo.add across dimensions = [0] : (tensor<6144x10xf32>, tensor<f32>) -> tensor<10xf32> {
    StableHlo.TRef.unary (.of main_call1_v0 : StableHlo.TRef sig ⟨S10, .f32⟩) (.of main_call1_v1 : StableHlo.TRef sig ⟨S1x10, .f32⟩) (broadcastInDim S1x10 ![1] bcast_S10_S1x10_1),  -- @var %1 = stablehlo.broadcast_in_dim %0, dims = [1] : (tensor<10xf32>) -> tensor<1x10xf32>
    StableHlo.TRef.nullary (.of main_call1_cst_0 : StableHlo.TRef sig ⟨S_, .f32⟩) (constant S_ .f32 0x45C00000#32),  -- @var %cst_0 = stablehlo.constant dense<6.144000e+03> : tensor<f32>
    StableHlo.TRef.unary (.of main_call1_cst_0 : StableHlo.TRef sig ⟨S_, .f32⟩) (.of main_call1_v2 : StableHlo.TRef sig ⟨S1x10, .f32⟩) (broadcastInDim S1x10 ![] bcast_S_S1x10),  -- @var %2 = stablehlo.broadcast_in_dim %cst_0, dims = [] : (tensor<f32>) -> tensor<1x10xf32>
    StableHlo.TRef.binary (.of main_call1_v1 : StableHlo.TRef sig ⟨S1x10, .f32⟩) (.of main_call1_v2 : StableHlo.TRef sig ⟨S1x10, .f32⟩) (.of main_call1_v3 : StableHlo.TRef sig ⟨S1x10, .f32⟩) Host.divf,  -- @var %3 = stablehlo.divide %1, %2 : tensor<1x10xf32>
    StableHlo.TRef.unary (.of main_call1_v3 : StableHlo.TRef sig ⟨S1x10, .f32⟩) (.of main_call1_v4 : StableHlo.TRef sig ⟨S6144x10, .f32⟩) (broadcastInDim S6144x10 ![0, 1] bcast_S1x10_S6144x10_0_1),  -- @var %4 = stablehlo.broadcast_in_dim %3, dims = [0, 1] : (tensor<1x10xf32>) -> tensor<6144x10xf32>
    StableHlo.TRef.binary (.of main_v106 : StableHlo.TRef sig ⟨S6144x10, .f32⟩) (.of main_call1_v4 : StableHlo.TRef sig ⟨S6144x10, .f32⟩) (.of main_call1_v5 : StableHlo.TRef sig ⟨S6144x10, .f32⟩) subf,  -- @var %5 = stablehlo.subtract %arg0, %4 : tensor<6144x10xf32>
    StableHlo.TRef.binary (.of main_call1_v5 : StableHlo.TRef sig ⟨S6144x10, .f32⟩) (.of main_call1_v5 : StableHlo.TRef sig ⟨S6144x10, .f32⟩) (.of main_call1_v6 : StableHlo.TRef sig ⟨S6144x10, .f32⟩) mulf,  -- @var %6 = chlo.square %5 : tensor<6144x10xf32> -> tensor<6144x10xf32>
    StableHlo.TRef.unary (.of main_c : StableHlo.TRef sig ⟨S_, .i32⟩) (.of main_call1_v7 : StableHlo.TRef sig ⟨S_, .f32⟩) (sitofp .f32),  -- @var %7 = stablehlo.convert %arg1 : (tensor<i32>) -> tensor<f32>
    StableHlo.TRef.nullary (.of main_call1_cst_1 : StableHlo.TRef sig ⟨S_, .f32⟩) (constant S_ .f32 0x45C00000#32),  -- @var %cst_1 = stablehlo.constant dense<6.144000e+03> : tensor<f32>
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,  -- @var %8 = stablehlo.subtract %cst_1, %7 : tensor<f32>
    StableHlo.TRef.nullary (.of main_call1_cst_2 : StableHlo.TRef sig ⟨S_, .f32⟩) (constant S_ .f32 0x00000000#32),  -- @var %cst_2 = stablehlo.constant dense<0.000000e+00> : tensor<f32>
    StableHlo.TRef.binary (.of main_call1_v6 : StableHlo.TRef sig ⟨S6144x10, .f32⟩) (.of main_call1_cst_2 : StableHlo.TRef sig ⟨S_, .f32⟩) (.of main_call1_v9 : StableHlo.TRef sig ⟨S10, .f32⟩) (fun x v => Host.reduceAdd x v reducesTo_S6144x10_S10_d0 h_S_),  -- @var %9 = stablehlo.reduce(%6 init: %cst_2) applies stablehlo.add across dimensions = [0] : (tensor<6144x10xf32>, tensor<f32>) -> tensor<10xf32> {
    StableHlo.TRef.unary (.of main_call1_v8 : StableHlo.TRef sig ⟨S_, .f32⟩) (.of main_call1_v10 : StableHlo.TRef sig ⟨S10, .f32⟩) (broadcastInDim S10 ![] bcast_S_S10),  -- @var %10 = stablehlo.broadcast_in_dim %8, dims = [] : (tensor<f32>) -> tensor<10xf32>
    StableHlo.TRef.binary (.of main_call1_v9 : StableHlo.TRef sig ⟨S10, .f32⟩) (.of main_call1_v10 : StableHlo.TRef sig ⟨S10, .f32⟩) (.of main_call1_v11 : StableHlo.TRef sig ⟨S10, .f32⟩) Host.divf,  -- @var %11 = stablehlo.divide %9, %10 : tensor<10xf32>
    StableHlo.TRef.nullary (.of main_call1_cst_3 : StableHlo.TRef sig ⟨S_, .f32⟩) (constant S_ .f32 0x00000000#32),  -- @var %cst_3 = stablehlo.constant dense<0.000000e+00> : tensor<f32>
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),  -- @var %12 = stablehlo.compare GT, %8, %cst_3, FLOAT : (tensor<f32>, tensor<f32>) -> tensor<i1>
    StableHlo.TRef.nullary (.of main_call1_cst_4 : StableHlo.TRef sig ⟨S_, .f32⟩) (constant S_ .f32 0x7FC00000#32),  -- @var %cst_4 = stablehlo.constant dense<0x7FC00000> : tensor<f32>
    StableHlo.TRef.unary (.of main_call1_cst_4 : StableHlo.TRef sig ⟨S_, .f32⟩) (.of main_call1_call0_v0 : StableHlo.TRef sig ⟨S_, .f32⟩) id,  -- @var>@where %0 = stablehlo.convert %arg2 : tensor<f32>
    StableHlo.TRef.unary (.of main_call1_call0_v0 : StableHlo.TRef sig ⟨S_, .f32⟩) (.of main_call1_call0_v1 : StableHlo.TRef sig ⟨S10, .f32⟩) (broadcastInDim S10 ![] bcast_S_S10),  -- @var>@where %1 = stablehlo.broadcast_in_dim %0, dims = [] : (tensor<f32>) -> tensor<10xf32>
    StableHlo.TRef.ternary (.of main_call1_v12 : StableHlo.TRef sig ⟨S_, .i1⟩) (.of main_call1_v11 : StableHlo.TRef sig ⟨S10, .f32⟩) (.of main_call1_call0_v1 : StableHlo.TRef sig ⟨S10, .f32⟩) (.of main_v110 : StableHlo.TRef sig ⟨S10, .f32⟩) (fun p a b => select (broadcastInDim S10 ![] bcast_S_S10 p) a b),  -- @var>@where %2 = stablehlo.select %arg0, %arg1, %1 : tensor<i1>, tensor<10xf32>
    StableHlo.unary main_v109 main_v111 (broadcastInDim S1x10 ![1] bcast_S10_S1x10_1 : (⟨S10, .f32⟩ : BufTy).Contents (Elt F) → (⟨S1x10, .f32⟩ : BufTy).Contents (Elt F)),  -- %111 = stablehlo.broadcast_in_dim %109, dims = [1] : (tensor<10xf32>) -> tensor<1x10xf32>
    StableHlo.unary main_v111 main_v112 (broadcastInDim S6144x10 ![0, 1] bcast_S1x10_S6144x10_0_1 : (⟨S1x10, .f32⟩ : BufTy).Contents (Elt F) → (⟨S6144x10, .f32⟩ : BufTy).Contents (Elt F)),  -- %112 = stablehlo.broadcast_in_dim %111, dims = [0, 1] : (tensor<1x10xf32>) -> tensor<6144x10xf32>
    StableHlo.binary main_v106 main_v112 main_v113 (subf : (⟨S6144x10, .f32⟩ : BufTy).Contents (Elt F) → (⟨S6144x10, .f32⟩ : BufTy).Contents (Elt F) → (⟨S6144x10, .f32⟩ : BufTy).Contents (Elt F)),  -- %113 = stablehlo.subtract %106, %112 : tensor<6144x10xf32>
    StableHlo.nullary main_cst_28 (constant S_ .f32 0x3727C5AC#32),  -- %cst_28 = stablehlo.constant dense<9.99999974E-6> : tensor<f32>
    StableHlo.unary main_cst_28 main_v114 (broadcastInDim S10 ![] bcast_S_S10 : (⟨S_, .f32⟩ : BufTy).Contents (Elt F) → (⟨S10, .f32⟩ : BufTy).Contents (Elt F)),  -- %114 = stablehlo.broadcast_in_dim %cst_28, dims = [] : (tensor<f32>) -> tensor<10xf32>
    StableHlo.binary main_v110 main_v114 main_v115 (addf : (⟨S10, .f32⟩ : BufTy).Contents (Elt F) → (⟨S10, .f32⟩ : BufTy).Contents (Elt F) → (⟨S10, .f32⟩ : BufTy).Contents (Elt F)),  -- %115 = stablehlo.add %110, %114 : tensor<10xf32>
    StableHlo.unary main_v115 main_v116 (Host.sqrt : (⟨S10, .f32⟩ : BufTy).Contents (Elt F) → (⟨S10, .f32⟩ : BufTy).Contents (Elt F)),  -- %116 = stablehlo.sqrt %115 : tensor<10xf32>
    StableHlo.unary main_v116 main_v117 (broadcastInDim S1x10 ![1] bcast_S10_S1x10_1 : (⟨S10, .f32⟩ : BufTy).Contents (Elt F) → (⟨S1x10, .f32⟩ : BufTy).Contents (Elt F)),  -- %117 = stablehlo.broadcast_in_dim %116, dims = [1] : (tensor<10xf32>) -> tensor<1x10xf32>
    StableHlo.unary main_v117 main_v118 (broadcastInDim S6144x10 ![0, 1] bcast_S1x10_S6144x10_0_1 : (⟨S1x10, .f32⟩ : BufTy).Contents (Elt F) → (⟨S6144x10, .f32⟩ : BufTy).Contents (Elt F)),  -- %118 = stablehlo.broadcast_in_dim %117, dims = [0, 1] : (tensor<1x10xf32>) -> tensor<6144x10xf32>
    StableHlo.binary main_v113 main_v118 main_v119 (Host.divf : (⟨S6144x10, .f32⟩ : BufTy).Contents (Elt F) → (⟨S6144x10, .f32⟩ : BufTy).Contents (Elt F) → (⟨S6144x10, .f32⟩ : BufTy).Contents (Elt F)),  -- %119 = stablehlo.divide %113, %118 : tensor<6144x10xf32>
    StableHlo.unary main_arg5 main_v120 (broadcastInDim S1x10 ![1] bcast_S10_S1x10_1 : (⟨S10, .f32⟩ : BufTy).Contents (Elt F) → (⟨S1x10, .f32⟩ : BufTy).Contents (Elt F)),  -- %120 = stablehlo.broadcast_in_dim %arg5, dims = [1] : (tensor<10xf32>) -> tensor<1x10xf32>
    StableHlo.unary main_v120 main_v121 (broadcastInDim S6144x10 ![0, 1] bcast_S1x10_S6144x10_0_1 : (⟨S1x10, .f32⟩ : BufTy).Contents (Elt F) → (⟨S6144x10, .f32⟩ : BufTy).Contents (Elt F)),  -- %121 = stablehlo.broadcast_in_dim %120, dims = [0, 1] : (tensor<1x10xf32>) -> tensor<6144x10xf32>
    StableHlo.binary main_v119 main_v121 main_v122 (mulf : (⟨S6144x10, .f32⟩ : BufTy).Contents (Elt F) → (⟨S6144x10, .f32⟩ : BufTy).Contents (Elt F) → (⟨S6144x10, .f32⟩ : BufTy).Contents (Elt F)),  -- %122 = stablehlo.multiply %119, %121 : tensor<6144x10xf32>
    StableHlo.unary main_arg6 main_v123 (broadcastInDim S1x10 ![1] bcast_S10_S1x10_1 : (⟨S10, .f32⟩ : BufTy).Contents (Elt F) → (⟨S1x10, .f32⟩ : BufTy).Contents (Elt F)),  -- %123 = stablehlo.broadcast_in_dim %arg6, dims = [1] : (tensor<10xf32>) -> tensor<1x10xf32>
    StableHlo.unary main_v123 main_v124 (broadcastInDim S6144x10 ![0, 1] bcast_S1x10_S6144x10_0_1 : (⟨S1x10, .f32⟩ : BufTy).Contents (Elt F) → (⟨S6144x10, .f32⟩ : BufTy).Contents (Elt F)),  -- %124 = stablehlo.broadcast_in_dim %123, dims = [0, 1] : (tensor<1x10xf32>) -> tensor<6144x10xf32>
    StableHlo.binary main_v122 main_v124 main_v125 (addf : (⟨S6144x10, .f32⟩ : BufTy).Contents (Elt F) → (⟨S6144x10, .f32⟩ : BufTy).Contents (Elt F) → (⟨S6144x10, .f32⟩ : BufTy).Contents (Elt F)),  -- %125 = stablehlo.add %122, %124 : tensor<6144x10xf32>
    StableHlo.unary main_arg4 main_v126 (broadcastInDim S1x1 ![1] bcast_S1_S1x1_1 : (⟨S1, .f32⟩ : BufTy).Contents (Elt F) → (⟨S1x1, .f32⟩ : BufTy).Contents (Elt F)),  -- %126 = stablehlo.broadcast_in_dim %arg4, dims = [1] : (tensor<1xf32>) -> tensor<1x1xf32>
    StableHlo.unary main_v126 main_v127 (broadcastInDim S6144x10 ![0, 1] bcast_S1x1_S6144x10_0_1 : (⟨S1x1, .f32⟩ : BufTy).Contents (Elt F) → (⟨S6144x10, .f32⟩ : BufTy).Contents (Elt F)),  -- %127 = stablehlo.broadcast_in_dim %126, dims = [0, 1] : (tensor<1x1xf32>) -> tensor<6144x10xf32>
    StableHlo.binary main_v125 main_v127 main_v128 (subf : (⟨S6144x10, .f32⟩ : BufTy).Contents (Elt F) → (⟨S6144x10, .f32⟩ : BufTy).Contents (Elt F) → (⟨S6144x10, .f32⟩ : BufTy).Contents (Elt F)),  -- %128 = stablehlo.subtract %125, %127 : tensor<6144x10xf32>
    StableHlo.TRef.nullary (.of main_call2_cst : StableHlo.TRef sig ⟨S_, .f32⟩) (constant S_ .f32 0x3FD62D7D#32),  -- @selu %cst = stablehlo.constant dense<1.67326319> : tensor<f32>
    StableHlo.TRef.nullary (.of main_call2_call0_cst : StableHlo.TRef sig ⟨S_, .f32⟩) (constant S_ .f32 0x00000000#32),  -- @selu>@elu %cst = stablehlo.constant dense<0.000000e+00> : tensor<f32>
    StableHlo.TRef.unary (.of main_call2_call0_cst : StableHlo.TRef sig ⟨S_, .f32⟩) (.of main_call2_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v128 : StableHlo.TRef sig ⟨S6144x10, .f32⟩) (.of main_call2_call0_v0 : StableHlo.TRef sig ⟨S6144x10, .f32⟩) (.of main_call2_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call2_call0_cst_0 : StableHlo.TRef sig ⟨S_, .f32⟩) (constant S_ .f32 0x00000000#32),  -- @selu>@elu %cst_0 = stablehlo.constant dense<0.000000e+00> : tensor<f32>
    StableHlo.TRef.unary (.of main_call2_call0_cst_0 : StableHlo.TRef sig ⟨S_, .f32⟩) (.of main_call2_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v128 : StableHlo.TRef sig ⟨S6144x10, .f32⟩) (.of main_call2_call0_v2 : StableHlo.TRef sig ⟨S6144x10, .f32⟩) (.of main_call2_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call2_call0_cst_1 : StableHlo.TRef sig ⟨S_, .f32⟩) (constant S_ .f32 0x00000000#32),  -- @selu>@elu %cst_1 = stablehlo.constant dense<0.000000e+00> : tensor<f32>
    StableHlo.TRef.unary (.of main_call2_call0_cst_1 : StableHlo.TRef sig ⟨S_, .f32⟩) (.of main_call2_call0_call0_v0 : StableHlo.TRef sig ⟨S_, .f32⟩) id,  -- @selu>@elu>@where_0 %0 = stablehlo.convert %arg1 : tensor<f32>
    StableHlo.TRef.unary (.of main_call2_call0_call0_v0 : StableHlo.TRef sig ⟨S_, .f32⟩) (.of main_call2_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call2_call0_v3 : StableHlo.TRef sig ⟨S6144x10, .i1⟩) (.of main_call2_call0_call0_v1 : StableHlo.TRef sig ⟨S6144x10, .f32⟩) (.of main_v128 : StableHlo.TRef sig ⟨S6144x10, .f32⟩) (.of main_call2_call0_v4 : StableHlo.TRef sig ⟨S6144x10, .f32⟩) select,  -- @selu>@elu>@where_0 %2 = stablehlo.select %arg0, %1, %arg2 : tensor<6144x10xi1>, tensor<6144x10xf32>
    StableHlo.TRef.unary (.of main_call2_call0_v4 : StableHlo.TRef sig ⟨S6144x10, .f32⟩) (.of main_call2_call0_v5 : StableHlo.TRef sig ⟨S6144x10, .f32⟩) Host.expm1,  -- @selu>@elu %5 = stablehlo.exponential_minus_one %4 : tensor<6144x10xf32>
    StableHlo.TRef.unary (.of main_call2_cst : StableHlo.TRef sig ⟨S_, .f32⟩) (.of main_call2_call0_v6 : StableHlo.TRef sig ⟨S_, .f32⟩) id,  -- @selu>@elu %6 = stablehlo.convert %arg1 : tensor<f32>
    StableHlo.TRef.unary (.of main_call2_call0_v6 : StableHlo.TRef sig ⟨S_, .f32⟩) (.of main_call2_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call2_call0_v7 : StableHlo.TRef sig ⟨S6144x10, .f32⟩) (.of main_call2_call0_v5 : StableHlo.TRef sig ⟨S6144x10, .f32⟩) (.of main_call2_call0_v8 : StableHlo.TRef sig ⟨S6144x10, .f32⟩) mulf,  -- @selu>@elu %8 = stablehlo.multiply %7, %5 : tensor<6144x10xf32>
    StableHlo.TRef.ternary (.of main_call2_call0_v1 : StableHlo.TRef sig ⟨S6144x10, .i1⟩) (.of main_v128 : StableHlo.TRef sig ⟨S6144x10, .f32⟩) (.of main_call2_call0_v8 : StableHlo.TRef sig ⟨S6144x10, .f32⟩) (.of main_call2_v0 : StableHlo.TRef sig ⟨S6144x10, .f32⟩) select,  -- @selu>@elu>@where_1 %0 = stablehlo.select %arg0, %arg1, %arg2 : tensor<6144x10xi1>, tensor<6144x10xf32>
    StableHlo.TRef.nullary (.of main_call2_cst_0 : StableHlo.TRef sig ⟨S_, .f32⟩) (constant S_ .f32 0x3F867D5F#32),  -- @selu %cst_0 = stablehlo.constant dense<1.05070102> : tensor<f32>
    StableHlo.TRef.unary (.of main_call2_cst_0 : StableHlo.TRef sig ⟨S_, .f32⟩) (.of main_call2_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call2_v1 : StableHlo.TRef sig ⟨S6144x10, .f32⟩) (.of main_call2_v0 : StableHlo.TRef sig ⟨S6144x10, .f32⟩) (.of main_v129 : StableHlo.TRef sig ⟨S6144x10, .f32⟩) mulf,  -- @selu %2 = stablehlo.multiply %1, %0 : tensor<6144x10xf32>
    StableHlo.unary main_v125 main_v130 (Host.negf : (⟨S6144x10, .f32⟩ : BufTy).Contents (Elt F) → (⟨S6144x10, .f32⟩ : BufTy).Contents (Elt F)),  -- %130 = stablehlo.negate %125 : tensor<6144x10xf32>
    StableHlo.unary main_arg4 main_v131 (broadcastInDim S1x1 ![1] bcast_S1_S1x1_1 : (⟨S1, .f32⟩ : BufTy).Contents (Elt F) → (⟨S1x1, .f32⟩ : BufTy).Contents (Elt F)),  -- %131 = stablehlo.broadcast_in_dim %arg4, dims = [1] : (tensor<1xf32>) -> tensor<1x1xf32>
    StableHlo.unary main_v131 main_v132 (broadcastInDim S6144x10 ![0, 1] bcast_S1x1_S6144x10_0_1 : (⟨S1x1, .f32⟩ : BufTy).Contents (Elt F) → (⟨S6144x10, .f32⟩ : BufTy).Contents (Elt F)),  -- %132 = stablehlo.broadcast_in_dim %131, dims = [0, 1] : (tensor<1x1xf32>) -> tensor<6144x10xf32>
    StableHlo.binary main_v130 main_v132 main_v133 (subf : (⟨S6144x10, .f32⟩ : BufTy).Contents (Elt F) → (⟨S6144x10, .f32⟩ : BufTy).Contents (Elt F) → (⟨S6144x10, .f32⟩ : BufTy).Contents (Elt F)),  -- %133 = stablehlo.subtract %130, %132 : tensor<6144x10xf32>
    StableHlo.TRef.nullary (.of main_call3_cst : StableHlo.TRef sig ⟨S_, .f32⟩) (constant S_ .f32 0x3FD62D7D#32),  -- @selu %cst = stablehlo.constant dense<1.67326319> : tensor<f32>
    StableHlo.TRef.nullary (.of main_call3_call0_cst : StableHlo.TRef sig ⟨S_, .f32⟩) (constant S_ .f32 0x00000000#32),  -- @selu>@elu %cst = stablehlo.constant dense<0.000000e+00> : tensor<f32>
    StableHlo.TRef.unary (.of main_call3_call0_cst : StableHlo.TRef sig ⟨S_, .f32⟩) (.of main_call3_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v133 : StableHlo.TRef sig ⟨S6144x10, .f32⟩) (.of main_call3_call0_v0 : StableHlo.TRef sig ⟨S6144x10, .f32⟩) (.of main_call3_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call3_call0_cst_0 : StableHlo.TRef sig ⟨S_, .f32⟩) (constant S_ .f32 0x00000000#32),  -- @selu>@elu %cst_0 = stablehlo.constant dense<0.000000e+00> : tensor<f32>
    StableHlo.TRef.unary (.of main_call3_call0_cst_0 : StableHlo.TRef sig ⟨S_, .f32⟩) (.of main_call3_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v133 : StableHlo.TRef sig ⟨S6144x10, .f32⟩) (.of main_call3_call0_v2 : StableHlo.TRef sig ⟨S6144x10, .f32⟩) (.of main_call3_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call3_call0_cst_1 : StableHlo.TRef sig ⟨S_, .f32⟩) (constant S_ .f32 0x00000000#32),  -- @selu>@elu %cst_1 = stablehlo.constant dense<0.000000e+00> : tensor<f32>
    StableHlo.TRef.unary (.of main_call3_call0_cst_1 : StableHlo.TRef sig ⟨S_, .f32⟩) (.of main_call3_call0_call0_v0 : StableHlo.TRef sig ⟨S_, .f32⟩) id,  -- @selu>@elu>@where_0 %0 = stablehlo.convert %arg1 : tensor<f32>
    StableHlo.TRef.unary (.of main_call3_call0_call0_v0 : StableHlo.TRef sig ⟨S_, .f32⟩) (.of main_call3_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call3_call0_v3 : StableHlo.TRef sig ⟨S6144x10, .i1⟩) (.of main_call3_call0_call0_v1 : StableHlo.TRef sig ⟨S6144x10, .f32⟩) (.of main_v133 : StableHlo.TRef sig ⟨S6144x10, .f32⟩) (.of main_call3_call0_v4 : StableHlo.TRef sig ⟨S6144x10, .f32⟩) select,  -- @selu>@elu>@where_0 %2 = stablehlo.select %arg0, %1, %arg2 : tensor<6144x10xi1>, tensor<6144x10xf32>
    StableHlo.TRef.unary (.of main_call3_call0_v4 : StableHlo.TRef sig ⟨S6144x10, .f32⟩) (.of main_call3_call0_v5 : StableHlo.TRef sig ⟨S6144x10, .f32⟩) Host.expm1,  -- @selu>@elu %5 = stablehlo.exponential_minus_one %4 : tensor<6144x10xf32>
    StableHlo.TRef.unary (.of main_call3_cst : StableHlo.TRef sig ⟨S_, .f32⟩) (.of main_call3_call0_v6 : StableHlo.TRef sig ⟨S_, .f32⟩) id,  -- @selu>@elu %6 = stablehlo.convert %arg1 : tensor<f32>
    StableHlo.TRef.unary (.of main_call3_call0_v6 : StableHlo.TRef sig ⟨S_, .f32⟩) (.of main_call3_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call3_call0_v7 : StableHlo.TRef sig ⟨S6144x10, .f32⟩) (.of main_call3_call0_v5 : StableHlo.TRef sig ⟨S6144x10, .f32⟩) (.of main_call3_call0_v8 : StableHlo.TRef sig ⟨S6144x10, .f32⟩) mulf,  -- @selu>@elu %8 = stablehlo.multiply %7, %5 : tensor<6144x10xf32>
    StableHlo.TRef.ternary (.of main_call3_call0_v1 : StableHlo.TRef sig ⟨S6144x10, .i1⟩) (.of main_v133 : StableHlo.TRef sig ⟨S6144x10, .f32⟩) (.of main_call3_call0_v8 : StableHlo.TRef sig ⟨S6144x10, .f32⟩) (.of main_call3_v0 : StableHlo.TRef sig ⟨S6144x10, .f32⟩) select,  -- @selu>@elu>@where_1 %0 = stablehlo.select %arg0, %arg1, %arg2 : tensor<6144x10xi1>, tensor<6144x10xf32>
    StableHlo.TRef.nullary (.of main_call3_cst_0 : StableHlo.TRef sig ⟨S_, .f32⟩) (constant S_ .f32 0x3F867D5F#32),  -- @selu %cst_0 = stablehlo.constant dense<1.05070102> : tensor<f32>
    StableHlo.TRef.unary (.of main_call3_cst_0 : StableHlo.TRef sig ⟨S_, .f32⟩) (.of main_call3_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call3_v1 : StableHlo.TRef sig ⟨S6144x10, .f32⟩) (.of main_call3_v0 : StableHlo.TRef sig ⟨S6144x10, .f32⟩) (.of main_v134 : StableHlo.TRef sig ⟨S6144x10, .f32⟩) mulf,  -- @selu %2 = stablehlo.multiply %1, %0 : tensor<6144x10xf32>
    StableHlo.binary main_v129 main_v134 main_v135 (subf : (⟨S6144x10, .f32⟩ : BufTy).Contents (Elt F) → (⟨S6144x10, .f32⟩ : BufTy).Contents (Elt F) → (⟨S6144x10, .f32⟩ : BufTy).Contents (Elt F)),  -- %135 = stablehlo.subtract %129, %134 : tensor<6144x10xf32>
    StableHlo.unary main_v135 main_v136 (broadcastInDim S1x6144x10 ![1, 2] bcast_S6144x10_S1x6144x10_1_2 : (⟨S6144x10, .f32⟩ : BufTy).Contents (Elt F) → (⟨S1x6144x10, .f32⟩ : BufTy).Contents (Elt F)),  -- %136 = stablehlo.broadcast_in_dim %135, dims = [1, 2] : (tensor<6144x10xf32>) -> tensor<1x6144x10xf32>
    StableHlo.binary main_arg1 main_v135 main_v137 ((fun l r => Host.dotGeneral dot_S3x6144x6144_S6144x10_S3x6144x10_2_0_01_1_n_n none l r) : (⟨S3x6144x6144, .f32⟩ : BufTy).Contents (Elt F) → (⟨S6144x10, .f32⟩ : BufTy).Contents (Elt F) → (⟨S3x6144x10, .f32⟩ : BufTy).Contents (Elt F)),  -- %137 = stablehlo.dot_general %arg1, %135, contracting_dims = [2] x [0], precision = [DEFAULT, DEFAULT] : (tensor<3x6144x6144xf32>, tensor<6144x10xf32>) -> tensor<3x6144x10xf32>
    StableHlo.unary main_v136 main_v138 (broadcastInDim S3x6144x10 ![0, 1, 2] bcast_S1x6144x10_S3x6144x10_0_1_2 : (⟨S1x6144x10, .f32⟩ : BufTy).Contents (Elt F) → (⟨S3x6144x10, .f32⟩ : BufTy).Contents (Elt F)),  -- %138 = stablehlo.broadcast_in_dim %136, dims = [0, 1, 2] : (tensor<1x6144x10xf32>) -> tensor<3x6144x10xf32>
    StableHlo.binary main_v138 main_v137 main_v139 (subf : (⟨S3x6144x10, .f32⟩ : BufTy).Contents (Elt F) → (⟨S3x6144x10, .f32⟩ : BufTy).Contents (Elt F) → (⟨S3x6144x10, .f32⟩ : BufTy).Contents (Elt F)),  -- %139 = stablehlo.subtract %138, %137 : tensor<3x6144x10xf32>
    StableHlo.binary main_v139 main_v0 main_v140 (addf : (⟨S3x6144x10, .f32⟩ : BufTy).Contents (Elt F) → (⟨S3x6144x10, .f32⟩ : BufTy).Contents (Elt F) → (⟨S3x6144x10, .f32⟩ : BufTy).Contents (Elt F)),  -- %140 = stablehlo.add %139, %0 : tensor<3x6144x10xf32>
    StableHlo.TRef.nullary (.of main_call4_cst : StableHlo.TRef sig ⟨S_, .f32⟩) (constant S_ .f32 0x00000000#32),  -- @softplus %cst = stablehlo.constant dense<0.000000e+00> : tensor<f32>
    StableHlo.TRef.unary (.of main_call4_cst : StableHlo.TRef sig ⟨S_, .f32⟩) (.of main_call4_v0 : StableHlo.TRef sig ⟨S3x6144x10, .f32⟩) (broadcastInDim S3x6144x10 ![] bcast_S_S3x6144x10),  -- @softplus %0 = stablehlo.broadcast_in_dim %cst, dims = [] : (tensor<f32>) -> tensor<3x6144x10xf32>
    StableHlo.TRef.binary (.of main_v140 : StableHlo.TRef sig ⟨S3x6144x10, .f32⟩) (.of main_call4_v0 : StableHlo.TRef sig ⟨S3x6144x10, .f32⟩) (.of main_call4_v1 : StableHlo.TRef sig ⟨S3x6144x10, .f32⟩) maximumf,  -- @softplus %1 = stablehlo.maximum %arg0, %0 : tensor<3x6144x10xf32>
    StableHlo.TRef.unary (.of main_call4_cst : StableHlo.TRef sig ⟨S_, .f32⟩) (.of main_call4_v2 : StableHlo.TRef sig ⟨S3x6144x10, .f32⟩) (broadcastInDim S3x6144x10 ![] bcast_S_S3x6144x10),  -- @softplus %2 = stablehlo.broadcast_in_dim %cst, dims = [] : (tensor<f32>) -> tensor<3x6144x10xf32>
    StableHlo.TRef.binary (.of main_v140 : StableHlo.TRef sig ⟨S3x6144x10, .f32⟩) (.of main_call4_v2 : StableHlo.TRef sig ⟨S3x6144x10, .f32⟩) (.of main_call4_v3 : StableHlo.TRef sig ⟨S3x6144x10, .f32⟩) subf,  -- @softplus %3 = stablehlo.subtract %arg0, %2 : tensor<3x6144x10xf32>
    StableHlo.TRef.binary (.of main_call4_v3 : StableHlo.TRef sig ⟨S3x6144x10, .f32⟩) (.of main_call4_v3 : StableHlo.TRef sig ⟨S3x6144x10, .f32⟩) (.of main_call4_v4 : StableHlo.TRef sig ⟨S3x6144x10, .i1⟩) (cmpf .une),  -- @softplus %4 = stablehlo.compare NE, %3, %3, FLOAT : (tensor<3x6144x10xf32>, tensor<3x6144x10xf32>) -> tensor<3x6144x10xi1>
    StableHlo.TRef.unary (.of main_call4_cst : StableHlo.TRef sig ⟨S_, .f32⟩) (.of main_call4_v5 : StableHlo.TRef sig ⟨S3x6144x10, .f32⟩) (broadcastInDim S3x6144x10 ![] bcast_S_S3x6144x10),  -- @softplus %5 = stablehlo.broadcast_in_dim %cst, dims = [] : (tensor<f32>) -> tensor<3x6144x10xf32>
    StableHlo.TRef.binary (.of main_v140 : StableHlo.TRef sig ⟨S3x6144x10, .f32⟩) (.of main_call4_v5 : StableHlo.TRef sig ⟨S3x6144x10, .f32⟩) (.of main_call4_v6 : StableHlo.TRef sig ⟨S3x6144x10, .f32⟩) addf,  -- @softplus %6 = stablehlo.add %arg0, %5 : tensor<3x6144x10xf32>
    StableHlo.TRef.unary (.of main_call4_v3 : StableHlo.TRef sig ⟨S3x6144x10, .f32⟩) (.of main_call4_v7 : StableHlo.TRef sig ⟨S3x6144x10, .f32⟩) Host.absf,  -- @softplus %7 = stablehlo.abs %3 : tensor<3x6144x10xf32>
    StableHlo.TRef.unary (.of main_call4_v7 : StableHlo.TRef sig ⟨S3x6144x10, .f32⟩) (.of main_call4_v8 : StableHlo.TRef sig ⟨S3x6144x10, .f32⟩) Host.negf,  -- @softplus %8 = stablehlo.negate %7 : tensor<3x6144x10xf32>
    StableHlo.TRef.unary (.of main_call4_v8 : StableHlo.TRef sig ⟨S3x6144x10, .f32⟩) (.of main_call4_v9 : StableHlo.TRef sig ⟨S3x6144x10, .f32⟩) Host.exp,  -- @softplus %9 = stablehlo.exponential %8 : tensor<3x6144x10xf32>
    StableHlo.TRef.unary (.of main_call4_v9 : StableHlo.TRef sig ⟨S3x6144x10, .f32⟩) (.of main_call4_v10 : StableHlo.TRef sig ⟨S3x6144x10, .f32⟩) Host.log1p,  -- @softplus %10 = stablehlo.log_plus_one %9 : tensor<3x6144x10xf32>
    StableHlo.TRef.binary (.of main_call4_v1 : StableHlo.TRef sig ⟨S3x6144x10, .f32⟩) (.of main_call4_v10 : StableHlo.TRef sig ⟨S3x6144x10, .f32⟩) (.of main_call4_v11 : StableHlo.TRef sig ⟨S3x6144x10, .f32⟩) addf,  -- @softplus %11 = stablehlo.add %1, %10 : tensor<3x6144x10xf32>
    StableHlo.TRef.ternary (.of main_call4_v4 : StableHlo.TRef sig ⟨S3x6144x10, .i1⟩) (.of main_call4_v6 : StableHlo.TRef sig ⟨S3x6144x10, .f32⟩) (.of main_call4_v11 : StableHlo.TRef sig ⟨S3x6144x10, .f32⟩) (.of main_v141 : StableHlo.TRef sig ⟨S3x6144x10, .f32⟩) select,  -- @softplus %12 = stablehlo.select %4, %6, %11 : tensor<3x6144x10xi1>, tensor<3x6144x10xf32>
    StableHlo.nullary main_cst_29 (constant S_ .f32 0x3F800000#32),  -- %cst_29 = stablehlo.constant dense<1.000000e+00> : tensor<f32>
    StableHlo.unary main_cst_29 main_v142 (broadcastInDim S3x6144x10 ![] bcast_S_S3x6144x10 : (⟨S_, .f32⟩ : BufTy).Contents (Elt F) → (⟨S3x6144x10, .f32⟩ : BufTy).Contents (Elt F)),  -- %142 = stablehlo.broadcast_in_dim %cst_29, dims = [] : (tensor<f32>) -> tensor<3x6144x10xf32>
    StableHlo.binary main_v141 main_v142 main_v143 (addf : (⟨S3x6144x10, .f32⟩ : BufTy).Contents (Elt F) → (⟨S3x6144x10, .f32⟩ : BufTy).Contents (Elt F) → (⟨S3x6144x10, .f32⟩ : BufTy).Contents (Elt F)),  -- %143 = stablehlo.add %141, %142 : tensor<3x6144x10xf32>
    StableHlo.unary main_v143 main_v144 ((extractStridedSlice S1x6144x10 ![0, 0, 0] · slices_S3x6144x10_S1x6144x10_0_0_0) : (⟨S3x6144x10, .f32⟩ : BufTy).Contents (Elt F) → (⟨S1x6144x10, .f32⟩ : BufTy).Contents (Elt F)),  -- %144 = stablehlo.slice %143 [0:1, 0:6144, 0:10] : (tensor<3x6144x10xf32>) -> tensor<1x6144x10xf32>
    StableHlo.reshape main_v144 main_v145 rfl shapeCasts_S1x6144x10_S6144x10,  -- %145 = stablehlo.reshape %144 : (tensor<1x6144x10xf32>) -> tensor<6144x10xf32>
    StableHlo.unary main_v143 main_v146 ((extractStridedSlice S1x6144x10 ![1, 0, 0] · slices_S3x6144x10_S1x6144x10_1_0_0) : (⟨S3x6144x10, .f32⟩ : BufTy).Contents (Elt F) → (⟨S1x6144x10, .f32⟩ : BufTy).Contents (Elt F)),  -- %146 = stablehlo.slice %143 [1:2, 0:6144, 0:10] : (tensor<3x6144x10xf32>) -> tensor<1x6144x10xf32>
    StableHlo.reshape main_v146 main_v147 rfl shapeCasts_S1x6144x10_S6144x10 ]  -- %147 = stablehlo.reshape %146 : (tensor<1x6144x10xf32>) -> tensor<6144x10xf32>

/-- The operations of @main's window 3 (60), its calls unfolded. -/
abbrev win3 : List (HloOp τ sig (Elt F)) :=
  [ StableHlo.unary main_v143 main_v148 ((extractStridedSlice S1x6144x10 ![2, 0, 0] · slices_S3x6144x10_S1x6144x10_2_0_0) : (⟨S3x6144x10, .f32⟩ : BufTy).Contents (Elt F) → (⟨S1x6144x10, .f32⟩ : BufTy).Contents (Elt F)),  -- %148 = stablehlo.slice %143 [2:3, 0:6144, 0:10] : (tensor<3x6144x10xf32>) -> tensor<1x6144x10xf32>
    StableHlo.reshape main_v148 main_v149 rfl shapeCasts_S1x6144x10_S6144x10,  -- %149 = stablehlo.reshape %148 : (tensor<1x6144x10xf32>) -> tensor<6144x10xf32>
    StableHlo.nullary main_cst_30 (constant S_ .f32 0x00000000#32),  -- %cst_30 = stablehlo.constant dense<0.000000e+00> : tensor<f32>
    StableHlo.binary main_v145 main_cst_30 main_v150 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %150 = stablehlo.reduce(%145 init: %cst_30) applies stablehlo.add across dimensions = [1] : (tensor<6144x10xf32>, tensor<f32>) -> tensor<6144xf32> {
    StableHlo.unary main_v150 main_v151 (broadcastInDim S6144x1 ![0] bcast_S6144_S6144x1_0 : (⟨S6144, .f32⟩ : BufTy).Contents (Elt F) → (⟨S6144x1, .f32⟩ : BufTy).Contents (Elt F)),  -- %151 = stablehlo.broadcast_in_dim %150, dims = [0] : (tensor<6144xf32>) -> tensor<6144x1xf32>
    StableHlo.nullary main_cst_31 (constant S_ .f32 0x00000000#32),  -- %cst_31 = stablehlo.constant dense<0.000000e+00> : tensor<f32>
    StableHlo.binary main_v147 main_cst_31 main_v152 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %152 = stablehlo.reduce(%147 init: %cst_31) applies stablehlo.add across dimensions = [1] : (tensor<6144x10xf32>, tensor<f32>) -> tensor<6144xf32> {
    StableHlo.unary main_v152 main_v153 (broadcastInDim S6144x1 ![0] bcast_S6144_S6144x1_0 : (⟨S6144, .f32⟩ : BufTy).Contents (Elt F) → (⟨S6144x1, .f32⟩ : BufTy).Contents (Elt F)),  -- %153 = stablehlo.broadcast_in_dim %152, dims = [0] : (tensor<6144xf32>) -> tensor<6144x1xf32>
    StableHlo.nullary main_cst_32 (constant S_ .f32 0x3F800000#32),  -- %cst_32 = stablehlo.constant dense<1.000000e+00> : tensor<f32>
    StableHlo.unary main_cst_32 main_v154 (broadcastInDim S6144x10 ![] bcast_S_S6144x10 : (⟨S_, .f32⟩ : BufTy).Contents (Elt F) → (⟨S6144x10, .f32⟩ : BufTy).Contents (Elt F)),  -- %154 = stablehlo.broadcast_in_dim %cst_32, dims = [] : (tensor<f32>) -> tensor<6144x10xf32>
    StableHlo.binary main_v145 main_v154 main_v155 (subf : (⟨S6144x10, .f32⟩ : BufTy).Contents (Elt F) → (⟨S6144x10, .f32⟩ : BufTy).Contents (Elt F) → (⟨S6144x10, .f32⟩ : BufTy).Contents (Elt F)),  -- %155 = stablehlo.subtract %145, %154 : tensor<6144x10xf32>
    StableHlo.unary main_v151 main_v156 (broadcastInDim S6144x10 ![0, 1] bcast_S6144x1_S6144x10_0_1 : (⟨S6144x1, .f32⟩ : BufTy).Contents (Elt F) → (⟨S6144x10, .f32⟩ : BufTy).Contents (Elt F)),  -- %156 = stablehlo.broadcast_in_dim %151, dims = [0, 1] : (tensor<6144x1xf32>) -> tensor<6144x10xf32>
    StableHlo.binary main_v155 main_v156 main_v157 (Host.divf : (⟨S6144x10, .f32⟩ : BufTy).Contents (Elt F) → (⟨S6144x10, .f32⟩ : BufTy).Contents (Elt F) → (⟨S6144x10, .f32⟩ : BufTy).Contents (Elt F)),  -- %157 = stablehlo.divide %155, %156 : tensor<6144x10xf32>
    StableHlo.nullary main_cst_33 (constant S_ .f32 0x3F800000#32),  -- %cst_33 = stablehlo.constant dense<1.000000e+00> : tensor<f32>
    StableHlo.unary main_cst_33 main_v158 (broadcastInDim S6144x10 ![] bcast_S_S6144x10 : (⟨S_, .f32⟩ : BufTy).Contents (Elt F) → (⟨S6144x10, .f32⟩ : BufTy).Contents (Elt F)),  -- %158 = stablehlo.broadcast_in_dim %cst_33, dims = [] : (tensor<f32>) -> tensor<6144x10xf32>
    StableHlo.binary main_v147 main_v158 main_v159 (subf : (⟨S6144x10, .f32⟩ : BufTy).Contents (Elt F) → (⟨S6144x10, .f32⟩ : BufTy).Contents (Elt F) → (⟨S6144x10, .f32⟩ : BufTy).Contents (Elt F)),  -- %159 = stablehlo.subtract %147, %158 : tensor<6144x10xf32>
    StableHlo.unary main_v153 main_v160 (broadcastInDim S6144x10 ![0, 1] bcast_S6144x1_S6144x10_0_1 : (⟨S6144x1, .f32⟩ : BufTy).Contents (Elt F) → (⟨S6144x10, .f32⟩ : BufTy).Contents (Elt F)),  -- %160 = stablehlo.broadcast_in_dim %153, dims = [0, 1] : (tensor<6144x1xf32>) -> tensor<6144x10xf32>
    StableHlo.binary main_v159 main_v160 main_v161 (Host.divf : (⟨S6144x10, .f32⟩ : BufTy).Contents (Elt F) → (⟨S6144x10, .f32⟩ : BufTy).Contents (Elt F) → (⟨S6144x10, .f32⟩ : BufTy).Contents (Elt F)),  -- %161 = stablehlo.divide %159, %160 : tensor<6144x10xf32>
    StableHlo.nullary main_cst_34 (constant S_ .f32 0x41200000#32),  -- %cst_34 = stablehlo.constant dense<1.000000e+01> : tensor<f32>
    StableHlo.unary main_cst_34 main_v162 (broadcastInDim S6144x1 ![] bcast_S_S6144x1 : (⟨S_, .f32⟩ : BufTy).Contents (Elt F) → (⟨S6144x1, .f32⟩ : BufTy).Contents (Elt F)),  -- %162 = stablehlo.broadcast_in_dim %cst_34, dims = [] : (tensor<f32>) -> tensor<6144x1xf32>
    StableHlo.binary main_v162 main_v151 main_v163 (Host.divf : (⟨S6144x1, .f32⟩ : BufTy).Contents (Elt F) → (⟨S6144x1, .f32⟩ : BufTy).Contents (Elt F) → (⟨S6144x1, .f32⟩ : BufTy).Contents (Elt F)),  -- %163 = stablehlo.divide %162, %151 : tensor<6144x1xf32>
    StableHlo.nullary main_cst_35 (constant S_ .f32 0x41200000#32),  -- %cst_35 = stablehlo.constant dense<1.000000e+01> : tensor<f32>
    StableHlo.unary main_cst_35 main_v164 (broadcastInDim S6144x1 ![] bcast_S_S6144x1 : (⟨S_, .f32⟩ : BufTy).Contents (Elt F) → (⟨S6144x1, .f32⟩ : BufTy).Contents (Elt F)),  -- %164 = stablehlo.broadcast_in_dim %cst_35, dims = [] : (tensor<f32>) -> tensor<6144x1xf32>
    StableHlo.binary main_v164 main_v153 main_v165 (Host.divf : (⟨S6144x1, .f32⟩ : BufTy).Contents (Elt F) → (⟨S6144x1, .f32⟩ : BufTy).Contents (Elt F) → (⟨S6144x1, .f32⟩ : BufTy).Contents (Elt F)),  -- %165 = stablehlo.divide %164, %153 : tensor<6144x1xf32>
    StableHlo.nullary main_cst_36 (constant S_ .f32 0x00000000#32),  -- %cst_36 = stablehlo.constant dense<0.000000e+00> : tensor<f32>
    StableHlo.binary main_v157 main_cst_36 main_v166 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %166 = stablehlo.reduce(%157 init: %cst_36) applies stablehlo.add across dimensions = [1] : (tensor<6144x10xf32>, tensor<f32>) -> tensor<6144xf32> {
    StableHlo.unary main_v166 main_v167 (broadcastInDim S6144x1 ![0] bcast_S6144_S6144x1_0 : (⟨S6144, .f32⟩ : BufTy).Contents (Elt F) → (⟨S6144x1, .f32⟩ : BufTy).Contents (Elt F)),  -- %167 = stablehlo.broadcast_in_dim %166, dims = [0] : (tensor<6144xf32>) -> tensor<6144x1xf32>
    StableHlo.nullary main_cst_37 (constant S_ .f32 0x00000000#32),  -- %cst_37 = stablehlo.constant dense<0.000000e+00> : tensor<f32>
    StableHlo.binary main_v161 main_cst_37 main_v168 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %168 = stablehlo.reduce(%161 init: %cst_37) applies stablehlo.add across dimensions = [1] : (tensor<6144x10xf32>, tensor<f32>) -> tensor<6144xf32> {
    StableHlo.unary main_v168 main_v169 (broadcastInDim S6144x1 ![0] bcast_S6144_S6144x1_0 : (⟨S6144, .f32⟩ : BufTy).Contents (Elt F) → (⟨S6144x1, .f32⟩ : BufTy).Contents (Elt F)),  -- %169 = stablehlo.broadcast_in_dim %168, dims = [0] : (tensor<6144xf32>) -> tensor<6144x1xf32>
    StableHlo.binary main_v167 main_v169 main_v170 (mulf : (⟨S6144x1, .f32⟩ : BufTy).Contents (Elt F) → (⟨S6144x1, .f32⟩ : BufTy).Contents (Elt F) → (⟨S6144x1, .f32⟩ : BufTy).Contents (Elt F)),  -- %170 = stablehlo.multiply %167, %169 : tensor<6144x1xf32>
    StableHlo.binary main_v157 main_v161 main_v171 (mulf : (⟨S6144x10, .f32⟩ : BufTy).Contents (Elt F) → (⟨S6144x10, .f32⟩ : BufTy).Contents (Elt F) → (⟨S6144x10, .f32⟩ : BufTy).Contents (Elt F)),  -- %171 = stablehlo.multiply %157, %161 : tensor<6144x10xf32>
    StableHlo.nullary main_cst_38 (constant S_ .f32 0x00000000#32),  -- %cst_38 = stablehlo.constant dense<0.000000e+00> : tensor<f32>
    StableHlo.binary main_v171 main_cst_38 main_v172 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %172 = stablehlo.reduce(%171 init: %cst_38) applies stablehlo.add across dimensions = [1] : (tensor<6144x10xf32>, tensor<f32>) -> tensor<6144xf32> {
    StableHlo.unary main_v172 main_v173 (broadcastInDim S6144x1 ![0] bcast_S6144_S6144x1_0 : (⟨S6144, .f32⟩ : BufTy).Contents (Elt F) → (⟨S6144x1, .f32⟩ : BufTy).Contents (Elt F)),  -- %173 = stablehlo.broadcast_in_dim %172, dims = [0] : (tensor<6144xf32>) -> tensor<6144x1xf32>
    StableHlo.binary main_v170 main_v173 main_v174 (subf : (⟨S6144x1, .f32⟩ : BufTy).Contents (Elt F) → (⟨S6144x1, .f32⟩ : BufTy).Contents (Elt F) → (⟨S6144x1, .f32⟩ : BufTy).Contents (Elt F)),  -- %174 = stablehlo.subtract %170, %173 : tensor<6144x1xf32>
    StableHlo.binary main_v157 main_v161 main_v175 (mulf : (⟨S6144x10, .f32⟩ : BufTy).Contents (Elt F) → (⟨S6144x10, .f32⟩ : BufTy).Contents (Elt F) → (⟨S6144x10, .f32⟩ : BufTy).Contents (Elt F)),  -- %175 = stablehlo.multiply %157, %161 : tensor<6144x10xf32>
    StableHlo.unary main_v165 main_v176 (broadcastInDim S6144x10 ![0, 1] bcast_S6144x1_S6144x10_0_1 : (⟨S6144x1, .f32⟩ : BufTy).Contents (Elt F) → (⟨S6144x10, .f32⟩ : BufTy).Contents (Elt F)),  -- %176 = stablehlo.broadcast_in_dim %165, dims = [0, 1] : (tensor<6144x1xf32>) -> tensor<6144x10xf32>
    StableHlo.binary main_v157 main_v176 main_v177 (mulf : (⟨S6144x10, .f32⟩ : BufTy).Contents (Elt F) → (⟨S6144x10, .f32⟩ : BufTy).Contents (Elt F) → (⟨S6144x10, .f32⟩ : BufTy).Contents (Elt F)),  -- %177 = stablehlo.multiply %157, %176 : tensor<6144x10xf32>
    StableHlo.binary main_v175 main_v177 main_v178 (addf : (⟨S6144x10, .f32⟩ : BufTy).Contents (Elt F) → (⟨S6144x10, .f32⟩ : BufTy).Contents (Elt F) → (⟨S6144x10, .f32⟩ : BufTy).Contents (Elt F)),  -- %178 = stablehlo.add %175, %177 : tensor<6144x10xf32>
    StableHlo.unary main_v163 main_v179 (broadcastInDim S6144x10 ![0, 1] bcast_S6144x1_S6144x10_0_1 : (⟨S6144x1, .f32⟩ : BufTy).Contents (Elt F) → (⟨S6144x10, .f32⟩ : BufTy).Contents (Elt F)),  -- %179 = stablehlo.broadcast_in_dim %163, dims = [0, 1] : (tensor<6144x1xf32>) -> tensor<6144x10xf32>
    StableHlo.binary main_v161 main_v179 main_v180 (mulf : (⟨S6144x10, .f32⟩ : BufTy).Contents (Elt F) → (⟨S6144x10, .f32⟩ : BufTy).Contents (Elt F) → (⟨S6144x10, .f32⟩ : BufTy).Contents (Elt F)),  -- %180 = stablehlo.multiply %161, %179 : tensor<6144x10xf32>
    StableHlo.binary main_v178 main_v180 main_v181 (addf : (⟨S6144x10, .f32⟩ : BufTy).Contents (Elt F) → (⟨S6144x10, .f32⟩ : BufTy).Contents (Elt F) → (⟨S6144x10, .f32⟩ : BufTy).Contents (Elt F)),  -- %181 = stablehlo.add %178, %180 : tensor<6144x10xf32>
    StableHlo.nullary main_cst_39 (constant S_ .f32 0x3F800000#32),  -- %cst_39 = stablehlo.constant dense<1.000000e+00> : tensor<f32>
    StableHlo.unary main_cst_39 main_v182 (broadcastInDim S6144x1 ![] bcast_S_S6144x1 : (⟨S_, .f32⟩ : BufTy).Contents (Elt F) → (⟨S6144x1, .f32⟩ : BufTy).Contents (Elt F)),  -- %182 = stablehlo.broadcast_in_dim %cst_39, dims = [] : (tensor<f32>) -> tensor<6144x1xf32>
    StableHlo.binary main_v182 main_v174 main_v183 (subf : (⟨S6144x1, .f32⟩ : BufTy).Contents (Elt F) → (⟨S6144x1, .f32⟩ : BufTy).Contents (Elt F) → (⟨S6144x1, .f32⟩ : BufTy).Contents (Elt F)),  -- %183 = stablehlo.subtract %182, %174 : tensor<6144x1xf32>
    StableHlo.unary main_v183 main_v184 (broadcastInDim S6144x10 ![0, 1] bcast_S6144x1_S6144x10_0_1 : (⟨S6144x1, .f32⟩ : BufTy).Contents (Elt F) → (⟨S6144x10, .f32⟩ : BufTy).Contents (Elt F)),  -- %184 = stablehlo.broadcast_in_dim %183, dims = [0, 1] : (tensor<6144x1xf32>) -> tensor<6144x10xf32>
    StableHlo.binary main_v181 main_v184 main_v185 (Host.divf : (⟨S6144x10, .f32⟩ : BufTy).Contents (Elt F) → (⟨S6144x10, .f32⟩ : BufTy).Contents (Elt F) → (⟨S6144x10, .f32⟩ : BufTy).Contents (Elt F)),  -- %185 = stablehlo.divide %181, %184 : tensor<6144x10xf32>
    StableHlo.binary main_v163 main_v165 main_v186 (mulf : (⟨S6144x1, .f32⟩ : BufTy).Contents (Elt F) → (⟨S6144x1, .f32⟩ : BufTy).Contents (Elt F) → (⟨S6144x1, .f32⟩ : BufTy).Contents (Elt F)),  -- %186 = stablehlo.multiply %163, %165 : tensor<6144x1xf32>
    StableHlo.nullary main_cst_40 (constant S_ .f32 0x3F800000#32),  -- %cst_40 = stablehlo.constant dense<1.000000e+00> : tensor<f32>
    StableHlo.unary main_cst_40 main_v187 (broadcastInDim S6144x1 ![] bcast_S_S6144x1 : (⟨S_, .f32⟩ : BufTy).Contents (Elt F) → (⟨S6144x1, .f32⟩ : BufTy).Contents (Elt F)),  -- %187 = stablehlo.broadcast_in_dim %cst_40, dims = [] : (tensor<f32>) -> tensor<6144x1xf32>
    StableHlo.binary main_v187 main_v174 main_v188 (subf : (⟨S6144x1, .f32⟩ : BufTy).Contents (Elt F) → (⟨S6144x1, .f32⟩ : BufTy).Contents (Elt F) → (⟨S6144x1, .f32⟩ : BufTy).Contents (Elt F)),  -- %188 = stablehlo.subtract %187, %174 : tensor<6144x1xf32>
    StableHlo.binary main_v186 main_v188 main_v189 (Host.divf : (⟨S6144x1, .f32⟩ : BufTy).Contents (Elt F) → (⟨S6144x1, .f32⟩ : BufTy).Contents (Elt F) → (⟨S6144x1, .f32⟩ : BufTy).Contents (Elt F)),  -- %189 = stablehlo.divide %186, %188 : tensor<6144x1xf32>
    StableHlo.nullary main_cst_41 (constant S_ .f32 0x41200000#32),  -- %cst_41 = stablehlo.constant dense<1.000000e+01> : tensor<f32>
    StableHlo.unary main_cst_41 main_v190 (broadcastInDim S6144x1 ![] bcast_S_S6144x1 : (⟨S_, .f32⟩ : BufTy).Contents (Elt F) → (⟨S6144x1, .f32⟩ : BufTy).Contents (Elt F)),  -- %190 = stablehlo.broadcast_in_dim %cst_41, dims = [] : (tensor<f32>) -> tensor<6144x1xf32>
    StableHlo.binary main_v190 main_v189 main_v191 (Host.divf : (⟨S6144x1, .f32⟩ : BufTy).Contents (Elt F) → (⟨S6144x1, .f32⟩ : BufTy).Contents (Elt F) → (⟨S6144x1, .f32⟩ : BufTy).Contents (Elt F)),  -- %191 = stablehlo.divide %190, %189 : tensor<6144x1xf32>
    StableHlo.unary main_v191 main_v192 (broadcastInDim S6144x10 ![0, 1] bcast_S6144x1_S6144x10_0_1 : (⟨S6144x1, .f32⟩ : BufTy).Contents (Elt F) → (⟨S6144x10, .f32⟩ : BufTy).Contents (Elt F)),  -- %192 = stablehlo.broadcast_in_dim %191, dims = [0, 1] : (tensor<6144x1xf32>) -> tensor<6144x10xf32>
    StableHlo.binary main_v185 main_v192 main_v193 (mulf : (⟨S6144x10, .f32⟩ : BufTy).Contents (Elt F) → (⟨S6144x10, .f32⟩ : BufTy).Contents (Elt F) → (⟨S6144x10, .f32⟩ : BufTy).Contents (Elt F)),  -- %193 = stablehlo.multiply %185, %192 : tensor<6144x10xf32>
    StableHlo.nullary main_cst_42 (constant S_ .f32 0x3F800000#32),  -- %cst_42 = stablehlo.constant dense<1.000000e+00> : tensor<f32>
    StableHlo.unary main_cst_42 main_v194 (broadcastInDim S6144x10 ![] bcast_S_S6144x10 : (⟨S_, .f32⟩ : BufTy).Contents (Elt F) → (⟨S6144x10, .f32⟩ : BufTy).Contents (Elt F)) ]  -- %194 = stablehlo.broadcast_in_dim %cst_42, dims = [] : (tensor<f32>) -> tensor<6144x10xf32>

/-- The operations of @main's window 4 (60), its calls unfolded. -/
abbrev win4 : List (HloOp τ sig (Elt F)) :=
  [ StableHlo.binary main_v193 main_v194 main_v195 (addf : (⟨S6144x10, .f32⟩ : BufTy).Contents (Elt F) → (⟨S6144x10, .f32⟩ : BufTy).Contents (Elt F) → (⟨S6144x10, .f32⟩ : BufTy).Contents (Elt F)),  -- %195 = stablehlo.add %193, %194 : tensor<6144x10xf32>
    StableHlo.nullary main_cst_43 (constant S_ .f32 0x00000000#32),  -- %cst_43 = stablehlo.constant dense<0.000000e+00> : tensor<f32>
    StableHlo.binary main_v195 main_cst_43 main_v196 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %196 = stablehlo.reduce(%195 init: %cst_43) applies stablehlo.add across dimensions = [1] : (tensor<6144x10xf32>, tensor<f32>) -> tensor<6144xf32> {
    StableHlo.unary main_v196 main_v197 (broadcastInDim S6144x1 ![0] bcast_S6144_S6144x1_0 : (⟨S6144, .f32⟩ : BufTy).Contents (Elt F) → (⟨S6144x1, .f32⟩ : BufTy).Contents (Elt F)),  -- %197 = stablehlo.broadcast_in_dim %196, dims = [0] : (tensor<6144xf32>) -> tensor<6144x1xf32>
    StableHlo.nullary main_cst_44 (constant S_ .f32 0x00000000#32),  -- %cst_44 = stablehlo.constant dense<0.000000e+00> : tensor<f32>
    StableHlo.binary main_v149 main_cst_44 main_v198 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %198 = stablehlo.reduce(%149 init: %cst_44) applies stablehlo.add across dimensions = [1] : (tensor<6144x10xf32>, tensor<f32>) -> tensor<6144xf32> {
    StableHlo.unary main_v198 main_v199 (broadcastInDim S6144x1 ![0] bcast_S6144_S6144x1_0 : (⟨S6144, .f32⟩ : BufTy).Contents (Elt F) → (⟨S6144x1, .f32⟩ : BufTy).Contents (Elt F)),  -- %199 = stablehlo.broadcast_in_dim %198, dims = [0] : (tensor<6144xf32>) -> tensor<6144x1xf32>
    StableHlo.nullary main_cst_45 (constant S_ .f32 0x3F800000#32),  -- %cst_45 = stablehlo.constant dense<1.000000e+00> : tensor<f32>
    StableHlo.unary main_cst_45 main_v200 (broadcastInDim S6144x10 ![] bcast_S_S6144x10 : (⟨S_, .f32⟩ : BufTy).Contents (Elt F) → (⟨S6144x10, .f32⟩ : BufTy).Contents (Elt F)),  -- %200 = stablehlo.broadcast_in_dim %cst_45, dims = [] : (tensor<f32>) -> tensor<6144x10xf32>
    StableHlo.binary main_v195 main_v200 main_v201 (subf : (⟨S6144x10, .f32⟩ : BufTy).Contents (Elt F) → (⟨S6144x10, .f32⟩ : BufTy).Contents (Elt F) → (⟨S6144x10, .f32⟩ : BufTy).Contents (Elt F)),  -- %201 = stablehlo.subtract %195, %200 : tensor<6144x10xf32>
    StableHlo.unary main_v197 main_v202 (broadcastInDim S6144x10 ![0, 1] bcast_S6144x1_S6144x10_0_1 : (⟨S6144x1, .f32⟩ : BufTy).Contents (Elt F) → (⟨S6144x10, .f32⟩ : BufTy).Contents (Elt F)),  -- %202 = stablehlo.broadcast_in_dim %197, dims = [0, 1] : (tensor<6144x1xf32>) -> tensor<6144x10xf32>
    StableHlo.binary main_v201 main_v202 main_v203 (Host.divf : (⟨S6144x10, .f32⟩ : BufTy).Contents (Elt F) → (⟨S6144x10, .f32⟩ : BufTy).Contents (Elt F) → (⟨S6144x10, .f32⟩ : BufTy).Contents (Elt F)),  -- %203 = stablehlo.divide %201, %202 : tensor<6144x10xf32>
    StableHlo.nullary main_cst_46 (constant S_ .f32 0x3F800000#32),  -- %cst_46 = stablehlo.constant dense<1.000000e+00> : tensor<f32>
    StableHlo.unary main_cst_46 main_v204 (broadcastInDim S6144x10 ![] bcast_S_S6144x10 : (⟨S_, .f32⟩ : BufTy).Contents (Elt F) → (⟨S6144x10, .f32⟩ : BufTy).Contents (Elt F)),  -- %204 = stablehlo.broadcast_in_dim %cst_46, dims = [] : (tensor<f32>) -> tensor<6144x10xf32>
    StableHlo.binary main_v149 main_v204 main_v205 (subf : (⟨S6144x10, .f32⟩ : BufTy).Contents (Elt F) → (⟨S6144x10, .f32⟩ : BufTy).Contents (Elt F) → (⟨S6144x10, .f32⟩ : BufTy).Contents (Elt F)),  -- %205 = stablehlo.subtract %149, %204 : tensor<6144x10xf32>
    StableHlo.unary main_v199 main_v206 (broadcastInDim S6144x10 ![0, 1] bcast_S6144x1_S6144x10_0_1 : (⟨S6144x1, .f32⟩ : BufTy).Contents (Elt F) → (⟨S6144x10, .f32⟩ : BufTy).Contents (Elt F)),  -- %206 = stablehlo.broadcast_in_dim %199, dims = [0, 1] : (tensor<6144x1xf32>) -> tensor<6144x10xf32>
    StableHlo.binary main_v205 main_v206 main_v207 (Host.divf : (⟨S6144x10, .f32⟩ : BufTy).Contents (Elt F) → (⟨S6144x10, .f32⟩ : BufTy).Contents (Elt F) → (⟨S6144x10, .f32⟩ : BufTy).Contents (Elt F)),  -- %207 = stablehlo.divide %205, %206 : tensor<6144x10xf32>
    StableHlo.nullary main_cst_47 (constant S_ .f32 0x41200000#32),  -- %cst_47 = stablehlo.constant dense<1.000000e+01> : tensor<f32>
    StableHlo.unary main_cst_47 main_v208 (broadcastInDim S6144x1 ![] bcast_S_S6144x1 : (⟨S_, .f32⟩ : BufTy).Contents (Elt F) → (⟨S6144x1, .f32⟩ : BufTy).Contents (Elt F)),  -- %208 = stablehlo.broadcast_in_dim %cst_47, dims = [] : (tensor<f32>) -> tensor<6144x1xf32>
    StableHlo.binary main_v208 main_v197 main_v209 (Host.divf : (⟨S6144x1, .f32⟩ : BufTy).Contents (Elt F) → (⟨S6144x1, .f32⟩ : BufTy).Contents (Elt F) → (⟨S6144x1, .f32⟩ : BufTy).Contents (Elt F)),  -- %209 = stablehlo.divide %208, %197 : tensor<6144x1xf32>
    StableHlo.nullary main_cst_48 (constant S_ .f32 0x41200000#32),  -- %cst_48 = stablehlo.constant dense<1.000000e+01> : tensor<f32>
    StableHlo.unary main_cst_48 main_v210 (broadcastInDim S6144x1 ![] bcast_S_S6144x1 : (⟨S_, .f32⟩ : BufTy).Contents (Elt F) → (⟨S6144x1, .f32⟩ : BufTy).Contents (Elt F)),  -- %210 = stablehlo.broadcast_in_dim %cst_48, dims = [] : (tensor<f32>) -> tensor<6144x1xf32>
    StableHlo.binary main_v210 main_v199 main_v211 (Host.divf : (⟨S6144x1, .f32⟩ : BufTy).Contents (Elt F) → (⟨S6144x1, .f32⟩ : BufTy).Contents (Elt F) → (⟨S6144x1, .f32⟩ : BufTy).Contents (Elt F)),  -- %211 = stablehlo.divide %210, %199 : tensor<6144x1xf32>
    StableHlo.nullary main_cst_49 (constant S_ .f32 0x00000000#32),  -- %cst_49 = stablehlo.constant dense<0.000000e+00> : tensor<f32>
    StableHlo.binary main_v203 main_cst_49 main_v212 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %212 = stablehlo.reduce(%203 init: %cst_49) applies stablehlo.add across dimensions = [1] : (tensor<6144x10xf32>, tensor<f32>) -> tensor<6144xf32> {
    StableHlo.unary main_v212 main_v213 (broadcastInDim S6144x1 ![0] bcast_S6144_S6144x1_0 : (⟨S6144, .f32⟩ : BufTy).Contents (Elt F) → (⟨S6144x1, .f32⟩ : BufTy).Contents (Elt F)),  -- %213 = stablehlo.broadcast_in_dim %212, dims = [0] : (tensor<6144xf32>) -> tensor<6144x1xf32>
    StableHlo.nullary main_cst_50 (constant S_ .f32 0x00000000#32),  -- %cst_50 = stablehlo.constant dense<0.000000e+00> : tensor<f32>
    StableHlo.binary main_v207 main_cst_50 main_v214 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %214 = stablehlo.reduce(%207 init: %cst_50) applies stablehlo.add across dimensions = [1] : (tensor<6144x10xf32>, tensor<f32>) -> tensor<6144xf32> {
    StableHlo.unary main_v214 main_v215 (broadcastInDim S6144x1 ![0] bcast_S6144_S6144x1_0 : (⟨S6144, .f32⟩ : BufTy).Contents (Elt F) → (⟨S6144x1, .f32⟩ : BufTy).Contents (Elt F)),  -- %215 = stablehlo.broadcast_in_dim %214, dims = [0] : (tensor<6144xf32>) -> tensor<6144x1xf32>
    StableHlo.binary main_v213 main_v215 main_v216 (mulf : (⟨S6144x1, .f32⟩ : BufTy).Contents (Elt F) → (⟨S6144x1, .f32⟩ : BufTy).Contents (Elt F) → (⟨S6144x1, .f32⟩ : BufTy).Contents (Elt F)),  -- %216 = stablehlo.multiply %213, %215 : tensor<6144x1xf32>
    StableHlo.binary main_v203 main_v207 main_v217 (mulf : (⟨S6144x10, .f32⟩ : BufTy).Contents (Elt F) → (⟨S6144x10, .f32⟩ : BufTy).Contents (Elt F) → (⟨S6144x10, .f32⟩ : BufTy).Contents (Elt F)),  -- %217 = stablehlo.multiply %203, %207 : tensor<6144x10xf32>
    StableHlo.nullary main_cst_51 (constant S_ .f32 0x00000000#32),  -- %cst_51 = stablehlo.constant dense<0.000000e+00> : tensor<f32>
    StableHlo.binary main_v217 main_cst_51 main_v218 ((fun x v => Host.reduceAdd x v reducesTo_S6144x10_S6144_d1 h_S_) : (⟨S6144x10, .f32⟩ : BufTy).Contents (Elt F) → (⟨S_, .f32⟩ : BufTy).Contents (Elt F) → (⟨S6144, .f32⟩ : BufTy).Contents (Elt F)),  -- %218 = stablehlo.reduce(%217 init: %cst_51) applies stablehlo.add across dimensions = [1] : (tensor<6144x10xf32>, tensor<f32>) -> tensor<6144xf32> {
    StableHlo.unary main_v218 main_v219 (broadcastInDim S6144x1 ![0] bcast_S6144_S6144x1_0 : (⟨S6144, .f32⟩ : BufTy).Contents (Elt F) → (⟨S6144x1, .f32⟩ : BufTy).Contents (Elt F)),  -- %219 = stablehlo.broadcast_in_dim %218, dims = [0] : (tensor<6144xf32>) -> tensor<6144x1xf32>
    StableHlo.binary main_v216 main_v219 main_v220 (subf : (⟨S6144x1, .f32⟩ : BufTy).Contents (Elt F) → (⟨S6144x1, .f32⟩ : BufTy).Contents (Elt F) → (⟨S6144x1, .f32⟩ : BufTy).Contents (Elt F)),  -- %220 = stablehlo.subtract %216, %219 : tensor<6144x1xf32>
    StableHlo.binary main_v203 main_v207 main_v221 (mulf : (⟨S6144x10, .f32⟩ : BufTy).Contents (Elt F) → (⟨S6144x10, .f32⟩ : BufTy).Contents (Elt F) → (⟨S6144x10, .f32⟩ : BufTy).Contents (Elt F)),  -- %221 = stablehlo.multiply %203, %207 : tensor<6144x10xf32>
    StableHlo.unary main_v211 main_v222 (broadcastInDim S6144x10 ![0, 1] bcast_S6144x1_S6144x10_0_1 : (⟨S6144x1, .f32⟩ : BufTy).Contents (Elt F) → (⟨S6144x10, .f32⟩ : BufTy).Contents (Elt F)),  -- %222 = stablehlo.broadcast_in_dim %211, dims = [0, 1] : (tensor<6144x1xf32>) -> tensor<6144x10xf32>
    StableHlo.binary main_v203 main_v222 main_v223 (mulf : (⟨S6144x10, .f32⟩ : BufTy).Contents (Elt F) → (⟨S6144x10, .f32⟩ : BufTy).Contents (Elt F) → (⟨S6144x10, .f32⟩ : BufTy).Contents (Elt F)),  -- %223 = stablehlo.multiply %203, %222 : tensor<6144x10xf32>
    StableHlo.binary main_v221 main_v223 main_v224 (addf : (⟨S6144x10, .f32⟩ : BufTy).Contents (Elt F) → (⟨S6144x10, .f32⟩ : BufTy).Contents (Elt F) → (⟨S6144x10, .f32⟩ : BufTy).Contents (Elt F)),  -- %224 = stablehlo.add %221, %223 : tensor<6144x10xf32>
    StableHlo.unary main_v209 main_v225 (broadcastInDim S6144x10 ![0, 1] bcast_S6144x1_S6144x10_0_1 : (⟨S6144x1, .f32⟩ : BufTy).Contents (Elt F) → (⟨S6144x10, .f32⟩ : BufTy).Contents (Elt F)),  -- %225 = stablehlo.broadcast_in_dim %209, dims = [0, 1] : (tensor<6144x1xf32>) -> tensor<6144x10xf32>
    StableHlo.binary main_v207 main_v225 main_v226 (mulf : (⟨S6144x10, .f32⟩ : BufTy).Contents (Elt F) → (⟨S6144x10, .f32⟩ : BufTy).Contents (Elt F) → (⟨S6144x10, .f32⟩ : BufTy).Contents (Elt F)),  -- %226 = stablehlo.multiply %207, %225 : tensor<6144x10xf32>
    StableHlo.binary main_v224 main_v226 main_v227 (addf : (⟨S6144x10, .f32⟩ : BufTy).Contents (Elt F) → (⟨S6144x10, .f32⟩ : BufTy).Contents (Elt F) → (⟨S6144x10, .f32⟩ : BufTy).Contents (Elt F)),  -- %227 = stablehlo.add %224, %226 : tensor<6144x10xf32>
    StableHlo.nullary main_cst_52 (constant S_ .f32 0x3F800000#32),  -- %cst_52 = stablehlo.constant dense<1.000000e+00> : tensor<f32>
    StableHlo.unary main_cst_52 main_v228 (broadcastInDim S6144x1 ![] bcast_S_S6144x1 : (⟨S_, .f32⟩ : BufTy).Contents (Elt F) → (⟨S6144x1, .f32⟩ : BufTy).Contents (Elt F)),  -- %228 = stablehlo.broadcast_in_dim %cst_52, dims = [] : (tensor<f32>) -> tensor<6144x1xf32>
    StableHlo.binary main_v228 main_v220 main_v229 (subf : (⟨S6144x1, .f32⟩ : BufTy).Contents (Elt F) → (⟨S6144x1, .f32⟩ : BufTy).Contents (Elt F) → (⟨S6144x1, .f32⟩ : BufTy).Contents (Elt F)),  -- %229 = stablehlo.subtract %228, %220 : tensor<6144x1xf32>
    StableHlo.unary main_v229 main_v230 (broadcastInDim S6144x10 ![0, 1] bcast_S6144x1_S6144x10_0_1 : (⟨S6144x1, .f32⟩ : BufTy).Contents (Elt F) → (⟨S6144x10, .f32⟩ : BufTy).Contents (Elt F)),  -- %230 = stablehlo.broadcast_in_dim %229, dims = [0, 1] : (tensor<6144x1xf32>) -> tensor<6144x10xf32>
    StableHlo.binary main_v227 main_v230 main_v231 (Host.divf : (⟨S6144x10, .f32⟩ : BufTy).Contents (Elt F) → (⟨S6144x10, .f32⟩ : BufTy).Contents (Elt F) → (⟨S6144x10, .f32⟩ : BufTy).Contents (Elt F)),  -- %231 = stablehlo.divide %227, %230 : tensor<6144x10xf32>
    StableHlo.binary main_v209 main_v211 main_v232 (mulf : (⟨S6144x1, .f32⟩ : BufTy).Contents (Elt F) → (⟨S6144x1, .f32⟩ : BufTy).Contents (Elt F) → (⟨S6144x1, .f32⟩ : BufTy).Contents (Elt F)),  -- %232 = stablehlo.multiply %209, %211 : tensor<6144x1xf32>
    StableHlo.nullary main_cst_53 (constant S_ .f32 0x3F800000#32),  -- %cst_53 = stablehlo.constant dense<1.000000e+00> : tensor<f32>
    StableHlo.unary main_cst_53 main_v233 (broadcastInDim S6144x1 ![] bcast_S_S6144x1 : (⟨S_, .f32⟩ : BufTy).Contents (Elt F) → (⟨S6144x1, .f32⟩ : BufTy).Contents (Elt F)),  -- %233 = stablehlo.broadcast_in_dim %cst_53, dims = [] : (tensor<f32>) -> tensor<6144x1xf32>
    StableHlo.binary main_v233 main_v220 main_v234 (subf : (⟨S6144x1, .f32⟩ : BufTy).Contents (Elt F) → (⟨S6144x1, .f32⟩ : BufTy).Contents (Elt F) → (⟨S6144x1, .f32⟩ : BufTy).Contents (Elt F)),  -- %234 = stablehlo.subtract %233, %220 : tensor<6144x1xf32>
    StableHlo.binary main_v232 main_v234 main_v235 (Host.divf : (⟨S6144x1, .f32⟩ : BufTy).Contents (Elt F) → (⟨S6144x1, .f32⟩ : BufTy).Contents (Elt F) → (⟨S6144x1, .f32⟩ : BufTy).Contents (Elt F)),  -- %235 = stablehlo.divide %232, %234 : tensor<6144x1xf32>
    StableHlo.nullary main_cst_54 (constant S_ .f32 0x41200000#32),  -- %cst_54 = stablehlo.constant dense<1.000000e+01> : tensor<f32>
    StableHlo.unary main_cst_54 main_v236 (broadcastInDim S6144x1 ![] bcast_S_S6144x1 : (⟨S_, .f32⟩ : BufTy).Contents (Elt F) → (⟨S6144x1, .f32⟩ : BufTy).Contents (Elt F)),  -- %236 = stablehlo.broadcast_in_dim %cst_54, dims = [] : (tensor<f32>) -> tensor<6144x1xf32>
    StableHlo.binary main_v236 main_v235 main_v237 (Host.divf : (⟨S6144x1, .f32⟩ : BufTy).Contents (Elt F) → (⟨S6144x1, .f32⟩ : BufTy).Contents (Elt F) → (⟨S6144x1, .f32⟩ : BufTy).Contents (Elt F)),  -- %237 = stablehlo.divide %236, %235 : tensor<6144x1xf32>
    StableHlo.unary main_v237 main_v238 (broadcastInDim S6144x10 ![0, 1] bcast_S6144x1_S6144x10_0_1 : (⟨S6144x1, .f32⟩ : BufTy).Contents (Elt F) → (⟨S6144x10, .f32⟩ : BufTy).Contents (Elt F)),  -- %238 = stablehlo.broadcast_in_dim %237, dims = [0, 1] : (tensor<6144x1xf32>) -> tensor<6144x10xf32>
    StableHlo.binary main_v231 main_v238 main_v239 (mulf : (⟨S6144x10, .f32⟩ : BufTy).Contents (Elt F) → (⟨S6144x10, .f32⟩ : BufTy).Contents (Elt F) → (⟨S6144x10, .f32⟩ : BufTy).Contents (Elt F)),  -- %239 = stablehlo.multiply %231, %238 : tensor<6144x10xf32>
    StableHlo.nullary main_cst_55 (constant S_ .f32 0x3F800000#32),  -- %cst_55 = stablehlo.constant dense<1.000000e+00> : tensor<f32>
    StableHlo.unary main_cst_55 main_v240 (broadcastInDim S6144x10 ![] bcast_S_S6144x10 : (⟨S_, .f32⟩ : BufTy).Contents (Elt F) → (⟨S6144x10, .f32⟩ : BufTy).Contents (Elt F)),  -- %240 = stablehlo.broadcast_in_dim %cst_55, dims = [] : (tensor<f32>) -> tensor<6144x10xf32>
    StableHlo.binary main_v239 main_v240 main_v241 (addf : (⟨S6144x10, .f32⟩ : BufTy).Contents (Elt F) → (⟨S6144x10, .f32⟩ : BufTy).Contents (Elt F) → (⟨S6144x10, .f32⟩ : BufTy).Contents (Elt F)) ]  -- %241 = stablehlo.add %239, %240 : tensor<6144x10xf32>

/-- The operations of @main's window 5 (93), its calls unfolded. -/
abbrev win5 : List (HloOp τ sig (Elt F)) :=
  [ StableHlo.nullary main_cst_56 (constant S_ .f32 0x00000000#32),  -- %cst_56 = stablehlo.constant dense<0.000000e+00> : tensor<f32>
    StableHlo.binary main_v241 main_cst_56 main_v242 ((fun x v => Host.reduceAdd x v reducesTo_S6144x10_S10_d0 h_S_) : (⟨S6144x10, .f32⟩ : BufTy).Contents (Elt F) → (⟨S_, .f32⟩ : BufTy).Contents (Elt F) → (⟨S10, .f32⟩ : BufTy).Contents (Elt F)),  -- %242 = stablehlo.reduce(%241 init: %cst_56) applies stablehlo.add across dimensions = [0] : (tensor<6144x10xf32>, tensor<f32>) -> tensor<10xf32> {
    StableHlo.nullary main_cst_57 (constant S_ .f32 0x45C00000#32),  -- %cst_57 = stablehlo.constant dense<6.144000e+03> : tensor<f32>
    StableHlo.unary main_cst_57 main_v243 (broadcastInDim S10 ![] bcast_S_S10 : (⟨S_, .f32⟩ : BufTy).Contents (Elt F) → (⟨S10, .f32⟩ : BufTy).Contents (Elt F)),  -- %243 = stablehlo.broadcast_in_dim %cst_57, dims = [] : (tensor<f32>) -> tensor<10xf32>
    StableHlo.binary main_v242 main_v243 main_v244 (Host.divf : (⟨S10, .f32⟩ : BufTy).Contents (Elt F) → (⟨S10, .f32⟩ : BufTy).Contents (Elt F) → (⟨S10, .f32⟩ : BufTy).Contents (Elt F)),  -- %244 = stablehlo.divide %242, %243 : tensor<10xf32>
    StableHlo.nullary main_c_58 (constantI S_ 32 0#32),  -- %c_58 = stablehlo.constant dense<0> : tensor<i32>
    StableHlo.TRef.nullary (.of main_call5_cst : StableHlo.TRef sig ⟨S_, .f32⟩) (constant S_ .f32 0x00000000#32),  -- @var %cst = stablehlo.constant dense<0.000000e+00> : tensor<f32>
    StableHlo.TRef.binary (.of main_v241 : StableHlo.TRef sig ⟨S6144x10, .f32⟩) (.of main_call5_cst : StableHlo.TRef sig ⟨S_, .f32⟩) (.of main_call5_v0 : StableHlo.TRef sig ⟨S10, .f32⟩) (fun x v => Host.reduceAdd x v reducesTo_S6144x10_S10_d0 h_S_),  -- @var %0 = stablehlo.reduce(%arg0 init: %cst) applies stablehlo.add across dimensions = [0] : (tensor<6144x10xf32>, tensor<f32>) -> tensor<10xf32> {
    StableHlo.TRef.unary (.of main_call5_v0 : StableHlo.TRef sig ⟨S10, .f32⟩) (.of main_call5_v1 : StableHlo.TRef sig ⟨S1x10, .f32⟩) (broadcastInDim S1x10 ![1] bcast_S10_S1x10_1),  -- @var %1 = stablehlo.broadcast_in_dim %0, dims = [1] : (tensor<10xf32>) -> tensor<1x10xf32>
    StableHlo.TRef.nullary (.of main_call5_cst_0 : StableHlo.TRef sig ⟨S_, .f32⟩) (constant S_ .f32 0x45C00000#32),  -- @var %cst_0 = stablehlo.constant dense<6.144000e+03> : tensor<f32>
    StableHlo.TRef.unary (.of main_call5_cst_0 : StableHlo.TRef sig ⟨S_, .f32⟩) (.of main_call5_v2 : StableHlo.TRef sig ⟨S1x10, .f32⟩) (broadcastInDim S1x10 ![] bcast_S_S1x10),  -- @var %2 = stablehlo.broadcast_in_dim %cst_0, dims = [] : (tensor<f32>) -> tensor<1x10xf32>
    StableHlo.TRef.binary (.of main_call5_v1 : StableHlo.TRef sig ⟨S1x10, .f32⟩) (.of main_call5_v2 : StableHlo.TRef sig ⟨S1x10, .f32⟩) (.of main_call5_v3 : StableHlo.TRef sig ⟨S1x10, .f32⟩) Host.divf,  -- @var %3 = stablehlo.divide %1, %2 : tensor<1x10xf32>
    StableHlo.TRef.unary (.of main_call5_v3 : StableHlo.TRef sig ⟨S1x10, .f32⟩) (.of main_call5_v4 : StableHlo.TRef sig ⟨S6144x10, .f32⟩) (broadcastInDim S6144x10 ![0, 1] bcast_S1x10_S6144x10_0_1),  -- @var %4 = stablehlo.broadcast_in_dim %3, dims = [0, 1] : (tensor<1x10xf32>) -> tensor<6144x10xf32>
    StableHlo.TRef.binary (.of main_v241 : StableHlo.TRef sig ⟨S6144x10, .f32⟩) (.of main_call5_v4 : StableHlo.TRef sig ⟨S6144x10, .f32⟩) (.of main_call5_v5 : StableHlo.TRef sig ⟨S6144x10, .f32⟩) subf,  -- @var %5 = stablehlo.subtract %arg0, %4 : tensor<6144x10xf32>
    StableHlo.TRef.binary (.of main_call5_v5 : StableHlo.TRef sig ⟨S6144x10, .f32⟩) (.of main_call5_v5 : StableHlo.TRef sig ⟨S6144x10, .f32⟩) (.of main_call5_v6 : StableHlo.TRef sig ⟨S6144x10, .f32⟩) mulf,  -- @var %6 = chlo.square %5 : tensor<6144x10xf32> -> tensor<6144x10xf32>
    StableHlo.TRef.unary (.of main_c_58 : StableHlo.TRef sig ⟨S_, .i32⟩) (.of main_call5_v7 : StableHlo.TRef sig ⟨S_, .f32⟩) (sitofp .f32),  -- @var %7 = stablehlo.convert %arg1 : (tensor<i32>) -> tensor<f32>
    StableHlo.TRef.nullary (.of main_call5_cst_1 : StableHlo.TRef sig ⟨S_, .f32⟩) (constant S_ .f32 0x45C00000#32),  -- @var %cst_1 = stablehlo.constant dense<6.144000e+03> : tensor<f32>
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,  -- @var %8 = stablehlo.subtract %cst_1, %7 : tensor<f32>
    StableHlo.TRef.nullary (.of main_call5_cst_2 : StableHlo.TRef sig ⟨S_, .f32⟩) (constant S_ .f32 0x00000000#32),  -- @var %cst_2 = stablehlo.constant dense<0.000000e+00> : tensor<f32>
    StableHlo.TRef.binary (.of main_call5_v6 : StableHlo.TRef sig ⟨S6144x10, .f32⟩) (.of main_call5_cst_2 : StableHlo.TRef sig ⟨S_, .f32⟩) (.of main_call5_v9 : StableHlo.TRef sig ⟨S10, .f32⟩) (fun x v => Host.reduceAdd x v reducesTo_S6144x10_S10_d0 h_S_),  -- @var %9 = stablehlo.reduce(%6 init: %cst_2) applies stablehlo.add across dimensions = [0] : (tensor<6144x10xf32>, tensor<f32>) -> tensor<10xf32> {
    StableHlo.TRef.unary (.of main_call5_v8 : StableHlo.TRef sig ⟨S_, .f32⟩) (.of main_call5_v10 : StableHlo.TRef sig ⟨S10, .f32⟩) (broadcastInDim S10 ![] bcast_S_S10),  -- @var %10 = stablehlo.broadcast_in_dim %8, dims = [] : (tensor<f32>) -> tensor<10xf32>
    StableHlo.TRef.binary (.of main_call5_v9 : StableHlo.TRef sig ⟨S10, .f32⟩) (.of main_call5_v10 : StableHlo.TRef sig ⟨S10, .f32⟩) (.of main_call5_v11 : StableHlo.TRef sig ⟨S10, .f32⟩) Host.divf,  -- @var %11 = stablehlo.divide %9, %10 : tensor<10xf32>
    StableHlo.TRef.nullary (.of main_call5_cst_3 : StableHlo.TRef sig ⟨S_, .f32⟩) (constant S_ .f32 0x00000000#32),  -- @var %cst_3 = stablehlo.constant dense<0.000000e+00> : tensor<f32>
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),  -- @var %12 = stablehlo.compare GT, %8, %cst_3, FLOAT : (tensor<f32>, tensor<f32>) -> tensor<i1>
    StableHlo.TRef.nullary (.of main_call5_cst_4 : StableHlo.TRef sig ⟨S_, .f32⟩) (constant S_ .f32 0x7FC00000#32),  -- @var %cst_4 = stablehlo.constant dense<0x7FC00000> : tensor<f32>
    StableHlo.TRef.unary (.of main_call5_cst_4 : StableHlo.TRef sig ⟨S_, .f32⟩) (.of main_call5_call0_v0 : StableHlo.TRef sig ⟨S_, .f32⟩) id,  -- @var>@where %0 = stablehlo.convert %arg2 : tensor<f32>
    StableHlo.TRef.unary (.of main_call5_call0_v0 : StableHlo.TRef sig ⟨S_, .f32⟩) (.of main_call5_call0_v1 : StableHlo.TRef sig ⟨S10, .f32⟩) (broadcastInDim S10 ![] bcast_S_S10),  -- @var>@where %1 = stablehlo.broadcast_in_dim %0, dims = [] : (tensor<f32>) -> tensor<10xf32>
    StableHlo.TRef.ternary (.of main_call5_v12 : StableHlo.TRef sig ⟨S_, .i1⟩) (.of main_call5_v11 : StableHlo.TRef sig ⟨S10, .f32⟩) (.of main_call5_call0_v1 : StableHlo.TRef sig ⟨S10, .f32⟩) (.of main_v245 : StableHlo.TRef sig ⟨S10, .f32⟩) (fun p a b => select (broadcastInDim S10 ![] bcast_S_S10 p) a b),  -- @var>@where %2 = stablehlo.select %arg0, %arg1, %1 : tensor<i1>, tensor<10xf32>
    StableHlo.unary main_v244 main_v246 (broadcastInDim S1x10 ![1] bcast_S10_S1x10_1 : (⟨S10, .f32⟩ : BufTy).Contents (Elt F) → (⟨S1x10, .f32⟩ : BufTy).Contents (Elt F)),  -- %246 = stablehlo.broadcast_in_dim %244, dims = [1] : (tensor<10xf32>) -> tensor<1x10xf32>
    StableHlo.unary main_v246 main_v247 (broadcastInDim S6144x10 ![0, 1] bcast_S1x10_S6144x10_0_1 : (⟨S1x10, .f32⟩ : BufTy).Contents (Elt F) → (⟨S6144x10, .f32⟩ : BufTy).Contents (Elt F)),  -- %247 = stablehlo.broadcast_in_dim %246, dims = [0, 1] : (tensor<1x10xf32>) -> tensor<6144x10xf32>
    StableHlo.binary main_v241 main_v247 main_v248 (subf : (⟨S6144x10, .f32⟩ : BufTy).Contents (Elt F) → (⟨S6144x10, .f32⟩ : BufTy).Contents (Elt F) → (⟨S6144x10, .f32⟩ : BufTy).Contents (Elt F)),  -- %248 = stablehlo.subtract %241, %247 : tensor<6144x10xf32>
    StableHlo.nullary main_cst_59 (constant S_ .f32 0x3727C5AC#32),  -- %cst_59 = stablehlo.constant dense<9.99999974E-6> : tensor<f32>
    StableHlo.unary main_cst_59 main_v249 (broadcastInDim S10 ![] bcast_S_S10 : (⟨S_, .f32⟩ : BufTy).Contents (Elt F) → (⟨S10, .f32⟩ : BufTy).Contents (Elt F)),  -- %249 = stablehlo.broadcast_in_dim %cst_59, dims = [] : (tensor<f32>) -> tensor<10xf32>
    StableHlo.binary main_v245 main_v249 main_v250 (addf : (⟨S10, .f32⟩ : BufTy).Contents (Elt F) → (⟨S10, .f32⟩ : BufTy).Contents (Elt F) → (⟨S10, .f32⟩ : BufTy).Contents (Elt F)),  -- %250 = stablehlo.add %245, %249 : tensor<10xf32>
    StableHlo.unary main_v250 main_v251 (Host.sqrt : (⟨S10, .f32⟩ : BufTy).Contents (Elt F) → (⟨S10, .f32⟩ : BufTy).Contents (Elt F)),  -- %251 = stablehlo.sqrt %250 : tensor<10xf32>
    StableHlo.unary main_v251 main_v252 (broadcastInDim S1x10 ![1] bcast_S10_S1x10_1 : (⟨S10, .f32⟩ : BufTy).Contents (Elt F) → (⟨S1x10, .f32⟩ : BufTy).Contents (Elt F)),  -- %252 = stablehlo.broadcast_in_dim %251, dims = [1] : (tensor<10xf32>) -> tensor<1x10xf32>
    StableHlo.unary main_v252 main_v253 (broadcastInDim S6144x10 ![0, 1] bcast_S1x10_S6144x10_0_1 : (⟨S1x10, .f32⟩ : BufTy).Contents (Elt F) → (⟨S6144x10, .f32⟩ : BufTy).Contents (Elt F)),  -- %253 = stablehlo.broadcast_in_dim %252, dims = [0, 1] : (tensor<1x10xf32>) -> tensor<6144x10xf32>
    StableHlo.binary main_v248 main_v253 main_v254 (Host.divf : (⟨S6144x10, .f32⟩ : BufTy).Contents (Elt F) → (⟨S6144x10, .f32⟩ : BufTy).Contents (Elt F) → (⟨S6144x10, .f32⟩ : BufTy).Contents (Elt F)),  -- %254 = stablehlo.divide %248, %253 : tensor<6144x10xf32>
    StableHlo.unary main_arg5 main_v255 (broadcastInDim S1x10 ![1] bcast_S10_S1x10_1 : (⟨S10, .f32⟩ : BufTy).Contents (Elt F) → (⟨S1x10, .f32⟩ : BufTy).Contents (Elt F)),  -- %255 = stablehlo.broadcast_in_dim %arg5, dims = [1] : (tensor<10xf32>) -> tensor<1x10xf32>
    StableHlo.unary main_v255 main_v256 (broadcastInDim S6144x10 ![0, 1] bcast_S1x10_S6144x10_0_1 : (⟨S1x10, .f32⟩ : BufTy).Contents (Elt F) → (⟨S6144x10, .f32⟩ : BufTy).Contents (Elt F)),  -- %256 = stablehlo.broadcast_in_dim %255, dims = [0, 1] : (tensor<1x10xf32>) -> tensor<6144x10xf32>
    StableHlo.binary main_v254 main_v256 main_v257 (mulf : (⟨S6144x10, .f32⟩ : BufTy).Contents (Elt F) → (⟨S6144x10, .f32⟩ : BufTy).Contents (Elt F) → (⟨S6144x10, .f32⟩ : BufTy).Contents (Elt F)),  -- %257 = stablehlo.multiply %254, %256 : tensor<6144x10xf32>
    StableHlo.unary main_arg6 main_v258 (broadcastInDim S1x10 ![1] bcast_S10_S1x10_1 : (⟨S10, .f32⟩ : BufTy).Contents (Elt F) → (⟨S1x10, .f32⟩ : BufTy).Contents (Elt F)),  -- %258 = stablehlo.broadcast_in_dim %arg6, dims = [1] : (tensor<10xf32>) -> tensor<1x10xf32>
    StableHlo.unary main_v258 main_v259 (broadcastInDim S6144x10 ![0, 1] bcast_S1x10_S6144x10_0_1 : (⟨S1x10, .f32⟩ : BufTy).Contents (Elt F) → (⟨S6144x10, .f32⟩ : BufTy).Contents (Elt F)),  -- %259 = stablehlo.broadcast_in_dim %258, dims = [0, 1] : (tensor<1x10xf32>) -> tensor<6144x10xf32>
    StableHlo.binary main_v257 main_v259 main_v260 (addf : (⟨S6144x10, .f32⟩ : BufTy).Contents (Elt F) → (⟨S6144x10, .f32⟩ : BufTy).Contents (Elt F) → (⟨S6144x10, .f32⟩ : BufTy).Contents (Elt F)),  -- %260 = stablehlo.add %257, %259 : tensor<6144x10xf32>
    StableHlo.unary main_arg4 main_v261 (broadcastInDim S1x1 ![1] bcast_S1_S1x1_1 : (⟨S1, .f32⟩ : BufTy).Contents (Elt F) → (⟨S1x1, .f32⟩ : BufTy).Contents (Elt F)),  -- %261 = stablehlo.broadcast_in_dim %arg4, dims = [1] : (tensor<1xf32>) -> tensor<1x1xf32>
    StableHlo.unary main_v261 main_v262 (broadcastInDim S6144x10 ![0, 1] bcast_S1x1_S6144x10_0_1 : (⟨S1x1, .f32⟩ : BufTy).Contents (Elt F) → (⟨S6144x10, .f32⟩ : BufTy).Contents (Elt F)),  -- %262 = stablehlo.broadcast_in_dim %261, dims = [0, 1] : (tensor<1x1xf32>) -> tensor<6144x10xf32>
    StableHlo.binary main_v260 main_v262 main_v263 (subf : (⟨S6144x10, .f32⟩ : BufTy).Contents (Elt F) → (⟨S6144x10, .f32⟩ : BufTy).Contents (Elt F) → (⟨S6144x10, .f32⟩ : BufTy).Contents (Elt F)),  -- %263 = stablehlo.subtract %260, %262 : tensor<6144x10xf32>
    StableHlo.TRef.nullary (.of main_call6_cst : StableHlo.TRef sig ⟨S_, .f32⟩) (constant S_ .f32 0x3FD62D7D#32),  -- @selu %cst = stablehlo.constant dense<1.67326319> : tensor<f32>
    StableHlo.TRef.nullary (.of main_call6_call0_cst : StableHlo.TRef sig ⟨S_, .f32⟩) (constant S_ .f32 0x00000000#32),  -- @selu>@elu %cst = stablehlo.constant dense<0.000000e+00> : tensor<f32>
    StableHlo.TRef.unary (.of main_call6_call0_cst : StableHlo.TRef sig ⟨S_, .f32⟩) (.of main_call6_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v263 : StableHlo.TRef sig ⟨S6144x10, .f32⟩) (.of main_call6_call0_v0 : StableHlo.TRef sig ⟨S6144x10, .f32⟩) (.of main_call6_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call6_call0_cst_0 : StableHlo.TRef sig ⟨S_, .f32⟩) (constant S_ .f32 0x00000000#32),  -- @selu>@elu %cst_0 = stablehlo.constant dense<0.000000e+00> : tensor<f32>
    StableHlo.TRef.unary (.of main_call6_call0_cst_0 : StableHlo.TRef sig ⟨S_, .f32⟩) (.of main_call6_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v263 : StableHlo.TRef sig ⟨S6144x10, .f32⟩) (.of main_call6_call0_v2 : StableHlo.TRef sig ⟨S6144x10, .f32⟩) (.of main_call6_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call6_call0_cst_1 : StableHlo.TRef sig ⟨S_, .f32⟩) (constant S_ .f32 0x00000000#32),  -- @selu>@elu %cst_1 = stablehlo.constant dense<0.000000e+00> : tensor<f32>
    StableHlo.TRef.unary (.of main_call6_call0_cst_1 : StableHlo.TRef sig ⟨S_, .f32⟩) (.of main_call6_call0_call0_v0 : StableHlo.TRef sig ⟨S_, .f32⟩) id,  -- @selu>@elu>@where_0 %0 = stablehlo.convert %arg1 : tensor<f32>
    StableHlo.TRef.unary (.of main_call6_call0_call0_v0 : StableHlo.TRef sig ⟨S_, .f32⟩) (.of main_call6_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call6_call0_v3 : StableHlo.TRef sig ⟨S6144x10, .i1⟩) (.of main_call6_call0_call0_v1 : StableHlo.TRef sig ⟨S6144x10, .f32⟩) (.of main_v263 : StableHlo.TRef sig ⟨S6144x10, .f32⟩) (.of main_call6_call0_v4 : StableHlo.TRef sig ⟨S6144x10, .f32⟩) select,  -- @selu>@elu>@where_0 %2 = stablehlo.select %arg0, %1, %arg2 : tensor<6144x10xi1>, tensor<6144x10xf32>
    StableHlo.TRef.unary (.of main_call6_call0_v4 : StableHlo.TRef sig ⟨S6144x10, .f32⟩) (.of main_call6_call0_v5 : StableHlo.TRef sig ⟨S6144x10, .f32⟩) Host.expm1,  -- @selu>@elu %5 = stablehlo.exponential_minus_one %4 : tensor<6144x10xf32>
    StableHlo.TRef.unary (.of main_call6_cst : StableHlo.TRef sig ⟨S_, .f32⟩) (.of main_call6_call0_v6 : StableHlo.TRef sig ⟨S_, .f32⟩) id,  -- @selu>@elu %6 = stablehlo.convert %arg1 : tensor<f32>
    StableHlo.TRef.unary (.of main_call6_call0_v6 : StableHlo.TRef sig ⟨S_, .f32⟩) (.of main_call6_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call6_call0_v7 : StableHlo.TRef sig ⟨S6144x10, .f32⟩) (.of main_call6_call0_v5 : StableHlo.TRef sig ⟨S6144x10, .f32⟩) (.of main_call6_call0_v8 : StableHlo.TRef sig ⟨S6144x10, .f32⟩) mulf,  -- @selu>@elu %8 = stablehlo.multiply %7, %5 : tensor<6144x10xf32>
    StableHlo.TRef.ternary (.of main_call6_call0_v1 : StableHlo.TRef sig ⟨S6144x10, .i1⟩) (.of main_v263 : StableHlo.TRef sig ⟨S6144x10, .f32⟩) (.of main_call6_call0_v8 : StableHlo.TRef sig ⟨S6144x10, .f32⟩) (.of main_call6_v0 : StableHlo.TRef sig ⟨S6144x10, .f32⟩) select,  -- @selu>@elu>@where_1 %0 = stablehlo.select %arg0, %arg1, %arg2 : tensor<6144x10xi1>, tensor<6144x10xf32>
    StableHlo.TRef.nullary (.of main_call6_cst_0 : StableHlo.TRef sig ⟨S_, .f32⟩) (constant S_ .f32 0x3F867D5F#32),  -- @selu %cst_0 = stablehlo.constant dense<1.05070102> : tensor<f32>
    StableHlo.TRef.unary (.of main_call6_cst_0 : StableHlo.TRef sig ⟨S_, .f32⟩) (.of main_call6_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call6_v1 : StableHlo.TRef sig ⟨S6144x10, .f32⟩) (.of main_call6_v0 : StableHlo.TRef sig ⟨S6144x10, .f32⟩) (.of main_v264 : StableHlo.TRef sig ⟨S6144x10, .f32⟩) mulf,  -- @selu %2 = stablehlo.multiply %1, %0 : tensor<6144x10xf32>
    StableHlo.unary main_v260 main_v265 (Host.negf : (⟨S6144x10, .f32⟩ : BufTy).Contents (Elt F) → (⟨S6144x10, .f32⟩ : BufTy).Contents (Elt F)),  -- %265 = stablehlo.negate %260 : tensor<6144x10xf32>
    StableHlo.unary main_arg4 main_v266 (broadcastInDim S1x1 ![1] bcast_S1_S1x1_1 : (⟨S1, .f32⟩ : BufTy).Contents (Elt F) → (⟨S1x1, .f32⟩ : BufTy).Contents (Elt F)),  -- %266 = stablehlo.broadcast_in_dim %arg4, dims = [1] : (tensor<1xf32>) -> tensor<1x1xf32>
    StableHlo.unary main_v266 main_v267 (broadcastInDim S6144x10 ![0, 1] bcast_S1x1_S6144x10_0_1 : (⟨S1x1, .f32⟩ : BufTy).Contents (Elt F) → (⟨S6144x10, .f32⟩ : BufTy).Contents (Elt F)),  -- %267 = stablehlo.broadcast_in_dim %266, dims = [0, 1] : (tensor<1x1xf32>) -> tensor<6144x10xf32>
    StableHlo.binary main_v265 main_v267 main_v268 (subf : (⟨S6144x10, .f32⟩ : BufTy).Contents (Elt F) → (⟨S6144x10, .f32⟩ : BufTy).Contents (Elt F) → (⟨S6144x10, .f32⟩ : BufTy).Contents (Elt F)),  -- %268 = stablehlo.subtract %265, %267 : tensor<6144x10xf32>
    StableHlo.TRef.nullary (.of main_call7_cst : StableHlo.TRef sig ⟨S_, .f32⟩) (constant S_ .f32 0x3FD62D7D#32),  -- @selu %cst = stablehlo.constant dense<1.67326319> : tensor<f32>
    StableHlo.TRef.nullary (.of main_call7_call0_cst : StableHlo.TRef sig ⟨S_, .f32⟩) (constant S_ .f32 0x00000000#32),  -- @selu>@elu %cst = stablehlo.constant dense<0.000000e+00> : tensor<f32>
    StableHlo.TRef.unary (.of main_call7_call0_cst : StableHlo.TRef sig ⟨S_, .f32⟩) (.of main_call7_call0_v0 : StableHlo.TRef sig ⟨S6144x10, .f32⟩) (broadcastInDim S6144x10 ![] bcast_S_S6144x10),  -- @selu>@elu %0 = stablehlo.broadcast_in_dim %cst, dims = [] : (tensor<f32>) -> tensor<6144x10xf32>
    StableHlo.TRef.binary (.of main_v268 : StableHlo.TRef sig ⟨S6144x10, .f32⟩) (.of main_call7_call0_v0 : StableHlo.TRef sig ⟨S6144x10, .f32⟩) (.of main_call7_call0_v1 : StableHlo.TRef sig ⟨S6144x10, .i1⟩) (cmpf .ogt),  -- @selu>@elu %1 = stablehlo.compare GT, %arg0, %0, FLOAT : (tensor<6144x10xf32>, tensor<6144x10xf32>) -> tensor<6144x10xi1>
    StableHlo.TRef.nullary (.of main_call7_call0_cst_0 : StableHlo.TRef sig ⟨S_, .f32⟩) (constant S_ .f32 0x00000000#32),  -- @selu>@elu %cst_0 = stablehlo.constant dense<0.000000e+00> : tensor<f32>
    StableHlo.TRef.unary (.of main_call7_call0_cst_0 : StableHlo.TRef sig ⟨S_, .f32⟩) (.of main_call7_call0_v2 : StableHlo.TRef sig ⟨S6144x10, .f32⟩) (broadcastInDim S6144x10 ![] bcast_S_S6144x10),  -- @selu>@elu %2 = stablehlo.broadcast_in_dim %cst_0, dims = [] : (tensor<f32>) -> tensor<6144x10xf32>
    StableHlo.TRef.binary (.of main_v268 : StableHlo.TRef sig ⟨S6144x10, .f32⟩) (.of main_call7_call0_v2 : StableHlo.TRef sig ⟨S6144x10, .f32⟩) (.of main_call7_call0_v3 : StableHlo.TRef sig ⟨S6144x10, .i1⟩) (cmpf .ogt),  -- @selu>@elu %3 = stablehlo.compare GT, %arg0, %2, FLOAT : (tensor<6144x10xf32>, tensor<6144x10xf32>) -> tensor<6144x10xi1>
    StableHlo.TRef.nullary (.of main_call7_call0_cst_1 : StableHlo.TRef sig ⟨S_, .f32⟩) (constant S_ .f32 0x00000000#32),  -- @selu>@elu %cst_1 = stablehlo.constant dense<0.000000e+00> : tensor<f32>
    StableHlo.TRef.unary (.of main_call7_call0_cst_1 : StableHlo.TRef sig ⟨S_, .f32⟩) (.of main_call7_call0_call0_v0 : StableHlo.TRef sig ⟨S_, .f32⟩) id,  -- @selu>@elu>@where_0 %0 = stablehlo.convert %arg1 : tensor<f32>
    StableHlo.TRef.unary (.of main_call7_call0_call0_v0 : StableHlo.TRef sig ⟨S_, .f32⟩) (.of main_call7_call0_call0_v1 : StableHlo.TRef sig ⟨S6144x10, .f32⟩) (broadcastInDim S6144x10 ![] bcast_S_S6144x10),  -- @selu>@elu>@where_0 %1 = stablehlo.broadcast_in_dim %0, dims = [] : (tensor<f32>) -> tensor<6144x10xf32>
    StableHlo.TRef.ternary (.of main_call7_call0_v3 : StableHlo.TRef sig ⟨S6144x10, .i1⟩) (.of main_call7_call0_call0_v1 : StableHlo.TRef sig ⟨S6144x10, .f32⟩) (.of main_v268 : StableHlo.TRef sig ⟨S6144x10, .f32⟩) (.of main_call7_call0_v4 : StableHlo.TRef sig ⟨S6144x10, .f32⟩) select,  -- @selu>@elu>@where_0 %2 = stablehlo.select %arg0, %1, %arg2 : tensor<6144x10xi1>, tensor<6144x10xf32>
    StableHlo.TRef.unary (.of main_call7_call0_v4 : StableHlo.TRef sig ⟨S6144x10, .f32⟩) (.of main_call7_call0_v5 : StableHlo.TRef sig ⟨S6144x10, .f32⟩) Host.expm1,  -- @selu>@elu %5 = stablehlo.exponential_minus_one %4 : tensor<6144x10xf32>
    StableHlo.TRef.unary (.of main_call7_cst : StableHlo.TRef sig ⟨S_, .f32⟩) (.of main_call7_call0_v6 : StableHlo.TRef sig ⟨S_, .f32⟩) id,  -- @selu>@elu %6 = stablehlo.convert %arg1 : tensor<f32>
    StableHlo.TRef.unary (.of main_call7_call0_v6 : StableHlo.TRef sig ⟨S_, .f32⟩) (.of main_call7_call0_v7 : StableHlo.TRef sig ⟨S6144x10, .f32⟩) (broadcastInDim S6144x10 ![] bcast_S_S6144x10),  -- @selu>@elu %7 = stablehlo.broadcast_in_dim %6, dims = [] : (tensor<f32>) -> tensor<6144x10xf32>
    StableHlo.TRef.binary (.of main_call7_call0_v7 : StableHlo.TRef sig ⟨S6144x10, .f32⟩) (.of main_call7_call0_v5 : StableHlo.TRef sig ⟨S6144x10, .f32⟩) (.of main_call7_call0_v8 : StableHlo.TRef sig ⟨S6144x10, .f32⟩) mulf,  -- @selu>@elu %8 = stablehlo.multiply %7, %5 : tensor<6144x10xf32>
    StableHlo.TRef.ternary (.of main_call7_call0_v1 : StableHlo.TRef sig ⟨S6144x10, .i1⟩) (.of main_v268 : StableHlo.TRef sig ⟨S6144x10, .f32⟩) (.of main_call7_call0_v8 : StableHlo.TRef sig ⟨S6144x10, .f32⟩) (.of main_call7_v0 : StableHlo.TRef sig ⟨S6144x10, .f32⟩) select,  -- @selu>@elu>@where_1 %0 = stablehlo.select %arg0, %arg1, %arg2 : tensor<6144x10xi1>, tensor<6144x10xf32>
    StableHlo.TRef.nullary (.of main_call7_cst_0 : StableHlo.TRef sig ⟨S_, .f32⟩) (constant S_ .f32 0x3F867D5F#32),  -- @selu %cst_0 = stablehlo.constant dense<1.05070102> : tensor<f32>
    StableHlo.TRef.unary (.of main_call7_cst_0 : StableHlo.TRef sig ⟨S_, .f32⟩) (.of main_call7_v1 : StableHlo.TRef sig ⟨S6144x10, .f32⟩) (broadcastInDim S6144x10 ![] bcast_S_S6144x10),  -- @selu %1 = stablehlo.broadcast_in_dim %cst_0, dims = [] : (tensor<f32>) -> tensor<6144x10xf32>
    StableHlo.TRef.binary (.of main_call7_v1 : StableHlo.TRef sig ⟨S6144x10, .f32⟩) (.of main_call7_v0 : StableHlo.TRef sig ⟨S6144x10, .f32⟩) (.of main_v269 : StableHlo.TRef sig ⟨S6144x10, .f32⟩) mulf,  -- @selu %2 = stablehlo.multiply %1, %0 : tensor<6144x10xf32>
    StableHlo.binary main_v264 main_v269 main_v270 (subf : (⟨S6144x10, .f32⟩ : BufTy).Contents (Elt F) → (⟨S6144x10, .f32⟩ : BufTy).Contents (Elt F) → (⟨S6144x10, .f32⟩ : BufTy).Contents (Elt F)),  -- %270 = stablehlo.subtract %264, %269 : tensor<6144x10xf32>
    StableHlo.unary main_v135 main_v271 (broadcastInDim S1x6144x10 ![1, 2] bcast_S6144x10_S1x6144x10_1_2 : (⟨S6144x10, .f32⟩ : BufTy).Contents (Elt F) → (⟨S1x6144x10, .f32⟩ : BufTy).Contents (Elt F)),  -- %271 = stablehlo.broadcast_in_dim %135, dims = [1, 2] : (tensor<6144x10xf32>) -> tensor<1x6144x10xf32>
    StableHlo.unary main_v270 main_v272 (broadcastInDim S1x6144x10 ![1, 2] bcast_S6144x10_S1x6144x10_1_2 : (⟨S6144x10, .f32⟩ : BufTy).Contents (Elt F) → (⟨S1x6144x10, .f32⟩ : BufTy).Contents (Elt F)),  -- %272 = stablehlo.broadcast_in_dim %270, dims = [1, 2] : (tensor<6144x10xf32>) -> tensor<1x6144x10xf32>
    StableHlo.binary main_v271 main_v272 main_v273 ((fun a b => concatenate S2x6144x10 0 [⟨S1x6144x10, a⟩, ⟨S1x6144x10, b⟩] concatenates_S1x6144x10_S1x6144x10_S2x6144x10_d0) : (⟨S1x6144x10, .f32⟩ : BufTy).Contents (Elt F) → (⟨S1x6144x10, .f32⟩ : BufTy).Contents (Elt F) → (⟨S2x6144x10, .f32⟩ : BufTy).Contents (Elt F)) ]  -- %273 = stablehlo.concatenate %271, %272, dim = 0 : (tensor<1x6144x10xf32>, tensor<1x6144x10xf32>) -> tensor<2x6144x10xf32>

/-- Window 0 is that line: the callees' definitions unfolded at their calls and sequencing reassociated, both sides are one chain of steps. -/
theorem win0_eq (c : Dev nD) : main_part0 (F := F) c = StableHlo.seq win0 := by
  simp only [main_part0, fn_softplus.body, StableHlo.seq, bind_assoc, pure_bind]
  rfl

/-- Window 1 is that line: the callees' definitions unfolded at their calls and sequencing reassociated, both sides are one chain of steps. -/
theorem win1_eq (c : Dev nD) : main_part1 (F := F) c = StableHlo.seq win1 := by
  simp only [main_part1, StableHlo.seq, bind_assoc, pure_bind]
  rfl

/-- Window 2 is that line: the callees' definitions unfolded at their calls and sequencing reassociated, both sides are one chain of steps. -/
theorem win2_eq (c : Dev nD) : main_part2 (F := F) c = StableHlo.seq win2 := by
  simp only [main_part2, fn_var.body, fn_where.body, fn_selu.body, fn_elu.body, fn_where_0.body, fn_where_1.body, fn_softplus.body, StableHlo.seq, bind_assoc, pure_bind]
  rfl

/-- Window 3 is that line: the callees' definitions unfolded at their calls and sequencing reassociated, both sides are one chain of steps. -/
theorem win3_eq (c : Dev nD) : main_part3 (F := F) c = StableHlo.seq win3 := by
  simp only [main_part3, StableHlo.seq, bind_assoc, pure_bind]
  rfl

/-- Window 4 is that line: the callees' definitions unfolded at their calls and sequencing reassociated, both sides are one chain of steps. -/
theorem win4_eq (c : Dev nD) : main_part4 (F := F) c = StableHlo.seq win4 := by
  simp only [main_part4, StableHlo.seq, bind_assoc, pure_bind]
  rfl

/-- Window 5 is that line: the callees' definitions unfolded at their calls and sequencing reassociated, both sides are one chain of steps. -/
theorem win5_eq (c : Dev nD) : main_part5 (F := F) c = StableHlo.seq win5 := by
  simp only [main_part5, fn_var.body, fn_where.body, fn_selu.body, fn_elu.body, fn_where_0.body, fn_where_1.body, StableHlo.seq, bind_assoc, pure_bind]

/-- The six windows in order are the line cut at the sweeps: the same operations, grouped differently. -/
theorem ops_eq : (ops : List (HloOp τ sig (Elt F))) = win0 ++ (win1 ++ (win2 ++ (win3 ++ (win4 ++ win5)))) := rfl

/-- @main is the straight line `ops`. -/
theorem main_eq (c : Dev nD) : main (F := F) c = StableHlo.seq ops := by
  rw [ops_eq]
  simp only [StableHlo.seq_append, ← win0_eq c, ← win1_eq c, ← win2_eq c, ← win3_eq c, ← win4_eq c, ← win5_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type*} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem opsP_sub : (opsP : List (HloOp τ sig (Elt F))).Forall fun op => op.bufs ⊆ StableHlo.tcRefs τ sig :=
  StableHlo.binary_bufs_sub ..

theorem opsE1_sub : (opsE1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..,
  StableHlo.binary_bufs_sub .., StableHlo.nullary_bufs_sub .., StableHlo.unary_bufs_sub .., StableHlo.binary_bufs_sub ..,
  StableHlo.unary_bufs_sub .., StableHlo.binary_bufs_sub .., StableHlo.binary_bufs_sub .., StableHlo.unary_bufs_sub .., StableHlo.binary_bufs_sub ..,
  StableHlo.unary_bufs_sub .., StableHlo.unary_bufs_sub .., StableHlo.unary_bufs_sub .., StableHlo.unary_bufs_sub .., StableHlo.binary_bufs_sub ..,
  StableHlo.ternary_bufs_sub .., StableHlo.nullary_bufs_sub .., StableHlo.unary_bufs_sub .., StableHlo.binary_bufs_sub ..,
  StableHlo.unary_bufs_sub .., StableHlo.reshape_bufs_sub .., StableHlo.unary_bufs_sub .., StableHlo.reshape_bufs_sub ..,
  StableHlo.unary_bufs_sub .., StableHlo.reshape_bufs_sub ..⟩

theorem opsDa1_sub : (opsDa1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub ..,
  StableHlo.binary_bufs_sub .., StableHlo.unary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub .., StableHlo.unary_bufs_sub .., StableHlo.binary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.binary_bufs_sub ..,
  StableHlo.unary_bufs_sub .., StableHlo.nullary_bufs_sub .., StableHlo.binary_bufs_sub .., StableHlo.unary_bufs_sub ..,
  StableHlo.binary_bufs_sub .., StableHlo.binary_bufs_sub .., StableHlo.nullary_bufs_sub .., StableHlo.binary_bufs_sub ..,
  StableHlo.unary_bufs_sub .., StableHlo.binary_bufs_sub .., StableHlo.binary_bufs_sub .., StableHlo.unary_bufs_sub .., StableHlo.binary_bufs_sub ..,
  StableHlo.binary_bufs_sub .., StableHlo.unary_bufs_sub .., StableHlo.binary_bufs_sub .., StableHlo.binary_bufs_sub ..,
  StableHlo.nullary_bufs_sub .., StableHlo.unary_bufs_sub .., StableHlo.binary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub ..⟩

theorem opsDb1_sub : (opsDb1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub ..,
  StableHlo.binary_bufs_sub .., StableHlo.unary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub .., StableHlo.unary_bufs_sub .., StableHlo.binary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.binary_bufs_sub ..,
  StableHlo.unary_bufs_sub .., StableHlo.nullary_bufs_sub .., StableHlo.binary_bufs_sub .., StableHlo.unary_bufs_sub ..,
  StableHlo.binary_bufs_sub .., StableHlo.binary_bufs_sub .., StableHlo.nullary_bufs_sub .., StableHlo.binary_bufs_sub ..,
  StableHlo.unary_bufs_sub .., StableHlo.binary_bufs_sub .., StableHlo.binary_bufs_sub .., StableHlo.unary_bufs_sub .., StableHlo.binary_bufs_sub ..,
  StableHlo.binary_bufs_sub .., StableHlo.unary_bufs_sub .., StableHlo.binary_bufs_sub .., StableHlo.binary_bufs_sub ..,
  StableHlo.nullary_bufs_sub .., StableHlo.unary_bufs_sub .., StableHlo.binary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub ..⟩

theorem opsT1_sub : (opsT1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub ..,
  StableHlo.binary_bufs_sub .., StableHlo.nullary_bufs_sub .., StableHlo.nullary_bufs_sub .., StableHlo.binary_bufs_sub ..,
  StableHlo.unary_bufs_sub .., StableHlo.nullary_bufs_sub .., StableHlo.unary_bufs_sub .., StableHlo.binary_bufs_sub .., StableHlo.unary_bufs_sub ..,
  StableHlo.binary_bufs_sub .., StableHlo.binary_bufs_sub .., StableHlo.unary_bufs_sub .., StableHlo.nullary_bufs_sub ..,
  StableHlo.binary_bufs_sub .., StableHlo.nullary_bufs_sub .., StableHlo.binary_bufs_sub .., StableHlo.unary_bufs_sub ..,
  StableHlo.binary_bufs_sub .., StableHlo.nullary_bufs_sub .., StableHlo.binary_bufs_sub .., StableHlo.nullary_bufs_sub ..,
  StableHlo.unary_bufs_sub .., StableHlo.unary_bufs_sub .., StableHlo.ternary_bufs_sub .., StableHlo.unary_bufs_sub .., StableHlo.unary_bufs_sub ..,
  StableHlo.binary_bufs_sub .., StableHlo.nullary_bufs_sub .., StableHlo.unary_bufs_sub .., StableHlo.binary_bufs_sub ..,
  StableHlo.unary_bufs_sub .., StableHlo.unary_bufs_sub .., StableHlo.unary_bufs_sub .., StableHlo.binary_bufs_sub .., StableHlo.unary_bufs_sub ..,
  StableHlo.unary_bufs_sub .., StableHlo.binary_bufs_sub .., StableHlo.unary_bufs_sub .., StableHlo.unary_bufs_sub .., StableHlo.binary_bufs_sub ..,
  StableHlo.unary_bufs_sub .., StableHlo.unary_bufs_sub .., StableHlo.binary_bufs_sub .., StableHlo.nullary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.unary_bufs_sub .., StableHlo.unary_bufs_sub ..,
  StableHlo.ternary_bufs_sub .., StableHlo.unary_bufs_sub .., StableHlo.unary_bufs_sub .., StableHlo.unary_bufs_sub .., StableHlo.binary_bufs_sub ..,
  StableHlo.ternary_bufs_sub .., StableHlo.nullary_bufs_sub .., StableHlo.unary_bufs_sub .., StableHlo.binary_bufs_sub ..,
  StableHlo.unary_bufs_sub .., StableHlo.unary_bufs_sub .., StableHlo.unary_bufs_sub .., StableHlo.binary_bufs_sub .., StableHlo.nullary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.unary_bufs_sub .., StableHlo.unary_bufs_sub ..,
  StableHlo.ternary_bufs_sub .., StableHlo.unary_bufs_sub .., StableHlo.unary_bufs_sub .., StableHlo.unary_bufs_sub .., StableHlo.binary_bufs_sub ..,
  StableHlo.ternary_bufs_sub .., StableHlo.nullary_bufs_sub .., StableHlo.unary_bufs_sub .., StableHlo.binary_bufs_sub ..,
  StableHlo.binary_bufs_sub ..⟩

theorem opsE2_sub : (opsE2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..,
  StableHlo.binary_bufs_sub .., StableHlo.nullary_bufs_sub .., StableHlo.unary_bufs_sub .., StableHlo.binary_bufs_sub ..,
  StableHlo.unary_bufs_sub .., StableHlo.binary_bufs_sub .., StableHlo.binary_bufs_sub .., StableHlo.unary_bufs_sub .., StableHlo.binary_bufs_sub ..,
  StableHlo.unary_bufs_sub .., StableHlo.unary_bufs_sub .., StableHlo.unary_bufs_sub .., StableHlo.unary_bufs_sub .., StableHlo.binary_bufs_sub ..,
  StableHlo.ternary_bufs_sub .., StableHlo.nullary_bufs_sub .., StableHlo.unary_bufs_sub .., StableHlo.binary_bufs_sub ..,
  StableHlo.unary_bufs_sub .., StableHlo.reshape_bufs_sub .., StableHlo.unary_bufs_sub .., StableHlo.reshape_bufs_sub ..,
  StableHlo.unary_bufs_sub .., StableHlo.reshape_bufs_sub ..⟩

theorem opsDa2_sub : (opsDa2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub ..,
  StableHlo.binary_bufs_sub .., StableHlo.unary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub .., StableHlo.unary_bufs_sub .., StableHlo.binary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.binary_bufs_sub ..,
  StableHlo.unary_bufs_sub .., StableHlo.nullary_bufs_sub .., StableHlo.binary_bufs_sub .., StableHlo.unary_bufs_sub ..,
  StableHlo.binary_bufs_sub .., StableHlo.binary_bufs_sub .., StableHlo.nullary_bufs_sub .., StableHlo.binary_bufs_sub ..,
  StableHlo.unary_bufs_sub .., StableHlo.binary_bufs_sub .., StableHlo.binary_bufs_sub .., StableHlo.unary_bufs_sub .., StableHlo.binary_bufs_sub ..,
  StableHlo.binary_bufs_sub .., StableHlo.unary_bufs_sub .., StableHlo.binary_bufs_sub .., StableHlo.binary_bufs_sub ..,
  StableHlo.nullary_bufs_sub .., StableHlo.unary_bufs_sub .., StableHlo.binary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub ..⟩

theorem opsDb2_sub : (opsDb2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub ..,
  StableHlo.binary_bufs_sub .., StableHlo.unary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub .., StableHlo.unary_bufs_sub .., StableHlo.binary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.binary_bufs_sub ..,
  StableHlo.unary_bufs_sub .., StableHlo.nullary_bufs_sub .., StableHlo.binary_bufs_sub .., StableHlo.unary_bufs_sub ..,
  StableHlo.binary_bufs_sub .., StableHlo.binary_bufs_sub .., StableHlo.nullary_bufs_sub .., StableHlo.binary_bufs_sub ..,
  StableHlo.unary_bufs_sub .., StableHlo.binary_bufs_sub .., StableHlo.binary_bufs_sub .., StableHlo.unary_bufs_sub .., StableHlo.binary_bufs_sub ..,
  StableHlo.binary_bufs_sub .., StableHlo.unary_bufs_sub .., StableHlo.binary_bufs_sub .., StableHlo.binary_bufs_sub ..,
  StableHlo.nullary_bufs_sub .., StableHlo.unary_bufs_sub .., StableHlo.binary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.binary_bufs_sub .., StableHlo.nullary_bufs_sub .., StableHlo.unary_bufs_sub ..,
  StableHlo.binary_bufs_sub .., StableHlo.unary_bufs_sub .., StableHlo.binary_bufs_sub .., StableHlo.nullary_bufs_sub ..,
  StableHlo.unary_bufs_sub .., StableHlo.binary_bufs_sub ..⟩

theorem opsT2_sub : (opsT2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub ..,
  StableHlo.binary_bufs_sub .., StableHlo.nullary_bufs_sub .., StableHlo.nullary_bufs_sub .., StableHlo.binary_bufs_sub ..,
  StableHlo.unary_bufs_sub .., StableHlo.nullary_bufs_sub .., StableHlo.unary_bufs_sub .., StableHlo.binary_bufs_sub .., StableHlo.unary_bufs_sub ..,
  StableHlo.binary_bufs_sub .., StableHlo.binary_bufs_sub .., StableHlo.unary_bufs_sub .., StableHlo.nullary_bufs_sub ..,
  StableHlo.binary_bufs_sub .., StableHlo.nullary_bufs_sub .., StableHlo.binary_bufs_sub .., StableHlo.unary_bufs_sub ..,
  StableHlo.binary_bufs_sub .., StableHlo.nullary_bufs_sub .., StableHlo.binary_bufs_sub .., StableHlo.nullary_bufs_sub ..,
  StableHlo.unary_bufs_sub .., StableHlo.unary_bufs_sub .., StableHlo.ternary_bufs_sub .., StableHlo.unary_bufs_sub .., StableHlo.unary_bufs_sub ..,
  StableHlo.binary_bufs_sub .., StableHlo.nullary_bufs_sub .., StableHlo.unary_bufs_sub .., StableHlo.binary_bufs_sub ..,
  StableHlo.unary_bufs_sub .., StableHlo.unary_bufs_sub .., StableHlo.unary_bufs_sub .., StableHlo.binary_bufs_sub .., StableHlo.unary_bufs_sub ..,
  StableHlo.unary_bufs_sub .., StableHlo.binary_bufs_sub .., StableHlo.unary_bufs_sub .., StableHlo.unary_bufs_sub .., StableHlo.binary_bufs_sub ..,
  StableHlo.unary_bufs_sub .., StableHlo.unary_bufs_sub .., StableHlo.binary_bufs_sub .., StableHlo.nullary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.unary_bufs_sub .., StableHlo.unary_bufs_sub ..,
  StableHlo.ternary_bufs_sub .., StableHlo.unary_bufs_sub .., StableHlo.unary_bufs_sub .., StableHlo.unary_bufs_sub .., StableHlo.binary_bufs_sub ..,
  StableHlo.ternary_bufs_sub .., StableHlo.nullary_bufs_sub .., StableHlo.unary_bufs_sub .., StableHlo.binary_bufs_sub ..,
  StableHlo.unary_bufs_sub .., StableHlo.unary_bufs_sub .., StableHlo.unary_bufs_sub .., StableHlo.binary_bufs_sub .., StableHlo.nullary_bufs_sub ..,
  StableHlo.nullary_bufs_sub .., StableHlo.unary_bufs_sub .., StableHlo.binary_bufs_sub .., StableHlo.nullary_bufs_sub ..,
  StableHlo.unary_bufs_sub .., StableHlo.binary_bufs_sub .., StableHlo.nullary_bufs_sub .., StableHlo.unary_bufs_sub .., StableHlo.unary_bufs_sub ..,
  StableHlo.ternary_bufs_sub .., StableHlo.unary_bufs_sub .., StableHlo.unary_bufs_sub .., StableHlo.unary_bufs_sub .., StableHlo.binary_bufs_sub ..,
  StableHlo.ternary_bufs_sub .., StableHlo.nullary_bufs_sub .., StableHlo.unary_bufs_sub .., StableHlo.binary_bufs_sub ..,
  StableHlo.binary_bufs_sub ..⟩

theorem opsO_sub : (opsO : List (HloOp τ sig (Elt F))).Forall fun op => op.bufs ⊆ StableHlo.tcRefs τ sig :=
  ⟨StableHlo.unary_bufs_sub .., StableHlo.unary_bufs_sub .., StableHlo.binary_bufs_sub ..⟩

theorem opsS1_sub : (opsS1 : List (HloOp τ sig (Elt F))).Forall fun op => op.bufs ⊆ StableHlo.tcRefs τ sig :=
  forall_append (forall_append opsE1_sub opsDa1_sub) opsDb1_sub
theorem opsS2_sub : (opsS2 : List (HloOp τ sig (Elt F))).Forall fun op => op.bufs ⊆ StableHlo.tcRefs τ sig :=
  forall_append (forall_append opsE2_sub opsDa2_sub) opsDb2_sub

/-- Every operation touches TensorCore buffers only. -/
theorem ops_sub : (ops : List (HloOp τ sig (Elt F))).Forall fun op => op.bufs ⊆ StableHlo.tcRefs τ sig :=
  forall_append (forall_append (forall_append (forall_append (forall_append opsP_sub opsS1_sub) opsT1_sub) opsS2_sub) opsT2_sub) opsO_sub

theorem opsP_fresh : (opsP : List (HloOp τ sig (Elt F))).Forall fun op => op.fresh = ∅ :=
  rfl

theorem opsE1_fresh : (opsE1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsDa1_fresh : (opsDa1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl⟩

theorem opsDb1_fresh : (opsDb1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl⟩

theorem opsT1_fresh : (opsT1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl⟩

theorem opsE2_fresh : (opsE2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsDa2_fresh : (opsDa2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl⟩

theorem opsDb2_fresh : (opsDb2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl⟩

theorem opsT2_fresh : (opsT2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl, rfl, rfl, rfl, rfl, rfl, rfl, rfl, rfl, rfl,
  rfl, rfl, rfl⟩

theorem opsO_fresh : (opsO : List (HloOp τ sig (Elt F))).Forall fun op => op.fresh = ∅ :=
  ⟨rfl, rfl, rfl⟩

theorem opsS1_fresh : (opsS1 : List (HloOp τ sig (Elt F))).Forall fun op => op.fresh = ∅ :=
  forall_append (forall_append opsE1_fresh opsDa1_fresh) opsDb1_fresh
theorem opsS2_fresh : (opsS2 : List (HloOp τ sig (Elt F))).Forall fun op => op.fresh = ∅ :=
  forall_append (forall_append opsE2_fresh opsDa2_fresh) opsDb2_fresh

/-- Every operation determines what it writes: none leaves a buffer's contents open. -/
theorem ops_fresh : ∀ op ∈ (ops : List (HloOp τ sig (Elt F))), op.fresh = ∅ :=
  List.forall_iff_forall_mem.1
    (forall_append (forall_append (forall_append (forall_append (forall_append opsP_fresh opsS1_fresh) opsT1_fresh) opsS2_fresh) opsT2_fresh) opsO_fresh)

/-- At the compiled mesh, for any float values, from any memory with zero counters: every weakly fair execution of @main on
    the TensorCores terminates, and every final state has each TensorCore buffer at the operations' fold over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

end Cert.ReferenceIdeal.Hand

end
-- ==== Proof.RefRead.lean ====
/-
  The reference program's stretches of host operations read at the buffers the rest of the program uses.

  A stretch's fold is read at one buffer from ANY contents of the buffers at its entry: the projection
  before the sweeps, the glue (normalisation and soft threshold) after each sweep, the stacking at the
  end; and a buffer a stretch does not write keeps its contents through it.
-/
import proofs.«115280_j31628139168172_2_alg».proof.Proof.RefOps
import proofs.«115280_j31628139168172_2_alg».proof.Proof.TailSpec
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Folding a concatenation is folding the first line, then the second from where the first ends. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## The stretches' results -/

/-- The projection is what the first operation writes. -/
theorem readP (V : Valuation τ sig (Elt F)) :
    StableHlo.after opsP V (Proc.devRef .tc main_v0)
      = Cert.Tail.proj (V (Proc.devRef .tc main_arg0)) (V (Proc.devRef .tc main_arg3)) := by
  simp only [StableHlo.after_cons, StableHlo.after_nil]
  rfl

attribute [local irreducible] Host.reduceAdd Host.sqrt Host.expm1 Host.divf Host.negf in
set_option maxHeartbeats 1000000 in
/-- With the first sweep's fused array h in its buffer, the first tail leaves the glue of h. -/
theorem readT1 (V : Valuation τ sig (Elt F)) :
    StableHlo.after opsT1 V (Proc.devRef .tc main_v135)
      = Cert.Tail.tail (V (Proc.devRef .tc main_v106)) (V (Proc.devRef .tc main_arg4))
          (V (Proc.devRef .tc main_arg5)) (V (Proc.devRef .tc main_arg6)) := by
  simp only [StableHlo.after_cons, StableHlo.after_nil]
  rfl

attribute [local irreducible] Host.reduceAdd Host.sqrt Host.expm1 Host.divf Host.negf in
set_option maxHeartbeats 1000000 in
/-- With the second sweep's fused array in its buffer, the second tail leaves its glue. -/
theorem readT2 (V : Valuation τ sig (Elt F)) :
    StableHlo.after opsT2 V (Proc.devRef .tc main_v270)
      = Cert.Tail.tail (V (Proc.devRef .tc main_v241)) (V (Proc.devRef .tc main_arg4))
          (V (Proc.devRef .tc main_arg5)) (V (Proc.devRef .tc main_arg6)) := by
  simp only [StableHlo.after_cons, StableHlo.after_nil]
  rfl

/-- The last three operations stack the two sweeps' arrays. -/
theorem readO (V : Valuation τ sig (Elt F)) :
    StableHlo.after opsO V (Proc.devRef .tc main_v273)
      = Cert.Tail.stack (V (Proc.devRef .tc main_v135)) (V (Proc.devRef .tc main_v270)) := by
  simp only [StableHlo.after_cons, StableHlo.after_nil]
  rfl

/-! ## Buffers a stretch does not write keep their contents -/

theorem passP_main_arg0 (V : Valuation τ sig (Elt F)) :
    StableHlo.after opsP V (Proc.devRef .tc main_arg0) = V (Proc.devRef .tc main_arg0) := by
  simp only [StableHlo.after_cons, StableHlo.after_nil]
  rfl

theorem passP_main_arg1 (V : Valuation τ sig (Elt F)) :
    StableHlo.after opsP V (Proc.devRef .tc main_arg1) = V (Proc.devRef .tc main_arg1) := by
  simp only [StableHlo.after_cons, StableHlo.after_nil]
  rfl

theorem passP_main_arg2 (V : Valuation τ sig (Elt F)) :
    StableHlo.after opsP V (Proc.devRef .tc main_arg2) = V (Proc.devRef .tc main_arg2) := by
  simp only [StableHlo.after_cons, StableHlo.after_nil]
  rfl

theorem passP_main_arg3 (V : Valuation τ sig (Elt F)) :
    StableHlo.after opsP V (Proc.devRef .tc main_arg3) = V (Proc.devRef .tc main_arg3) := by
  simp only [StableHlo.after_cons, StableHlo.after_nil]
  rfl

theorem passP_main_arg4 (V : Valuation τ sig (Elt F)) :
    StableHlo.after opsP V (Proc.devRef .tc main_arg4) = V (Proc.devRef .tc main_arg4) := by
  simp only [StableHlo.after_cons, StableHlo.after_nil]
  rfl

theorem passP_main_arg5 (V : Valuation τ sig (Elt F)) :
    StableHlo.after opsP V (Proc.devRef .tc main_arg5) = V (Proc.devRef .tc main_arg5) := by
  simp only [StableHlo.after_cons, StableHlo.after_nil]
  rfl

theorem passP_main_arg6 (V : Valuation τ sig (Elt F)) :
    StableHlo.after opsP V (Proc.devRef .tc main_arg6) = V (Proc.devRef .tc main_arg6) := by
  simp only [StableHlo.after_cons, StableHlo.after_nil]
  rfl

attribute [local irreducible] Host.reduceAdd Host.sqrt Host.expm1 Host.divf Host.negf in
theorem passE1_main_arg0 (V : Valuation τ sig (Elt F)) :
    StableHlo.after opsE1 V (Proc.devRef .tc main_arg0) = V (Proc.devRef .tc main_arg0) := by
  simp only [StableHlo.after_cons, StableHlo.after_nil]
  rfl

attribute [local irreducible] Host.reduceAdd Host.sqrt Host.expm1 Host.divf Host.negf in
theorem passE1_main_arg1 (V : Valuation τ sig (Elt F)) :
    StableHlo.after opsE1 V (Proc.devRef .tc main_arg1) = V (Proc.devRef .tc main_arg1) := by
  simp only [StableHlo.after_cons, StableHlo.after_nil]
  rfl

attribute [local irreducible] Host.reduceAdd Host.sqrt Host.expm1 Host.divf Host.negf in
theorem passE1_main_arg2 (V : Valuation τ sig (Elt F)) :
    StableHlo.after opsE1 V (Proc.devRef .tc main_arg2) = V (Proc.devRef .tc main_arg2) := by
  simp only [StableHlo.after_cons, StableHlo.after_nil]
  rfl

attribute [local irreducible] Host.reduceAdd Host.sqrt Host.expm1 Host.divf Host.negf in
theorem passE1_main_arg3 (V : Valuation τ sig (Elt F)) :
    StableHlo.after opsE1 V (Proc.devRef .tc main_arg3) = V (Proc.devRef .tc main_arg3) := by
  simp only [StableHlo.after_cons, StableHlo.after_nil]
  rfl

attribute [local irreducible] Host.reduceAdd Host.sqrt Host.expm1 Host.divf Host.negf in
theorem passE1_main_arg4 (V : Valuation τ sig (Elt F)) :
    StableHlo.after opsE1 V (Proc.devRef .tc main_arg4) = V (Proc.devRef .tc main_arg4) := by
  simp only [StableHlo.after_cons, StableHlo.after_nil]
  rfl

attribute [local irreducible] Host.reduceAdd Host.sqrt Host.expm1 Host.divf Host.negf in
theorem passE1_main_arg5 (V : Valuation τ sig (Elt F)) :
    StableHlo.after opsE1 V (Proc.devRef .tc main_arg5) = V (Proc.devRef .tc main_arg5) := by
  simp only [StableHlo.after_cons, StableHlo.after_nil]
  rfl

attribute [local irreducible] Host.reduceAdd Host.sqrt Host.expm1 Host.divf Host.negf in
theorem passE1_main_arg6 (V : Valuation τ sig (Elt F)) :
    StableHlo.after opsE1 V (Proc.devRef .tc main_arg6) = V (Proc.devRef .tc main_arg6) := by
  simp only [StableHlo.after_cons, StableHlo.after_nil]
  rfl

attribute [local irreducible] Host.reduceAdd Host.sqrt Host.expm1 Host.divf Host.negf in
theorem passE1_main_v0 (V : Valuation τ sig (Elt F)) :
    StableHlo.after opsE1 V (Proc.devRef .tc main_v0) = V (Proc.devRef .tc main_v0) := by
  simp only [StableHlo.after_cons, StableHlo.after_nil]
  rfl

attribute [local irreducible] Host.reduceAdd Host.sqrt Host.expm1 Host.divf Host.negf in
theorem passDa1_main_arg0 (V : Valuation τ sig (Elt F)) :
    StableHlo.after opsDa1 V (Proc.devRef .tc main_arg0) = V (Proc.devRef .tc main_arg0) := by
  simp only [StableHlo.after_cons, StableHlo.after_nil]
  rfl

attribute [local irreducible] Host.reduceAdd Host.sqrt Host.expm1 Host.divf Host.negf in
theorem passDa1_main_arg1 (V : Valuation τ sig (Elt F)) :
    StableHlo.after opsDa1 V (Proc.devRef .tc main_arg1) = V (Proc.devRef .tc main_arg1) := by
  simp only [StableHlo.after_cons, StableHlo.after_nil]
  rfl

attribute [local irreducible] Host.reduceAdd Host.sqrt Host.expm1 Host.divf Host.negf in
theorem passDa1_main_arg2 (V : Valuation τ sig (Elt F)) :
    StableHlo.after opsDa1 V (Proc.devRef .tc main_arg2) = V (Proc.devRef .tc main_arg2) := by
  simp only [StableHlo.after_cons, StableHlo.after_nil]
  rfl

attribute [local irreducible] Host.reduceAdd Host.sqrt Host.expm1 Host.divf Host.negf in
theorem passDa1_main_arg3 (V : Valuation τ sig (Elt F)) :
    StableHlo.after opsDa1 V (Proc.devRef .tc main_arg3) = V (Proc.devRef .tc main_arg3) := by
  simp only [StableHlo.after_cons, StableHlo.after_nil]
  rfl

attribute [local irreducible] Host.reduceAdd Host.sqrt Host.expm1 Host.divf Host.negf in
theorem passDa1_main_arg4 (V : Valuation τ sig (Elt F)) :
    StableHlo.after opsDa1 V (Proc.devRef .tc main_arg4) = V (Proc.devRef .tc main_arg4) := by
  simp only [StableHlo.after_cons, StableHlo.after_nil]
  rfl

attribute [local irreducible] Host.reduceAdd Host.sqrt Host.expm1 Host.divf Host.negf in
theorem passDa1_main_arg5 (V : Valuation τ sig (Elt F)) :
    StableHlo.after opsDa1 V (Proc.devRef .tc main_arg5) = V (Proc.devRef .tc main_arg5) := by
  simp only [StableHlo.after_cons, StableHlo.after_nil]
  rfl

attribute [local irreducible] Host.reduceAdd Host.sqrt Host.expm1 Host.divf Host.negf in
theorem passDa1_main_arg6 (V : Valuation τ sig (Elt F)) :
    StableHlo.after opsDa1 V (Proc.devRef .tc main_arg6) = V (Proc.devRef .tc main_arg6) := by
  simp only [StableHlo.after_cons, StableHlo.after_nil]
  rfl

attribute [local irreducible] Host.reduceAdd Host.sqrt Host.expm1 Host.divf Host.negf in
theorem passDa1_main_v0 (V : Valuation τ sig (Elt F)) :
    StableHlo.after opsDa1 V (Proc.devRef .tc main_v0) = V (Proc.devRef .tc main_v0) := by
  simp only [StableHlo.after_cons, StableHlo.after_nil]
  rfl

attribute [local irreducible] Host.reduceAdd Host.sqrt Host.expm1 Host.divf Host.negf in
theorem passDa1_main_v14 (V : Valuation τ sig (Elt F)) :
    StableHlo.after opsDa1 V (Proc.devRef .tc main_v14) = V (Proc.devRef .tc main_v14) := by
  simp only [StableHlo.after_cons, StableHlo.after_nil]
  rfl

attribute [local irreducible] Host.reduceAdd Host.sqrt Host.expm1 Host.divf Host.negf in
theorem passDb1_main_arg0 (V : Valuation τ sig (Elt F)) :
    StableHlo.after opsDb1 V (Proc.devRef .tc main_arg0) = V (Proc.devRef .tc main_arg0) := by
  simp only [StableHlo.after_cons, StableHlo.after_nil]
  rfl

attribute [local irreducible] Host.reduceAdd Host.sqrt Host.expm1 Host.divf Host.negf in
theorem passDb1_main_arg1 (V : Valuation τ sig (Elt F)) :
    StableHlo.after opsDb1 V (Proc.devRef .tc main_arg1) = V (Proc.devRef .tc main_arg1) := by
  simp only [StableHlo.after_cons, StableHlo.after_nil]
  rfl

attribute [local irreducible] Host.reduceAdd Host.sqrt Host.expm1 Host.divf Host.negf in
theorem passDb1_main_arg2 (V : Valuation τ sig (Elt F)) :
    StableHlo.after opsDb1 V (Proc.devRef .tc main_arg2) = V (Proc.devRef .tc main_arg2) := by
  simp only [StableHlo.after_cons, StableHlo.after_nil]
  rfl

attribute [local irreducible] Host.reduceAdd Host.sqrt Host.expm1 Host.divf Host.negf in
theorem passDb1_main_arg3 (V : Valuation τ sig (Elt F)) :
    StableHlo.after opsDb1 V (Proc.devRef .tc main_arg3) = V (Proc.devRef .tc main_arg3) := by
  simp only [StableHlo.after_cons, StableHlo.after_nil]
  rfl

attribute [local irreducible] Host.reduceAdd Host.sqrt Host.expm1 Host.divf Host.negf in
theorem passDb1_main_arg4 (V : Valuation τ sig (Elt F)) :
    StableHlo.after opsDb1 V (Proc.devRef .tc main_arg4) = V (Proc.devRef .tc main_arg4) := by
  simp only [StableHlo.after_cons, StableHlo.after_nil]
  rfl

attribute [local irreducible] Host.reduceAdd Host.sqrt Host.expm1 Host.divf Host.negf in
theorem passDb1_main_arg5 (V : Valuation τ sig (Elt F)) :
    StableHlo.after opsDb1 V (Proc.devRef .tc main_arg5) = V (Proc.devRef .tc main_arg5) := by
  simp only [StableHlo.after_cons, StableHlo.after_nil]
  rfl

attribute [local irreducible] Host.reduceAdd Host.sqrt Host.expm1 Host.divf Host.negf in
theorem passDb1_main_arg6 (V : Valuation τ sig (Elt F)) :
    StableHlo.after opsDb1 V (Proc.devRef .tc main_arg6) = V (Proc.devRef .tc main_arg6) := by
  simp only [StableHlo.after_cons, StableHlo.after_nil]
  rfl

attribute [local irreducible] Host.reduceAdd Host.sqrt Host.expm1 Host.divf Host.negf in
theorem passDb1_main_v0 (V : Valuation τ sig (Elt F)) :
    StableHlo.after opsDb1 V (Proc.devRef .tc main_v0) = V (Proc.devRef .tc main_v0) := by
  simp only [StableHlo.after_cons, StableHlo.after_nil]
  rfl

attribute [local irreducible] Host.reduceAdd Host.sqrt Host.expm1 Host.divf Host.negf in
theorem passDb1_main_v14 (V : Valuation τ sig (Elt F)) :
    StableHlo.after opsDb1 V (Proc.devRef .tc main_v14) = V (Proc.devRef .tc main_v14) := by
  simp only [StableHlo.after_cons, StableHlo.after_nil]
  rfl

attribute [local irreducible] Host.reduceAdd Host.sqrt Host.expm1 Host.divf Host.negf in
theorem passT1_main_arg0 (V : Valuation τ sig (Elt F)) :
    StableHlo.after opsT1 V (Proc.devRef .tc main_arg0) = V (Proc.devRef .tc main_arg0) := by
  simp only [StableHlo.after_cons, StableHlo.after_nil]
  rfl

attribute [local irreducible] Host.reduceAdd Host.sqrt Host.expm1 Host.divf Host.negf in
theorem passT1_main_arg1 (V : Valuation τ sig (Elt F)) :
    StableHlo.after opsT1 V (Proc.devRef .tc main_arg1) = V (Proc.devRef .tc main_arg1) := by
  simp only [StableHlo.after_cons, StableHlo.after_nil]
  rfl

attribute [local irreducible] Host.reduceAdd Host.sqrt Host.expm1 Host.divf Host.negf in
theorem passT1_main_arg2 (V : Valuation τ sig (Elt F)) :
    StableHlo.after opsT1 V (Proc.devRef .tc main_arg2) = V (Proc.devRef .tc main_arg2) := by
  simp only [StableHlo.after_cons, StableHlo.after_nil]
  rfl

attribute [local irreducible] Host.reduceAdd Host.sqrt Host.expm1 Host.divf Host.negf in
theorem passT1_main_arg3 (V : Valuation τ sig (Elt F)) :
    StableHlo.after opsT1 V (Proc.devRef .tc main_arg3) = V (Proc.devRef .tc main_arg3) := by
  simp only [StableHlo.after_cons, StableHlo.after_nil]
  rfl

attribute [local irreducible] Host.reduceAdd Host.sqrt Host.expm1 Host.divf Host.negf in
theorem passT1_main_arg4 (V : Valuation τ sig (Elt F)) :
    StableHlo.after opsT1 V (Proc.devRef .tc main_arg4) = V (Proc.devRef .tc main_arg4) := by
  simp only [StableHlo.after_cons, StableHlo.after_nil]
  rfl

attribute [local irreducible] Host.reduceAdd Host.sqrt Host.expm1 Host.divf Host.negf in
theorem passT1_main_arg5 (V : Valuation τ sig (Elt F)) :
    StableHlo.after opsT1 V (Proc.devRef .tc main_arg5) = V (Proc.devRef .tc main_arg5) := by
  simp only [StableHlo.after_cons, StableHlo.after_nil]
  rfl

attribute [local irreducible] Host.reduceAdd Host.sqrt Host.expm1 Host.divf Host.negf in
theorem passT1_main_arg6 (V : Valuation τ sig (Elt F)) :
    StableHlo.after opsT1 V (Proc.devRef .tc main_arg6) = V (Proc.devRef .tc main_arg6) := by
  simp only [StableHlo.after_cons, StableHlo.after_nil]
  rfl

attribute [local irreducible] Host.reduceAdd Host.sqrt Host.expm1 Host.divf Host.negf in
theorem passT1_main_v0 (V : Valuation τ sig (Elt F)) :
    StableHlo.after opsT1 V (Proc.devRef .tc main_v0) = V (Proc.devRef .tc main_v0) := by
  simp only [StableHlo.after_cons, StableHlo.after_nil]
  rfl

attribute [local irreducible] Host.reduceAdd Host.sqrt Host.expm1 Host.divf Host.negf in
theorem passE2_main_arg0 (V : Valuation τ sig (Elt F)) :
    StableHlo.after opsE2 V (Proc.devRef .tc main_arg0) = V (Proc.devRef .tc main_arg0) := by
  simp only [StableHlo.after_cons, StableHlo.after_nil]
  rfl

attribute [local irreducible] Host.reduceAdd Host.sqrt Host.expm1 Host.divf Host.negf in
theorem passE2_main_arg1 (V : Valuation τ sig (Elt F)) :
    StableHlo.after opsE2 V (Proc.devRef .tc main_arg1) = V (Proc.devRef .tc main_arg1) := by
  simp only [StableHlo.after_cons, StableHlo.after_nil]
  rfl

attribute [local irreducible] Host.reduceAdd Host.sqrt Host.expm1 Host.divf Host.negf in
theorem passE2_main_arg2 (V : Valuation τ sig (Elt F)) :
    StableHlo.after opsE2 V (Proc.devRef .tc main_arg2) = V (Proc.devRef .tc main_arg2) := by
  simp only [StableHlo.after_cons, StableHlo.after_nil]
  rfl

attribute [local irreducible] Host.reduceAdd Host.sqrt Host.expm1 Host.divf Host.negf in
theorem passE2_main_arg3 (V : Valuation τ sig (Elt F)) :
    StableHlo.after opsE2 V (Proc.devRef .tc main_arg3) = V (Proc.devRef .tc main_arg3) := by
  simp only [StableHlo.after_cons, StableHlo.after_nil]
  rfl

attribute [local irreducible] Host.reduceAdd Host.sqrt Host.expm1 Host.divf Host.negf in
theorem passE2_main_arg4 (V : Valuation τ sig (Elt F)) :
    StableHlo.after opsE2 V (Proc.devRef .tc main_arg4) = V (Proc.devRef .tc main_arg4) := by
  simp only [StableHlo.after_cons, StableHlo.after_nil]
  rfl

attribute [local irreducible] Host.reduceAdd Host.sqrt Host.expm1 Host.divf Host.negf in
theorem passE2_main_arg5 (V : Valuation τ sig (Elt F)) :
    StableHlo.after opsE2 V (Proc.devRef .tc main_arg5) = V (Proc.devRef .tc main_arg5) := by
  simp only [StableHlo.after_cons, StableHlo.after_nil]
  rfl

attribute [local irreducible] Host.reduceAdd Host.sqrt Host.expm1 Host.divf Host.negf in
theorem passE2_main_arg6 (V : Valuation τ sig (Elt F)) :
    StableHlo.after opsE2 V (Proc.devRef .tc main_arg6) = V (Proc.devRef .tc main_arg6) := by
  simp only [StableHlo.after_cons, StableHlo.after_nil]
  rfl

attribute [local irreducible] Host.reduceAdd Host.sqrt Host.expm1 Host.divf Host.negf in
theorem passE2_main_v0 (V : Valuation τ sig (Elt F)) :
    StableHlo.after opsE2 V (Proc.devRef .tc main_v0) = V (Proc.devRef .tc main_v0) := by
  simp only [StableHlo.after_cons, StableHlo.after_nil]
  rfl

attribute [local irreducible] Host.reduceAdd Host.sqrt Host.expm1 Host.divf Host.negf in
theorem passE2_main_v135 (V : Valuation τ sig (Elt F)) :
    StableHlo.after opsE2 V (Proc.devRef .tc main_v135) = V (Proc.devRef .tc main_v135) := by
  simp only [StableHlo.after_cons, StableHlo.after_nil]
  rfl

attribute [local irreducible] Host.reduceAdd Host.sqrt Host.expm1 Host.divf Host.negf in
theorem passDa2_main_arg0 (V : Valuation τ sig (Elt F)) :
    StableHlo.after opsDa2 V (Proc.devRef .tc main_arg0) = V (Proc.devRef .tc main_arg0) := by
  simp only [StableHlo.after_cons, StableHlo.after_nil]
  rfl

attribute [local irreducible] Host.reduceAdd Host.sqrt Host.expm1 Host.divf Host.negf in
theorem passDa2_main_arg1 (V : Valuation τ sig (Elt F)) :
    StableHlo.after opsDa2 V (Proc.devRef .tc main_arg1) = V (Proc.devRef .tc main_arg1) := by
  simp only [StableHlo.after_cons, StableHlo.after_nil]
  rfl

attribute [local irreducible] Host.reduceAdd Host.sqrt Host.expm1 Host.divf Host.negf in
theorem passDa2_main_arg2 (V : Valuation τ sig (Elt F)) :
    StableHlo.after opsDa2 V (Proc.devRef .tc main_arg2) = V (Proc.devRef .tc main_arg2) := by
  simp only [StableHlo.after_cons, StableHlo.after_nil]
  rfl

attribute [local irreducible] Host.reduceAdd Host.sqrt Host.expm1 Host.divf Host.negf in
theorem passDa2_main_arg3 (V : Valuation τ sig (Elt F)) :
    StableHlo.after opsDa2 V (Proc.devRef .tc main_arg3) = V (Proc.devRef .tc main_arg3) := by
  simp only [StableHlo.after_cons, StableHlo.after_nil]
  rfl

attribute [local irreducible] Host.reduceAdd Host.sqrt Host.expm1 Host.divf Host.negf in
theorem passDa2_main_arg4 (V : Valuation τ sig (Elt F)) :
    StableHlo.after opsDa2 V (Proc.devRef .tc main_arg4) = V (Proc.devRef .tc main_arg4) := by
  simp only [StableHlo.after_cons, StableHlo.after_nil]
  rfl

attribute [local irreducible] Host.reduceAdd Host.sqrt Host.expm1 Host.divf Host.negf in
theorem passDa2_main_arg5 (V : Valuation τ sig (Elt F)) :
    StableHlo.after opsDa2 V (Proc.devRef .tc main_arg5) = V (Proc.devRef .tc main_arg5) := by
  simp only [StableHlo.after_cons, StableHlo.after_nil]
  rfl

attribute [local irreducible] Host.reduceAdd Host.sqrt Host.expm1 Host.divf Host.negf in
theorem passDa2_main_arg6 (V : Valuation τ sig (Elt F)) :
    StableHlo.after opsDa2 V (Proc.devRef .tc main_arg6) = V (Proc.devRef .tc main_arg6) := by
  simp only [StableHlo.after_cons, StableHlo.after_nil]
  rfl

attribute [local irreducible] Host.reduceAdd Host.sqrt Host.expm1 Host.divf Host.negf in
theorem passDa2_main_v0 (V : Valuation τ sig (Elt F)) :
    StableHlo.after opsDa2 V (Proc.devRef .tc main_v0) = V (Proc.devRef .tc main_v0) := by
  simp only [StableHlo.after_cons, StableHlo.after_nil]
  rfl

attribute [local irreducible] Host.reduceAdd Host.sqrt Host.expm1 Host.divf Host.negf in
theorem passDa2_main_v135 (V : Valuation τ sig (Elt F)) :
    StableHlo.after opsDa2 V (Proc.devRef .tc main_v135) = V (Proc.devRef .tc main_v135) := by
  simp only [StableHlo.after_cons, StableHlo.after_nil]
  rfl

attribute [local irreducible] Host.reduceAdd Host.sqrt Host.expm1 Host.divf Host.negf in
theorem passDa2_main_v149 (V : Valuation τ sig (Elt F)) :
    StableHlo.after opsDa2 V (Proc.devRef .tc main_v149) = V (Proc.devRef .tc main_v149) := by
  simp only [StableHlo.after_cons, StableHlo.after_nil]
  rfl

attribute [local irreducible] Host.reduceAdd Host.sqrt Host.expm1 Host.divf Host.negf in
theorem passDb2_main_arg0 (V : Valuation τ sig (Elt F)) :
    StableHlo.after opsDb2 V (Proc.devRef .tc main_arg0) = V (Proc.devRef .tc main_arg0) := by
  simp only [StableHlo.after_cons, StableHlo.after_nil]
  rfl

attribute [local irreducible] Host.reduceAdd Host.sqrt Host.expm1 Host.divf Host.negf in
theorem passDb2_main_arg1 (V : Valuation τ sig (Elt F)) :
    StableHlo.after opsDb2 V (Proc.devRef .tc main_arg1) = V (Proc.devRef .tc main_arg1) := by
  simp only [StableHlo.after_cons, StableHlo.after_nil]
  rfl

attribute [local irreducible] Host.reduceAdd Host.sqrt Host.expm1 Host.divf Host.negf in
theorem passDb2_main_arg2 (V : Valuation τ sig (Elt F)) :
    StableHlo.after opsDb2 V (Proc.devRef .tc main_arg2) = V (Proc.devRef .tc main_arg2) := by
  simp only [StableHlo.after_cons, StableHlo.after_nil]
  rfl

attribute [local irreducible] Host.reduceAdd Host.sqrt Host.expm1 Host.divf Host.negf in
theorem passDb2_main_arg3 (V : Valuation τ sig (Elt F)) :
    StableHlo.after opsDb2 V (Proc.devRef .tc main_arg3) = V (Proc.devRef .tc main_arg3) := by
  simp only [StableHlo.after_cons, StableHlo.after_nil]
  rfl

attribute [local irreducible] Host.reduceAdd Host.sqrt Host.expm1 Host.divf Host.negf in
theorem passDb2_main_arg4 (V : Valuation τ sig (Elt F)) :
    StableHlo.after opsDb2 V (Proc.devRef .tc main_arg4) = V (Proc.devRef .tc main_arg4) := by
  simp only [StableHlo.after_cons, StableHlo.after_nil]
  rfl

attribute [local irreducible] Host.reduceAdd Host.sqrt Host.expm1 Host.divf Host.negf in
theorem passDb2_main_arg5 (V : Valuation τ sig (Elt F)) :
    StableHlo.after opsDb2 V (Proc.devRef .tc main_arg5) = V (Proc.devRef .tc main_arg5) := by
  simp only [StableHlo.after_cons, StableHlo.after_nil]
  rfl

attribute [local irreducible] Host.reduceAdd Host.sqrt Host.expm1 Host.divf Host.negf in
theorem passDb2_main_arg6 (V : Valuation τ sig (Elt F)) :
    StableHlo.after opsDb2 V (Proc.devRef .tc main_arg6) = V (Proc.devRef .tc main_arg6) := by
  simp only [StableHlo.after_cons, StableHlo.after_nil]
  rfl

attribute [local irreducible] Host.reduceAdd Host.sqrt Host.expm1 Host.divf Host.negf in
theorem passDb2_main_v0 (V : Valuation τ sig (Elt F)) :
    StableHlo.after opsDb2 V (Proc.devRef .tc main_v0) = V (Proc.devRef .tc main_v0) := by
  simp only [StableHlo.after_cons, StableHlo.after_nil]
  rfl

attribute [local irreducible] Host.reduceAdd Host.sqrt Host.expm1 Host.divf Host.negf in
theorem passDb2_main_v135 (V : Valuation τ sig (Elt F)) :
    StableHlo.after opsDb2 V (Proc.devRef .tc main_v135) = V (Proc.devRef .tc main_v135) := by
  simp only [StableHlo.after_cons, StableHlo.after_nil]
  rfl

attribute [local irreducible] Host.reduceAdd Host.sqrt Host.expm1 Host.divf Host.negf in
theorem passDb2_main_v149 (V : Valuation τ sig (Elt F)) :
    StableHlo.after opsDb2 V (Proc.devRef .tc main_v149) = V (Proc.devRef .tc main_v149) := by
  simp only [StableHlo.after_cons, StableHlo.after_nil]
  rfl

attribute [local irreducible] Host.reduceAdd Host.sqrt Host.expm1 Host.divf Host.negf in
theorem passT2_main_arg0 (V : Valuation τ sig (Elt F)) :
    StableHlo.after opsT2 V (Proc.devRef .tc main_arg0) = V (Proc.devRef .tc main_arg0) := by
  simp only [StableHlo.after_cons, StableHlo.after_nil]
  rfl

attribute [local irreducible] Host.reduceAdd Host.sqrt Host.expm1 Host.divf Host.negf in
theorem passT2_main_arg1 (V : Valuation τ sig (Elt F)) :
    StableHlo.after opsT2 V (Proc.devRef .tc main_arg1) = V (Proc.devRef .tc main_arg1) := by
  simp only [StableHlo.after_cons, StableHlo.after_nil]
  rfl

attribute [local irreducible] Host.reduceAdd Host.sqrt Host.expm1 Host.divf Host.negf in
theorem passT2_main_arg2 (V : Valuation τ sig (Elt F)) :
    StableHlo.after opsT2 V (Proc.devRef .tc main_arg2) = V (Proc.devRef .tc main_arg2) := by
  simp only [StableHlo.after_cons, StableHlo.after_nil]
  rfl

attribute [local irreducible] Host.reduceAdd Host.sqrt Host.expm1 Host.divf Host.negf in
theorem passT2_main_arg3 (V : Valuation τ sig (Elt F)) :
    StableHlo.after opsT2 V (Proc.devRef .tc main_arg3) = V (Proc.devRef .tc main_arg3) := by
  simp only [StableHlo.after_cons, StableHlo.after_nil]
  rfl

attribute [local irreducible] Host.reduceAdd Host.sqrt Host.expm1 Host.divf Host.negf in
theorem passT2_main_arg4 (V : Valuation τ sig (Elt F)) :
    StableHlo.after opsT2 V (Proc.devRef .tc main_arg4) = V (Proc.devRef .tc main_arg4) := by
  simp only [StableHlo.after_cons, StableHlo.after_nil]
  rfl

attribute [local irreducible] Host.reduceAdd Host.sqrt Host.expm1 Host.divf Host.negf in
theorem passT2_main_arg5 (V : Valuation τ sig (Elt F)) :
    StableHlo.after opsT2 V (Proc.devRef .tc main_arg5) = V (Proc.devRef .tc main_arg5) := by
  simp only [StableHlo.after_cons, StableHlo.after_nil]
  rfl

attribute [local irreducible] Host.reduceAdd Host.sqrt Host.expm1 Host.divf Host.negf in
theorem passT2_main_arg6 (V : Valuation τ sig (Elt F)) :
    StableHlo.after opsT2 V (Proc.devRef .tc main_arg6) = V (Proc.devRef .tc main_arg6) := by
  simp only [StableHlo.after_cons, StableHlo.after_nil]
  rfl

attribute [local irreducible] Host.reduceAdd Host.sqrt Host.expm1 Host.divf Host.negf in
theorem passT2_main_v135 (V : Valuation τ sig (Elt F)) :
    StableHlo.after opsT2 V (Proc.devRef .tc main_v135) = V (Proc.devRef .tc main_v135) := by
  simp only [StableHlo.after_cons, StableHlo.after_nil]
  rfl

theorem passO_main_arg0 (V : Valuation τ sig (Elt F)) :
    StableHlo.after opsO V (Proc.devRef .tc main_arg0) = V (Proc.devRef .tc main_arg0) := by
  simp only [StableHlo.after_cons, StableHlo.after_nil]
  rfl

theorem passO_main_arg1 (V : Valuation τ sig (Elt F)) :
    StableHlo.after opsO V (Proc.devRef .tc main_arg1) = V (Proc.devRef .tc main_arg1) := by
  simp only [StableHlo.after_cons, StableHlo.after_nil]
  rfl

theorem passO_main_arg2 (V : Valuation τ sig (Elt F)) :
    StableHlo.after opsO V (Proc.devRef .tc main_arg2) = V (Proc.devRef .tc main_arg2) := by
  simp only [StableHlo.after_cons, StableHlo.after_nil]
  rfl

theorem passO_main_arg3 (V : Valuation τ sig (Elt F)) :
    StableHlo.after opsO V (Proc.devRef .tc main_arg3) = V (Proc.devRef .tc main_arg3) := by
  simp only [StableHlo.after_cons, StableHlo.after_nil]
  rfl

theorem passO_main_arg4 (V : Valuation τ sig (Elt F)) :
    StableHlo.after opsO V (Proc.devRef .tc main_arg4) = V (Proc.devRef .tc main_arg4) := by
  simp only [StableHlo.after_cons, StableHlo.after_nil]
  rfl

theorem passO_main_arg5 (V : Valuation τ sig (Elt F)) :
    StableHlo.after opsO V (Proc.devRef .tc main_arg5) = V (Proc.devRef .tc main_arg5) := by
  simp only [StableHlo.after_cons, StableHlo.after_nil]
  rfl

theorem passO_main_arg6 (V : Valuation τ sig (Elt F)) :
    StableHlo.after opsO V (Proc.devRef .tc main_arg6) = V (Proc.devRef .tc main_arg6) := by
  simp only [StableHlo.after_cons, StableHlo.after_nil]
  rfl

/-- The first sweep does not write `main_arg0`. -/
theorem passS1_main_arg0 (V : Valuation τ sig (Elt F)) :
    StableHlo.after opsS1 V (Proc.devRef .tc main_arg0) = V (Proc.devRef .tc main_arg0) := by
  rw [show (opsS1 : List (HloOp τ sig (Elt F))) = opsE1 ++ opsDa1 ++ opsDb1 from rfl, after_append, after_append,
    passDb1_main_arg0, passDa1_main_arg0, passE1_main_arg0]

/-- The first sweep does not write `main_arg1`. -/
theorem passS1_main_arg1 (V : Valuation τ sig (Elt F)) :
    StableHlo.after opsS1 V (Proc.devRef .tc main_arg1) = V (Proc.devRef .tc main_arg1) := by
  rw [show (opsS1 : List (HloOp τ sig (Elt F))) = opsE1 ++ opsDa1 ++ opsDb1 from rfl, after_append, after_append,
    passDb1_main_arg1, passDa1_main_arg1, passE1_main_arg1]

/-- The first sweep does not write `main_arg2`. -/
theorem passS1_main_arg2 (V : Valuation τ sig (Elt F)) :
    StableHlo.after opsS1 V (Proc.devRef .tc main_arg2) = V (Proc.devRef .tc main_arg2) := by
  rw [show (opsS1 : List (HloOp τ sig (Elt F))) = opsE1 ++ opsDa1 ++ opsDb1 from rfl, after_append, after_append,
    passDb1_main_arg2, passDa1_main_arg2, passE1_main_arg2]

/-- The first sweep does not write `main_arg3`. -/
theorem passS1_main_arg3 (V : Valuation τ sig (Elt F)) :
    StableHlo.after opsS1 V (Proc.devRef .tc main_arg3) = V (Proc.devRef .tc main_arg3) := by
  rw [show (opsS1 : List (HloOp τ sig (Elt F))) = opsE1 ++ opsDa1 ++ opsDb1 from rfl, after_append, after_append,
    passDb1_main_arg3, passDa1_main_arg3, passE1_main_arg3]

/-- The first sweep does not write `main_arg4`. -/
theorem passS1_main_arg4 (V : Valuation τ sig (Elt F)) :
    StableHlo.after opsS1 V (Proc.devRef .tc main_arg4) = V (Proc.devRef .tc main_arg4) := by
  rw [show (opsS1 : List (HloOp τ sig (Elt F))) = opsE1 ++ opsDa1 ++ opsDb1 from rfl, after_append, after_append,
    passDb1_main_arg4, passDa1_main_arg4, passE1_main_arg4]

/-- The first sweep does not write `main_arg5`. -/
theorem passS1_main_arg5 (V : Valuation τ sig (Elt F)) :
    StableHlo.after opsS1 V (Proc.devRef .tc main_arg5) = V (Proc.devRef .tc main_arg5) := by
  rw [show (opsS1 : List (HloOp τ sig (Elt F))) = opsE1 ++ opsDa1 ++ opsDb1 from rfl, after_append, after_append,
    passDb1_main_arg5, passDa1_main_arg5, passE1_main_arg5]

/-- The first sweep does not write `main_arg6`. -/
theorem passS1_main_arg6 (V : Valuation τ sig (Elt F)) :
    StableHlo.after opsS1 V (Proc.devRef .tc main_arg6) = V (Proc.devRef .tc main_arg6) := by
  rw [show (opsS1 : List (HloOp τ sig (Elt F))) = opsE1 ++ opsDa1 ++ opsDb1 from rfl, after_append, after_append,
    passDb1_main_arg6, passDa1_main_arg6, passE1_main_arg6]

/-- The first sweep does not write `main_v0`. -/
theorem passS1_main_v0 (V : Valuation τ sig (Elt F)) :
    StableHlo.after opsS1 V (Proc.devRef .tc main_v0) = V (Proc.devRef .tc main_v0) := by
  rw [show (opsS1 : List (HloOp τ sig (Elt F))) = opsE1 ++ opsDa1 ++ opsDb1 from rfl, after_append, after_append,
    passDb1_main_v0, passDa1_main_v0, passE1_main_v0]

/-- The second sweep does not write `main_arg0`. -/
theorem passS2_main_arg0 (V : Valuation τ sig (Elt F)) :
    StableHlo.after opsS2 V (Proc.devRef .tc main_arg0) = V (Proc.devRef .tc main_arg0) := by
  rw [show (opsS2 : List (HloOp τ sig (Elt F))) = opsE2 ++ opsDa2 ++ opsDb2 from rfl, after_append, after_append,
    passDb2_main_arg0, passDa2_main_arg0, passE2_main_arg0]

/-- The second sweep does not write `main_arg1`. -/
theorem passS2_main_arg1 (V : Valuation τ sig (Elt F)) :
    StableHlo.after opsS2 V (Proc.devRef .tc main_arg1) = V (Proc.devRef .tc main_arg1) := by
  rw [show (opsS2 : List (HloOp τ sig (Elt F))) = opsE2 ++ opsDa2 ++ opsDb2 from rfl, after_append, after_append,
    passDb2_main_arg1, passDa2_main_arg1, passE2_main_arg1]

/-- The second sweep does not write `main_arg2`. -/
theorem passS2_main_arg2 (V : Valuation τ sig (Elt F)) :
    StableHlo.after opsS2 V (Proc.devRef .tc main_arg2) = V (Proc.devRef .tc main_arg2) := by
  rw [show (opsS2 : List (HloOp τ sig (Elt F))) = opsE2 ++ opsDa2 ++ opsDb2 from rfl, after_append, after_append,
    passDb2_main_arg2, passDa2_main_arg2, passE2_main_arg2]

/-- The second sweep does not write `main_arg3`. -/
theorem passS2_main_arg3 (V : Valuation τ sig (Elt F)) :
    StableHlo.after opsS2 V (Proc.devRef .tc main_arg3) = V (Proc.devRef .tc main_arg3) := by
  rw [show (opsS2 : List (HloOp τ sig (Elt F))) = opsE2 ++ opsDa2 ++ opsDb2 from rfl, after_append, after_append,
    passDb2_main_arg3, passDa2_main_arg3, passE2_main_arg3]

/-- The second sweep does not write `main_arg4`. -/
theorem passS2_main_arg4 (V : Valuation τ sig (Elt F)) :
    StableHlo.after opsS2 V (Proc.devRef .tc main_arg4) = V (Proc.devRef .tc main_arg4) := by
  rw [show (opsS2 : List (HloOp τ sig (Elt F))) = opsE2 ++ opsDa2 ++ opsDb2 from rfl, after_append, after_append,
    passDb2_main_arg4, passDa2_main_arg4, passE2_main_arg4]

/-- The second sweep does not write `main_arg5`. -/
theorem passS2_main_arg5 (V : Valuation τ sig (Elt F)) :
    StableHlo.after opsS2 V (Proc.devRef .tc main_arg5) = V (Proc.devRef .tc main_arg5) := by
  rw [show (opsS2 : List (HloOp τ sig (Elt F))) = opsE2 ++ opsDa2 ++ opsDb2 from rfl, after_append, after_append,
    passDb2_main_arg5, passDa2_main_arg5, passE2_main_arg5]

/-- The second sweep does not write `main_arg6`. -/
theorem passS2_main_arg6 (V : Valuation τ sig (Elt F)) :
    StableHlo.after opsS2 V (Proc.devRef .tc main_arg6) = V (Proc.devRef .tc main_arg6) := by
  rw [show (opsS2 : List (HloOp τ sig (Elt F))) = opsE2 ++ opsDa2 ++ opsDb2 from rfl, after_append, after_append,
    passDb2_main_arg6, passDa2_main_arg6, passE2_main_arg6]

/-- The second sweep does not write `main_v0`. -/
theorem passS2_main_v0 (V : Valuation τ sig (Elt F)) :
    StableHlo.after opsS2 V (Proc.devRef .tc main_v0) = V (Proc.devRef .tc main_v0) := by
  rw [show (opsS2 : List (HloOp τ sig (Elt F))) = opsE2 ++ opsDa2 ++ opsDb2 from rfl, after_append, after_append,
    passDb2_main_v0, passDa2_main_v0, passE2_main_v0]

/-- The second sweep does not write `main_v135`. -/
theorem passS2_main_v135 (V : Valuation τ sig (Elt F)) :
    StableHlo.after opsS2 V (Proc.devRef .tc main_v135) = V (Proc.devRef .tc main_v135) := by
  rw [show (opsS2 : List (HloOp τ sig (Elt F))) = opsE2 ++ opsDa2 ++ opsDb2 from rfl, after_append, after_append,
    passDb2_main_v135, passDa2_main_v135, passE2_main_v135]

end Cert.ReferenceIdeal.Hand

end
-- ==== Proof.RefStages.lean ====
/-
  One sweep of the reference program as pure functions of its arrays, and the proof that it is the
  specification Cert.DS.H.

  The reference computes, for the three views at once, the pre-activation  z - L z + P  (a broadcast of z over the
  view axis, one contraction of L with z over the sample axis, a subtraction and an addition), its evidence
  softplus + 1, takes the three views apart (a slice and a reshape each), and fuses them row by row with
  Dempster's rule applied twice.  Each function below is the composition of the program's own operations in the
  program's order; each theorem named _apply reads it at one entry, where the row sums become sums over the ten
  classes and the contraction a sum over the 6144 samples.
-/
import proofs.«115280_j31628139168172_2_alg».proof.ReferenceIdeal
import proofs.«115280_j31628139168172_2_alg».proof.Proof.Gen.ReferenceIdeal
import proofs.«115280_j31628139168172_2_alg».proof.Proof.DsSpec
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.RefStages

open Idealize.ShloMosaic Idealize.ShloMosaic.ValueIdx
open Cert.ReferenceIdeal Cert.ReferenceIdeal.Facts₀

/-- A 6144 x 10 array of extended reals. -/
abbrev Arr2 : Type := (⟨S6144x10, .f32⟩ : BufTy).Contents (Elt Ideal)
/-- A 6144 x 1 column of extended reals. -/
abbrev Col : Type := (⟨S6144x1, .f32⟩ : BufTy).Contents (Elt Ideal)
/-- A 3 x 6144 x 10 array of extended reals. -/
abbrev Arr3 : Type := (⟨S3x6144x10, .f32⟩ : BufTy).Contents (Elt Ideal)

/-! ## Dempster's combination of two evidence arrays, as the program composes it -/

/-- The row sums of an array, kept as a column: the sum over axis 1 from zero, then [6144] to [6144, 1]. -/
def rowSumCol (x : Arr2) : Col :=
  broadcastInDim S6144x1 ![0] bcast_S6144_S6144x1_0
    (Host.reduceAdd (F := Ideal) (φ := .f32) x (constant (F := Ideal) S_ .f32 0x00000000#32)
      reducesTo_S6144x10_S6144_d1 h_S_)

/-- A column copied along the ten classes. -/
def spread (c : Col) : Arr2 := broadcastInDim S6144x10 ![0, 1] bcast_S6144x1_S6144x10_0_1 c

/-- A scalar constant as a 6144 x 10 array. -/
def splat2 (w : BitVec 32) : Arr2 := broadcastInDim S6144x10 ![] bcast_S_S6144x10 (constant (F := Ideal) S_ .f32 w)

/-- A scalar constant as a column. -/
def splatCol (w : BitVec 32) : Col := broadcastInDim S6144x1 ![] bcast_S_S6144x1 (constant (F := Ideal) S_ .f32 w)

/-- The entrywise operations of the program at the extended reals, on 6144 x 10 arrays and on columns. -/
abbrev add2 (x y : Arr2) : Arr2 := addf (F := Ideal) (s := S6144x10) (φ := .f32) x y
abbrev sub2 (x y : Arr2) : Arr2 := subf (F := Ideal) (s := S6144x10) (φ := .f32) x y
abbrev mul2 (x y : Arr2) : Arr2 := mulf (F := Ideal) (s := S6144x10) (φ := .f32) x y
abbrev div2 (x y : Arr2) : Arr2 := Host.divf (F := Ideal) (s := S6144x10) (φ := .f32) x y
abbrev subC (x y : Col) : Col := subf (F := Ideal) (s := S6144x1) (φ := .f32) x y
abbrev mulC (x y : Col) : Col := mulf (F := Ideal) (s := S6144x1) (φ := .f32) x y
abbrev divC (x y : Col) : Col := Host.divf (F := Ideal) (s := S6144x1) (φ := .f32) x y

/-- Belief masses (a - 1) / S of every row. -/
def beliefs (a : Arr2) : Arr2 := div2 (sub2 a (splat2 0x3F800000#32)) (spread (rowSumCol a))

/-- Uncertainty masses 10 / S of every row, a column. -/
def uncert (a : Arr2) : Col := divC (splatCol 0x41200000#32) (rowSumCol a)

/-- The conflict of two belief arrays, a column: (sum b1)(sum b2) - sum (b1 b2). -/
def conflictCol (b1 b2 : Arr2) : Col := subC (mulC (rowSumCol b1) (rowSumCol b2)) (rowSumCol (mul2 b1 b2))

/-- Dempster's combination of two evidence arrays, row by row. -/
def refDs (a b : Arr2) : Arr2 :=
  add2
    (mul2
      (div2
        (add2 (add2 (mul2 (beliefs a) (beliefs b)) (mul2 (beliefs a) (spread (uncert b))))
          (mul2 (beliefs b) (spread (uncert a))))
        (spread (subC (splatCol 0x3F800000#32) (conflictCol (beliefs a) (beliefs b)))))
      (spread
        (divC (splatCol 0x41200000#32)
          (divC (mulC (uncert a) (uncert b))
            (subC (splatCol 0x3F800000#32) (conflictCol (beliefs a) (beliefs b)))))))
    (splat2 0x3F800000#32)

/-! ### Read at an entry -/

/-- The shape fact naming the inserted class coordinate of a row sum. -/
theorem reduces_rows : S6144x10.Reduces [1] S6144 := by decide

/-- A row sum kept as a column, at row r: the sum of the row's ten entries. -/
theorem rowSumCol_apply (x : Arr2) (r : Fin 6144) :
    rowSumCol x (ix2 r (0 : Fin 1)) = ∑ k : Fin 10, x (ix2 r k) := by
  unfold rowSumCol
  rw [broadcastInDim_apply ![0] bcast_S6144_S6144x1_0 _ (ix2 r (0 : Fin 1)) (ix1 r)
    (fun a => match a with | ⟨0, _⟩ => rfl)]
  unfold Host.reduceAdd
  rw [Ideal.hostReduceAdd_def, Ideal.hostReduceAdd_single reducesTo_S6144x10_S6144_d1 reduces_rows]
  rw [constant_apply, Ideal.ofBits_zero_f32, zero_add]
  refine Finset.sum_congr rfl fun k _ => congrArg x ?_
  funext a; apply Fin.ext
  match a with
  | ⟨0, _⟩ => rfl
  | ⟨1, _⟩ => rfl

/-- A column copied along the classes reads the column's entry of the row. -/
theorem spread_apply (c : Col) (r : Fin 6144) (k : Fin 10) : spread c (ix2 r k) = c (ix2 r (0 : Fin 1)) := by
  unfold spread
  exact broadcastInDim_apply ![0, 1] bcast_S6144x1_S6144x10_0_1 c (ix2 r k) (ix2 r (0 : Fin 1))
    (fun a => match a with | ⟨0, _⟩ => rfl | ⟨1, _⟩ => rfl)

/-- A scalar constant as an array reads the extended real of its word. -/
theorem splat2_apply (w : BitVec 32) (i : S6144x10.Idx) : splat2 w i = Ideal.ofBits .f32 w := by
  unfold splat2
  rw [broadcastInDim_scalar_apply, constant_apply]

/-- A scalar constant as a column reads the extended real of its word. -/
theorem splatCol_apply (w : BitVec 32) (i : S6144x1.Idx) : splatCol w i = Ideal.ofBits .f32 w := by
  unfold splatCol
  rw [broadcastInDim_scalar_apply, constant_apply]

/-- The belief masses of a row are the specification's. -/
theorem beliefs_apply (a : Arr2) (r : Fin 6144) (k : Fin 10) :
    beliefs a (ix2 r k) = Cert.DS.belief (fun j => a (ix2 r j)) k := by
  unfold beliefs Cert.DS.belief Cert.DS.rsum
  show Ideal.div (a (ix2 r k) - splat2 0x3F800000#32 (ix2 r k)) (spread (rowSumCol a) (ix2 r k)) = _
  rw [splat2_apply, spread_apply, rowSumCol_apply]

/-- The uncertainty mass of a row is the specification's. -/
theorem uncert_apply (a : Arr2) (r : Fin 6144) :
    uncert a (ix2 r (0 : Fin 1)) = Cert.DS.unc (fun j => a (ix2 r j)) := by
  unfold uncert Cert.DS.unc Cert.DS.rsum
  show Ideal.div (splatCol 0x41200000#32 (ix2 r (0 : Fin 1))) (rowSumCol a (ix2 r (0 : Fin 1))) = _
  rw [splatCol_apply, rowSumCol_apply]

/-- The conflict of the belief masses of two rows is the specification's. -/
theorem conflictCol_beliefs_apply (a b : Arr2) (r : Fin 6144) :
    conflictCol (beliefs a) (beliefs b) (ix2 r (0 : Fin 1))
      = Cert.DS.conflict (fun j => a (ix2 r j)) (fun j => b (ix2 r j)) := by
  unfold conflictCol Cert.DS.conflict Cert.DS.rsum
  show rowSumCol (beliefs a) (ix2 r (0 : Fin 1)) * rowSumCol (beliefs b) (ix2 r (0 : Fin 1))
      - rowSumCol (mul2 (beliefs a) (beliefs b)) (ix2 r (0 : Fin 1)) = _
  rw [rowSumCol_apply, rowSumCol_apply, rowSumCol_apply]
  simp only [beliefs_apply]
  show _ - (∑ k : Fin 10, beliefs a (ix2 r k) * beliefs b (ix2 r k)) = _
  simp only [beliefs_apply]

/-- Dempster's combination as the program composes it is, at every entry, the specification's rule applied to the
    two rows. -/
theorem refDs_apply (a b : Arr2) (r : Fin 6144) (k : Fin 10) :
    refDs a b (ValueIdx.ix2 r k) = Cert.DS.ds (fun j => a (ValueIdx.ix2 r j)) (fun j => b (ValueIdx.ix2 r j)) k := by
  unfold refDs Cert.DS.ds
  show Ideal.div
        (beliefs a (ix2 r k) * beliefs b (ix2 r k) + beliefs a (ix2 r k) * spread (uncert b) (ix2 r k)
          + beliefs b (ix2 r k) * spread (uncert a) (ix2 r k))
        (spread (subC (splatCol 0x3F800000#32) (conflictCol (beliefs a) (beliefs b))) (ix2 r k))
      * spread (divC (splatCol 0x41200000#32)
          (divC (mulC (uncert a) (uncert b))
            (subC (splatCol 0x3F800000#32) (conflictCol (beliefs a) (beliefs b))))) (ix2 r k)
      + splat2 0x3F800000#32 (ix2 r k) = _
  rw [spread_apply, spread_apply, spread_apply, spread_apply, splat2_apply]
  show Ideal.div _ (splatCol 0x3F800000#32 (ix2 r (0 : Fin 1)) - conflictCol (beliefs a) (beliefs b) (ix2 r (0 : Fin 1)))
      * Ideal.div (splatCol 0x41200000#32 (ix2 r (0 : Fin 1)))
          (Ideal.div (uncert a (ix2 r (0 : Fin 1)) * uncert b (ix2 r (0 : Fin 1)))
            (splatCol 0x3F800000#32 (ix2 r (0 : Fin 1)) - conflictCol (beliefs a) (beliefs b) (ix2 r (0 : Fin 1))))
      + _ = _
  rw [splatCol_apply, splatCol_apply, conflictCol_beliefs_apply, uncert_apply, uncert_apply, beliefs_apply, beliefs_apply]

/-! ## The evidences of the three views, as the program composes them -/

/-- A 3 x 6144 x 6144 array of extended reals. -/
abbrev ArrL : Type := (⟨S3x6144x6144, .f32⟩ : BufTy).Contents (Elt Ideal)

/-- The entrywise operations of the program at the extended reals, on 3 x 6144 x 10 arrays. -/
abbrev add3 (x y : Arr3) : Arr3 := addf (F := Ideal) (s := S3x6144x10) (φ := .f32) x y
abbrev sub3 (x y : Arr3) : Arr3 := subf (F := Ideal) (s := S3x6144x10) (φ := .f32) x y
abbrev max3 (x y : Arr3) : Arr3 := maximumf (F := Ideal) (s := S3x6144x10) (φ := .f32) x y

/-- A scalar constant as a 3 x 6144 x 10 array. -/
def splat3 (w : BitVec 32) : Arr3 := broadcastInDim S3x6144x10 ![] bcast_S_S3x6144x10 (constant (F := Ideal) S_ .f32 w)

/-- The pre-activations of the three views: z copied over the view axis, minus the contraction of L with z over the
    sample axis, plus P. -/
def refPre (L : ArrL) (z : Arr2) (P : Arr3) : Arr3 :=
  add3
    (sub3
      (broadcastInDim S3x6144x10 ![0, 1, 2] bcast_S1x6144x10_S3x6144x10_0_1_2
        (broadcastInDim S1x6144x10 ![1, 2] bcast_S6144x10_S1x6144x10_1_2 z))
      (Host.dotGeneral (F := Ideal) (φ₁ := .f32) (φ₂ := .f32) dot_S3x6144x6144_S6144x10_S3x6144x10_2_0_01_1_n_n none L z))
    P

/-- The softplus of every entry as the called function computes it: where x - 0 differs from itself, x + 0, and
    elsewhere  max x 0 + log (1 + e^(-|x - 0|)). -/
def refSoftplus (x : Arr3) : Arr3 :=
  select
    (cmpf (F := Ideal) (s := S3x6144x10) (φ := .f32) .une (sub3 x (splat3 0x00000000#32)) (sub3 x (splat3 0x00000000#32)))
    (add3 x (splat3 0x00000000#32))
    (add3 (max3 x (splat3 0x00000000#32))
      (Host.log1p (F := Ideal) (s := S3x6144x10) (φ := .f32)
        (Host.exp (F := Ideal) (s := S3x6144x10) (φ := .f32)
          (Host.negf (F := Ideal) (s := S3x6144x10) (φ := .f32)
            (Host.absf (F := Ideal) (s := S3x6144x10) (φ := .f32) (sub3 x (splat3 0x00000000#32)))))))

/-- The evidences of the three views: softplus of the pre-activation, plus one. -/
def refEv (L : (⟨S3x6144x6144, .f32⟩ : BufTy).Contents (Elt Ideal)) (z : (⟨S6144x10, .f32⟩ : BufTy).Contents (Elt Ideal))
    (P : (⟨S3x6144x10, .f32⟩ : BufTy).Contents (Elt Ideal)) : (⟨S3x6144x10, .f32⟩ : BufTy).Contents (Elt Ideal) :=
  add3 (refSoftplus (refPre L z P)) (splat3 0x3F800000#32)

/-! ### Read at an entry -/

/-- A scalar constant as a three-axis array reads the extended real of its word. -/
theorem splat3_apply (w : BitVec 32) (i : S3x6144x10.Idx) : splat3 w i = Ideal.ofBits .f32 w := by
  unfold splat3
  rw [broadcastInDim_scalar_apply, constant_apply]

/-- z copied over the view axis reads z at the row and class. -/
theorem zviews_apply (z : Arr2) (v : Fin 3) (r : Fin 6144) (j : Fin 10) :
    broadcastInDim S3x6144x10 ![0, 1, 2] bcast_S1x6144x10_S3x6144x10_0_1_2
        (broadcastInDim S1x6144x10 ![1, 2] bcast_S6144x10_S1x6144x10_1_2 z) (ix3 v r j) = z (ix2 r j) := by
  rw [broadcastInDim_apply ![0, 1, 2] bcast_S1x6144x10_S3x6144x10_0_1_2 _ (ix3 v r j) (ix3 (0 : Fin 1) r j)
    (fun a => match a with | ⟨0, _⟩ => rfl | ⟨1, _⟩ => rfl | ⟨2, _⟩ => rfl)]
  exact broadcastInDim_apply ![1, 2] bcast_S6144x10_S1x6144x10_1_2 z (ix3 (0 : Fin 1) r j) (ix2 r j)
    (fun a => match a with | ⟨0, _⟩ => rfl | ⟨1, _⟩ => rfl)

/-- The contraction of L with z over the sample axis, at view v, row r and class j: the sum over the 6144 samples. -/
theorem Lz_apply (L : ArrL) (z : Arr2) (v : Fin 3) (r : Fin 6144) (j : Fin 10) :
    Host.dotGeneral (F := Ideal) (φ₁ := .f32) (φ₂ := .f32) dot_S3x6144x6144_S6144x10_S3x6144x10_2_0_01_1_n_n none L z
        (ix3 v r j) = ∑ m : Fin 6144, L (ix3 v r m) * z (ix2 m j) := by
  show FloatOps.dotGeneral (F := Ideal) (φ₁ := .f32) (φ₂ := .f32) dot_S3x6144x6144_S6144x10_S3x6144x10_2_0_01_1_n_n none .single L z
      (ix3 v r j) = _
  rw [Ideal.dotGeneral_apply,
    ← Equiv.sum_comp (contrEquiv1 dot_S3x6144x6144_S6144x10_S3x6144x10_2_0_01_1_n_n 6144 rfl rfl).symm]
  refine Finset.sum_congr rfl fun m _ => ?_
  have c := contrEquiv1_symm_val dot_S3x6144x6144_S6144x10_S3x6144x10_2_0_01_1_n_n 6144 rfl rfl m
  have l : dot_S3x6144x6144_S6144x10_S3x6144x10_2_0_01_1_n_n.lhsIdx (ix3 v r j)
      ((contrEquiv1 dot_S3x6144x6144_S6144x10_S3x6144x10_2_0_01_1_n_n 6144 rfl rfl).symm m) = ix3 v r m := by
    funext ax; apply Fin.ext
    match ax with
    | ⟨0, _⟩ => simp [DotDims.lhsIdx, dot_S3x6144x6144_S6144x10_S3x6144x10_2_0_01_1_n_n]; rfl
    | ⟨1, _⟩ => simp [DotDims.lhsIdx, dot_S3x6144x6144_S6144x10_S3x6144x10_2_0_01_1_n_n]; rfl
    | ⟨2, _⟩ => simp [DotDims.lhsIdx, dot_S3x6144x6144_S6144x10_S3x6144x10_2_0_01_1_n_n]; exact c
  have rr : dot_S3x6144x6144_S6144x10_S3x6144x10_2_0_01_1_n_n.rhsIdx (ix3 v r j)
      ((contrEquiv1 dot_S3x6144x6144_S6144x10_S3x6144x10_2_0_01_1_n_n 6144 rfl rfl).symm m) = ix2 m j := by
    funext ax; apply Fin.ext
    match ax with
    | ⟨0, _⟩ => simp [DotDims.rhsIdx, dot_S3x6144x6144_S6144x10_S3x6144x10_2_0_01_1_n_n]; exact c
    | ⟨1, _⟩ => simp [DotDims.rhsIdx, dot_S3x6144x6144_S6144x10_S3x6144x10_2_0_01_1_n_n]; rfl
  rw [l, rr]

/-- One entry of the called softplus plus one is the specification's evidence: x - 0 never differs from itself, so
    the guarded branch is not taken, and |x - 0| is max x (-x). -/
theorem softplus_entry (x : EReal) :
    Scalar.select
        (FloatOps.cmpf (F := Ideal) (φ := .f32) .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      + Ideal.ofBits .f32 0x3F800000#32 = Cert.DS.alpha x := by
  have h0 : FloatOps.cmpf (F := Ideal) (φ := .f32) .une (x - Ideal.ofBits .f32 0x00000000#32) (x - Ideal.ofBits .f32 0x00000000#32) = 0#1 := by
    rw [Ideal.cmpf_def]; simp [Ideal.cmp]
  rw [h0, select_zero, Ideal.ofBits_zero_f32, sub_zero]
  rfl

/-- The pre-activation the program composes is the specification's. -/
theorem refPre_apply (L : ArrL) (z : Arr2) (P : Arr3) (v : Fin 3) (r : Fin 6144) (j : Fin 10) :
    refPre L z P (ix3 v r j) = Cert.DS.pre L z P v r j := by
  unfold refPre Cert.DS.pre
  show broadcastInDim S3x6144x10 ![0, 1, 2] bcast_S1x6144x10_S3x6144x10_0_1_2
          (broadcastInDim S1x6144x10 ![1, 2] bcast_S6144x10_S1x6144x10_1_2 z) (ix3 v r j)
        - Host.dotGeneral (F := Ideal) (φ₁ := .f32) (φ₂ := .f32) dot_S3x6144x6144_S6144x10_S3x6144x10_2_0_01_1_n_n none L z
            (ix3 v r j)
        + P (ix3 v r j) = _
  rw [zviews_apply, Lz_apply]

/-- The called softplus plus one, at an entry, is the specification's evidence of that entry. -/
theorem refSoftplus_apply (X : Arr3) (i : S3x6144x10.Idx) :
    refSoftplus X i + Ideal.ofBits .f32 0x3F800000#32 = Cert.DS.alpha (X i) := by
  rw [← softplus_entry (X i), ← splat3_apply 0x00000000#32 i]
  rfl

/-- The evidences the program composes are the specification's, entry by entry. -/
theorem refEv_apply (L : (⟨S3x6144x6144, .f32⟩ : BufTy).Contents (Elt Ideal)) (z : (⟨S6144x10, .f32⟩ : BufTy).Contents (Elt Ideal))
    (P : (⟨S3x6144x10, .f32⟩ : BufTy).Contents (Elt Ideal)) (v : Fin 3) (r : Fin 6144) (j : Fin 10) :
    refEv L z P (ValueIdx.ix3 v r j) = Cert.DS.alpha (Cert.DS.pre L z P v r j) := by
  unfold refEv
  show refSoftplus (refPre L z P) (ix3 v r j) + splat3 0x3F800000#32 (ix3 v r j) = _
  rw [splat3_apply, refSoftplus_apply, refPre_apply]

/-! ## The three views taken apart, and one sweep -/

/-- View 0 of a three-view array: the slice [0:1] of the view axis, reshaped to 6144 x 10. -/
def refView0 (E : (⟨S3x6144x10, .f32⟩ : BufTy).Contents (Elt Ideal)) : (⟨S6144x10, .f32⟩ : BufTy).Contents (Elt Ideal) :=
  shapeCast S6144x10 (extractStridedSlice S1x6144x10 ![0, 0, 0] E slices_S3x6144x10_S1x6144x10_0_0_0)
    shapeCasts_S1x6144x10_S6144x10

/-- View 1: the slice [1:2], reshaped. -/
def refView1 (E : (⟨S3x6144x10, .f32⟩ : BufTy).Contents (Elt Ideal)) : (⟨S6144x10, .f32⟩ : BufTy).Contents (Elt Ideal) :=
  shapeCast S6144x10 (extractStridedSlice S1x6144x10 ![1, 0, 0] E slices_S3x6144x10_S1x6144x10_1_0_0)
    shapeCasts_S1x6144x10_S6144x10

/-- View 2: the slice [2:3], reshaped. -/
def refView2 (E : (⟨S3x6144x10, .f32⟩ : BufTy).Contents (Elt Ideal)) : (⟨S6144x10, .f32⟩ : BufTy).Contents (Elt Ideal) :=
  shapeCast S6144x10 (extractStridedSlice S1x6144x10 ![2, 0, 0] E slices_S3x6144x10_S1x6144x10_2_0_0)
    shapeCasts_S1x6144x10_S6144x10

/-- One sweep's fused evidences: the first two views combined, then the result with the third. -/
def refH (L : (⟨S3x6144x6144, .f32⟩ : BufTy).Contents (Elt Ideal)) (z : (⟨S6144x10, .f32⟩ : BufTy).Contents (Elt Ideal))
    (P : (⟨S3x6144x10, .f32⟩ : BufTy).Contents (Elt Ideal)) : (⟨S6144x10, .f32⟩ : BufTy).Contents (Elt Ideal) :=
  refDs (refDs (refView0 (refEv L z P)) (refView1 (refEv L z P))) (refView2 (refEv L z P))

/-- A one-view slab reshaped to 6144 x 10 reads the slab at the same row and class. -/
theorem slab_apply (X : (⟨S1x6144x10, .f32⟩ : BufTy).Contents (Elt Ideal)) (r : Fin 6144) (k : Fin 10) :
    shapeCast S6144x10 X shapeCasts_S1x6144x10_S6144x10 (ix2 r k) = X (ix3 (0 : Fin 1) r k) := by
  refine shapeCast_apply X shapeCasts_S1x6144x10_S6144x10 (ix2 r k) (ix3 (0 : Fin 1) r k) ?_
  rw [Shape.rowMajor_val_three, Shape.rowMajor_val_two]
  show (0 * 6144 + r.val) * 10 + k.val = r.val * 10 + k.val
  omega

theorem refView0_apply (E : Arr3) (r : Fin 6144) (k : Fin 10) : refView0 E (ix2 r k) = E (ix3 (0 : Fin 3) r k) := by
  unfold refView0
  rw [slab_apply]
  exact extractStridedSlice_apply ![0, 0, 0] E slices_S3x6144x10_S1x6144x10_0_0_0 (ix3 (0 : Fin 1) r k) (ix3 (0 : Fin 3) r k)
    (fun a => match a with | ⟨0, _⟩ => rfl | ⟨1, _⟩ => by show r.val = 0 + r.val; omega | ⟨2, _⟩ => by show k.val = 0 + k.val; omega)

theorem refView1_apply (E : Arr3) (r : Fin 6144) (k : Fin 10) : refView1 E (ix2 r k) = E (ix3 (1 : Fin 3) r k) := by
  unfold refView1
  rw [slab_apply]
  exact extractStridedSlice_apply ![1, 0, 0] E slices_S3x6144x10_S1x6144x10_1_0_0 (ix3 (0 : Fin 1) r k) (ix3 (1 : Fin 3) r k)
    (fun a => match a with | ⟨0, _⟩ => rfl | ⟨1, _⟩ => by show r.val = 0 + r.val; omega | ⟨2, _⟩ => by show k.val = 0 + k.val; omega)

theorem refView2_apply (E : Arr3) (r : Fin 6144) (k : Fin 10) : refView2 E (ix2 r k) = E (ix3 (2 : Fin 3) r k) := by
  unfold refView2
  rw [slab_apply]
  exact extractStridedSlice_apply ![2, 0, 0] E slices_S3x6144x10_S1x6144x10_2_0_0 (ix3 (0 : Fin 1) r k) (ix3 (2 : Fin 3) r k)
    (fun a => match a with | ⟨0, _⟩ => rfl | ⟨1, _⟩ => by show r.val = 0 + r.val; omega | ⟨2, _⟩ => by show k.val = 0 + k.val; omega)

/-- One sweep of the reference is the specification's fused evidences. -/
theorem refH_eq (L : (⟨S3x6144x6144, .f32⟩ : BufTy).Contents (Elt Ideal)) (z : (⟨S6144x10, .f32⟩ : BufTy).Contents (Elt Ideal))
    (P : (⟨S3x6144x10, .f32⟩ : BufTy).Contents (Elt Ideal)) : refH L z P = Cert.DS.H L z P := by
  funext i
  obtain ⟨r, k, rfl⟩ : ∃ (r : Fin 6144) (k : Fin 10), i = ix2 r k := ⟨i 0, i 1, eq_ix2 i⟩
  rw [Cert.DS.H_apply]
  unfold refH Cert.DS.Hrow Cert.DS.ev
  rw [refDs_apply]
  simp only [refDs_apply, refView0_apply, refView1_apply, refView2_apply, refEv_apply]

end Cert.RefStages

end
-- ==== Proof.RefReadS.lean ====
/-
  The two sweeps' stretches of the reference's line of host operations, read at the buffers the rest of the line uses.

  A sweep is three stretches: the evidences of the three views (ending with the three 6144 x 10 views), the
  Dempster combination of the first two views, and the combination of that result with the third view.  Each
  stretch is read, from ANY contents of the buffers at its entry, as the pure function of Proof/RefStages.lean applied
  to the buffers it reads; a buffer a stretch does not write keeps its contents.  Composed, a sweep leaves in its last
  buffer the specification's fused evidences of (L, z, P).
-/
import proofs.«115280_j31628139168172_2_alg».proof.Proof.RefOps
import proofs.«115280_j31628139168172_2_alg».proof.Proof.RefStages
import Idealize.ShloMosaic.Lib.StableHlo.Run

set_option maxRecDepth 16384

noncomputable section

namespace Cert.ReferenceIdeal.Hand

open Idealize.ShloMosaic Idealize.ShloMosaic.StableHlo Cert.ReferenceIdeal

/-- Two lines of operations run one after the other: the second line from what the first leaves. -/
theorem after_append' {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## Sweep 1 -/

set_option maxHeartbeats 1000000 in
/-- The evidences' stretch leaves view 0 of the evidences of (L, z, P) in its first view buffer. -/
theorem readE1_0 (V : Valuation τ sig (Elt Ideal)) :
    after (opsE1 (F := Ideal)) V (Proc.devRef .tc main_v10)
      = Cert.RefStages.refView0 (Cert.RefStages.refEv (V (Proc.devRef .tc main_arg1)) (V (Proc.devRef .tc main_arg2))
          (V (Proc.devRef .tc main_v0))) := by
  simp only [after_cons, after_nil]
  rfl

set_option maxHeartbeats 1000000 in
/-- ... view 1 in its second. -/
theorem readE1_1 (V : Valuation τ sig (Elt Ideal)) :
    after (opsE1 (F := Ideal)) V (Proc.devRef .tc main_v12)
      = Cert.RefStages.refView1 (Cert.RefStages.refEv (V (Proc.devRef .tc main_arg1)) (V (Proc.devRef .tc main_arg2))
          (V (Proc.devRef .tc main_v0))) := by
  simp only [after_cons, after_nil]
  rfl

set_option maxHeartbeats 1000000 in
/-- ... and view 2 in its third. -/
theorem readE1_2 (V : Valuation τ sig (Elt Ideal)) :
    after (opsE1 (F := Ideal)) V (Proc.devRef .tc main_v14)
      = Cert.RefStages.refView2 (Cert.RefStages.refEv (V (Proc.devRef .tc main_arg1)) (V (Proc.devRef .tc main_arg2))
          (V (Proc.devRef .tc main_v0))) := by
  simp only [after_cons, after_nil]
  rfl

attribute [local irreducible] Host.reduceAdd Host.divf in
set_option maxHeartbeats 1000000 in
/-- The first combination: the rule applied to the first two views. -/
theorem readDa1 (V : Valuation τ sig (Elt Ideal)) :
    after (opsDa1 (F := Ideal)) V (Proc.devRef .tc main_v60)
      = Cert.RefStages.refDs (V (Proc.devRef .tc main_v10)) (V (Proc.devRef .tc main_v12)) := by
  simp only [after_cons, after_nil]
  rfl

attribute [local irreducible] Host.reduceAdd Host.divf in
set_option maxHeartbeats 1000000 in
/-- The third view is not written by the first combination. -/
theorem passDa1_view2 (V : Valuation τ sig (Elt Ideal)) :
    after (opsDa1 (F := Ideal)) V (Proc.devRef .tc main_v14) = V (Proc.devRef .tc main_v14) := by
  simp only [after_cons, after_nil]
  rfl

attribute [local irreducible] Host.reduceAdd Host.divf in
set_option maxHeartbeats 1000000 in
/-- The second combination: the rule applied to the first combination's result and the third view. -/
theorem readDb1 (V : Valuation τ sig (Elt Ideal)) :
    after (opsDb1 (F := Ideal)) V (Proc.devRef .tc main_v106)
      = Cert.RefStages.refDs (V (Proc.devRef .tc main_v60)) (V (Proc.devRef .tc main_v14)) := by
  simp only [after_cons, after_nil]
  rfl

/-- The whole sweep leaves the specification's fused evidences of (L, z, P) in its last buffer. -/
theorem readS1 (V : Valuation τ sig (Elt Ideal)) :
    after (opsS1 (F := Ideal)) V (Proc.devRef .tc main_v106)
      = Cert.DS.H (V (Proc.devRef .tc main_arg1)) (V (Proc.devRef .tc main_arg2)) (V (Proc.devRef .tc main_v0)) :=
  have s : after (opsS1 (F := Ideal)) V
      = after (opsDb1 (F := Ideal)) (after (opsDa1 (F := Ideal)) (after (opsE1 (F := Ideal)) V)) :=
    (after_append' (opsE1 ++ opsDa1) opsDb1 V).trans
      (congrArg (after (opsDb1 (F := Ideal))) (after_append' opsE1 opsDa1 V))
  (congrFun s _).trans
    ((readDb1 (after (opsDa1 (F := Ideal)) (after (opsE1 (F := Ideal)) V))).trans
      ((congr
          (congrArg Cert.RefStages.refDs
            ((readDa1 (after (opsE1 (F := Ideal)) V)).trans
              (congr (congrArg Cert.RefStages.refDs (readE1_0 V)) (readE1_1 V))))
          ((passDa1_view2 (after (opsE1 (F := Ideal)) V)).trans (readE1_2 V))).trans
        (Cert.RefStages.refH_eq _ _ _)))

/-! ## Sweep 2 -/

set_option maxHeartbeats 1000000 in
/-- The evidences' stretch leaves view 0 of the evidences of (L, z, P) in its first view buffer. -/
theorem readE2_0 (V : Valuation τ sig (Elt Ideal)) :
    after (opsE2 (F := Ideal)) V (Proc.devRef .tc main_v145)
      = Cert.RefStages.refView0 (Cert.RefStages.refEv (V (Proc.devRef .tc main_arg1)) (V (Proc.devRef .tc main_v135))
          (V (Proc.devRef .tc main_v0))) := by
  simp only [after_cons, after_nil]
  rfl

set_option maxHeartbeats 1000000 in
/-- ... view 1 in its second. -/
theorem readE2_1 (V : Valuation τ sig (Elt Ideal)) :
    after (opsE2 (F := Ideal)) V (Proc.devRef .tc main_v147)
      = Cert.RefStages.refView1 (Cert.RefStages.refEv (V (Proc.devRef .tc main_arg1)) (V (Proc.devRef .tc main_v135))
          (V (Proc.devRef .tc main_v0))) := by
  simp only [after_cons, after_nil]
  rfl

set_option maxHeartbeats 1000000 in
/-- ... and view 2 in its third. -/
theorem readE2_2 (V : Valuation τ sig (Elt Ideal)) :
    after (opsE2 (F := Ideal)) V (Proc.devRef .tc main_v149)
      = Cert.RefStages.refView2 (Cert.RefStages.refEv (V (Proc.devRef .tc main_arg1)) (V (Proc.devRef .tc main_v135))
          (V (Proc.devRef .tc main_v0))) := by
  simp only [after_cons, after_nil]
  rfl

attribute [local irreducible] Host.reduceAdd Host.divf in
set_option maxHeartbeats 1000000 in
/-- The first combination: the rule applied to the first two views. -/
theorem readDa2 (V : Valuation τ sig (Elt Ideal)) :
    after (opsDa2 (F := Ideal)) V (Proc.devRef .tc main_v195)
      = Cert.RefStages.refDs (V (Proc.devRef .tc main_v145)) (V (Proc.devRef .tc main_v147)) := by
  simp only [after_cons, after_nil]
  rfl

attribute [local irreducible] Host.reduceAdd Host.divf in
set_option maxHeartbeats 1000000 in
/-- The third view is not written by the first combination. -/
theorem passDa2_view2 (V : Valuation τ sig (Elt Ideal)) :
    after (opsDa2 (F := Ideal)) V (Proc.devRef .tc main_v149) = V (Proc.devRef .tc main_v149) := by
  simp only [after_cons, after_nil]
  rfl

attribute [local irreducible] Host.reduceAdd Host.divf in
set_option maxHeartbeats 1000000 in
/-- The second combination: the rule applied to the first combination's result and the third view. -/
theorem readDb2 (V : Valuation τ sig (Elt Ideal)) :
    after (opsDb2 (F := Ideal)) V (Proc.devRef .tc main_v241)
      = Cert.RefStages.refDs (V (Proc.devRef .tc main_v195)) (V (Proc.devRef .tc main_v149)) := by
  simp only [after_cons, after_nil]
  rfl

/-- The whole sweep leaves the specification's fused evidences of (L, z, P) in its last buffer. -/
theorem readS2 (V : Valuation τ sig (Elt Ideal)) :
    after (opsS2 (F := Ideal)) V (Proc.devRef .tc main_v241)
      = Cert.DS.H (V (Proc.devRef .tc main_arg1)) (V (Proc.devRef .tc main_v135)) (V (Proc.devRef .tc main_v0)) :=
  have s : after (opsS2 (F := Ideal)) V
      = after (opsDb2 (F := Ideal)) (after (opsDa2 (F := Ideal)) (after (opsE2 (F := Ideal)) V)) :=
    (after_append' (opsE2 ++ opsDa2) opsDb2 V).trans
      (congrArg (after (opsDb2 (F := Ideal))) (after_append' opsE2 opsDa2 V))
  (congrFun s _).trans
    ((readDb2 (after (opsDa2 (F := Ideal)) (after (opsE2 (F := Ideal)) V))).trans
      ((congr
          (congrArg Cert.RefStages.refDs
            ((readDa2 (after (opsE2 (F := Ideal)) V)).trans
              (congr (congrArg Cert.RefStages.refDs (readE2_0 V)) (readE2_1 V))))
          ((passDa2_view2 (after (opsE2 (F := Ideal)) V)).trans (readE2_2 V))).trans
        (Cert.RefStages.refH_eq _ _ _)))

end Cert.ReferenceIdeal.Hand

end
-- ==== Proof.RefValue.lean ====
/-
  The reference program's result buffer after the run, as the shared function of the arguments.

  The fold of the whole line over the launch memory is the fold of its stretches in turn: the projection;
  the first sweep, whose last buffer holds the fused evidences of (L, z, P); the glue, giving z1; the second
  sweep, whose last buffer holds the fused evidences of (L, z1, P); the glue again and the stack.  Each step
  is one of the readings of a stretch, and the buffers a step needs are carried across the stretches that do
  not write them.  No operation writes an argument array.
-/
import proofs.«115280_j31628139168172_2_alg».proof.Proof.RefRun
import proofs.«115280_j31628139168172_2_alg».proof.Proof.RefRead
import proofs.«115280_j31628139168172_2_alg».proof.Proof.RefReadS
import proofs.«115280_j31628139168172_2_alg».proof.Proof.OutSpec

set_option maxRecDepth 16384

noncomputable section

namespace Cert.ReferenceIdeal.Hand

open Cert.ReferenceIdeal Cert.ReferenceIdeal.Gen Idealize.ShloMosaic Idealize.ShloMosaic.TcCoe Idealize.SL.Sem

/-- The whole line's fold is the six stretches' folds in turn. -/
theorem after_ops {F : FTy → Type} [FloatOps F] (V : Valuation τ sig (Elt F)) :
    StableHlo.after ops V
      = StableHlo.after opsO (StableHlo.after opsT2 (StableHlo.after opsS2 (StableHlo.after opsT1 (StableHlo.after opsS1 (StableHlo.after opsP V))))) := by
  rw [show (ops : List (HloOp τ sig (Elt F))) = opsP ++ opsS1 ++ opsT1 ++ opsS2 ++ opsT2 ++ opsO from rfl,
    after_append (opsP ++ opsS1 ++ opsT1 ++ opsS2 ++ opsT2) opsO, after_append (opsP ++ opsS1 ++ opsT1 ++ opsS2) opsT2,
    after_append (opsP ++ opsS1 ++ opsT1) opsS2, after_append (opsP ++ opsS1) opsT1, after_append opsP opsS1]

/-! ## The arguments end as launched -/

theorem ref_arg0 {F : FTy → Type} [FloatOps F] (m : (ℓ : Loc nD τ sig) → Buf (Elt F) ℓ) (c : Dev nD) :
    StableHlo.after ops (StableHlo.launchContents m c) (Proc.devRef .tc main_arg0) = m ((c : Thread nD τ).loc main_arg0) := by
  rw [after_ops, passO_main_arg0, passT2_main_arg0, passS2_main_arg0, passT1_main_arg0, passS1_main_arg0, passP_main_arg0]

theorem ref_arg1 {F : FTy → Type} [FloatOps F] (m : (ℓ : Loc nD τ sig) → Buf (Elt F) ℓ) (c : Dev nD) :
    StableHlo.after ops (StableHlo.launchContents m c) (Proc.devRef .tc main_arg1) = m ((c : Thread nD τ).loc main_arg1) := by
  rw [after_ops, passO_main_arg1, passT2_main_arg1, passS2_main_arg1, passT1_main_arg1, passS1_main_arg1, passP_main_arg1]

theorem ref_arg2 {F : FTy → Type} [FloatOps F] (m : (ℓ : Loc nD τ sig) → Buf (Elt F) ℓ) (c : Dev nD) :
    StableHlo.after ops (StableHlo.launchContents m c) (Proc.devRef .tc main_arg2) = m ((c : Thread nD τ).loc main_arg2) := by
  rw [after_ops, passO_main_arg2, passT2_main_arg2, passS2_main_arg2, passT1_main_arg2, passS1_main_arg2, passP_main_arg2]

theorem ref_arg3 {F : FTy → Type} [FloatOps F] (m : (ℓ : Loc nD τ sig) → Buf (Elt F) ℓ) (c : Dev nD) :
    StableHlo.after ops (StableHlo.launchContents m c) (Proc.devRef .tc main_arg3) = m ((c : Thread nD τ).loc main_arg3) := by
  rw [after_ops, passO_main_arg3, passT2_main_arg3, passS2_main_arg3, passT1_main_arg3, passS1_main_arg3, passP_main_arg3]

theorem ref_arg4 {F : FTy → Type} [FloatOps F] (m : (ℓ : Loc nD τ sig) → Buf (Elt F) ℓ) (c : Dev nD) :
    StableHlo.after ops (StableHlo.launchContents m c) (Proc.devRef .tc main_arg4) = m ((c : Thread nD τ).loc main_arg4) := by
  rw [after_ops, passO_main_arg4, passT2_main_arg4, passS2_main_arg4, passT1_main_arg4, passS1_main_arg4, passP_main_arg4]

theorem ref_arg5 {F : FTy → Type} [FloatOps F] (m : (ℓ : Loc nD τ sig) → Buf (Elt F) ℓ) (c : Dev nD) :
    StableHlo.after ops (StableHlo.launchContents m c) (Proc.devRef .tc main_arg5) = m ((c : Thread nD τ).loc main_arg5) := by
  rw [after_ops, passO_main_arg5, passT2_main_arg5, passS2_main_arg5, passT1_main_arg5, passS1_main_arg5, passP_main_arg5]

theorem ref_arg6 {F : FTy → Type} [FloatOps F] (m : (ℓ : Loc nD τ sig) → Buf (Elt F) ℓ) (c : Dev nD) :
    StableHlo.after ops (StableHlo.launchContents m c) (Proc.devRef .tc main_arg6) = m ((c : Thread nD τ).loc main_arg6) := by
  rw [after_ops, passO_main_arg6, passT2_main_arg6, passS2_main_arg6, passT1_main_arg6, passS1_main_arg6, passP_main_arg6]

/-! ## The result -/

variable (m : (ℓ : Loc nD τ sig) → Buf (Elt Ideal) ℓ)

/-- The result buffer after the whole line, from the launch memory: the two sweeps' thresholded arrays stacked. -/
theorem ref_value (c : Dev nD) :
    StableHlo.after ops (StableHlo.launchContents m c) (Proc.devRef .tc main_v273)
      = Cert.Out.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [after_ops]
  -- after the projection: it is formed, the arguments are as launched
  have e1P : (StableHlo.after opsP (StableHlo.launchContents m c)) (Proc.devRef .tc main_v0) = (Cert.Tail.proj (m ((c : Thread nD τ).loc main_arg0)) (m ((c : Thread nD τ).loc main_arg3))) := readP (StableHlo.launchContents m c)
  have e1a1 : (StableHlo.after opsP (StableHlo.launchContents m c)) (Proc.devRef .tc main_arg1) = (m ((c : Thread nD τ).loc main_arg1)) := passP_main_arg1 (StableHlo.launchContents m c)
  have e1a2 : (StableHlo.after opsP (StableHlo.launchContents m c)) (Proc.devRef .tc main_arg2) = (m ((c : Thread nD τ).loc main_arg2)) := passP_main_arg2 (StableHlo.launchContents m c)
  have e1a4 : (StableHlo.after opsP (StableHlo.launchContents m c)) (Proc.devRef .tc main_arg4) = (m ((c : Thread nD τ).loc main_arg4)) := passP_main_arg4 (StableHlo.launchContents m c)
  have e1a5 : (StableHlo.after opsP (StableHlo.launchContents m c)) (Proc.devRef .tc main_arg5) = (m ((c : Thread nD τ).loc main_arg5)) := passP_main_arg5 (StableHlo.launchContents m c)
  have e1a6 : (StableHlo.after opsP (StableHlo.launchContents m c)) (Proc.devRef .tc main_arg6) = (m ((c : Thread nD τ).loc main_arg6)) := passP_main_arg6 (StableHlo.launchContents m c)
  -- after the first sweep: its last buffer holds the fused evidences; what the later stretches need is kept
  have e2h : (StableHlo.after opsS1 (StableHlo.after opsP (StableHlo.launchContents m c))) (Proc.devRef .tc main_v106) = (Cert.DS.H (m ((c : Thread nD τ).loc main_arg1)) (m ((c : Thread nD τ).loc main_arg2)) (Cert.Tail.proj (m ((c : Thread nD τ).loc main_arg0)) (m ((c : Thread nD τ).loc main_arg3)))) :=
    (readS1 (StableHlo.after opsP (StableHlo.launchContents m c))).trans (congr (congr (congrArg Cert.DS.H e1a1) e1a2) e1P)
  have e2a1 : (StableHlo.after opsS1 (StableHlo.after opsP (StableHlo.launchContents m c))) (Proc.devRef .tc main_arg1) = (m ((c : Thread nD τ).loc main_arg1)) := (passS1_main_arg1 (StableHlo.after opsP (StableHlo.launchContents m c))).trans e1a1
  have e2P : (StableHlo.after opsS1 (StableHlo.after opsP (StableHlo.launchContents m c))) (Proc.devRef .tc main_v0) = (Cert.Tail.proj (m ((c : Thread nD τ).loc main_arg0)) (m ((c : Thread nD τ).loc main_arg3))) := (passS1_main_v0 (StableHlo.after opsP (StableHlo.launchContents m c))).trans e1P
  have e2a4 : (StableHlo.after opsS1 (StableHlo.after opsP (StableHlo.launchContents m c))) (Proc.devRef .tc main_arg4) = (m ((c : Thread nD τ).loc main_arg4)) := (passS1_main_arg4 (StableHlo.after opsP (StableHlo.launchContents m c))).trans e1a4
  have e2a5 : (StableHlo.after opsS1 (StableHlo.after opsP (StableHlo.launchContents m c))) (Proc.devRef .tc main_arg5) = (m ((c : Thread nD τ).loc main_arg5)) := (passS1_main_arg5 (StableHlo.after opsP (StableHlo.launchContents m c))).trans e1a5
  have e2a6 : (StableHlo.after opsS1 (StableHlo.after opsP (StableHlo.launchContents m c))) (Proc.devRef .tc main_arg6) = (m ((c : Thread nD τ).loc main_arg6)) := (passS1_main_arg6 (StableHlo.after opsP (StableHlo.launchContents m c))).trans e1a6
  -- after the first tail: the glue of the fused evidences
  have e3z : (StableHlo.after opsT1 (StableHlo.after opsS1 (StableHlo.after opsP (StableHlo.launchContents m c)))) (Proc.devRef .tc main_v135) = (Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
    (readT1 (StableHlo.after opsS1 (StableHlo.after opsP (StableHlo.launchContents m c)))).trans (congr (congr (congr (congrArg Cert.Tail.tail e2h) e2a4) e2a5) e2a6)
  have e3a1 : (StableHlo.after opsT1 (StableHlo.after opsS1 (StableHlo.after opsP (StableHlo.launchContents m c)))) (Proc.devRef .tc main_arg1) = (m ((c : Thread nD τ).loc main_arg1)) := (passT1_main_arg1 (StableHlo.after opsS1 (StableHlo.after opsP (StableHlo.launchContents m c)))).trans e2a1
  have e3P : (StableHlo.after opsT1 (StableHlo.after opsS1 (StableHlo.after opsP (StableHlo.launchContents m c)))) (Proc.devRef .tc main_v0) = (Cert.Tail.proj (m ((c : Thread nD τ).loc main_arg0)) (m ((c : Thread nD τ).loc main_arg3))) := (passT1_main_v0 (StableHlo.after opsS1 (StableHlo.after opsP (StableHlo.launchContents m c)))).trans e2P
  have e3a4 : (StableHlo.after opsT1 (StableHlo.after opsS1 (StableHlo.after opsP (StableHlo.launchContents m c)))) (Proc.devRef .tc main_arg4) = (m ((c : Thread nD τ).loc main_arg4)) := (passT1_main_arg4 (StableHlo.after opsS1 (StableHlo.after opsP (StableHlo.launchContents m c)))).trans e2a4
  have e3a5 : (StableHlo.after opsT1 (StableHlo.after opsS1 (StableHlo.after opsP (StableHlo.launchContents m c)))) (Proc.devRef .tc main_arg5) = (m ((c : Thread nD τ).loc main_arg5)) := (passT1_main_arg5 (StableHlo.after opsS1 (StableHlo.after opsP (StableHlo.launchContents m c)))).trans e2a5
  have e3a6 : (StableHlo.after opsT1 (StableHlo.after opsS1 (StableHlo.after opsP (StableHlo.launchContents m c)))) (Proc.devRef .tc main_arg6) = (m ((c : Thread nD τ).loc main_arg6)) := (passT1_main_arg6 (StableHlo.after opsS1 (StableHlo.after opsP (StableHlo.launchContents m c)))).trans e2a6
  -- after the second sweep
  have e4h : (StableHlo.after opsS2 (StableHlo.after opsT1 (StableHlo.after opsS1 (StableHlo.after opsP (StableHlo.launchContents m c))))) (Proc.devRef .tc main_v241) = (Cert.DS.H (m ((c : Thread nD τ).loc main_arg1)) (Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Tail.proj (m ((c : Thread nD τ).loc main_arg0)) (m ((c : Thread nD τ).loc main_arg3)))) :=
    (readS2 (StableHlo.after opsT1 (StableHlo.after opsS1 (StableHlo.after opsP (StableHlo.launchContents m c))))).trans (congr (congr (congrArg Cert.DS.H e3a1) e3z) e3P)
  have e4z : (StableHlo.after opsS2 (StableHlo.after opsT1 (StableHlo.after opsS1 (StableHlo.after opsP (StableHlo.launchContents m c))))) (Proc.devRef .tc main_v135) = (Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (passS2_main_v135 (StableHlo.after opsT1 (StableHlo.after opsS1 (StableHlo.after opsP (StableHlo.launchContents m c))))).trans e3z
  have e4a4 : (StableHlo.after opsS2 (StableHlo.after opsT1 (StableHlo.after opsS1 (StableHlo.after opsP (StableHlo.launchContents m c))))) (Proc.devRef .tc main_arg4) = (m ((c : Thread nD τ).loc main_arg4)) := (passS2_main_arg4 (StableHlo.after opsT1 (StableHlo.after opsS1 (StableHlo.after opsP (StableHlo.launchContents m c))))).trans e3a4
  have e4a5 : (StableHlo.after opsS2 (StableHlo.after opsT1 (StableHlo.after opsS1 (StableHlo.after opsP (StableHlo.launchContents m c))))) (Proc.devRef .tc main_arg5) = (m ((c : Thread nD τ).loc main_arg5)) := (passS2_main_arg5 (StableHlo.after opsT1 (StableHlo.after opsS1 (StableHlo.after opsP (StableHlo.launchContents m c))))).trans e3a5
  have e4a6 : (StableHlo.after opsS2 (StableHlo.after opsT1 (StableHlo.after opsS1 (StableHlo.after opsP (StableHlo.launchContents m c))))) (Proc.devRef .tc main_arg6) = (m ((c : Thread nD τ).loc main_arg6)) := (passS2_main_arg6 (StableHlo.after opsT1 (StableHlo.after opsS1 (StableHlo.after opsP (StableHlo.launchContents m c))))).trans e3a6
  -- after the second tail
  have e5t : (StableHlo.after opsT2 (StableHlo.after opsS2 (StableHlo.after opsT1 (StableHlo.after opsS1 (StableHlo.after opsP (StableHlo.launchContents m c)))))) (Proc.devRef .tc main_v270) = Cert.Tail.tail (Cert.DS.H (m ((c : Thread nD τ).loc main_arg1)) (Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Tail.proj (m ((c : Thread nD τ).loc main_arg0)) (m ((c : Thread nD τ).loc main_arg3)))) (m ((c : Thread nD τ).loc main_arg4)) (m ((c : Thread nD τ).loc main_arg5)) (m ((c : Thread nD τ).loc main_arg6)) :=
    (readT2 (StableHlo.after opsS2 (StableHlo.after opsT1 (StableHlo.after opsS1 (StableHlo.after opsP (StableHlo.launchContents m c)))))).trans (congr (congr (congr (congrArg Cert.Tail.tail e4h) e4a4) e4a5) e4a6)
  have e5z : (StableHlo.after opsT2 (StableHlo.after opsS2 (StableHlo.after opsT1 (StableHlo.after opsS1 (StableHlo.after opsP (StableHlo.launchContents m c)))))) (Proc.devRef .tc main_v135) = (Cert.Out.z1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (passT2_main_v135 (StableHlo.after opsS2 (StableHlo.after opsT1 (StableHlo.after opsS1 (StableHlo.after opsP (StableHlo.launchContents m c)))))).trans e4z
  -- the stack
  exact (readO (StableHlo.after opsT2 (StableHlo.after opsS2 (StableHlo.after opsT1 (StableHlo.after opsS1 (StableHlo.after opsP (StableHlo.launchContents m c))))))).trans (congr (congrArg Cert.Tail.stack e5z) e5t)

/-- Every weakly fair execution of @main terminates without a fault; the result buffer then holds the shared
    function of the launch memory's argument arrays, and the seven argument arrays are as launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v273) = Cert.Out.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c main_v273).trans (ref_value m c),
      (h c main_arg0).trans (ref_arg0 m c),
      (h c main_arg1).trans (ref_arg1 m c),
      (h c main_arg2).trans (ref_arg2 m c),
      (h c main_arg3).trans (ref_arg3 m c),
      (h c main_arg4).trans (ref_arg4 m c),
      (h c main_arg5).trans (ref_arg5 m c),
      (h c main_arg6).trans (ref_arg6 m c)⟩) (run m ρ)

end Cert.ReferenceIdeal.Hand

end
-- ==== Proof.lean ====
/-
  The two programs compute the same function of the seven argument arrays.

  Both form P, the per-view projection of the features, and then sweep twice.  One sweep takes the current
  estimate z to the fused evidences h of (L, z, P) — row r of h is Dempster's combination of the three views'
  evidences softplus (z(r,·) - sum_m L(v,r,m) z(m,·) + P(v,r,·)) + 1 — and passes h through the shared glue
  (column normalisation and the selu soft threshold) to the next estimate.  The result stacks the two estimates.

  The kernel program computes h in a region of 48 grid points, point t forming rows 128 t .. 128 t + 127 with
  three matrix products against the whole of z; the reference computes it by whole-array operations.  Both are
  the same sums and the same exact operations on the extended reals, entry by entry, so no finiteness of the
  inputs is used.  The glue is the same operation sequence in both programs and is carried as one function.

  The three frames are the programs' runs with the result dropped; nothing was rewritten by the ideal pass.
-/
import proofs.«115280_j31628139168172_2_alg».proof.Defs
import proofs.«115280_j31628139168172_2_alg».proof.Proof.Gen.Kernel
import proofs.«115280_j31628139168172_2_alg».proof.Proof.Gen.Kernel.Skeleton
import proofs.«115280_j31628139168172_2_alg».proof.Proof.Gen.Kernel.Launch
import proofs.«115280_j31628139168172_2_alg».proof.Proof.Gen.Kernel.Points
import proofs.«115280_j31628139168172_2_alg».proof.Proof.Gen.Kernel.Frame
import proofs.«115280_j31628139168172_2_alg».proof.Proof.Gen.KernelIdeal
import proofs.«115280_j31628139168172_2_alg».proof.Proof.Gen.KernelIdeal.Skeleton
import proofs.«115280_j31628139168172_2_alg».proof.Proof.Gen.KernelIdeal.Launch
import proofs.«115280_j31628139168172_2_alg».proof.Proof.Gen.KernelIdeal.Points
import proofs.«115280_j31628139168172_2_alg».proof.Proof.Gen.KernelIdeal.Frame
import proofs.«115280_j31628139168172_2_alg».proof.Proof.Gen.ReferenceIdeal
import proofs.«115280_j31628139168172_2_alg».proof.Proof.Gen.Pre_finite_inputs
import Idealize.ShloMosaic.Adequacy
import Idealize.ShloMosaic.Init
import proofs.«115280_j31628139168172_2_alg».proof.Proof.KRun
import proofs.«115280_j31628139168172_2_alg».proof.Proof.KValue
import proofs.«115280_j31628139168172_2_alg».proof.Proof.KRegion0
import proofs.«115280_j31628139168172_2_alg».proof.Proof.KRegion1
import proofs.«115280_j31628139168172_2_alg».proof.Proof.RefValue

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run (Cert.ReferenceIdeal.defs (F := Ideal)) _ _).mono (fun _ h c => (h c).2) (Cert.ReferenceIdeal.Hand.run_value m ρ),
    trivial,
    fun m ρ m' ρ' _ hagree =>
      ⟨fun c => Cert.Out.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
       (θ_run (Cert.KernelIdeal.defs (F := Ideal)) _ _).mono
         (fun _ h c => ⟨(h c).1.trans (Cert.KernelIdeal.Hand.kernel_value_of m ρ Cert.KernelIdeal.Hand0.region0_value Cert.KernelIdeal.Hand1.region1_value c), (h c).2⟩)
         (Cert.KernelIdeal.Hand.run (F := Ideal) m ρ),
       (θ_run (Cert.ReferenceIdeal.defs (F := Ideal)) _ _).mono
         (fun _ h c => ⟨(h c).1.trans (by
            rw [(hagree c).1, (hagree c).2.1, (hagree c).2.2.1, (hagree c).2.2.2.1, (hagree c).2.2.2.2.1,
              (hagree c).2.2.2.2.2.1, (hagree c).2.2.2.2.2.2]), (h c).2⟩)
         (Cert.ReferenceIdeal.Hand.run_value m' ρ')⟩⟩

end Cert.Proof

end
